-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256x40 .f32) (main_arg11 : FVec F S40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x40 .f32) (main_arg11 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x320000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S1x256 : Shape := ⟨2, ![1, 256]⟩
abbrev S1x40 : Shape := ⟨2, ![1, 40]⟩
abbrev S370000x128 : Shape := ⟨2, ![370000, 128]⟩
abbrev S50000x256 : Shape := ⟨2, ![50000, 256]⟩
abbrev S2000x128 : Shape := ⟨2, ![2000, 128]⟩
abbrev S2000x256 : Shape := ⟨2, ![2000, 256]⟩
abbrev S370000x256 : Shape := ⟨2, ![370000, 256]⟩
abbrev S50000x40 : Shape := ⟨2, ![50000, 40]⟩
abbrev S2000x40 : Shape := ⟨2, ![2000, 40]⟩
abbrev S370000x40 : Shape := ⟨2, ![370000, 40]⟩
abbrev S2000 : Shape := ⟨1, ![2000]⟩
abbrev S2000x1 : Shape := ⟨2, ![2000, 1]⟩

abbrev nBuf : Space → Nat
  | .hbm => 141
  | .vmem => 40
  | .smem => 0
  | _ => 0

abbrev hbmTy0_0 (i : Nat) : BufTy := match i % 128 with
  | 0 => ⟨S50000x128, .f32⟩
  | 1 => ⟨S2x320000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x40, .f32⟩
  | 11 => ⟨S40, .f32⟩
  | 12 => ⟨S50000, .i32⟩
  | 13 => ⟨S1x320000, .i32⟩
  | 14 => ⟨S320000, .i32⟩
  | 15 => ⟨S370000, .i32⟩
  | 16 => ⟨S1x320000, .i32⟩
  | 17 => ⟨S320000, .i32⟩
  | 18 => ⟨S370000, .i32⟩
  | 19 => ⟨S_, .f32⟩
  | 20 => ⟨S370000, .f32⟩
  | 21 => ⟨S_, .f32⟩
  | 22 => ⟨S50000, .f32⟩
  | 23 => ⟨S370000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S370000, .i32⟩
  | 35 => ⟨S370000, .i1⟩
  | 36 => ⟨S_, .i32⟩
  | 37 => ⟨S370000, .i32⟩
  | 38 => ⟨S370000, .i32⟩
  | 39 => ⟨S370000, .i32⟩
  | 40 => ⟨S370000x1, .i32⟩
  | 41 => ⟨S370000, .f32⟩
  | 42 => ⟨S_, .i32⟩
  | 43 => ⟨S370000, .i32⟩
  | 44 => ⟨S370000, .i1⟩
  | 45 => ⟨S_, .i32⟩
  | 46 => ⟨S370000, .i32⟩
  | 47 => ⟨S370000, .i32⟩
  | 48 => ⟨S370000, .i32⟩
  | 49 => ⟨S370000x1, .i32⟩
  | 50 => ⟨S370000, .f32⟩
  | 51 => ⟨S370000, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S1x40, .f32⟩
  | 59 => ⟨S50000x128, .bf16⟩
  | 60 => ⟨S370000x1, .f32⟩
  | 61 => ⟨S_, .i32⟩
  | 62 => ⟨S370000, .i32⟩
  | 63 => ⟨S370000, .i1⟩
  | 64 => ⟨S_, .i32⟩
  | 65 => ⟨S370000, .i32⟩
  | 66 => ⟨S370000, .i32⟩
  | 67 => ⟨S370000, .i32⟩
  | 68 => ⟨S370000x1, .i32⟩
  | 69 => ⟨S370000x128, .bf16⟩
  | 70 => ⟨S370000x128, .f32⟩
  | 71 => ⟨S370000x128, .f32⟩
  | 72 => ⟨S370000x128, .f32⟩
  | 73 => ⟨S_, .f32⟩
  | 74 => ⟨S50000x128, .f32⟩
  | 75 => ⟨S370000x1, .i32⟩
  | 76 => ⟨S50000x128, .f32⟩
  | 77 => ⟨S50000x256, .f32⟩
  | 78 => ⟨S1x256, .f32⟩
  | 79 => ⟨S1x256, .f32⟩
  | 80 => ⟨S_, .f32⟩
  | 81 => ⟨S1x256, .f32⟩
  | 82 => ⟨S1x256, .f32⟩
  | 83 => ⟨S_, .f32⟩
  | 84 => ⟨S1x256, .f32⟩
  | 85 => ⟨S1x256, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S50000x256, .bf16⟩
  | 92 => ⟨S370000x1, .f32⟩
  | 93 => ⟨S_, .i32⟩
  | 94 => ⟨S370000, .i32⟩
  | 95 => ⟨S370000, .i1⟩
  | 96 => ⟨S_, .i32⟩
  | 97 => ⟨S370000, .i32⟩
  | 98 => ⟨S370000, .i32⟩
  | 99 => ⟨S370000, .i32⟩
  | 100 => ⟨S370000x1, .i32⟩
  | 101 => ⟨S370000x256, .bf16⟩
  | 102 => ⟨S370000x256, .f32⟩
  | 103 => ⟨S370000x256, .f32⟩
  | 104 => ⟨S370000x256, .f32⟩
  | 105 => ⟨S_, .f32⟩
  | 106 => ⟨S50000x256, .f32⟩
  | 107 => ⟨S370000x1, .i32⟩
  | 108 => ⟨S50000x256, .f32⟩
  | 109 => ⟨S1x256, .f32⟩
  | 110 => ⟨S1x256, .f32⟩
  | 111 => ⟨S_, .f32⟩
  | 112 => ⟨S1x256, .f32⟩
  | 113 => ⟨S1x256, .f32⟩
  | 114 => ⟨S_, .f32⟩
  | 115 => ⟨S1x256, .f32⟩
  | 116 => ⟨S1x256, .f32⟩
  | 117 => ⟨S1x256, .f32⟩
  | 118 => ⟨S1x256, .f32⟩
  | 119 => ⟨S_, .f32⟩
  | 120 => ⟨S1x256, .f32⟩
  | 121 => ⟨S1x256, .f32⟩
  | 122 => ⟨S50000x40, .bf16⟩
  | 123 => ⟨S370000x1, .f32⟩
  | 124 => ⟨S_, .i32⟩
  | 125 => ⟨S370000, .i32⟩
  | 126 => ⟨S370000, .i1⟩
  | 127 => ⟨S_, .i32⟩
  | _ => ⟨S50000x128, .f32⟩

abbrev hbmTy0_1 (i : Nat) : BufTy := match i % 128 with
  | 0 => ⟨S370000, .i32⟩
  | 1 => ⟨S370000, .i32⟩
  | 2 => ⟨S370000, .i32⟩
  | 3 => ⟨S370000x1, .i32⟩
  | 4 => ⟨S370000x40, .bf16⟩
  | 5 => ⟨S370000x40, .f32⟩
  | 6 => ⟨S370000x40, .f32⟩
  | 7 => ⟨S370000x40, .f32⟩
  | 8 => ⟨S_, .f32⟩
  | 9 => ⟨S50000x40, .f32⟩
  | 10 => ⟨S370000x1, .i32⟩
  | 11 => ⟨S50000x40, .f32⟩
  | 12 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .f32⟩
  | .local _ .vmem, ⟨21, _⟩ => ⟨S2000x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x40, .f32⟩
  | .local _ .vmem, ⟨33, _⟩ => ⟨S2000x40, .bf16⟩
  | .local _ .vmem, ⟨34, _⟩ => ⟨S2000x40, .bf16⟩
  | .local _ .vmem, ⟨35, _⟩ => ⟨S2000x40, .f32⟩
  | .local _ .vmem, ⟨36, _⟩ => ⟨S2000x40, .f32⟩
  | .local _ .vmem, ⟨37, _⟩ => ⟨S1x40, .f32⟩
  | .local _ .vmem, ⟨38, _⟩ => ⟨S2000x40, .f32⟩
  | .local _ .vmem, ⟨39, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_cst_9 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg7_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem7_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x40 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x40 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  shapeCasts_S256_S1x256 : S256.ShapeCasts S1x256
  shapeCasts_S40_S1x40 : S40.ShapeCasts S1x40
  bitsLt_bf16_f32 : FTy.bits .bf16 < FTy.bits .f32
  bcast_S370000x1_S370000x128_0_1 : S370000x1.BroadcastsInDim S370000x128 (![0, 1] : Fin 2 → Fin S370000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  packedbf16_S2000x256_S2000x256_0_0 : (Rect.unit (s := S2000x256) ![0, 0] S2000x256.size inb_S2000x256_S2000x256_0_0).PackedRows (EltTy.packing .bf16)
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  bcast_S370000x1_S370000x40_0_1 : S370000x1.BroadcastsInDim S370000x40 (![0, 1] : Fin 2 → Fin S370000x40.rank)
  bcast_S_S50000x40 : S_.BroadcastsInDim S50000x40 (![] : Fin 0 → Fin S50000x40.rank)
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S2000x256_S256x40_S2000x40_1_0_0_1_n_n_wf : DotDims.WF S2000x256 S256x40 S2000x40 [1] [0] [0] [1] [] []
  gather_S50000x40_S370000x1_S370000x40_1_0_n_n_0_1_140_wf : GatherDims.WF S50000x40 S370000x1 S370000x40 [1] [0] [] [0] [] 1 ![1, 40]
  scatter_S50000x40_S370000x1_S370000x40_1_0_0_1_wf : ScatterDims.WF S50000x40 S370000x1 S370000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .bf16 = 32 ∨ (Rect.block (s := S50000x256) S2000x256.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x40.size a ≤ S256x40.size a
  hwx4_6 : ∀ i : grid4.Coords, EltTy.bits .f32 = 32 ∨ (Rect.block (s := S256x40) S256x40.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x40.size a ≤ S50000x40.size a
  hwx4_7 : ∀ i : grid4.Coords, EltTy.bits .bf16 = 32 ∨ (Rect.block (s := S50000x40) S2000x40.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S50000x40.size a
  hwx5_0 : ∀ i : grid5.Coords, EltTy.bits .f32 = 32 ∨ (Rect.block (s := S50000x40) S2000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S50000x40.size a
  hwx5_2 : ∀ i : grid5.Coords, EltTy.bits .f32 = 32 ∨ (Rect.block (s := S50000x40) S2000x40.size (cc5_transform_2 i) (hinb5_2 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S370000x1_S370000x40_1_0_n_n_0_1_140 : GatherDims S50000x40 S370000x1 S370000x40 where
  offsetDims := [1]
  collapsedSliceDims := [0]
  operandBatchingDims := []
  startIndicesBatchingDims := []
  startIndexMap := [0]
  indexVectorDim := 1
  sliceSizes := ![1, 40]
  wf := gather_S50000x40_S370000x1_S370000x40_1_0_n_n_0_1_140_wf
def scatter_S50000x40_S370000x1_S370000x40_1_0_0_1 : ScatterDims S50000x40 S370000x1 S370000x40 where
  updateWindowDims := [1]
  insertedWindowDims := [0]
  scatterDimsToOperandDims := [0]
  indexVectorDim := 1
  wf := scatter_S50000x40_S370000x1_S370000x40_1_0_0_1_wf

abbrev win0_0 : Pipeline.Window sig grid0 :=
  Pipeline.Window.ofSpec (Memref.whole main_v51) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_0) S1x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53_1) S1x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v76) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77_0) S1x256.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77_1) S1x256.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S256x40.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86) S2000x40.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v100) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S50000x256 : Shape := ⟨2, ![50000, 256]⟩
abbrev S370000x256 : Shape := ⟨2, ![370000, 256]⟩
abbrev S1x256 : Shape := ⟨2, ![1, 256]⟩
abbrev S50000x40 : Shape := ⟨2, ![50000, 40]⟩
abbrev S370000x40 : Shape := ⟨2, ![370000, 40]⟩
abbrev S1x40 : Shape := ⟨2, ![1, 40]⟩
abbrev S50000x1 : Shape := ⟨2, ![50000, 1]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x320000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x40, .f32⟩
  | 11 => ⟨S40, .f32⟩
  | 12 => ⟨S50000, .i32⟩
  | 13 => ⟨S1x320000, .i32⟩
  | 14 => ⟨S320000, .i32⟩
  | 15 => ⟨S370000, .i32⟩
  | 16 => ⟨S1x320000, .i32⟩
  | 17 => ⟨S320000, .i32⟩
  | 18 => ⟨S370000, .i32⟩
  | 19 => ⟨S_, .f32⟩
  | 20 => ⟨S370000, .f32⟩
  | 21 => ⟨S_, .f32⟩
  | 22 => ⟨S50000, .f32⟩
  | 23 => ⟨S370000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S370000, .i32⟩
  | 35 => ⟨S370000, .i1⟩
  | 36 => ⟨S_, .i32⟩
  | 37 => ⟨S370000, .i32⟩
  | 38 => ⟨S370000, .i32⟩
  | 39 => ⟨S370000, .i32⟩
  | 40 => ⟨S370000x1, .i32⟩
  | 41 => ⟨S370000, .f32⟩
  | 42 => ⟨S_, .i32⟩
  | 43 => ⟨S370000, .i32⟩
  | 44 => ⟨S370000, .i1⟩
  | 45 => ⟨S_, .i32⟩
  | 46 => ⟨S370000, .i32⟩
  | 47 => ⟨S370000, .i32⟩
  | 48 => ⟨S370000, .i32⟩
  | 49 => ⟨S370000x1, .i32⟩
  | 50 => ⟨S370000, .f32⟩
  | 51 => ⟨S370000, .f32⟩
  | 52 => ⟨S50000x256, .f32⟩
  | 53 => ⟨S370000x1, .f32⟩
  | 54 => ⟨S_, .i32⟩
  | 55 => ⟨S370000, .i32⟩
  | 56 => ⟨S370000, .i1⟩
  | 57 => ⟨S_, .i32⟩
  | 58 => ⟨S370000, .i32⟩
  | 59 => ⟨S370000, .i32⟩
  | 60 => ⟨S370000, .i32⟩
  | 61 => ⟨S370000x1, .i32⟩
  | 62 => ⟨S370000x256, .f32⟩
  | 63 => ⟨S370000x256, .f32⟩
  | 64 => ⟨S370000x256, .f32⟩
  | 65 => ⟨S_, .f32⟩
  | 66 => ⟨S50000x256, .f32⟩
  | 67 => ⟨S370000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S256, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S370000x1, .f32⟩
  | 107 => ⟨S_, .i32⟩
  | 108 => ⟨S370000, .i32⟩
  | 109 => ⟨S370000, .i1⟩
  | 110 => ⟨S_, .i32⟩
  | 111 => ⟨S370000, .i32⟩
  | 112 => ⟨S370000, .i32⟩
  | 113 => ⟨S370000, .i32⟩
  | 114 => ⟨S370000x1, .i32⟩
  | 115 => ⟨S370000x256, .f32⟩
  | 116 => ⟨S370000x256, .f32⟩
  | 117 => ⟨S370000x256, .f32⟩
  | 118 => ⟨S_, .f32⟩
  | 119 => ⟨S50000x256, .f32⟩
  | 120 => ⟨S370000x1, .i32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S256, .f32⟩
  | 127 => ⟨S_, .f32⟩
  | _ => ⟨S50000x128, .f32⟩

abbrev hbmTy0_1 (i : Nat) : BufTy := match i % 128 with
  | 0 => ⟨S256, .f32⟩
  | 1 => ⟨S256, .f32⟩
  | 2 => ⟨S1x256, .f32⟩
  | 3 => ⟨S50000x256, .f32⟩
  | 4 => ⟨S50000x256, .f32⟩
  | 5 => ⟨S50000x256, .f32⟩
  | 6 => ⟨S_, .f32⟩
  | 7 => ⟨S256, .f32⟩
  | 8 => ⟨S_, .f32⟩
  | 9 => ⟨S256, .f32⟩
  | 10 => ⟨S256, .f32⟩
  | 11 => ⟨S1x256, .f32⟩
  | 12 => ⟨S50000x256, .f32⟩
  | 13 => ⟨S50000x256, .f32⟩
  | 14 => ⟨S_, .f32⟩
  | 15 => ⟨S256, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x40, .f32⟩
  | 31 => ⟨S370000x1, .f32⟩
  | 32 => ⟨S_, .i32⟩
  | 33 => ⟨S370000, .i32⟩
  | 34 => ⟨S370000, .i1⟩
  | 35 => ⟨S_, .i32⟩
  | 36 => ⟨S370000, .i32⟩
  | 37 => ⟨S370000, .i32⟩
  | 38 => ⟨S370000, .i32⟩
  | 39 => ⟨S370000x1, .i32⟩
  | 40 => ⟨S370000x40, .f32⟩
  | 41 => ⟨S370000x40, .f32⟩
  | 42 => ⟨S370000x40, .f32⟩
  | 43 => ⟨S_, .f32⟩
  | 44 => ⟨S50000x40, .f32⟩
  | 45 => ⟨S370000x1, .i32⟩
  | 46 => ⟨S50000x40, .f32⟩
  | 47 => ⟨S1x40, .f32⟩
  | 48 => ⟨S50000x40, .f32⟩
  | 49 => ⟨S50000x40, .f32⟩
  | 50 => ⟨S_, .f32⟩
  | 51 => ⟨S50000, .f32⟩
  | 52 => ⟨S_, .f32⟩
  | 53 => ⟨S50000, .f32⟩
  | 54 => ⟨S50000, .f32⟩
  | 55 => ⟨S50000x1, .f32⟩
  | 56 => ⟨S50000x40, .f32⟩
  | 57 => ⟨S50000x40, .f32⟩
  | 58 => ⟨S50000x40, .f32⟩
  | 59 => ⟨S_, .f32⟩
  | 60 => ⟨S50000, .f32⟩
  | 61 => ⟨S50000x1, .f32⟩
  | 62 => ⟨S50000x1, .f32⟩
  | 63 => ⟨S50000x40, .f32⟩
  | 64 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_cst : Ref sig .tc := ⟨.hbm, 102, rfl⟩
abbrev main_call1_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_c_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_19 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_21 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call2_cst : Ref sig .tc := ⟨.hbm, 155, rfl⟩
abbrev main_call2_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_22 : Ref sig .tc := ⟨.hbm, 160, rfl⟩
abbrev main_v118 : Ref sig .tc := ⟨.hbm, 161, rfl⟩
abbrev main_v119 : Ref sig .tc := ⟨.hbm, 162, rfl⟩
abbrev main_c_23 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_call3_cst : Ref sig .tc := ⟨.hbm, 178, rfl⟩
abbrev main_call3_v0 : Ref sig .tc := ⟨.hbm, 179, rfl⟩
abbrev main_call3_cst_0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_v6 : Ref sig .tc := ⟨.hbm, 186, rfl⟩
abbrev main_call3_cst_1 : Ref sig .tc := ⟨.hbm, 187, rfl⟩
abbrev main_call3_v7 : Ref sig .tc := ⟨.hbm, 188, rfl⟩
abbrev main_call3_v8 : Ref sig .tc := ⟨.hbm, 189, rfl⟩
abbrev main_call3_v9 : Ref sig .tc := ⟨.hbm, 190, rfl⟩
abbrev main_call3_v10 : Ref sig .tc := ⟨.hbm, 191, rfl⟩
abbrev main_v133 : Ref sig .tc := ⟨.hbm, 192, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S370000x1_S370000x40_0_1 : S370000x1.BroadcastsInDim S370000x40 (![0, 1] : Fin 2 → Fin S370000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S50000x128_S128x256_S50000x256_1_0_0_1_n_n_wf : DotDims.WF S50000x128 S128x256 S50000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []
  gather_S50000x40_S370000x1_S370000x40_1_0_n_n_0_1_140_wf : GatherDims.WF S50000x40 S370000x1 S370000x40 [1] [0] [] [0] [] 1 ![1, 40]
  scatter_S50000x40_S370000x1_S370000x40_1_0_0_1_wf : ScatterDims.WF S50000x40 S370000x1 S370000x40 [1] [0] [0] 1

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S370000x1_S370000x40_1_0_n_n_0_1_140 : GatherDims S50000x40 S370000x1 S370000x40 where
  offsetDims := [1]
  collapsedSliceDims := [0]
  operandBatchingDims := []
  startIndicesBatchingDims := []
  startIndexMap := [0]
  indexVectorDim := 1
  sliceSizes := ![1, 40]
  wf := gather_S50000x40_S370000x1_S370000x40_1_0_n_n_0_1_140_wf
def scatter_S50000x40_S370000x1_S370000x40_1_0_0_1 : ScatterDims S50000x40 S370000x1 S370000x40 where
  updateWindowDims := [1]
  insertedWindowDims := [0]
  scatterDimsToOperandDims := [0]
  indexVectorDim := 1
  wf := scatter_S50000x40_S370000x1_S370000x40_1_0_0_1_wf

class Facts : Prop extends Facts₀ where

variable [Facts]
-- ==== Proof.KernelRun.lean ====
/-
  The idealized kernel's run with its result named.

  The program is thirteen segments — seven stretches of host operations and six kernel launches. Every weakly fair
  execution runs them in order and ends in a thread state that holds every unscoped buffer at the last boundary's
  contents: the fold `W13` of the segments over the launch memory (a stretch of host operations applies them; a launch
  leaves its input arrays as it found them and each output array at what its write-backs leave). Read at the result
  buffer and at the twelve arguments: the result array ends at `W13`'s value there, and the arguments end as launched,
  since no segment writes an argument.
-/
import proofs.«127233_j26182120636977_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and every argument array as launched. -/
theorem run_out : θ_run defs (onTc (τ := τ) (main (F := F))) ⟨m, fun _ => 0, ρ⟩ (fun r => ∀ c : Dev nD,
      r.2.mem ((c.tc : Thread nD τ).loc main_v101) = W13 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v101 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Out

end
-- ==== Proof.KerHost.lean ====
/-
  What the stretches of host operations between the launches leave in the buffers the later segments read.

  The program runs seven stretches of host operations: three before the first launch and one before each of the
  second, third, fifth and sixth. For an ARBITRARY valuation W of the buffers, each lemma here says what one buffer
  holds after a stretch, as the stretch's operations applied to what W held at the buffers the stretch reads
  (val_…), or that a buffer the stretch does not write holds what it held (keep_…).

  Before the first launch: the source and target words of the 370000 edges (the two rows of the edge table, each
  followed by one self-loop per node), the weight of every edge (the product of the factors 1/√degree of its two
  nodes, zero where the degree is zero), the aggregation of the input features rounded to 16 bits, and seven vectors
  reshaped to one-row tables. Between the launches: a row of column sums divided by the row count, the mean of the
  squares minus the square of the mean clamped at zero, and the aggregation of a 16-bit table of 256 or 40 columns.
-/
import proofs.«127233_j26182120636977_2_alg».proof.Proof.Gen.KernelIdeal.Launch
import Idealize.ShloMosaic.Lib.StableHlo.Run
import Idealize.ShloMosaic.PureOps.Ideal

set_option maxRecDepth 1236

noncomputable section

namespace Cert.KernelIdeal.HostRead

open Idealize.ShloMosaic Idealize.ShloMosaic.TcCoe
open Cert.KernelIdeal Cert.KernelIdeal.Gen

/-- Arrays of 32-bit words, of reals at the 32-bit format, and of reals at the 16-bit format, over a shape. -/
abbrev I32 (s : Shape) : Type := IVec s 32
abbrev F32 (s : Shape) : Type := FVec Ideal s .f32
abbrev BF16 (s : Shape) : Type := FVec Ideal s .bf16

/-- The source words of the 370000 edges: row 0 of the edge table, then one self-loop per node. -/
def srcT (x1 : I32 S2x320000) : I32 S370000 :=
  concatenate S370000 0
    [⟨S320000, shapeCast S320000 (extractStridedSlice S1x320000 ![0, 0] x1 slices_S2x320000_S1x320000_0_0) shapeCasts_S1x320000_S320000⟩,
     ⟨S50000, iotaInDim S50000 32 0⟩] concatenates_S320000_S50000_S370000_d0

/-- The target words of the 370000 edges: row 1 of the edge table, then one self-loop per node. -/
def dstT (x1 : I32 S2x320000) : I32 S370000 :=
  concatenate S370000 0
    [⟨S320000, shapeCast S320000 (extractStridedSlice S1x320000 ![1, 0] x1 slices_S2x320000_S1x320000_1_0) shapeCasts_S1x320000_S320000⟩,
     ⟨S50000, iotaInDim S50000 32 0⟩] concatenates_S320000_S50000_S370000_d0

/-- A negative index word wrapped by the row count. -/
def wrapT (v : I32 S370000) : I32 S370000 :=
  select (cmpi .slt v (broadcastInDim S370000 ![] bcast_S_S370000 (constantI S_ 32 0#32)))
    (addi v (broadcastInDim S370000 ![] bcast_S_S370000 (constantI S_ 32 50000#32))) v

/-- A vector over the edges as a one-column table. -/
def colT {α : Type} (v : S370000.Idx → α) : S370000x1.Idx → α :=
  broadcastInDim S370000x1 ![0] bcast_S370000_S370000x1_0 v

/-- The in-degree of every node: ones added at the target words. -/
def degT (x1 : I32 S2x320000) : F32 S50000 :=
  Host.scatterAdd (F := Ideal) scatter_S50000_S370000x1_S370000_n_0_0_1
    (broadcastInDim S50000 ![] bcast_S_S50000 (constant (F := Ideal) S_ .f32 0x00000000#32))
    (colT (dstT x1))
    (broadcastInDim S370000 ![] bcast_S_S370000 (constant (F := Ideal) S_ .f32 0x3F800000#32))

/-- The reciprocal square root of the in-degree where it is positive, zero elsewhere. -/
def dinvT (x1 : I32 S2x320000) : F32 S50000 :=
  select (cmpf (F := Ideal) .ogt (degT x1) (broadcastInDim S50000 ![] bcast_S_S50000 (constant (F := Ideal) S_ .f32 0x00000000#32)))
    (Host.rsqrt (F := Ideal) (degT x1))
    (broadcastInDim S50000 ![] bcast_S_S50000 (constant (F := Ideal) S_ .f32 0x00000000#32))

/-- The weight of an edge: the product of the two factors its (wrapped) source and target words read. -/
def nrmOf (dinv : F32 S50000) (src dst : I32 S370000) : F32 S370000 :=
  mulf (F := Ideal) (Host.gather gather_S50000_S370000x1_S370000_n_0_n_n_0_1_1 dinv (colT (wrapT src)))
    (Host.gather gather_S50000_S370000x1_S370000_n_0_n_n_0_1_1 dinv (colT (wrapT dst)))

/-- The edge weights, from the edge table. -/
def nrmT (x1 : I32 S2x320000) : F32 S370000 := nrmOf (dinvT x1) (srcT x1) (dstT x1)

/-- The aggregation of a 128-column table of 16-bit reals: the weighted source rows added at the target words. -/
def aggG128 (xb : BF16 S50000x128) (src dst : I32 S370000) (nrm : F32 S370000) : F32 S50000x128 :=
  Host.scatterAdd (F := Ideal) scatter_S50000x128_S370000x1_S370000x128_1_0_0_1
    (broadcastInDim S50000x128 ![] bcast_S_S50000x128 (constant (F := Ideal) S_ .f32 0x00000000#32))
    (colT dst)
    (mulf (F := Ideal) (broadcastInDim S370000x128 ![0, 1] bcast_S370000x1_S370000x128_0_1 (colT nrm))
      (extf (F := Ideal) .f32
        (Host.gather gather_S50000x128_S370000x1_S370000x128_1_0_n_n_0_1_1128 xb (colT (wrapT src))) bitsLt_bf16_f32))

/-- The aggregated input features, from the feature table and the edge table. -/
def aggT128 (x0 : F32 S50000x128) (x1 : I32 S2x320000) : F32 S50000x128 :=
  aggG128 (truncf (F := Ideal) .bf16 x0 bitsLt_bf16_f32) (srcT x1) (dstT x1) (nrmT x1)

/-- The row count as a row of 256 copies. -/
def cntRow : F32 S1x256 := broadcastInDim S1x256 ![] bcast_S_S1x256 (constant (F := Ideal) S_ .f32 0x47435000#32)

/-- A row of column sums divided by the row count. -/
def meanT (s : F32 S1x256) : F32 S1x256 := Host.divf (F := Ideal) s cntRow

/-- The mean of the squares minus the square of the mean, clamped at zero. -/
def varT (s q : F32 S1x256) : F32 S1x256 :=
  maximumf (F := Ideal) (subf (F := Ideal) (Host.divf (F := Ideal) q cntRow) (mulf (F := Ideal) (meanT s) (meanT s)))
    (broadcastInDim S1x256 ![] bcast_S_S1x256 (constant (F := Ideal) S_ .f32 0x00000000#32))

/-- The aggregation of a 256-column table of 16-bit reals. -/
def aggG256 (xb : BF16 S50000x256) (src dst : I32 S370000) (nrm : F32 S370000) : F32 S50000x256 :=
  Host.scatterAdd (F := Ideal) scatter_S50000x256_S370000x1_S370000x256_1_0_0_1
    (broadcastInDim S50000x256 ![] bcast_S_S50000x256 (constant (F := Ideal) S_ .f32 0x00000000#32))
    (colT dst)
    (mulf (F := Ideal) (broadcastInDim S370000x256 ![0, 1] bcast_S370000x1_S370000x256_0_1 (colT nrm))
      (extf (F := Ideal) .f32
        (Host.gather gather_S50000x256_S370000x1_S370000x256_1_0_n_n_0_1_1256 xb (colT (wrapT src))) bitsLt_bf16_f32))

/-- The aggregation of a 40-column table of 16-bit reals. -/
def aggG40 (xb : BF16 S50000x40) (src dst : I32 S370000) (nrm : F32 S370000) : F32 S50000x40 :=
  Host.scatterAdd (F := Ideal) scatter_S50000x40_S370000x1_S370000x40_1_0_0_1
    (broadcastInDim S50000x40 ![] bcast_S_S50000x40 (constant (F := Ideal) S_ .f32 0x00000000#32))
    (colT dst)
    (mulf (F := Ideal) (broadcastInDim S370000x40 ![0, 1] bcast_S370000x1_S370000x40_0_1 (colT nrm))
      (extf (F := Ideal) .f32
        (Host.gather gather_S50000x40_S370000x1_S370000x40_1_0_n_n_0_1_140 xb (colT (wrapT src))) bitsLt_bf16_f32))

/-! ### The buffers each stretch writes, and the buffers it leaves alone -/

/-- The buffers the first stretch writes. -/
abbrev writes0 : List (Ref sig .tc) :=
  [main_v0, main_v1, main_v2, main_v3, main_v4, main_v5, main_v6, main_cst, main_v7, main_cst_0, main_v8, main_v9, main_v10, main_cst_1, main_v11, main_v12, main_v13, main_cst_2]

/-- The buffers the second stretch writes. -/
abbrev writes0_1 : List (Ref sig .tc) :=
  [main_call0_v0, main_call0_v1, main_v14]

/-- The buffers the third stretch writes. -/
abbrev writes0_2 : List (Ref sig .tc) :=
  [main_c, main_v15, main_v16, main_c_3, main_v17, main_v18, main_v19, main_v20, main_v21, main_c_4, main_v22, main_v23, main_c_5, main_v24, main_v25, main_v26, main_v27, main_v28, main_v29, main_v30, main_v31, main_v32, main_v33, main_v34, main_v35, main_v36, main_v37, main_v38, main_c_6, main_v39, main_v40, main_c_7, main_v41, main_v42, main_v43, main_v44, main_v45, main_v46, main_v47, main_v48, main_cst_8, main_v49, main_v50, main_v51]

/-- The buffers the stretch before the second launch writes. -/
abbrev writes2 : List (Ref sig .tc) :=
  [main_cst_9, main_v54, main_v55, main_cst_10, main_v56, main_v57, main_v58, main_v59, main_cst_11, main_v60, main_v61]

/-- The buffers the stretch before the third launch writes. -/
abbrev writes3 : List (Ref sig .tc) :=
  [main_v63, main_c_12, main_v64, main_v65, main_c_13, main_v66, main_v67, main_v68, main_v69, main_v70, main_v71, main_v72, main_v73, main_cst_14, main_v74, main_v75, main_v76]

/-- The buffers the stretch before the fifth launch writes. -/
abbrev writes4 : List (Ref sig .tc) :=
  [main_cst_15, main_v78, main_v79, main_cst_16, main_v80, main_v81, main_v82, main_v83, main_cst_17, main_v84, main_v85]

/-- The buffers the stretch before the sixth launch writes. -/
abbrev writes5 : List (Ref sig .tc) :=
  [main_v87, main_c_18, main_v88, main_v89, main_c_19, main_v90, main_v91, main_v92, main_v93, main_v94, main_v95, main_v96, main_v97, main_cst_20, main_v98, main_v99, main_v100]

theorem keep_h0a (W : Valuation τ sig (Elt Ideal)) (b : Ref sig .tc) (hb : b ∉ writes0) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h0b (W : Valuation τ sig (Elt Ideal)) (b : Ref sig .tc) (hb : b ∉ writes0_1) :
    StableHlo.after (hostOps0_1 (F := Ideal)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h0c (W : Valuation τ sig (Elt Ideal)) (b : Ref sig .tc) (hb : b ∉ writes0_2) :
    StableHlo.after (hostOps0_2 (F := Ideal)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h2 (W : Valuation τ sig (Elt Ideal)) (b : Ref sig .tc) (hb : b ∉ writes2) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h3 (W : Valuation τ sig (Elt Ideal)) (b : Ref sig .tc) (hb : b ∉ writes3) :
    StableHlo.after (hostOps3 (F := Ideal)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h4 (W : Valuation τ sig (Elt Ideal)) (b : Ref sig .tc) (hb : b ∉ writes4) :
    StableHlo.after (hostOps4 (F := Ideal)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

theorem keep_h5 (W : Valuation τ sig (Elt Ideal)) (b : Ref sig .tc) (hb : b ∉ writes5) :
    StableHlo.after (hostOps5 (F := Ideal)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

variable (W : Valuation τ sig (Elt Ideal))

/-- The buffer contents after the three stretches of host operations before the first launch. -/
abbrev afterInit : Valuation τ sig (Elt Ideal) :=
  StableHlo.after (hostOps0_2 (F := Ideal)) (StableHlo.after (hostOps0_1 (F := Ideal)) (StableHlo.after (hostOps0 (F := Ideal)) W))

/-- A buffer none of the three initial stretches writes holds what it held. -/
theorem keep_h0 (b : Ref sig .tc) (hb : b ∉ writes0 ++ writes0_1 ++ writes0_2) :
    afterInit W (Proc.devRef .tc b) = W (Proc.devRef .tc b) := by
  show StableHlo.after hostOps0_2 (StableHlo.after hostOps0_1 (StableHlo.after hostOps0 W)) (Proc.devRef .tc b) = _
  rw [keep_h0c _ b (fun h => hb (List.mem_append_right _ h)),
    keep_h0b _ b (fun h => hb (List.mem_append_left _ (List.mem_append_right _ h))),
    keep_h0a _ b (fun h => hb (List.mem_append_left _ (List.mem_append_left _ h)))]

/-! ### The first stretch: the edge words, the in-degree and its two derived vectors -/

theorem h0_v3 : (StableHlo.after (hostOps0 (F := Ideal)) W (Proc.devRef .tc main_v3) : I32 S370000)
    = srcT (W (Proc.devRef .tc main_arg1)) := by
  after_results_simp
  try rfl

theorem h0_v6 : (StableHlo.after (hostOps0 (F := Ideal)) W (Proc.devRef .tc main_v6) : I32 S370000)
    = dstT (W (Proc.devRef .tc main_arg1)) := by
  after_results_simp
  try rfl

theorem h0_v12 : (StableHlo.after (hostOps0 (F := Ideal)) W (Proc.devRef .tc main_v12) : IVec S50000 1)
    = cmpf (F := Ideal) .ogt (degT (W (Proc.devRef .tc main_arg1)))
        (broadcastInDim S50000 ![] bcast_S_S50000 (constant (F := Ideal) S_ .f32 0x00000000#32)) := by
  after_results_simp
  try rfl

theorem h0_v13 : (StableHlo.after (hostOps0 (F := Ideal)) W (Proc.devRef .tc main_v13) : F32 S50000)
    = Host.rsqrt (F := Ideal) (degT (W (Proc.devRef .tc main_arg1))) := by
  after_results_simp
  try rfl

theorem h0_cst_2 : (StableHlo.after (hostOps0 (F := Ideal)) W (Proc.devRef .tc main_cst_2) : F32 S_)
    = constant (F := Ideal) S_ .f32 0x00000000#32 := by
  after_results_simp
  try rfl

/-! ### The second stretch: the factor of every node -/

theorem h01_v14 : (StableHlo.after (hostOps0_1 (F := Ideal)) W (Proc.devRef .tc main_v14) : F32 S50000)
    = select (W (Proc.devRef .tc main_v12) : IVec S50000 1) (W (Proc.devRef .tc main_v13) : F32 S50000)
        (broadcastInDim S50000 ![] bcast_S_S50000 (W (Proc.devRef .tc main_cst_2) : F32 S_)) := by
  after_results_simp
  try rfl

/-- After the second stretch every node's factor is the one the edge table gives. -/
theorem w2_v14 : (StableHlo.after hostOps0_1 (StableHlo.after hostOps0 W) (Proc.devRef .tc main_v14) : F32 S50000)
    = dinvT (W (Proc.devRef .tc main_arg1)) := by
  rw [h01_v14, h0_v12, h0_v13, h0_cst_2]
  rfl

/-! ### The third stretch: the edge weights, the reshaped rows and the aggregated input features -/

theorem h02_v29 : (StableHlo.after (hostOps0_2 (F := Ideal)) W (Proc.devRef .tc main_v29) : F32 S370000)
    = nrmOf (W (Proc.devRef .tc main_v14)) (W (Proc.devRef .tc main_v3)) (W (Proc.devRef .tc main_v6)) := by
  after_results_simp
  try rfl

theorem h02_v51 : (StableHlo.after (hostOps0_2 (F := Ideal)) W (Proc.devRef .tc main_v51) : F32 S50000x128)
    = aggG128 (truncf (F := Ideal) .bf16 (W (Proc.devRef .tc main_arg0) : F32 S50000x128) bitsLt_bf16_f32)
        (W (Proc.devRef .tc main_v3)) (W (Proc.devRef .tc main_v6))
        (nrmOf (W (Proc.devRef .tc main_v14)) (W (Proc.devRef .tc main_v3)) (W (Proc.devRef .tc main_v6))) := by
  after_results_simp
  try rfl

theorem h02_v30 : (StableHlo.after (hostOps0_2 (F := Ideal)) W (Proc.devRef .tc main_v30) : F32 S1x256)
    = shapeCast S1x256 (W (Proc.devRef .tc main_arg3) : F32 S256) shapeCasts_S256_S1x256 := by
  after_results_simp
  try rfl

theorem h02_v31 : (StableHlo.after (hostOps0_2 (F := Ideal)) W (Proc.devRef .tc main_v31) : F32 S1x256)
    = shapeCast S1x256 (W (Proc.devRef .tc main_arg4) : F32 S256) shapeCasts_S256_S1x256 := by
  after_results_simp
  try rfl

theorem h02_v32 : (StableHlo.after (hostOps0_2 (F := Ideal)) W (Proc.devRef .tc main_v32) : F32 S1x256)
    = shapeCast S1x256 (W (Proc.devRef .tc main_arg5) : F32 S256) shapeCasts_S256_S1x256 := by
  after_results_simp
  try rfl

theorem h02_v33 : (StableHlo.after (hostOps0_2 (F := Ideal)) W (Proc.devRef .tc main_v33) : F32 S1x256)
    = shapeCast S1x256 (W (Proc.devRef .tc main_arg7) : F32 S256) shapeCasts_S256_S1x256 := by
  after_results_simp
  try rfl

theorem h02_v34 : (StableHlo.after (hostOps0_2 (F := Ideal)) W (Proc.devRef .tc main_v34) : F32 S1x256)
    = shapeCast S1x256 (W (Proc.devRef .tc main_arg8) : F32 S256) shapeCasts_S256_S1x256 := by
  after_results_simp
  try rfl

theorem h02_v35 : (StableHlo.after (hostOps0_2 (F := Ideal)) W (Proc.devRef .tc main_v35) : F32 S1x256)
    = shapeCast S1x256 (W (Proc.devRef .tc main_arg9) : F32 S256) shapeCasts_S256_S1x256 := by
  after_results_simp
  try rfl

theorem h02_v36 : (StableHlo.after (hostOps0_2 (F := Ideal)) W (Proc.devRef .tc main_v36) : F32 S1x40)
    = shapeCast S1x40 (W (Proc.devRef .tc main_arg11) : F32 S40) shapeCasts_S40_S1x40 := by
  after_results_simp
  try rfl

/-! ### What the first launch finds -/

theorem val_h0_main_v3 : (afterInit W (Proc.devRef .tc main_v3) : I32 S370000) = srcT (W (Proc.devRef .tc main_arg1)) := by
  show StableHlo.after hostOps0_2 (StableHlo.after hostOps0_1 (StableHlo.after hostOps0 W)) (Proc.devRef .tc main_v3) = _
  rw [keep_h0c _ main_v3 (by decide), keep_h0b _ main_v3 (by decide), h0_v3]

theorem val_h0_main_v6 : (afterInit W (Proc.devRef .tc main_v6) : I32 S370000) = dstT (W (Proc.devRef .tc main_arg1)) := by
  show StableHlo.after hostOps0_2 (StableHlo.after hostOps0_1 (StableHlo.after hostOps0 W)) (Proc.devRef .tc main_v6) = _
  rw [keep_h0c _ main_v6 (by decide), keep_h0b _ main_v6 (by decide), h0_v6]

theorem val_h0_main_v29 : (afterInit W (Proc.devRef .tc main_v29) : F32 S370000) = nrmT (W (Proc.devRef .tc main_arg1)) := by
  show StableHlo.after hostOps0_2 (StableHlo.after hostOps0_1 (StableHlo.after hostOps0 W)) (Proc.devRef .tc main_v29) = _
  rw [h02_v29, w2_v14, keep_h0b _ main_v3 (by decide), keep_h0b _ main_v6 (by decide), h0_v3, h0_v6]
  rfl

theorem val_h0_main_v51 : (afterInit W (Proc.devRef .tc main_v51) : F32 S50000x128)
    = aggT128 (W (Proc.devRef .tc main_arg0)) (W (Proc.devRef .tc main_arg1)) := by
  show StableHlo.after hostOps0_2 (StableHlo.after hostOps0_1 (StableHlo.after hostOps0 W)) (Proc.devRef .tc main_v51) = _
  rw [h02_v51, w2_v14, keep_h0b _ main_v3 (by decide), keep_h0b _ main_v6 (by decide), h0_v3, h0_v6, keep_h0b _ main_arg0 (by decide), keep_h0a _ main_arg0 (by decide)]
  rfl

theorem val_h0_main_v30 : (afterInit W (Proc.devRef .tc main_v30) : F32 S1x256)
    = shapeCast S1x256 (W (Proc.devRef .tc main_arg3) : F32 S256) shapeCasts_S256_S1x256 := by
  show StableHlo.after hostOps0_2 (StableHlo.after hostOps0_1 (StableHlo.after hostOps0 W)) (Proc.devRef .tc main_v30) = _
  rw [h02_v30, keep_h0b _ main_arg3 (by decide), keep_h0a _ main_arg3 (by decide)]

theorem val_h0_main_v31 : (afterInit W (Proc.devRef .tc main_v31) : F32 S1x256)
    = shapeCast S1x256 (W (Proc.devRef .tc main_arg4) : F32 S256) shapeCasts_S256_S1x256 := by
  show StableHlo.after hostOps0_2 (StableHlo.after hostOps0_1 (StableHlo.after hostOps0 W)) (Proc.devRef .tc main_v31) = _
  rw [h02_v31, keep_h0b _ main_arg4 (by decide), keep_h0a _ main_arg4 (by decide)]

theorem val_h0_main_v32 : (afterInit W (Proc.devRef .tc main_v32) : F32 S1x256)
    = shapeCast S1x256 (W (Proc.devRef .tc main_arg5) : F32 S256) shapeCasts_S256_S1x256 := by
  show StableHlo.after hostOps0_2 (StableHlo.after hostOps0_1 (StableHlo.after hostOps0 W)) (Proc.devRef .tc main_v32) = _
  rw [h02_v32, keep_h0b _ main_arg5 (by decide), keep_h0a _ main_arg5 (by decide)]

theorem val_h0_main_v33 : (afterInit W (Proc.devRef .tc main_v33) : F32 S1x256)
    = shapeCast S1x256 (W (Proc.devRef .tc main_arg7) : F32 S256) shapeCasts_S256_S1x256 := by
  show StableHlo.after hostOps0_2 (StableHlo.after hostOps0_1 (StableHlo.after hostOps0 W)) (Proc.devRef .tc main_v33) = _
  rw [h02_v33, keep_h0b _ main_arg7 (by decide), keep_h0a _ main_arg7 (by decide)]

theorem val_h0_main_v34 : (afterInit W (Proc.devRef .tc main_v34) : F32 S1x256)
    = shapeCast S1x256 (W (Proc.devRef .tc main_arg8) : F32 S256) shapeCasts_S256_S1x256 := by
  show StableHlo.after hostOps0_2 (StableHlo.after hostOps0_1 (StableHlo.after hostOps0 W)) (Proc.devRef .tc main_v34) = _
  rw [h02_v34, keep_h0b _ main_arg8 (by decide), keep_h0a _ main_arg8 (by decide)]

theorem val_h0_main_v35 : (afterInit W (Proc.devRef .tc main_v35) : F32 S1x256)
    = shapeCast S1x256 (W (Proc.devRef .tc main_arg9) : F32 S256) shapeCasts_S256_S1x256 := by
  show StableHlo.after hostOps0_2 (StableHlo.after hostOps0_1 (StableHlo.after hostOps0 W)) (Proc.devRef .tc main_v35) = _
  rw [h02_v35, keep_h0b _ main_arg9 (by decide), keep_h0a _ main_arg9 (by decide)]

theorem val_h0_main_v36 : (afterInit W (Proc.devRef .tc main_v36) : F32 S1x40)
    = shapeCast S1x40 (W (Proc.devRef .tc main_arg11) : F32 S40) shapeCasts_S40_S1x40 := by
  show StableHlo.after hostOps0_2 (StableHlo.after hostOps0_1 (StableHlo.after hostOps0 W)) (Proc.devRef .tc main_v36) = _
  rw [h02_v36, keep_h0b _ main_arg11 (by decide), keep_h0a _ main_arg11 (by decide)]

theorem keep_h0_main_arg2 : afterInit W (Proc.devRef .tc main_arg2) = W (Proc.devRef .tc main_arg2) :=
  keep_h0 W main_arg2 (by decide)

theorem keep_h0_main_arg6 : afterInit W (Proc.devRef .tc main_arg6) = W (Proc.devRef .tc main_arg6) :=
  keep_h0 W main_arg6 (by decide)

theorem keep_h0_main_arg10 : afterInit W (Proc.devRef .tc main_arg10) = W (Proc.devRef .tc main_arg10) :=
  keep_h0 W main_arg10 (by decide)

/-! ### Before the second launch: the first layer's column statistics -/

theorem val_h2_main_v55 : (StableHlo.after (hostOps2 (F := Ideal)) W (Proc.devRef .tc main_v55) : F32 S1x256)
    = meanT (W (Proc.devRef .tc main_v53_0)) := by
  after_results
  try rfl

theorem val_h2_main_v61 : (StableHlo.after (hostOps2 (F := Ideal)) W (Proc.devRef .tc main_v61) : F32 S1x256)
    = varT (W (Proc.devRef .tc main_v53_0)) (W (Proc.devRef .tc main_v53_1)) := by
  after_results
  try rfl

theorem keep_h2_main_v52 (W : Valuation τ sig (Elt Ideal)) :
    StableHlo.after (hostOps2 (F := Ideal)) W (Proc.devRef .tc main_v52) = W (Proc.devRef .tc main_v52) :=
  keep_h2 W main_v52 (by decide)

theorem keep_h2_main_v30 (W : Valuation τ sig (Elt Ideal)) :
    StableHlo.after (hostOps2 (F := Ideal)) W (Proc.devRef .tc main_v30) = W (Proc.devRef .tc main_v30) :=
  keep_h2 W main_v30 (by decide)

theorem keep_h2_main_v31 (W : Valuation τ sig (Elt Ideal)) :
    StableHlo.after (hostOps2 (F := Ideal)) W (Proc.devRef .tc main_v31) = W (Proc.devRef .tc main_v31) :=
  keep_h2 W main_v31 (by decide)

theorem keep_h2_main_v32 (W : Valuation τ sig (Elt Ideal)) :
    StableHlo.after (hostOps2 (F := Ideal)) W (Proc.devRef .tc main_v32) = W (Proc.devRef .tc main_v32) :=
  keep_h2 W main_v32 (by decide)

theorem keep_h2_main_v33 (W : Valuation τ sig (Elt Ideal)) :
    StableHlo.after (hostOps2 (F := Ideal)) W (Proc.devRef .tc main_v33) = W (Proc.devRef .tc main_v33) :=
  keep_h2 W main_v33 (by decide)

theorem keep_h2_main_v34 (W : Valuation τ sig (Elt Ideal)) :
    StableHlo.after (hostOps2 (F := Ideal)) W (Proc.devRef .tc main_v34) = W (Proc.devRef .tc main_v34) :=
  keep_h2 W main_v34 (by decide)

theorem keep_h2_main_v35 (W : Valuation τ sig (Elt Ideal)) :
    StableHlo.after (hostOps2 (F := Ideal)) W (Proc.devRef .tc main_v35) = W (Proc.devRef .tc main_v35) :=
  keep_h2 W main_v35 (by decide)

theorem keep_h2_main_v36 (W : Valuation τ sig (Elt Ideal)) :
    StableHlo.after (hostOps2 (F := Ideal)) W (Proc.devRef .tc main_v36) = W (Proc.devRef .tc main_v36) :=
  keep_h2 W main_v36 (by decide)

theorem keep_h2_main_v3 (W : Valuation τ sig (Elt Ideal)) :
    StableHlo.after (hostOps2 (F := Ideal)) W (Proc.devRef .tc main_v3) = W (Proc.devRef .tc main_v3) :=
  keep_h2 W main_v3 (by decide)

theorem keep_h2_main_v6 (W : Valuation τ sig (Elt Ideal)) :
    StableHlo.after (hostOps2 (F := Ideal)) W (Proc.devRef .tc main_v6) = W (Proc.devRef .tc main_v6) :=
  keep_h2 W main_v6 (by decide)

theorem keep_h2_main_v29 (W : Valuation τ sig (Elt Ideal)) :
    StableHlo.after (hostOps2 (F := Ideal)) W (Proc.devRef .tc main_v29) = W (Proc.devRef .tc main_v29) :=
  keep_h2 W main_v29 (by decide)

theorem keep_h2_main_arg6 (W : Valuation τ sig (Elt Ideal)) :
    StableHlo.after (hostOps2 (F := Ideal)) W (Proc.devRef .tc main_arg6) = W (Proc.devRef .tc main_arg6) :=
  keep_h2 W main_arg6 (by decide)

theorem keep_h2_main_arg10 (W : Valuation τ sig (Elt Ideal)) :
    StableHlo.after (hostOps2 (F := Ideal)) W (Proc.devRef .tc main_arg10) = W (Proc.devRef .tc main_arg10) :=
  keep_h2 W main_arg10 (by decide)

/-! ### Before the third launch: the second layer's aggregation -/

theorem val_h3_main_v76 : (StableHlo.after (hostOps3 (F := Ideal)) W (Proc.devRef .tc main_v76) : F32 S50000x256)
    = aggG256 (W (Proc.devRef .tc main_v62)) (W (Proc.devRef .tc main_v3)) (W (Proc.devRef .tc main_v6))
        (W (Proc.devRef .tc main_v29)) := by
  after_results_simp
  try rfl

theorem keep_h3_main_v33 (W : Valuation τ sig (Elt Ideal)) :
    StableHlo.after (hostOps3 (F := Ideal)) W (Proc.devRef .tc main_v33) = W (Proc.devRef .tc main_v33) :=
  keep_h3 W main_v33 (by decide)

theorem keep_h3_main_v34 (W : Valuation τ sig (Elt Ideal)) :
    StableHlo.after (hostOps3 (F := Ideal)) W (Proc.devRef .tc main_v34) = W (Proc.devRef .tc main_v34) :=
  keep_h3 W main_v34 (by decide)

theorem keep_h3_main_v35 (W : Valuation τ sig (Elt Ideal)) :
    StableHlo.after (hostOps3 (F := Ideal)) W (Proc.devRef .tc main_v35) = W (Proc.devRef .tc main_v35) :=
  keep_h3 W main_v35 (by decide)

theorem keep_h3_main_v36 (W : Valuation τ sig (Elt Ideal)) :
    StableHlo.after (hostOps3 (F := Ideal)) W (Proc.devRef .tc main_v36) = W (Proc.devRef .tc main_v36) :=
  keep_h3 W main_v36 (by decide)

theorem keep_h3_main_v3 (W : Valuation τ sig (Elt Ideal)) :
    StableHlo.after (hostOps3 (F := Ideal)) W (Proc.devRef .tc main_v3) = W (Proc.devRef .tc main_v3) :=
  keep_h3 W main_v3 (by decide)

theorem keep_h3_main_v6 (W : Valuation τ sig (Elt Ideal)) :
    StableHlo.after (hostOps3 (F := Ideal)) W (Proc.devRef .tc main_v6) = W (Proc.devRef .tc main_v6) :=
  keep_h3 W main_v6 (by decide)

theorem keep_h3_main_v29 (W : Valuation τ sig (Elt Ideal)) :
    StableHlo.after (hostOps3 (F := Ideal)) W (Proc.devRef .tc main_v29) = W (Proc.devRef .tc main_v29) :=
  keep_h3 W main_v29 (by decide)

theorem keep_h3_main_arg10 (W : Valuation τ sig (Elt Ideal)) :
    StableHlo.after (hostOps3 (F := Ideal)) W (Proc.devRef .tc main_arg10) = W (Proc.devRef .tc main_arg10) :=
  keep_h3 W main_arg10 (by decide)

/-! ### Before the fifth launch: the second layer's column statistics -/

theorem val_h4_main_v79 : (StableHlo.after (hostOps4 (F := Ideal)) W (Proc.devRef .tc main_v79) : F32 S1x256)
    = meanT (W (Proc.devRef .tc main_v77_0)) := by
  after_results
  try rfl

theorem val_h4_main_v85 : (StableHlo.after (hostOps4 (F := Ideal)) W (Proc.devRef .tc main_v85) : F32 S1x256)
    = varT (W (Proc.devRef .tc main_v77_0)) (W (Proc.devRef .tc main_v77_1)) := by
  after_results
  try rfl

theorem keep_h4_main_v76 (W : Valuation τ sig (Elt Ideal)) :
    StableHlo.after (hostOps4 (F := Ideal)) W (Proc.devRef .tc main_v76) = W (Proc.devRef .tc main_v76) :=
  keep_h4 W main_v76 (by decide)

theorem keep_h4_main_v33 (W : Valuation τ sig (Elt Ideal)) :
    StableHlo.after (hostOps4 (F := Ideal)) W (Proc.devRef .tc main_v33) = W (Proc.devRef .tc main_v33) :=
  keep_h4 W main_v33 (by decide)

theorem keep_h4_main_v34 (W : Valuation τ sig (Elt Ideal)) :
    StableHlo.after (hostOps4 (F := Ideal)) W (Proc.devRef .tc main_v34) = W (Proc.devRef .tc main_v34) :=
  keep_h4 W main_v34 (by decide)

theorem keep_h4_main_v35 (W : Valuation τ sig (Elt Ideal)) :
    StableHlo.after (hostOps4 (F := Ideal)) W (Proc.devRef .tc main_v35) = W (Proc.devRef .tc main_v35) :=
  keep_h4 W main_v35 (by decide)

theorem keep_h4_main_v36 (W : Valuation τ sig (Elt Ideal)) :
    StableHlo.after (hostOps4 (F := Ideal)) W (Proc.devRef .tc main_v36) = W (Proc.devRef .tc main_v36) :=
  keep_h4 W main_v36 (by decide)

theorem keep_h4_main_v3 (W : Valuation τ sig (Elt Ideal)) :
    StableHlo.after (hostOps4 (F := Ideal)) W (Proc.devRef .tc main_v3) = W (Proc.devRef .tc main_v3) :=
  keep_h4 W main_v3 (by decide)

theorem keep_h4_main_v6 (W : Valuation τ sig (Elt Ideal)) :
    StableHlo.after (hostOps4 (F := Ideal)) W (Proc.devRef .tc main_v6) = W (Proc.devRef .tc main_v6) :=
  keep_h4 W main_v6 (by decide)

theorem keep_h4_main_v29 (W : Valuation τ sig (Elt Ideal)) :
    StableHlo.after (hostOps4 (F := Ideal)) W (Proc.devRef .tc main_v29) = W (Proc.devRef .tc main_v29) :=
  keep_h4 W main_v29 (by decide)

theorem keep_h4_main_arg10 (W : Valuation τ sig (Elt Ideal)) :
    StableHlo.after (hostOps4 (F := Ideal)) W (Proc.devRef .tc main_arg10) = W (Proc.devRef .tc main_arg10) :=
  keep_h4 W main_arg10 (by decide)

/-! ### Before the sixth launch: the third layer's aggregation -/

theorem val_h5_main_v100 : (StableHlo.after (hostOps5 (F := Ideal)) W (Proc.devRef .tc main_v100) : F32 S50000x40)
    = aggG40 (W (Proc.devRef .tc main_v86)) (W (Proc.devRef .tc main_v3)) (W (Proc.devRef .tc main_v6))
        (W (Proc.devRef .tc main_v29)) := by
  after_results_simp
  try rfl

theorem keep_h5_main_v36 (W : Valuation τ sig (Elt Ideal)) :
    StableHlo.after (hostOps5 (F := Ideal)) W (Proc.devRef .tc main_v36) = W (Proc.devRef .tc main_v36) :=
  keep_h5 W main_v36 (by decide)

end Cert.KernelIdeal.HostRead

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.KerPay.lean ====
/-
  The six kernel bodies' stored values, read at an entry on the extended reals.

  * the matrix-product body stores the row of its left block against the column of the weight;
  * a statistics body adds, onto what its two accumulators hold, the column sums of `h + b` and of `(h + b)²` over
    the block's 2000 rows;
  * a normalising body stores `∑ k, max (((h + b) − μ) · (1/√(max v 0 + ε)) · g + β) 0 (r, k) · W (k, o)`;
  * the last body stores the row-wise log-softmax of `h + b`: with `M` the row's maximum folded from −∞,
    `(z − M) − log ∑ exp (z − M)`.
  A change of float format is the identity here, and a cast of an array to its own shape changes nothing.
-/
import proofs.«127233_j26182120636977_2_alg».proof.Proof.Gen.KernelIdeal.Skeleton
import proofs.«127233_j26182120636977_2_alg».proof.Proof.LibDense
import proofs.«127233_j26182120636977_2_alg».proof.Proof.LibSoftmaxRow
import proofs.«127233_j26182120636977_2_alg».proof.Proof.LibBiasRows
import proofs.«127233_j26182120636977_2_alg».proof.Proof.LibAxisSum
import proofs.«127233_j26182120636977_2_alg».proof.Proof.LibLogSoftmax
import proofs.«127233_j26182120636977_2_alg».proof.Proof.LibSumBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pay

open Cert.KernelIdeal Cert.KernelIdeal.Gen
open Idealize.ShloMosaic Idealize.ShloMosaic.ValueIdx

/-- The zero word is zero. -/
theorem ofBits_zero : Ideal.ofBits .f32 0x00000000#32 = 0 := by
  simp [Ideal.ofBits, Ideal.ieee]

/-- The first row of a one-row array. -/
abbrev r0 : Fin 1 := ⟨0, Nat.one_pos⟩

theorem pay0_apply (x0 : Vec Ideal S2000x128 .f32) (x1 : Vec Ideal S128x256 .f32) (j : S2000x256.Idx) :
    (k0_pay1 (F := Ideal) x0 x1 : S2000x256.Idx → EReal) j = Cert.LibDense.prod x0 x1 j := by
  unfold k0_pay1
  simp only [shapeCast_self]
  exact Cert.LibDense.matmul_plain (M := 2000) (K := 128) (N := 256) (truncf .bf16 x0 bitsLt_bf16_f32) (truncf .bf16 x1 bitsLt_bf16_f32) j

/-! ## Statistics body 1 -/

theorem pay1_3_apply (x0 : Vec Ideal S2000x256 .f32) (x1 : Vec Ideal S1x256 .f32) (r : Fin 2000) (j : Fin 256) :
    (k1_pay3 (F := Ideal) x0 x1 : S2000x256.Idx → EReal) (ix2 r j) = x0 (ix2 r j) + x1 (ix2 r0 j) := by
  unfold k1_pay3
  simp only [shapeCast_self]
  show x0 (ix2 r j) + broadcastTo S2000x256 x1 broadcasts_S1x256_S2000x256 (ix2 r j) = _
  rw [Cert.LibBiasRows.row_broadcast]

theorem pay1_4_apply (x0 : Vec Ideal S2000x256 .f32) (x1 xo : Vec Ideal S1x256 .f32) (j : Fin 256) :
    (k1_pay4 (F := Ideal) x0 x1 xo : S1x256.Idx → EReal) (ix2 r0 j)
      = xo (ix2 r0 j) + ∑ r : Fin 2000, (x0 (ix2 r j) + x1 (ix2 r0 j)) := by
  unfold k1_pay4
  simp only [shapeCast_self]
  refine congrArg (xo (ix2 r0 j) + ·) ?_
  refine (Cert.LibBiasRows.row_of_vector _ _ j).trans ?_
  refine (Cert.LibAxisSum.sum_first _ _ _ _ _ j).trans ?_
  exact Finset.sum_congr rfl fun r _ => pay1_3_apply x0 x1 r j

theorem pay1_5_apply (x0 : Vec Ideal S2000x256 .f32) (x1 xo : Vec Ideal S1x256 .f32) (j : Fin 256) :
    (k1_pay5 (F := Ideal) x0 x1 xo : S1x256.Idx → EReal) (ix2 r0 j)
      = xo (ix2 r0 j) + ∑ r : Fin 2000, (x0 (ix2 r j) + x1 (ix2 r0 j)) * (x0 (ix2 r j) + x1 (ix2 r0 j)) := by
  unfold k1_pay5
  simp only [shapeCast_self]
  refine congrArg (xo (ix2 r0 j) + ·) ?_
  refine (Cert.LibBiasRows.row_of_vector _ _ j).trans ?_
  refine (Cert.LibAxisSum.sum_first _ _ _ _ _ j).trans ?_
  refine Finset.sum_congr rfl fun r _ => ?_
  show (k1_pay3 (F := Ideal) x0 x1 : S2000x256.Idx → EReal) (ix2 r j) * (k1_pay3 (F := Ideal) x0 x1 : S2000x256.Idx → EReal) (ix2 r j) = _
  rw [pay1_3_apply]

theorem pay1_1_apply (j : S1x256.Idx) : (k1_pay1 (F := Ideal) : S1x256.Idx → EReal) j = 0 := by
  unfold k1_pay1; exact ofBits_zero
theorem pay1_2_apply (j : S1x256.Idx) : (k1_pay2 (F := Ideal) : S1x256.Idx → EReal) j = 0 := by
  unfold k1_pay2; exact ofBits_zero

/-! ## Statistics body 3 -/

theorem pay3_3_apply (x0 : Vec Ideal S2000x256 .f32) (x1 : Vec Ideal S1x256 .f32) (r : Fin 2000) (j : Fin 256) :
    (k3_pay3 (F := Ideal) x0 x1 : S2000x256.Idx → EReal) (ix2 r j) = x0 (ix2 r j) + x1 (ix2 r0 j) := by
  unfold k3_pay3
  simp only [shapeCast_self]
  show x0 (ix2 r j) + broadcastTo S2000x256 x1 broadcasts_S1x256_S2000x256 (ix2 r j) = _
  rw [Cert.LibBiasRows.row_broadcast]

theorem pay3_4_apply (x0 : Vec Ideal S2000x256 .f32) (x1 xo : Vec Ideal S1x256 .f32) (j : Fin 256) :
    (k3_pay4 (F := Ideal) x0 x1 xo : S1x256.Idx → EReal) (ix2 r0 j)
      = xo (ix2 r0 j) + ∑ r : Fin 2000, (x0 (ix2 r j) + x1 (ix2 r0 j)) := by
  unfold k3_pay4
  simp only [shapeCast_self]
  refine congrArg (xo (ix2 r0 j) + ·) ?_
  refine (Cert.LibBiasRows.row_of_vector _ _ j).trans ?_
  refine (Cert.LibAxisSum.sum_first _ _ _ _ _ j).trans ?_
  exact Finset.sum_congr rfl fun r _ => pay3_3_apply x0 x1 r j

theorem pay3_5_apply (x0 : Vec Ideal S2000x256 .f32) (x1 xo : Vec Ideal S1x256 .f32) (j : Fin 256) :
    (k3_pay5 (F := Ideal) x0 x1 xo : S1x256.Idx → EReal) (ix2 r0 j)
      = xo (ix2 r0 j) + ∑ r : Fin 2000, (x0 (ix2 r j) + x1 (ix2 r0 j)) * (x0 (ix2 r j) + x1 (ix2 r0 j)) := by
  unfold k3_pay5
  simp only [shapeCast_self]
  refine congrArg (xo (ix2 r0 j) + ·) ?_
  refine (Cert.LibBiasRows.row_of_vector _ _ j).trans ?_
  refine (Cert.LibAxisSum.sum_first _ _ _ _ _ j).trans ?_
  refine Finset.sum_congr rfl fun r _ => ?_
  show (k3_pay3 (F := Ideal) x0 x1 : S2000x256.Idx → EReal) (ix2 r j) * (k3_pay3 (F := Ideal) x0 x1 : S2000x256.Idx → EReal) (ix2 r j) = _
  rw [pay3_3_apply]

theorem pay3_1_apply (j : S1x256.Idx) : (k3_pay1 (F := Ideal) : S1x256.Idx → EReal) j = 0 := by
  unfold k3_pay1; exact ofBits_zero
theorem pay3_2_apply (j : S1x256.Idx) : (k3_pay2 (F := Ideal) : S1x256.Idx → EReal) j = 0 := by
  unfold k3_pay2; exact ofBits_zero

/-! ## Normalising body 2 -/

theorem pay2_apply (x0 : Vec Ideal S2000x256 .f32) (xb xv xm xg xe : Vec Ideal S1x256 .f32) (xw : Vec Ideal S256x256 .f32)
    (r : Fin 2000) (o : Fin 256) :
    (k2_pay1 (F := Ideal) x0 xb xv xm xg xe xw : S2000x256.Idx → EReal) (ix2 r o)
      = ∑ k : Fin 256, max (((x0 (ix2 r k) + xb (ix2 r0 k)) - xm (ix2 r0 k)) * Ideal.rsqrt (max (xv (ix2 r0 k)) 0 + Ideal.ofBits .f32 0x3727C5AC#32)
          * xg (ix2 r0 k) + xe (ix2 r0 k)) 0 * xw (ix2 k o) := by
  unfold k2_pay1
  simp only [shapeCast_self]
  refine (Cert.LibDense.matmul_plain (M := 2000) (K := 256) _ _ (ix2 r o)).trans ?_
  unfold Cert.LibDense.prod
  refine Finset.sum_congr rfl fun k _ => congrArg₂ (· * ·) ?_ rfl
  show max (((x0 (ix2 r k) + broadcastTo S2000x256 xb broadcasts_S1x256_S2000x256 (ix2 r k)) - broadcastTo S2000x256 xm broadcasts_S1x256_S2000x256 (ix2 r k))
        * broadcastTo S2000x256 (fun q : S1x256.Idx => Ideal.rsqrt (max (xv q) (Ideal.ofBits .f32 0x00000000#32) + Ideal.ofBits .f32 0x3727C5AC#32)) broadcasts_S1x256_S2000x256 (ix2 r k)
        * broadcastTo S2000x256 xg broadcasts_S1x256_S2000x256 (ix2 r k) + broadcastTo S2000x256 xe broadcasts_S1x256_S2000x256 (ix2 r k)) (Ideal.ofBits .f32 0x00000000#32) = _
  rw [Cert.LibBiasRows.row_broadcast, Cert.LibBiasRows.row_broadcast, Cert.LibBiasRows.row_broadcast, Cert.LibBiasRows.row_broadcast,
    Cert.LibBiasRows.row_broadcast, ofBits_zero]

/-! ## Normalising body 4 -/

theorem pay4_apply (x0 : Vec Ideal S2000x256 .f32) (xb xv xm xg xe : Vec Ideal S1x256 .f32) (xw : Vec Ideal S256x40 .f32)
    (r : Fin 2000) (o : Fin 40) :
    (k4_pay1 (F := Ideal) x0 xb xv xm xg xe xw : S2000x40.Idx → EReal) (ix2 r o)
      = ∑ k : Fin 256, max (((x0 (ix2 r k) + xb (ix2 r0 k)) - xm (ix2 r0 k)) * Ideal.rsqrt (max (xv (ix2 r0 k)) 0 + Ideal.ofBits .f32 0x3727C5AC#32)
          * xg (ix2 r0 k) + xe (ix2 r0 k)) 0 * xw (ix2 k o) := by
  unfold k4_pay1
  simp only [shapeCast_self]
  refine (Cert.LibDense.matmul_plain (M := 2000) (K := 256) _ _ (ix2 r o)).trans ?_
  unfold Cert.LibDense.prod
  refine Finset.sum_congr rfl fun k _ => congrArg₂ (· * ·) ?_ rfl
  show max (((x0 (ix2 r k) + broadcastTo S2000x256 xb broadcasts_S1x256_S2000x256 (ix2 r k)) - broadcastTo S2000x256 xm broadcasts_S1x256_S2000x256 (ix2 r k))
        * broadcastTo S2000x256 (fun q : S1x256.Idx => Ideal.rsqrt (max (xv q) (Ideal.ofBits .f32 0x00000000#32) + Ideal.ofBits .f32 0x3727C5AC#32)) broadcasts_S1x256_S2000x256 (ix2 r k)
        * broadcastTo S2000x256 xg broadcasts_S1x256_S2000x256 (ix2 r k) + broadcastTo S2000x256 xe broadcasts_S1x256_S2000x256 (ix2 r k)) (Ideal.ofBits .f32 0x00000000#32) = _
  rw [Cert.LibBiasRows.row_broadcast, Cert.LibBiasRows.row_broadcast, Cert.LibBiasRows.row_broadcast, Cert.LibBiasRows.row_broadcast,
    Cert.LibBiasRows.row_broadcast, ofBits_zero]

/-! ## The log-softmax body -/

/-- The vector unit's log-softmax of a block `z`, at an entry: the row's maximum from −∞, the shifted row, the
    logarithm of the sum of its exponentials. -/
theorem lsm_vec (z : FVec Ideal S2000x40 .f32) (r : Fin 2000) (o : Fin 40) :
    (subf (F := Ideal) (subf z (broadcastTo S2000x40 (shapeCast S2000x1 (multiReduction (F := Ideal) .maximumf [1] S2000 z 0xFF800000#32 reduces_S2000x40_S2000 (.inl rfl) rfl) shapeCasts_S2000_S2000x1) broadcasts_S2000x1_S2000x40))
      (broadcastTo S2000x40 (log (shapeCast S2000x1 (multiReduction (F := Ideal) .add [1] S2000 (exp (subf z (broadcastTo S2000x40 (shapeCast S2000x1 (multiReduction (F := Ideal) .maximumf [1] S2000 z 0xFF800000#32 reduces_S2000x40_S2000 (.inl rfl) rfl) shapeCasts_S2000_S2000x1) broadcasts_S2000x1_S2000x40))) 0x00000000#32 reduces_S2000x40_S2000 (.inl rfl) rfl) shapeCasts_S2000_S2000x1)) broadcasts_S2000x1_S2000x40) : S2000x40.Idx → EReal) (ix2 r o)
      = Cert.LibLogSoftmax.lsmRow (fun k : Fin 40 => z (ix2 r k)) o := by
  have hmax : ∀ k : Fin 40, (broadcastTo S2000x40 (shapeCast S2000x1 (multiReduction (F := Ideal) .maximumf [1] S2000 z 0xFF800000#32 reduces_S2000x40_S2000 (.inl rfl) rfl) shapeCasts_S2000_S2000x1) broadcasts_S2000x1_S2000x40) (ix2 r k) = Cert.LibLogSoftmax.rowMax (fun k : Fin 40 => z (ix2 r k)) := fun k => by
    refine (Cert.LibSoftmaxRow.broadcastTo_a1_ab_apply _ _ r k).trans ?_
    refine (Cert.LibSoftmaxRow.shapeCast_a_a1_apply _ _ r 0).trans ?_
    refine (Cert.LibSoftmaxRow.multiReduction_max_row z _ _ _ _ r).trans ?_
    unfold Cert.LibLogSoftmax.rowMax Cert.LibSoftmaxRow.rowMax
    exact (Cert.LibSoftmaxRow.max_negInf _).symm
  have hsum : (broadcastTo S2000x40 (log (shapeCast S2000x1 (multiReduction (F := Ideal) .add [1] S2000 (exp (subf z (broadcastTo S2000x40 (shapeCast S2000x1 (multiReduction (F := Ideal) .maximumf [1] S2000 z 0xFF800000#32 reduces_S2000x40_S2000 (.inl rfl) rfl) shapeCasts_S2000_S2000x1) broadcasts_S2000x1_S2000x40))) 0x00000000#32 reduces_S2000x40_S2000 (.inl rfl) rfl) shapeCasts_S2000_S2000x1)) broadcasts_S2000x1_S2000x40 : S2000x40.Idx → EReal) (ix2 r o)
      = Ideal.log (∑ k : Fin 40, Ideal.exp (z (ix2 r k) - Cert.LibLogSoftmax.rowMax (fun k : Fin 40 => z (ix2 r k)))) := by
    refine (Cert.LibSoftmaxRow.broadcastTo_a1_ab_apply _ _ r o).trans ?_
    refine congrArg Ideal.log ?_
    refine (Cert.LibSoftmaxRow.shapeCast_a_a1_apply _ _ r 0).trans ?_
    refine (Cert.LibSoftmaxRow.multiReduction_add_row _ _ _ _ _ r).trans ?_
    refine Finset.sum_congr rfl fun k _ => ?_
    show Ideal.exp (z (ix2 r k) - (broadcastTo S2000x40 (shapeCast S2000x1 (multiReduction (F := Ideal) .maximumf [1] S2000 z 0xFF800000#32 reduces_S2000x40_S2000 (.inl rfl) rfl) shapeCasts_S2000_S2000x1) broadcasts_S2000x1_S2000x40) (ix2 r k)) = _
    rw [hmax k]
  show (z (ix2 r o) - (broadcastTo S2000x40 (shapeCast S2000x1 (multiReduction (F := Ideal) .maximumf [1] S2000 z 0xFF800000#32 reduces_S2000x40_S2000 (.inl rfl) rfl) shapeCasts_S2000_S2000x1) broadcasts_S2000x1_S2000x40) (ix2 r o)) - _ = _
  rw [hmax o, hsum]
  rfl

theorem pay5_apply (x0 : Vec Ideal S2000x40 .f32) (xb : Vec Ideal S1x40 .f32) (r : Fin 2000) (o : Fin 40) :
    (k5_pay1 (F := Ideal) x0 xb : S2000x40.Idx → EReal) (ix2 r o)
      = Cert.LibLogSoftmax.lsmRow (fun k : Fin 40 => x0 (ix2 r k) + xb (ix2 r0 k)) o := by
  unfold k5_pay1
  simp only [shapeCast_self]
  refine (lsm_vec _ r o).trans ?_
  refine congrArg (fun row => Cert.LibLogSoftmax.lsmRow row o) (funext fun k => ?_)
  show x0 (ix2 r k) + broadcastTo S2000x40 xb broadcasts_S1x40_S2000x40 (ix2 r k) = _
  rw [Cert.LibBiasRows.row_broadcast]

/-! ## The whole-array functions the launches compute -/

/-- Centre, scale, shift and rectify every row of `h + b`, then project by `w`: entry `(r, o)`. -/
def normProj {C : ℕ} (h : S50000x256.Idx → EReal) (b mu va g be : S1x256.Idx → EReal) (w : (⟨2, ![256, C]⟩ : Shape).Idx → EReal) :
    (⟨2, ![50000, C]⟩ : Shape).Idx → EReal :=
  fun i => ∑ k : Fin 256, max (((h (ix2 (i 0) k) + b (ix2 r0 k)) - mu (ix2 r0 k)) * Ideal.rsqrt (max (va (ix2 r0 k)) 0 + Ideal.ofBits .f32 0x3727C5AC#32)
    * g (ix2 r0 k) + be (ix2 r0 k)) 0 * w (ix2 k (i 1))

/-- The row-wise log-softmax of `h + b`: entry `(r, o)`. -/
def lsmRows (h : S50000x40.Idx → EReal) (b : S1x40.Idx → EReal) : S50000x40.Idx → EReal :=
  fun i => Cert.LibLogSoftmax.lsmRow (fun k : Fin 40 => h (ix2 (i 0) k) + b (ix2 r0 k)) (i 1)

/-- The column sums of `h + b` over all the rows, as a one-row array. -/
def colSum (h : S50000x256.Idx → EReal) (b : S1x256.Idx → EReal) : S1x256.Idx → EReal :=
  fun i => ∑ r : Fin 50000, (h (ix2 r (i 1)) + b (ix2 r0 (i 1)))

/-- The column sums of `(h + b)²` over all the rows, as a one-row array. -/
def colSumSq (h : S50000x256.Idx → EReal) (b : S1x256.Idx → EReal) : S1x256.Idx → EReal :=
  fun i => ∑ r : Fin 50000, (h (ix2 r (i 1)) + b (ix2 r0 (i 1))) * (h (ix2 r (i 1)) + b (ix2 r0 (i 1)))

/-! ## Column sums, block by block -/

/-- Entry `(p, j)` of `h + b`, for a row number that may run past the array (then zero). -/
def term (h : S50000x256.Idx → EReal) (b : S1x256.Idx → EReal) (j : Fin 256) (p : ℕ) : EReal :=
  if hp : p < 50000 then h (ix2 (⟨p, hp⟩ : Fin 50000) j) + b (ix2 r0 j) else 0

/-- The sum over block `t`'s 2000 rows of `h + b`, and of its square. -/
def bsum (h : S50000x256.Idx → EReal) (b : S1x256.Idx → EReal) (j : Fin 256) (t : ℕ) : EReal :=
  ∑ ρ : Fin 2000, term h b j (2000 * t + ρ.val)
def bsq (h : S50000x256.Idx → EReal) (b : S1x256.Idx → EReal) (j : Fin 256) (t : ℕ) : EReal :=
  ∑ ρ : Fin 2000, term h b j (2000 * t + ρ.val) * term h b j (2000 * t + ρ.val)

/-- A block's entry of `h + b`, given where the block's row and the bias sit in the arrays. -/
theorem term_of (h : S50000x256.Idx → EReal) (b : S1x256.Idx → EReal) (x0 : Vec Ideal S2000x256 .f32) (x1 : Vec Ideal S1x256 .f32)
    (j : Fin 256) (ρ : Fin 2000) (p : ℕ) (hp : p < 50000) (e0 : x0 (ix2 ρ j) = h (ix2 (⟨p, hp⟩ : Fin 50000) j))
    (e1 : x1 (ix2 r0 j) = b (ix2 r0 j)) : x0 (ix2 ρ j) + x1 (ix2 r0 j) = term h b j p := by
  unfold term; rw [dif_pos hp, e0, e1]

/-- A sum over all the rows, block by block. -/
theorem sum_blocks (g : ℕ → EReal) :
    ∑ t ∈ Finset.range 25, ∑ ρ : Fin 2000, g (2000 * t + ρ.val) = ∑ p : Fin 50000, g p.val := by
  rw [Cert.SumBlocks.sum_fin_blocks 25 2000 (by norm_num) (fun p : Fin 50000 => g p.val), Finset.sum_range]
  refine Finset.sum_congr rfl fun x _ => Finset.sum_congr rfl fun y _ => ?_
  show g (2000 * x.val + y.val) = g (x.val * 2000 + y.val)
  rw [Nat.mul_comm]

/-- The 25 block sums are the column sums. -/
theorem bsum_total (h : S50000x256.Idx → EReal) (b : S1x256.Idx → EReal) (j : Fin 256) :
    ∑ t ∈ Finset.range 25, bsum h b j t = colSum h b (ix2 r0 j) := by
  unfold bsum colSum
  rw [sum_blocks (fun p => term h b j p)]
  refine Finset.sum_congr rfl fun p _ => ?_
  unfold term; rw [dif_pos p.isLt]
theorem bsq_total (h : S50000x256.Idx → EReal) (b : S1x256.Idx → EReal) (j : Fin 256) :
    ∑ t ∈ Finset.range 25, bsq h b j t = colSumSq h b (ix2 r0 j) := by
  unfold bsq colSumSq
  rw [sum_blocks (fun p => term h b j p * term h b j p)]
  refine Finset.sum_congr rfl fun p _ => ?_
  unfold term; rw [dif_pos p.isLt]

end Cert.KernelIdeal.Pay

end
-- ==== Proof.KerOut.lean ====
/-
  The idealized kernel's result as one function of its twelve arguments.

  Thirteen segments compose: the aggregation of the input features over the weighted edges; the first projection; the
  column sums and sums of squares of the projected layer plus its bias, their mean and clamped one-pass variance; the
  normalised, rectified layer projected by the second weight; its aggregation; the same statistics, normalisation and
  projection by the third weight; its aggregation; and the row-wise log-softmax of the last layer plus its bias.
-/
import proofs.«127233_j26182120636977_2_alg».proof.Proof.KerHost
import proofs.«127233_j26182120636977_2_alg».proof.Proof.KerPay
import proofs.«127233_j26182120636977_2_alg».proof.Proof.LibDense

noncomputable section

namespace Cert.KernelIdeal.Out

open Cert.KernelIdeal Cert.KernelIdeal.Gen Cert.KernelIdeal.HostRead Cert.KernelIdeal.Pay
open Idealize.ShloMosaic

/-- A vector of 256 entries laid out as a one-row table. -/
def row256 (v : F32 S256) : F32 S1x256 := shapeCast S1x256 v shapeCasts_S256_S1x256
/-- A vector of 40 entries laid out as a one-row table. -/
def row40 (v : F32 S40) : F32 S1x40 := shapeCast S1x40 v shapeCasts_S40_S1x40

section
variable (x0 : F32 S50000x128) (x1 : I32 S2x320000) (x2 : F32 S128x256) (x3 x4 x5 : F32 S256) (x6 : F32 S256x256)
  (x7 x8 x9 : F32 S256) (x10 : F32 S256x40) (x11 : F32 S40)

/-- The first layer before its bias: the aggregated features projected. -/
def k52 : F32 S50000x256 := Cert.LibDense.prod (aggT128 x0 x1) x2
/-- The first layer's column means and clamped one-pass variances. -/
def kmean1 : F32 S1x256 := meanT (colSum (k52 x0 x1 x2) (row256 x3))
def kvar1 : F32 S1x256 := varT (colSum (k52 x0 x1 x2) (row256 x3)) (colSumSq (k52 x0 x1 x2) (row256 x3))
/-- The first layer normalised, rectified and projected by the second weight. -/
def k62 : F32 S50000x256 :=
  normProj (C := 256) (k52 x0 x1 x2) (row256 x3) (kmean1 x0 x1 x2 x3) (kvar1 x0 x1 x2 x3) (row256 x4) (row256 x5) x6
/-- The second layer before its bias: the aggregation of the projection. -/
def k76 : F32 S50000x256 := aggG256 (k62 x0 x1 x2 x3 x4 x5 x6) (srcT x1) (dstT x1) (nrmT x1)
/-- The second layer's column means and clamped one-pass variances. -/
def kmean2 : F32 S1x256 := meanT (colSum (k76 x0 x1 x2 x3 x4 x5 x6) (row256 x7))
def kvar2 : F32 S1x256 := varT (colSum (k76 x0 x1 x2 x3 x4 x5 x6) (row256 x7)) (colSumSq (k76 x0 x1 x2 x3 x4 x5 x6) (row256 x7))
/-- The second layer normalised, rectified and projected by the third weight. -/
def k86 : F32 S50000x40 :=
  normProj (C := 40) (k76 x0 x1 x2 x3 x4 x5 x6) (row256 x7) (kmean2 x0 x1 x2 x3 x4 x5 x6 x7) (kvar2 x0 x1 x2 x3 x4 x5 x6 x7) (row256 x8) (row256 x9) x10
/-- The last layer before its bias. -/
def k100 : F32 S50000x40 := aggG40 (k86 x0 x1 x2 x3 x4 x5 x6 x7 x8 x9 x10) (srcT x1) (dstT x1) (nrmT x1)
/-- THE KERNEL'S RESULT. -/
def kerOut : F32 S50000x40 := lsmRows (k100 x0 x1 x2 x3 x4 x5 x6 x7 x8 x9 x10) (row40 x11)

end

end Cert.KernelIdeal.Out

end
-- ==== Proof.KerR0.lean ====
/-
  The first launch: a matrix product, 25 row blocks of 2000 rows.

  Point `t` reads rows `2000 t … 2000 t + 1999` of the aggregated features `a : [50000, 128]` and the whole weight
  `w : [128, 256]`, and writes rows `2000 t …` of the result: entry `(r, o)` of its block is the row `r` of the block
  against column `o` of `w`. The 25 blocks tile the result, which therefore ends as the product `a · w`, entry by entry,
  whatever the contents `V` the launch finds.
-/
import proofs.«127233_j26182120636977_2_alg».proof.Proof.Gen.KernelIdeal.Frame
import proofs.«127233_j26182120636977_2_alg».proof.Proof.LibDense
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at an entry: the row of the left block against the column of the right one. -/
theorem pay0_apply (x0 : Vec Ideal S2000x128 .f32) (x1 : Vec Ideal S128x256 .f32) (j : S2000x256.Idx) :
    (k0_pay1 (F := Ideal) x0 x1 : S2000x256.Idx → EReal) j = Cert.LibDense.prod x0 x1 j := by
  unfold k0_pay1
  simp only [shapeCast_self]
  exact Cert.LibDense.matmul_plain (M := 2000) (K := 128) (N := 256) (truncf .bf16 x0 bitsLt_bf16_f32) (truncf .bf16 x1 bitsLt_bf16_f32) j

/-- The printed index maps over the grid: the row-block windows sit at block `(t, 0)`, the weight at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the launch finds them. -/
theorem flushed0_eq (c : Dev nD) (t : Fin cfg0.N) :
    (dat0 V c).flushed 2 t = ((cfg0.win 2).blk t).view.read (Elt Ideal)
      (Cert.LibDense.prod (V c main_v51 : S50000x128.Idx → EReal) (V c main_arg2 : S128x256.Idx → EReal)) := by
  show (cfg0.win 2).cut (grid0.coords t) ((dat0 V c).after 2 t) = _
  rw [after0_2]
  unfold out0_2
  rw [View.canon_unit_zero hz0]
  simp only [View.ld_unit_zero (S := S2000x128) hz0, View.ld_unit_zero (S := S128x256) hz0]
  obtain ⟨e0, e1, e2, e3, e4, e5⟩ := idx_facts0 t
  funext j
  refine (pay0_apply _ _ j).trans ?_
  show Cert.LibDense.prod _ _ j = Cert.LibDense.prod _ _ (((cfg0.win 2).blk t).view.emb j)
  unfold Cert.LibDense.prod
  refine Finset.sum_congr rfl fun k _ => ?_
  have h0 : iblk0 V c 0 t (ix2 (j 0) k) = V c main_v51 (ix2 ((((cfg0.win 2).blk t).view.emb j) 0) k) := by
    show V c main_v51 (((cfg0.win 0).blk t).view.emb (ix2 (j 0) k)) = _
    refine congrArg (V c main_v51) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  exact congrArg₂ (· * ·) h0 h1

/-- An index of the result is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v52).slice (win0_2.rect t)).set ↔ _
  rw [View.set_slice_whole, Rect.mem_set_unit]
  exact Iff.rfl

/-- Every entry of the result lies in the block of the point its row selects. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_2 _, ?_⟩
  rw [mem_blk0]
  obtain ⟨e0, e1, e2, e3, e4, e5⟩ := idx_facts0 ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; dsimp only; omega
  | ⟨1, _⟩ => show win0_2.index _ (1 : Fin 2) * 256 ≤ (i 1).val ∧ (i 1).val < win0_2.index _ (1 : Fin 2) * 256 + 256; rw [e5]; omega

/-- THE RESULT OF THE FIRST LAUNCH: the product of the aggregated features and the first weight. -/
theorem final0 (c : Dev nD) : (dat0 V c).arrAt 2 cfg0.N
    = Cert.LibDense.prod (V c main_v51 : S50000x128.Idx → EReal) (V c main_arg2 : S128x256.Idx → EReal) :=
  (dat0 V c).arrAt_eq_of_cover 2 _ (fun t _ => flushed0_eq V c t) cover0

end Cert.KernelIdeal.Out

end
-- ==== Proof.KerR1.lean ====
/-
  Launch 1: the column statistics of a layer, accumulated over 25 row blocks of 2000 rows.

  The two one-row outputs stay in their staging buffers from point to point and are written back once, after the last
  point. The first point zeroes them and adds its block's column sums of `h + b` and of `(h + b)²`; every later point
  adds its block's sums onto what the point before left. After point `n` they therefore hold the sums over the rows
  `0 … 2000 (n + 1) − 1`, and after the last point the sums over all 50000 rows: a sum of extended reals may be
  regrouped block by block, infinities included.
-/
import proofs.«127233_j26182120636977_2_alg».proof.Proof.Gen.KernelIdeal.Frame
import proofs.«127233_j26182120636977_2_alg».proof.Proof.KerPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzR1 : (![0, 0] : Fin 2 → Nat) = fun _ => 0 := funext fun a => by fin_cases a <;> rfl

/-! ## What each case leaves in the two accumulators -/

theorem out1A2_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond1_0 i)
    (x0 : Vec Ideal S2000x256 .f32) (x1 : Vec Ideal S1x256 .f32) :
    out1_A_2 c i arg1 harg1 arg2 harg2 arg3 harg3 arg4 harg4 hc0 x0 x1 = k1_pay4 x0 x1 (k1_pay1 (F := Ideal)) := by
  unfold out1_A_2
  rw [View.read_writes_eq_canon _ _ _ (cover1_A_2 c i arg1 harg1 arg2 harg2 arg3 harg3 arg4 harg4 hc0 x0 x1)]
  unfold kernelRun1_A
  dsimp only
  try sl_unfold_words
  rw [View.canon_cons_unit_zero hzR1]
  simp only [View.readAt_eq_ld, harg1.read_unread, harg2.read_unread, harg3.read_unread, harg4.read_unread,
    View.ld_unit_zero (S := S2000x256) hzR1, View.ld_unit_zero (S := S1x256) hzR1, View.readCov_unit_zero (S := S1x256) _ hzR1]

theorem out1A3_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond1_0 i)
    (x0 : Vec Ideal S2000x256 .f32) (x1 : Vec Ideal S1x256 .f32) :
    out1_A_3 c i arg1 harg1 arg2 harg2 arg3 harg3 arg4 harg4 hc0 x0 x1 = k1_pay5 x0 x1 (k1_pay2 (F := Ideal)) := by
  unfold out1_A_3
  rw [View.read_writes_eq_canon _ _ _ (cover1_A_3 c i arg1 harg1 arg2 harg2 arg3 harg3 arg4 harg4 hc0 x0 x1)]
  unfold kernelRun1_A
  dsimp only
  try sl_unfold_words
  rw [View.canon_cons_unit_zero hzR1]
  simp only [View.readAt_eq_ld, harg1.read_unread, harg2.read_unread, harg3.read_unread, harg4.read_unread,
    View.ld_unit_zero (S := S2000x256) hzR1, View.ld_unit_zero (S := S1x256) hzR1, View.readCov_unit_zero (S := S1x256) _ hzR1]

theorem out1B2_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond1_0 i)
    (x0 : Vec Ideal S2000x256 .f32) (x1 : Vec Ideal S1x256 .f32) (xo2 xo3 : Vec Ideal S1x256 .f32) :
    out1_B_2 c i arg1 harg1 arg2 harg2 arg3 harg3 arg4 harg4 hc0 x0 x1 xo2 xo3 = k1_pay4 x0 x1 xo2 := by
  unfold out1_B_2
  rw [View.read_writes_eq_canon _ _ _ (cover1_B_2 c i arg1 harg1 arg2 harg2 arg3 harg3 arg4 harg4 hc0 x0 x1 xo2 xo3)]
  unfold kernelRun1_B
  dsimp only
  try sl_unfold_words
  rw [View.canon_cons_unit_zero hzR1]
  simp only [View.readAt_eq_ld, harg1.read_unread, harg2.read_unread, harg3.read_unread, harg4.read_unread,
    View.ld_unit_zero (S := S2000x256) hzR1, View.ld_unit_zero (S := S1x256) hzR1, View.readCov_unit_zero (S := S1x256) _ hzR1]

theorem out1B3_eq (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond1_0 i)
    (x0 : Vec Ideal S2000x256 .f32) (x1 : Vec Ideal S1x256 .f32) (xo2 xo3 : Vec Ideal S1x256 .f32) :
    out1_B_3 c i arg1 harg1 arg2 harg2 arg3 harg3 arg4 harg4 hc0 x0 x1 xo2 xo3 = k1_pay5 x0 x1 xo3 := by
  unfold out1_B_3
  rw [View.read_writes_eq_canon _ _ _ (cover1_B_3 c i arg1 harg1 arg2 harg2 arg3 harg3 arg4 harg4 hc0 x0 x1 xo2 xo3)]
  unfold kernelRun1_B
  dsimp only
  try sl_unfold_words
  rw [View.canon_cons_unit_zero hzR1]
  simp only [View.readAt_eq_ld, harg1.read_unread, harg2.read_unread, harg3.read_unread, harg4.read_unread,
    View.ld_unit_zero (S := S2000x256) hzR1, View.ld_unit_zero (S := S1x256) hzR1, View.readCov_unit_zero (S := S1x256) _ hzR1]

/-! ## The blocks and the running sums -/

/-- The printed index maps over the grid: the row-block window sits at block `(t, 0)`, the others at `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row `ρ` of block `t` of the layer is row `2000 t + ρ` of the array the launch finds. -/
theorem blk_h1 (c : Dev nD) (t : Fin cfg1.N) (ρ : Fin 2000) (j : Fin 256) (hr : 2000 * t.val + ρ.val < 50000) :
    iblk1 V c 0 t (ix2 ρ j) = V c main_v52 (ix2 (⟨2000 * t.val + ρ.val, hr⟩ : Fin 50000) j) := by
  obtain ⟨c0a, c0b, c1a, c1b, c2a, c2b, c3a, c3b⟩ := idx_facts1 t
  show V c main_v52 (((cfg1.win 0).blk t).view.emb (ix2 ρ j)) = _
  refine congrArg (V c main_v52) (funext fun a => Fin.ext ?_)
  match a with
  | ⟨0, _⟩ => show win1_0.index t (0 : Fin 2) * 2000 + 1 * ρ.val = 2000 * t.val + ρ.val; omega
  | ⟨1, _⟩ => show win1_0.index t (1 : Fin 2) * 256 + 1 * j.val = j.val; omega

/-- The bias block is the bias row the launch finds. -/
theorem blk_b1 (c : Dev nD) (t : Fin cfg1.N) (j : Fin 256) :
    iblk1 V c 1 t (ix2 Pay.r0 j) = V c main_v30 (ix2 Pay.r0 j) := by
  obtain ⟨c0a, c0b, c1a, c1b, c2a, c2b, c3a, c3b⟩ := idx_facts1 t
  show V c main_v30 (((cfg1.win 1).blk t).view.emb (ix2 Pay.r0 j)) = _
  refine congrArg (V c main_v30) (funext fun a => Fin.ext ?_)
  match a with
  | ⟨0, _⟩ => show win1_1.index t (0 : Fin 2) * 1 + 1 * 0 = 0; omega
  | ⟨1, _⟩ => show win1_1.index t (1 : Fin 2) * 256 + 1 * j.val = j.val; omega

/-- A row of a block is a row of the array. -/
theorem row_lt1 (t : Fin cfg1.N) (ρ : Fin 2000) : 2000 * t.val + ρ.val < 50000 := by
  have hN : t.val < 25 := lt_of_lt_of_eq t.isLt (show cfg1.N = 25 from N_1)
  have := ρ.isLt; omega

/-- THE INVARIANT: after point `n` the accumulators hold the sums over the blocks `0 … n`. -/
theorem acc1 (c : Dev nD) (j : Fin 256) : ∀ (n : ℕ) (hn : n < cfg1.N),
    (outsAt1 V c n hn).1 (ix2 Pay.r0 j) = ∑ t ∈ Finset.range (n + 1), Pay.bsum (V c main_v52 : S50000x256.Idx → EReal) (V c main_v30 : S1x256.Idx → EReal) j t
    ∧ (outsAt1 V c n hn).2 (ix2 Pay.r0 j) = ∑ t ∈ Finset.range (n + 1), Pay.bsq (V c main_v52 : S50000x256.Idx → EReal) (V c main_v30 : S1x256.Idx → EReal) j t := by
  intro n
  induction n with
  | zero =>
    intro hn
    rw [outsAt1_A V c ⟨0, hn⟩ (Nat.zero_mod 25)]
    dsimp only
    rw [out1A2_eq, out1A3_eq, Finset.sum_range_one, Finset.sum_range_one]
    constructor
    · refine (Pay.pay1_4_apply (iblk1 V c 0 ⟨0, hn⟩) (iblk1 V c 1 ⟨0, hn⟩) _ j).trans ?_
      rw [Pay.pay1_1_apply, zero_add]
      unfold Pay.bsum
      exact Finset.sum_congr rfl fun ρ _ => Pay.term_of (V c main_v52 : S50000x256.Idx → EReal) (V c main_v30 : S1x256.Idx → EReal) (iblk1 V c 0 ⟨0, hn⟩) (iblk1 V c 1 ⟨0, hn⟩) j ρ _ (row_lt1 ⟨0, hn⟩ ρ) (blk_h1 V c ⟨0, hn⟩ ρ j (row_lt1 ⟨0, hn⟩ ρ)) (blk_b1 V c ⟨0, hn⟩ j)
    · refine (Pay.pay1_5_apply (iblk1 V c 0 ⟨0, hn⟩) (iblk1 V c 1 ⟨0, hn⟩) _ j).trans ?_
      rw [Pay.pay1_2_apply, zero_add]
      unfold Pay.bsq
      exact Finset.sum_congr rfl fun ρ _ => congrArg₂ (· * ·) (Pay.term_of (V c main_v52 : S50000x256.Idx → EReal) (V c main_v30 : S1x256.Idx → EReal) (iblk1 V c 0 ⟨0, hn⟩) (iblk1 V c 1 ⟨0, hn⟩) j ρ _ (row_lt1 ⟨0, hn⟩ ρ) (blk_h1 V c ⟨0, hn⟩ ρ j (row_lt1 ⟨0, hn⟩ ρ)) (blk_b1 V c ⟨0, hn⟩ j)) (Pay.term_of (V c main_v52 : S50000x256.Idx → EReal) (V c main_v30 : S1x256.Idx → EReal) (iblk1 V c 0 ⟨0, hn⟩) (iblk1 V c 1 ⟨0, hn⟩) j ρ _ (row_lt1 ⟨0, hn⟩ ρ) (blk_h1 V c ⟨0, hn⟩ ρ j (row_lt1 ⟨0, hn⟩ ρ)) (blk_b1 V c ⟨0, hn⟩ j))
  | succ n ih =>
    intro hn
    have hN : n + 1 < 25 := lt_of_lt_of_eq hn (show cfg1.N = 25 from N_1)
    obtain ⟨ih1, ih2⟩ := ih (Nat.lt_of_succ_lt hn)
    have hnz : ¬ (n + 1) % 25 = 0 := by omega
    rw [outsAt1_B V c ⟨n + 1, hn⟩ hnz]
    dsimp only
    rw [out1B2_eq, out1B3_eq, Finset.sum_range_succ _ (n + 1), Finset.sum_range_succ _ (n + 1)]
    constructor
    · refine (Pay.pay1_4_apply (iblk1 V c 0 ⟨n + 1, hn⟩) (iblk1 V c 1 ⟨n + 1, hn⟩) _ j).trans ?_
      refine congrArg₂ (· + ·) ih1 ?_
      unfold Pay.bsum
      exact Finset.sum_congr rfl fun ρ _ => Pay.term_of (V c main_v52 : S50000x256.Idx → EReal) (V c main_v30 : S1x256.Idx → EReal) (iblk1 V c 0 ⟨n + 1, hn⟩) (iblk1 V c 1 ⟨n + 1, hn⟩) j ρ _ (row_lt1 ⟨n + 1, hn⟩ ρ) (blk_h1 V c ⟨n + 1, hn⟩ ρ j (row_lt1 ⟨n + 1, hn⟩ ρ)) (blk_b1 V c ⟨n + 1, hn⟩ j)
    · refine (Pay.pay1_5_apply (iblk1 V c 0 ⟨n + 1, hn⟩) (iblk1 V c 1 ⟨n + 1, hn⟩) _ j).trans ?_
      refine congrArg₂ (· + ·) ih2 ?_
      unfold Pay.bsq
      exact Finset.sum_congr rfl fun ρ _ => congrArg₂ (· * ·) (Pay.term_of (V c main_v52 : S50000x256.Idx → EReal) (V c main_v30 : S1x256.Idx → EReal) (iblk1 V c 0 ⟨n + 1, hn⟩) (iblk1 V c 1 ⟨n + 1, hn⟩) j ρ _ (row_lt1 ⟨n + 1, hn⟩ ρ) (blk_h1 V c ⟨n + 1, hn⟩ ρ j (row_lt1 ⟨n + 1, hn⟩ ρ)) (blk_b1 V c ⟨n + 1, hn⟩ j)) (Pay.term_of (V c main_v52 : S50000x256.Idx → EReal) (V c main_v30 : S1x256.Idx → EReal) (iblk1 V c 0 ⟨n + 1, hn⟩) (iblk1 V c 1 ⟨n + 1, hn⟩) j ρ _ (row_lt1 ⟨n + 1, hn⟩ ρ) (blk_h1 V c ⟨n + 1, hn⟩ ρ j (row_lt1 ⟨n + 1, hn⟩ ρ)) (blk_b1 V c ⟨n + 1, hn⟩ j))

/-- After the last point: the column sums over all the rows. -/
theorem acc_last1 (c : Dev nD) (j : Fin 256) (t : Fin cfg1.N) (h24 : t.val = 24) :
    (outsAt1 V c t.val t.isLt).1 (ix2 Pay.r0 j) = Pay.colSum (V c main_v52 : S50000x256.Idx → EReal) (V c main_v30 : S1x256.Idx → EReal) (ix2 Pay.r0 j)
    ∧ (outsAt1 V c t.val t.isLt).2 (ix2 Pay.r0 j) = Pay.colSumSq (V c main_v52 : S50000x256.Idx → EReal) (V c main_v30 : S1x256.Idx → EReal) (ix2 Pay.r0 j) := by
  obtain ⟨h1, h2⟩ := acc1 V c j t.val t.isLt
  exact ⟨h1.trans ((congrArg (fun n => ∑ t' ∈ Finset.range (n + 1), Pay.bsum (V c main_v52 : S50000x256.Idx → EReal) (V c main_v30 : S1x256.Idx → EReal) j t') h24).trans (Pay.bsum_total _ _ j)),
    h2.trans ((congrArg (fun n => ∑ t' ∈ Finset.range (n + 1), Pay.bsq (V c main_v52 : S50000x256.Idx → EReal) (V c main_v30 : S1x256.Idx → EReal) j t') h24).trans (Pay.bsq_total _ _ j))⟩

/-! ## The write-back and the arrays after the launch -/

theorem mem_blk1_2 (t : Fin cfg1.N) (i : S1x256.Idx) : i ∈ ((cfg1.win 2).blk t).view.set := by
  obtain ⟨c0a, c0b, c1a, c1b, c2a, c2b, c3a, c3b⟩ := idx_facts1 t
  have h0 : (i 0).val < 1 := (i 0).isLt
  have h1 : (i 1).val < 256 := (i 1).isLt
  show i ∈ ((View.whole main_v53_0).slice (win1_2.rect t)).set
  rw [View.set_slice_whole, Rect.mem_set_unit]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 256 ≤ (i 1).val ∧ (i 1).val < win1_2.index t (1 : Fin 2) * 256 + 256; omega
theorem mem_blk1_3 (t : Fin cfg1.N) (i : S1x256.Idx) : i ∈ ((cfg1.win 3).blk t).view.set := by
  obtain ⟨c0a, c0b, c1a, c1b, c2a, c2b, c3a, c3b⟩ := idx_facts1 t
  have h0 : (i 0).val < 1 := (i 0).isLt
  have h1 : (i 1).val < 256 := (i 1).isLt
  show i ∈ ((View.whole main_v53_1).slice (win1_3.rect t)).set
  rw [View.set_slice_whole, Rect.mem_set_unit]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 256 ≤ (i 1).val ∧ (i 1).val < win1_3.index t (1 : Fin 2) * 256 + 256; omega

/-- The one write-back of output 2, after the last point. -/
theorem flushed1_2_eq (c : Dev nD) (t : Fin cfg1.N) (hf : (cfg1.win 2).flush t = true) :
    (dat1 V c).flushed 2 t = ((cfg1.win 2).blk t).view.read (Elt Ideal) (Pay.colSum (V c main_v52 : S50000x256.Idx → EReal) (V c main_v30 : S1x256.Idx → EReal)) := by
  have hN : cfg1.N = 25 := N_1
  have h24 : t.val = 24 := by have := (flush1_2 t).mp hf; have := t.isLt; omega
  obtain ⟨c0a, c0b, c1a, c1b, c2a, c2b, c3a, c3b⟩ := idx_facts1 t
  show (cfg1.win 2).cut (grid1.coords t) ((dat1 V c).after 2 t) = _
  rw [after1_2]
  have e : (outsAt1 V c t.val t.isLt).1 = Pay.colSum (V c main_v52 : S50000x256.Idx → EReal) (V c main_v30 : S1x256.Idx → EReal) := funext fun y => by
    obtain ⟨p, q, rfl⟩ : ∃ (p : Fin 1) (q : Fin 256), y = ix2 p q := ⟨y 0, y 1, eq_ix2 y⟩
    obtain rfl : p = Pay.r0 := Subsingleton.elim _ _
    exact (acc_last1 V c q t h24).1
  rw [e]
  have hz' : (fun a => win1_2.index t a * main_v53_0.ty.shape.size a) = fun _ => 0 := funext fun a => by
    match a with
    | ⟨0, _⟩ => show win1_2.index t (0 : Fin 2) * 1 = 0; omega
    | ⟨1, _⟩ => show win1_2.index t (1 : Fin 2) * 256 = 0; omega
  exact (Memref.read_access_unit_zero (Elt Ideal) main_v53_0 hz' (fun a => by rw [congrFun hz' a]; simp) (Pay.colSum (V c main_v52 : S50000x256.Idx → EReal) (V c main_v30 : S1x256.Idx → EReal))).symm

/-- The one write-back of output 3, after the last point. -/
theorem flushed1_3_eq (c : Dev nD) (t : Fin cfg1.N) (hf : (cfg1.win 3).flush t = true) :
    (dat1 V c).flushed 3 t = ((cfg1.win 3).blk t).view.read (Elt Ideal) (Pay.colSumSq (V c main_v52 : S50000x256.Idx → EReal) (V c main_v30 : S1x256.Idx → EReal)) := by
  have hN : cfg1.N = 25 := N_1
  have h24 : t.val = 24 := by have := (flush1_3 t).mp hf; have := t.isLt; omega
  obtain ⟨c0a, c0b, c1a, c1b, c2a, c2b, c3a, c3b⟩ := idx_facts1 t
  show (cfg1.win 3).cut (grid1.coords t) ((dat1 V c).after 3 t) = _
  rw [after1_3]
  have e : (outsAt1 V c t.val t.isLt).2 = Pay.colSumSq (V c main_v52 : S50000x256.Idx → EReal) (V c main_v30 : S1x256.Idx → EReal) := funext fun y => by
    obtain ⟨p, q, rfl⟩ : ∃ (p : Fin 1) (q : Fin 256), y = ix2 p q := ⟨y 0, y 1, eq_ix2 y⟩
    obtain rfl : p = Pay.r0 := Subsingleton.elim _ _
    exact (acc_last1 V c q t h24).2
  rw [e]
  have hz' : (fun a => win1_3.index t a * main_v53_1.ty.shape.size a) = fun _ => 0 := funext fun a => by
    match a with
    | ⟨0, _⟩ => show win1_3.index t (0 : Fin 2) * 1 = 0; omega
    | ⟨1, _⟩ => show win1_3.index t (1 : Fin 2) * 256 = 0; omega
  exact (Memref.read_access_unit_zero (Elt Ideal) main_v53_1 hz' (fun a => by rw [congrFun hz' a]; simp) (Pay.colSumSq (V c main_v52 : S50000x256.Idx → EReal) (V c main_v30 : S1x256.Idx → EReal))).symm

/-- THE RESULTS OF LAUNCH 1: the column sums of `h + b` and of its square over all the rows. -/
theorem final1_2 (c : Dev nD) : (dat1 V c).arrAt 2 cfg1.N = Pay.colSum (V c main_v52 : S50000x256.Idx → EReal) (V c main_v30 : S1x256.Idx → EReal) :=
  (dat1 V c).arrAt_eq_of_cover 2 _ (fun t hf => flushed1_2_eq V c t hf)
    (fun i => ⟨⟨24, by rw [show cfg1.N = 25 from N_1]; decide⟩, (flush1_2 _).mpr (by decide), mem_blk1_2 _ i⟩)
theorem final1_3 (c : Dev nD) : (dat1 V c).arrAt 3 cfg1.N = Pay.colSumSq (V c main_v52 : S50000x256.Idx → EReal) (V c main_v30 : S1x256.Idx → EReal) :=
  (dat1 V c).arrAt_eq_of_cover 3 _ (fun t hf => flushed1_3_eq V c t hf)
    (fun i => ⟨⟨24, by rw [show cfg1.N = 25 from N_1]; decide⟩, (flush1_3 _).mpr (by decide), mem_blk1_3 _ i⟩)

end Cert.KernelIdeal.Out

end
-- ==== Proof.KerR2.lean ====
/-
  Launch 2: the normalisation of a layer fused with the next projection, 25 row blocks of 2000 rows.

  Point `t` reads rows `2000 t …` of the layer's pre-activation `h`, and whole the bias, mean, variance, scale and shift rows
  and the next weight; it writes rows `2000 t …` of the projected activation. The blocks tile the result, which ends as
  `∑ k, max (((h + b) − μ) · (1/√(max v 0 + ε)) · g + β) 0 (r, k) · W (k, o)` at every entry, whatever contents the launch finds.
-/
import proofs.«127233_j26182120636977_2_alg».proof.Proof.Gen.KernelIdeal.Frame
import proofs.«127233_j26182120636977_2_alg».proof.Proof.KerPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-block windows sit at block `(t, 0)`, the others at `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

set_option maxHeartbeats 1000000 in
/-- What point `t` writes back is block `t` of the whole-array function of the arrays as the launch finds them. -/
theorem flushed2_eq (c : Dev nD) (t : Fin cfg2.N) :
    (dat2 V c).flushed 7 t = ((cfg2.win 7).blk t).view.read (Elt Ideal) (Pay.normProj (C := 256) (V c main_v52 : S50000x256.Idx → EReal) (V c main_v30 : S1x256.Idx → EReal) (V c main_v55 : S1x256.Idx → EReal) (V c main_v61 : S1x256.Idx → EReal) (V c main_v31 : S1x256.Idx → EReal) (V c main_v32 : S1x256.Idx → EReal) (V c main_arg6 : S256x256.Idx → EReal)) := by
  show (cfg2.win 7).cut (grid2.coords t) ((dat2 V c).after 7 t) = _
  rw [after2_7]
  unfold out2_7
  rw [View.canon_unit_zero hz2]
  simp only [View.ld_unit_zero (S := S2000x256) hz2, View.ld_unit_zero (S := S1x256) hz2, View.ld_unit_zero (S := S256x256) hz2]
  obtain ⟨c0a, c0b, c1a, c1b, c2a, c2b, c3a, c3b, c4a, c4b, c5a, c5b, c6a, c6b, c7a, c7b⟩ := idx_facts2 t
  funext j
  obtain ⟨p, q, rfl⟩ : ∃ (p : Fin 2000) (q : Fin 256), j = ix2 p q := ⟨j 0, j 1, eq_ix2 j⟩
  refine (Pay.pay2_apply (iblk2 V c 0 t) (iblk2 V c 1 t) (iblk2 V c 3 t) (iblk2 V c 2 t) (iblk2 V c 4 t) (iblk2 V c 5 t) (iblk2 V c 6 t) p q).trans ?_
  show _ = Pay.normProj _ _ _ _ _ _ _ (((cfg2.win 7).blk t).view.emb (ix2 p q))
  unfold Pay.normProj
  refine Finset.sum_congr rfl fun k _ => ?_
  have hh : iblk2 V c 0 t (ix2 p k) = V c main_v52 (ix2 ((((cfg2.win 7).blk t).view.emb (ix2 p q)) 0) k) := by
    show V c main_v52 (((cfg2.win 0).blk t).view.emb (ix2 p k)) = _
    refine congrArg (V c main_v52) (funext fun a => Fin.ext ?_)
    match a with
    | ⟨0, _⟩ => show win2_0.index t (0 : Fin 2) * 2000 + 1 * p.val = win2_7.index t (0 : Fin 2) * 2000 + 1 * p.val; omega
    | ⟨1, _⟩ => show win2_0.index t (1 : Fin 2) * 256 + 1 * k.val = k.val; omega
  have hb : iblk2 V c 1 t (ix2 Pay.r0 k) = V c main_v30 (ix2 Pay.r0 k) := by
    show V c main_v30 (((cfg2.win 1).blk t).view.emb (ix2 Pay.r0 k)) = _
    refine congrArg (V c main_v30) (funext fun a => Fin.ext ?_)
    match a with
    | ⟨0, _⟩ => show win2_1.index t (0 : Fin 2) * 1 + 1 * _ = _; rw [c1a]; simp
    | ⟨1, _⟩ => show win2_1.index t (1 : Fin 2) * 256 + 1 * _ = _; rw [c1b]; simp
  have hm : iblk2 V c 2 t (ix2 Pay.r0 k) = V c main_v55 (ix2 Pay.r0 k) := by
    show V c main_v55 (((cfg2.win 2).blk t).view.emb (ix2 Pay.r0 k)) = _
    refine congrArg (V c main_v55) (funext fun a => Fin.ext ?_)
    match a with
    | ⟨0, _⟩ => show win2_2.index t (0 : Fin 2) * 1 + 1 * _ = _; rw [c2a]; simp
    | ⟨1, _⟩ => show win2_2.index t (1 : Fin 2) * 256 + 1 * _ = _; rw [c2b]; simp
  have hv : iblk2 V c 3 t (ix2 Pay.r0 k) = V c main_v61 (ix2 Pay.r0 k) := by
    show V c main_v61 (((cfg2.win 3).blk t).view.emb (ix2 Pay.r0 k)) = _
    refine congrArg (V c main_v61) (funext fun a => Fin.ext ?_)
    match a with
    | ⟨0, _⟩ => show win2_3.index t (0 : Fin 2) * 1 + 1 * _ = _; rw [c3a]; simp
    | ⟨1, _⟩ => show win2_3.index t (1 : Fin 2) * 256 + 1 * _ = _; rw [c3b]; simp
  have hg : iblk2 V c 4 t (ix2 Pay.r0 k) = V c main_v31 (ix2 Pay.r0 k) := by
    show V c main_v31 (((cfg2.win 4).blk t).view.emb (ix2 Pay.r0 k)) = _
    refine congrArg (V c main_v31) (funext fun a => Fin.ext ?_)
    match a with
    | ⟨0, _⟩ => show win2_4.index t (0 : Fin 2) * 1 + 1 * _ = _; rw [c4a]; simp
    | ⟨1, _⟩ => show win2_4.index t (1 : Fin 2) * 256 + 1 * _ = _; rw [c4b]; simp
  have he : iblk2 V c 5 t (ix2 Pay.r0 k) = V c main_v32 (ix2 Pay.r0 k) := by
    show V c main_v32 (((cfg2.win 5).blk t).view.emb (ix2 Pay.r0 k)) = _
    refine congrArg (V c main_v32) (funext fun a => Fin.ext ?_)
    match a with
    | ⟨0, _⟩ => show win2_5.index t (0 : Fin 2) * 1 + 1 * _ = _; rw [c5a]; simp
    | ⟨1, _⟩ => show win2_5.index t (1 : Fin 2) * 256 + 1 * _ = _; rw [c5b]; simp
  have hw : iblk2 V c 6 t (ix2 k q) = V c main_arg6 (ix2 k ((((cfg2.win 7).blk t).view.emb (ix2 p q)) 1)) := by
    show V c main_arg6 (((cfg2.win 6).blk t).view.emb (ix2 k q)) = _
    refine congrArg (V c main_arg6) (funext fun a => Fin.ext ?_)
    match a with
    | ⟨0, _⟩ => show win2_6.index t (0 : Fin 2) * 256 + 1 * k.val = k.val; omega
    | ⟨1, _⟩ => show win2_6.index t (1 : Fin 2) * 256 + 1 * q.val = win2_7.index t (1 : Fin 2) * 256 + 1 * q.val; omega
  rw [hh, hb, hm, hv, hg, he, hw]

/-- An index of the result is in point `t`'s block iff each coordinate is in the block's range on its axis. -/
theorem mem_blk2 (t : Fin cfg2.N) (i : S50000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v62).slice (win2_7.rect t)).set ↔ _
  rw [View.set_slice_whole, Rect.mem_set_unit]
  exact Iff.rfl

/-- Every entry of the result lies in the block of the point its row selects. -/
theorem cover2 (i : S50000x256.Idx) : ∃ t : Fin cfg2.N, (cfg2.win 7).flush t = true ∧ i ∈ ((cfg2.win 7).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_7 _, ?_⟩
  rw [mem_blk2]
  obtain ⟨c0a, c0b, c1a, c1b, c2a, c2b, c3a, c3b, c4a, c4b, c5a, c5b, c6a, c6b, c7a, c7b⟩ := idx_facts2 ⟨(i 0).val / 2000, by rw [hN]; omega⟩
  intro a
  match a with
  | ⟨0, _⟩ => show win2_7.index _ (0 : Fin 2) * 2000 ≤ (i 0).val ∧ (i 0).val < win2_7.index _ (0 : Fin 2) * 2000 + 2000; rw [c7a]; dsimp only; omega
  | ⟨1, _⟩ => show win2_7.index _ (1 : Fin 2) * 256 ≤ (i 1).val ∧ (i 1).val < win2_7.index _ (1 : Fin 2) * 256 + 256; rw [c7b]; omega

/-- THE RESULT OF LAUNCH 2. -/
theorem final2 (c : Dev nD) : (dat2 V c).arrAt 7 cfg2.N = (Pay.normProj (C := 256) (V c main_v52 : S50000x256.Idx → EReal) (V c main_v30 : S1x256.Idx → EReal) (V c main_v55 : S1x256.Idx → EReal) (V c main_v61 : S1x256.Idx → EReal) (V c main_v31 : S1x256.Idx → EReal) (V c main_v32 : S1x256.Idx → EReal) (V c main_arg6 : S256x256.Idx → EReal)) :=
  (dat2 V c).arrAt_eq_of_cover 7 _ (fun t _ => flushed2_eq V c t) cover2

end Cert.KernelIdeal.Out

end
-- ==== Proof.KerR3.lean ====
/-
  Launch 3: the column statistics of a layer, accumulated over 25 row blocks of 2000 rows.

  The two one-row outputs stay in their staging buffers from point to point and are written back once, after the last
  point. The first point zeroes them and adds its block's column sums of `h + b` and of `(h + b)²`; every later point
  adds its block's sums onto what the point before left. After point `n` they therefore hold the sums over the rows
  `0 … 2000 (n + 1) − 1`, and after the last point the sums over all 50000 rows: a sum of extended reals may be
  regrouped block by block, infinities included.
-/
import proofs.«127233_j26182120636977_2_alg».proof.Proof.Gen.KernelIdeal.Frame
import proofs.«127233_j26182120636977_2_alg».proof.Proof.KerPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hzR3 : (![0, 0] : Fin 2 → Nat) = fun _ => 0 := funext fun a => by fin_cases a <;> rfl

/-! ## What each case leaves in the two accumulators -/

theorem out3A2_eq (c : Dev nD) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond3_0 i)
    (x0 : Vec Ideal S2000x256 .f32) (x1 : Vec Ideal S1x256 .f32) :
    out3_A_2 c i arg1 harg1 arg2 harg2 arg3 harg3 arg4 harg4 hc0 x0 x1 = k3_pay4 x0 x1 (k3_pay1 (F := Ideal)) := by
  unfold out3_A_2
  rw [View.read_writes_eq_canon _ _ _ (cover3_A_2 c i arg1 harg1 arg2 harg2 arg3 harg3 arg4 harg4 hc0 x0 x1)]
  unfold kernelRun3_A
  dsimp only
  try sl_unfold_words
  rw [View.canon_cons_unit_zero hzR3]
  simp only [View.readAt_eq_ld, harg1.read_unread, harg2.read_unread, harg3.read_unread, harg4.read_unread,
    View.ld_unit_zero (S := S2000x256) hzR3, View.ld_unit_zero (S := S1x256) hzR3, View.readCov_unit_zero (S := S1x256) _ hzR3]

theorem out3A3_eq (c : Dev nD) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond3_0 i)
    (x0 : Vec Ideal S2000x256 .f32) (x1 : Vec Ideal S1x256 .f32) :
    out3_A_3 c i arg1 harg1 arg2 harg2 arg3 harg3 arg4 harg4 hc0 x0 x1 = k3_pay5 x0 x1 (k3_pay2 (F := Ideal)) := by
  unfold out3_A_3
  rw [View.read_writes_eq_canon _ _ _ (cover3_A_3 c i arg1 harg1 arg2 harg2 arg3 harg3 arg4 harg4 hc0 x0 x1)]
  unfold kernelRun3_A
  dsimp only
  try sl_unfold_words
  rw [View.canon_cons_unit_zero hzR3]
  simp only [View.readAt_eq_ld, harg1.read_unread, harg2.read_unread, harg3.read_unread, harg4.read_unread,
    View.ld_unit_zero (S := S2000x256) hzR3, View.ld_unit_zero (S := S1x256) hzR3, View.readCov_unit_zero (S := S1x256) _ hzR3]

theorem out3B2_eq (c : Dev nD) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond3_0 i)
    (x0 : Vec Ideal S2000x256 .f32) (x1 : Vec Ideal S1x256 .f32) (xo2 xo3 : Vec Ideal S1x256 .f32) :
    out3_B_2 c i arg1 harg1 arg2 harg2 arg3 harg3 arg4 harg4 hc0 x0 x1 xo2 xo3 = k3_pay4 x0 x1 xo2 := by
  unfold out3_B_2
  rw [View.read_writes_eq_canon _ _ _ (cover3_B_2 c i arg1 harg1 arg2 harg2 arg3 harg3 arg4 harg4 hc0 x0 x1 xo2 xo3)]
  unfold kernelRun3_B
  dsimp only
  try sl_unfold_words
  rw [View.canon_cons_unit_zero hzR3]
  simp only [View.readAt_eq_ld, harg1.read_unread, harg2.read_unread, harg3.read_unread, harg4.read_unread,
    View.ld_unit_zero (S := S2000x256) hzR3, View.ld_unit_zero (S := S1x256) hzR3, View.readCov_unit_zero (S := S1x256) _ hzR3]

theorem out3B3_eq (c : Dev nD) (i : grid3.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond3_0 i)
    (x0 : Vec Ideal S2000x256 .f32) (x1 : Vec Ideal S1x256 .f32) (xo2 xo3 : Vec Ideal S1x256 .f32) :
    out3_B_3 c i arg1 harg1 arg2 harg2 arg3 harg3 arg4 harg4 hc0 x0 x1 xo2 xo3 = k3_pay5 x0 x1 xo3 := by
  unfold out3_B_3
  rw [View.read_writes_eq_canon _ _ _ (cover3_B_3 c i arg1 harg1 arg2 harg2 arg3 harg3 arg4 harg4 hc0 x0 x1 xo2 xo3)]
  unfold kernelRun3_B
  dsimp only
  try sl_unfold_words
  rw [View.canon_cons_unit_zero hzR3]
  simp only [View.readAt_eq_ld, harg1.read_unread, harg2.read_unread, harg3.read_unread, harg4.read_unread,
    View.ld_unit_zero (S := S2000x256) hzR3, View.ld_unit_zero (S := S1x256) hzR3, View.readCov_unit_zero (S := S1x256) _ hzR3]

/-! ## The blocks and the running sums -/

/-- The printed index maps over the grid: the row-block window sits at block `(t, 0)`, the others at `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- Row `ρ` of block `t` of the layer is row `2000 t + ρ` of the array the launch finds. -/
theorem blk_h3 (c : Dev nD) (t : Fin cfg3.N) (ρ : Fin 2000) (j : Fin 256) (hr : 2000 * t.val + ρ.val < 50000) :
    iblk3 V c 0 t (ix2 ρ j) = V c main_v76 (ix2 (⟨2000 * t.val + ρ.val, hr⟩ : Fin 50000) j) := by
  obtain ⟨c0a, c0b, c1a, c1b, c2a, c2b, c3a, c3b⟩ := idx_facts3 t
  show V c main_v76 (((cfg3.win 0).blk t).view.emb (ix2 ρ j)) = _
  refine congrArg (V c main_v76) (funext fun a => Fin.ext ?_)
  match a with
  | ⟨0, _⟩ => show win3_0.index t (0 : Fin 2) * 2000 + 1 * ρ.val = 2000 * t.val + ρ.val; omega
  | ⟨1, _⟩ => show win3_0.index t (1 : Fin 2) * 256 + 1 * j.val = j.val; omega

/-- The bias block is the bias row the launch finds. -/
theorem blk_b3 (c : Dev nD) (t : Fin cfg3.N) (j : Fin 256) :
    iblk3 V c 1 t (ix2 Pay.r0 j) = V c main_v33 (ix2 Pay.r0 j) := by
  obtain ⟨c0a, c0b, c1a, c1b, c2a, c2b, c3a, c3b⟩ := idx_facts3 t
  show V c main_v33 (((cfg3.win 1).blk t).view.emb (ix2 Pay.r0 j)) = _
  refine congrArg (V c main_v33) (funext fun a => Fin.ext ?_)
  match a with
  | ⟨0, _⟩ => show win3_1.index t (0 : Fin 2) * 1 + 1 * 0 = 0; omega
  | ⟨1, _⟩ => show win3_1.index t (1 : Fin 2) * 256 + 1 * j.val = j.val; omega

/-- A row of a block is a row of the array. -/
theorem row_lt3 (t : Fin cfg3.N) (ρ : Fin 2000) : 2000 * t.val + ρ.val < 50000 := by
  have hN : t.val < 25 := lt_of_lt_of_eq t.isLt (show cfg3.N = 25 from N_3)
  have := ρ.isLt; omega

/-- THE INVARIANT: after point `n` the accumulators hold the sums over the blocks `0 … n`. -/
theorem acc3 (c : Dev nD) (j : Fin 256) : ∀ (n : ℕ) (hn : n < cfg3.N),
    (outsAt3 V c n hn).1 (ix2 Pay.r0 j) = ∑ t ∈ Finset.range (n + 1), Pay.bsum (V c main_v76 : S50000x256.Idx → EReal) (V c main_v33 : S1x256.Idx → EReal) j t
    ∧ (outsAt3 V c n hn).2 (ix2 Pay.r0 j) = ∑ t ∈ Finset.range (n + 1), Pay.bsq (V c main_v76 : S50000x256.Idx → EReal) (V c main_v33 : S1x256.Idx → EReal) j t := by
  intro n
  induction n with
  | zero =>
    intro hn
    rw [outsAt3_A V c ⟨0, hn⟩ (Nat.zero_mod 25)]
    dsimp only
    rw [out3A2_eq, out3A3_eq, Finset.sum_range_one, Finset.sum_range_one]
    constructor
    · refine (Pay.pay3_4_apply (iblk3 V c 0 ⟨0, hn⟩) (iblk3 V c 1 ⟨0, hn⟩) _ j).trans ?_
      rw [Pay.pay3_1_apply, zero_add]
      unfold Pay.bsum
      exact Finset.sum_congr rfl fun ρ _ => Pay.term_of (V c main_v76 : S50000x256.Idx → EReal) (V c main_v33 : S1x256.Idx → EReal) (iblk3 V c 0 ⟨0, hn⟩) (iblk3 V c 1 ⟨0, hn⟩) j ρ _ (row_lt3 ⟨0, hn⟩ ρ) (blk_h3 V c ⟨0, hn⟩ ρ j (row_lt3 ⟨0, hn⟩ ρ)) (blk_b3 V c ⟨0, hn⟩ j)
    · refine (Pay.pay3_5_apply (iblk3 V c 0 ⟨0, hn⟩) (iblk3 V c 1 ⟨0, hn⟩) _ j).trans ?_
      rw [Pay.pay3_2_apply, zero_add]
      unfold Pay.bsq
      exact Finset.sum_congr rfl fun ρ _ => congrArg₂ (· * ·) (Pay.term_of (V c main_v76 : S50000x256.Idx → EReal) (V c main_v33 : S1x256.Idx → EReal) (iblk3 V c 0 ⟨0, hn⟩) (iblk3 V c 1 ⟨0, hn⟩) j ρ _ (row_lt3 ⟨0, hn⟩ ρ) (blk_h3 V c ⟨0, hn⟩ ρ j (row_lt3 ⟨0, hn⟩ ρ)) (blk_b3 V c ⟨0, hn⟩ j)) (Pay.term_of (V c main_v76 : S50000x256.Idx → EReal) (V c main_v33 : S1x256.Idx → EReal) (iblk3 V c 0 ⟨0, hn⟩) (iblk3 V c 1 ⟨0, hn⟩) j ρ _ (row_lt3 ⟨0, hn⟩ ρ) (blk_h3 V c ⟨0, hn⟩ ρ j (row_lt3 ⟨0, hn⟩ ρ)) (blk_b3 V c ⟨0, hn⟩ j))
  | succ n ih =>
    intro hn
    have hN : n + 1 < 25 := lt_of_lt_of_eq hn (show cfg3.N = 25 from N_3)
    obtain ⟨ih1, ih2⟩ := ih (Nat.lt_of_succ_lt hn)
    have hnz : ¬ (n + 1) % 25 = 0 := by omega
    rw [outsAt3_B V c ⟨n + 1, hn⟩ hnz]
    dsimp only
    rw [out3B2_eq, out3B3_eq, Finset.sum_range_succ _ (n + 1), Finset.sum_range_succ _ (n + 1)]
    constructor
    · refine (Pay.pay3_4_apply (iblk3 V c 0 ⟨n + 1, hn⟩) (iblk3 V c 1 ⟨n + 1, hn⟩) _ j).trans ?_
      refine congrArg₂ (· + ·) ih1 ?_
      unfold Pay.bsum
      exact Finset.sum_congr rfl fun ρ _ => Pay.term_of (V c main_v76 : S50000x256.Idx → EReal) (V c main_v33 : S1x256.Idx → EReal) (iblk3 V c 0 ⟨n + 1, hn⟩) (iblk3 V c 1 ⟨n + 1, hn⟩) j ρ _ (row_lt3 ⟨n + 1, hn⟩ ρ) (blk_h3 V c ⟨n + 1, hn⟩ ρ j (row_lt3 ⟨n + 1, hn⟩ ρ)) (blk_b3 V c ⟨n + 1, hn⟩ j)
    · refine (Pay.pay3_5_apply (iblk3 V c 0 ⟨n + 1, hn⟩) (iblk3 V c 1 ⟨n + 1, hn⟩) _ j).trans ?_
      refine congrArg₂ (· + ·) ih2 ?_
      unfold Pay.bsq
      exact Finset.sum_congr rfl fun ρ _ => congrArg₂ (· * ·) (Pay.term_of (V c main_v76 : S50000x256.Idx → EReal) (V c main_v33 : S1x256.Idx → EReal) (iblk3 V c 0 ⟨n + 1, hn⟩) (iblk3 V c 1 ⟨n + 1, hn⟩) j ρ _ (row_lt3 ⟨n + 1, hn⟩ ρ) (blk_h3 V c ⟨n + 1, hn⟩ ρ j (row_lt3 ⟨n + 1, hn⟩ ρ)) (blk_b3 V c ⟨n + 1, hn⟩ j)) (Pay.term_of (V c main_v76 : S50000x256.Idx → EReal) (V c main_v33 : S1x256.Idx → EReal) (iblk3 V c 0 ⟨n + 1, hn⟩) (iblk3 V c 1 ⟨n + 1, hn⟩) j ρ _ (row_lt3 ⟨n + 1, hn⟩ ρ) (blk_h3 V c ⟨n + 1, hn⟩ ρ j (row_lt3 ⟨n + 1, hn⟩ ρ)) (blk_b3 V c ⟨n + 1, hn⟩ j))

/-- After the last point: the column sums over all the rows. -/
theorem acc_last3 (c : Dev nD) (j : Fin 256) (t : Fin cfg3.N) (h24 : t.val = 24) :
    (outsAt3 V c t.val t.isLt).1 (ix2 Pay.r0 j) = Pay.colSum (V c main_v76 : S50000x256.Idx → EReal) (V c main_v33 : S1x256.Idx → EReal) (ix2 Pay.r0 j)
    ∧ (outsAt3 V c t.val t.isLt).2 (ix2 Pay.r0 j) = Pay.colSumSq (V c main_v76 : S50000x256.Idx → EReal) (V c main_v33 : S1x256.Idx → EReal) (ix2 Pay.r0 j) := by
  obtain ⟨h1, h2⟩ := acc3 V c j t.val t.isLt
  exact ⟨h1.trans ((congrArg (fun n => ∑ t' ∈ Finset.range (n + 1), Pay.bsum (V c main_v76 : S50000x256.Idx → EReal) (V c main_v33 : S1x256.Idx → EReal) j t') h24).trans (Pay.bsum_total _ _ j)),
    h2.trans ((congrArg (fun n => ∑ t' ∈ Finset.range (n + 1), Pay.bsq (V c main_v76 : S50000x256.Idx → EReal) (V c main_v33 : S1x256.Idx → EReal) j t') h24).trans (Pay.bsq_total _ _ j))⟩

/-! ## The write-back and the arrays after the launch -/

theorem mem_blk3_2 (t : Fin cfg3.N) (i : S1x256.Idx) : i ∈ ((cfg3.win 2).blk t).view.set := by
  obtain ⟨c0a, c0b, c1a, c1b, c2a, c2b, c3a, c3b⟩ := idx_facts3 t
  have h0 : (i 0).val < 1 := (i 0).isLt
  have h1 : (i 1).val < 256 := (i 1).isLt
  show i ∈ ((View.whole main_v77_0).slice (win3_2.rect t)).set
  rw [View.set_slice_whole, Rect.mem_set_unit]
  intro a
  match a with
  | ⟨0, _⟩ => show win3_2.index t (0 : Fin 2) * 1 ≤ (i 0).val ∧ (i 0).val < win3_2.index t (0 : Fin 2) * 1 + 1; omega
  | ⟨1, _⟩ => show win3_2.index t (1 : Fin 2) * 256 ≤ (i 1).val ∧ (i 1).val < win3_2.index t (1 : Fin 2) * 256 + 256; omega
theorem mem_blk3_3 (t : Fin cfg3.N) (i : S1x256.Idx) : i ∈ ((cfg3.win 3).blk t).view.set := by
  obtain ⟨c0a, c0b, c1a, c1b, c2a, c2b, c3a, c3b⟩ := idx_facts3 t
  have h0 : (i 0).val < 1 := (i 0).isLt
  have h1 : (i 1).val < 256 := (i 1).isLt
  show i ∈ ((View.whole main_v77_1).slice (win3_3.rect t)).set
  rw [View.set_slice_whole, Rect.mem_set_unit]
  intro a
  match a with
  | ⟨0, _⟩ => show win3_3.index t (0 : Fin 2) * 1 ≤ (i 0).val ∧ (i 0).val < win3_3.index t (0 : Fin 2) * 1 + 1; omega
  | ⟨1, _⟩ => show win3_3.index t (1 : Fin 2) * 256 ≤ (i 1).val ∧ (i 1).val < win3_3.index t (1 : Fin 2) * 256 + 256; omega

/-- The one write-back of output 2, after the last point. -/
theorem flushed3_2_eq (c : Dev nD) (t : Fin cfg3.N) (hf : (cfg3.win 2).flush t = true) :
    (dat3 V c).flushed 2 t = ((cfg3.win 2).blk t).view.read (Elt Ideal) (Pay.colSum (V c main_v76 : S50000x256.Idx → EReal) (V c main_v33 : S1x256.Idx → EReal)) := by
  have hN : cfg3.N = 25 := N_3
  have h24 : t.val = 24 := by have := (flush3_2 t).mp hf; have := t.isLt; omega
  obtain ⟨c0a, c0b, c1a, c1b, c2a, c2b, c3a, c3b⟩ := idx_facts3 t
  show (cfg3.win 2).cut (grid3.coords t) ((dat3 V c).after 2 t) = _
  rw [after3_2]
  have e : (outsAt3 V c t.val t.isLt).1 = Pay.colSum (V c main_v76 : S50000x256.Idx → EReal) (V c main_v33 : S1x256.Idx → EReal) := funext fun y => by
    obtain ⟨p, q, rfl⟩ : ∃ (p : Fin 1) (q : Fin 256), y = ix2 p q := ⟨y 0, y 1, eq_ix2 y⟩
    obtain rfl : p = Pay.r0 := Subsingleton.elim _ _
    exact (acc_last3 V c q t h24).1
  rw [e]
  have hz' : (fun a => win3_2.index t a * main_v77_0.ty.shape.size a) = fun _ => 0 := funext fun a => by
    match a with
    | ⟨0, _⟩ => show win3_2.index t (0 : Fin 2) * 1 = 0; omega
    | ⟨1, _⟩ => show win3_2.index t (1 : Fin 2) * 256 = 0; omega
  exact (Memref.read_access_unit_zero (Elt Ideal) main_v77_0 hz' (fun a => by rw [congrFun hz' a]; simp) (Pay.colSum (V c main_v76 : S50000x256.Idx → EReal) (V c main_v33 : S1x256.Idx → EReal))).symm

/-- The one write-back of output 3, after the last point. -/
theorem flushed3_3_eq (c : Dev nD) (t : Fin cfg3.N) (hf : (cfg3.win 3).flush t = true) :
    (dat3 V c).flushed 3 t = ((cfg3.win 3).blk t).view.read (Elt Ideal) (Pay.colSumSq (V c main_v76 : S50000x256.Idx → EReal) (V c main_v33 : S1x256.Idx → EReal)) := by
  have hN : cfg3.N = 25 := N_3
  have h24 : t.val = 24 := by have := (flush3_3 t).mp hf; have := t.isLt; omega
  obtain ⟨c0a, c0b, c1a, c1b, c2a, c2b, c3a, c3b⟩ := idx_facts3 t
  show (cfg3.win 3).cut (grid3.coords t) ((dat3 V c).after 3 t) = _
  rw [after3_3]
  have e : (outsAt3 V c t.val t.isLt).2 = Pay.colSumSq (V c main_v76 : S50000x256.Idx → EReal) (V c main_v33 : S1x256.Idx → EReal) := funext fun y => by
    obtain ⟨p, q, rfl⟩ : ∃ (p : Fin 1) (q : Fin 256), y = ix2 p q := ⟨y 0, y 1, eq_ix2 y⟩
    obtain rfl : p = Pay.r0 := Subsingleton.elim _ _
    exact (acc_last3 V c q t h24).2
  rw [e]
  have hz' : (fun a => win3_3.index t a * main_v77_1.ty.shape.size a) = fun _ => 0 := funext fun a => by
    match a with
    | ⟨0, _⟩ => show win3_3.index t (0 : Fin 2) * 1 = 0; omega
    | ⟨1, _⟩ => show win3_3.index t (1 : Fin 2) * 256 = 0; omega
  exact (Memref.read_access_unit_zero (Elt Ideal) main_v77_1 hz' (fun a => by rw [congrFun hz' a]; simp) (Pay.colSumSq (V c main_v76 : S50000x256.Idx → EReal) (V c main_v33 : S1x256.Idx → EReal))).symm

/-- THE RESULTS OF LAUNCH 3: the column sums of `h + b` and of its square over all the rows. -/
theorem final3_2 (c : Dev nD) : (dat3 V c).arrAt 2 cfg3.N = Pay.colSum (V c main_v76 : S50000x256.Idx → EReal) (V c main_v33 : S1x256.Idx → EReal) :=
  (dat3 V c).arrAt_eq_of_cover 2 _ (fun t hf => flushed3_2_eq V c t hf)
    (fun i => ⟨⟨24, by rw [show cfg3.N = 25 from N_3]; decide⟩, (flush3_2 _).mpr (by decide), mem_blk3_2 _ i⟩)
theorem final3_3 (c : Dev nD) : (dat3 V c).arrAt 3 cfg3.N = Pay.colSumSq (V c main_v76 : S50000x256.Idx → EReal) (V c main_v33 : S1x256.Idx → EReal) :=
  (dat3 V c).arrAt_eq_of_cover 3 _ (fun t hf => flushed3_3_eq V c t hf)
    (fun i => ⟨⟨24, by rw [show cfg3.N = 25 from N_3]; decide⟩, (flush3_3 _).mpr (by decide), mem_blk3_3 _ i⟩)

end Cert.KernelIdeal.Out

end
-- ==== Proof.KerR4.lean ====
/-
  Launch 4: the normalisation of a layer fused with the next projection, 25 row blocks of 2000 rows.

  Point `t` reads rows `2000 t …` of the layer's pre-activation `h`, and whole the bias, mean, variance, scale and shift rows
  and the next weight; it writes rows `2000 t …` of the projected activation. The blocks tile the result, which ends as
  `∑ k, max (((h + b) − μ) · (1/√(max v 0 + ε)) · g + β) 0 (r, k) · W (k, o)` at every entry, whatever contents the launch finds.
-/
import proofs.«127233_j26182120636977_2_alg».proof.Proof.Gen.KernelIdeal.Frame
import proofs.«127233_j26182120636977_2_alg».proof.Proof.KerPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the row-block windows sit at block `(t, 0)`, the others at `(0, 0)`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

set_option maxHeartbeats 1000000 in
/-- What point `t` writes back is block `t` of the whole-array function of the arrays as the launch finds them. -/
theorem flushed4_eq (c : Dev nD) (t : Fin cfg4.N) :
    (dat4 V c).flushed 7 t = ((cfg4.win 7).blk t).view.read (Elt Ideal) (Pay.normProj (C := 40) (V c main_v76 : S50000x256.Idx → EReal) (V c main_v33 : S1x256.Idx → EReal) (V c main_v79 : S1x256.Idx → EReal) (V c main_v85 : S1x256.Idx → EReal) (V c main_v34 : S1x256.Idx → EReal) (V c main_v35 : S1x256.Idx → EReal) (V c main_arg10 : S256x40.Idx → EReal)) := by
  show (cfg4.win 7).cut (grid4.coords t) ((dat4 V c).after 7 t) = _
  rw [after4_7]
  unfold out4_7
  rw [View.canon_unit_zero hz4]
  simp only [View.ld_unit_zero (S := S2000x256) hz4, View.ld_unit_zero (S := S1x256) hz4, View.ld_unit_zero (S := S256x40) hz4]
  obtain ⟨c0a, c0b, c1a, c1b, c2a, c2b, c3a, c3b, c4a, c4b, c5a, c5b, c6a, c6b, c7a, c7b⟩ := idx_facts4 t
  funext j
  obtain ⟨p, q, rfl⟩ : ∃ (p : Fin 2000) (q : Fin 40), j = ix2 p q := ⟨j 0, j 1, eq_ix2 j⟩
  refine (Pay.pay4_apply (iblk4 V c 0 t) (iblk4 V c 1 t) (iblk4 V c 3 t) (iblk4 V c 2 t) (iblk4 V c 4 t) (iblk4 V c 5 t) (iblk4 V c 6 t) p q).trans ?_
  show _ = Pay.normProj _ _ _ _ _ _ _ (((cfg4.win 7).blk t).view.emb (ix2 p q))
  unfold Pay.normProj
  refine Finset.sum_congr rfl fun k _ => ?_
  have hh : iblk4 V c 0 t (ix2 p k) = V c main_v76 (ix2 ((((cfg4.win 7).blk t).view.emb (ix2 p q)) 0) k) := by
    show V c main_v76 (((cfg4.win 0).blk t).view.emb (ix2 p k)) = _
    refine congrArg (V c main_v76) (funext fun a => Fin.ext ?_)
    match a with
    | ⟨0, _⟩ => show win4_0.index t (0 : Fin 2) * 2000 + 1 * p.val = win4_7.index t (0 : Fin 2) * 2000 + 1 * p.val; omega
    | ⟨1, _⟩ => show win4_0.index t (1 : Fin 2) * 256 + 1 * k.val = k.val; omega
  have hb : iblk4 V c 1 t (ix2 Pay.r0 k) = V c main_v33 (ix2 Pay.r0 k) := by
    show V c main_v33 (((cfg4.win 1).blk t).view.emb (ix2 Pay.r0 k)) = _
    refine congrArg (V c main_v33) (funext fun a => Fin.ext ?_)
    match a with
    | ⟨0, _⟩ => show win4_1.index t (0 : Fin 2) * 1 + 1 * _ = _; rw [c1a]; simp
    | ⟨1, _⟩ => show win4_1.index t (1 : Fin 2) * 256 + 1 * _ = _; rw [c1b]; simp
  have hm : iblk4 V c 2 t (ix2 Pay.r0 k) = V c main_v79 (ix2 Pay.r0 k) := by
    show V c main_v79 (((cfg4.win 2).blk t).view.emb (ix2 Pay.r0 k)) = _
    refine congrArg (V c main_v79) (funext fun a => Fin.ext ?_)
    match a with
    | ⟨0, _⟩ => show win4_2.index t (0 : Fin 2) * 1 + 1 * _ = _; rw [c2a]; simp
    | ⟨1, _⟩ => show win4_2.index t (1 : Fin 2) * 256 + 1 * _ = _; rw [c2b]; simp
  have hv : iblk4 V c 3 t (ix2 Pay.r0 k) = V c main_v85 (ix2 Pay.r0 k) := by
    show V c main_v85 (((cfg4.win 3).blk t).view.emb (ix2 Pay.r0 k)) = _
    refine congrArg (V c main_v85) (funext fun a => Fin.ext ?_)
    match a with
    | ⟨0, _⟩ => show win4_3.index t (0 : Fin 2) * 1 + 1 * _ = _; rw [c3a]; simp
    | ⟨1, _⟩ => show win4_3.index t (1 : Fin 2) * 256 + 1 * _ = _; rw [c3b]; simp
  have hg : iblk4 V c 4 t (ix2 Pay.r0 k) = V c main_v34 (ix2 Pay.r0 k) := by
    show V c main_v34 (((cfg4.win 4).blk t).view.emb (ix2 Pay.r0 k)) = _
    refine congrArg (V c main_v34) (funext fun a => Fin.ext ?_)
    match a with
    | ⟨0, _⟩ => show win4_4.index t (0 : Fin 2) * 1 + 1 * _ = _; rw [c4a]; simp
    | ⟨1, _⟩ => show win4_4.index t (1 : Fin 2) * 256 + 1 * _ = _; rw [c4b]; simp
  have he : iblk4 V c 5 t (ix2 Pay.r0 k) = V c main_v35 (ix2 Pay.r0 k) := by
    show V c main_v35 (((cfg4.win 5).blk t).view.emb (ix2 Pay.r0 k)) = _
    refine congrArg (V c main_v35) (funext fun a => Fin.ext ?_)
    match a with
    | ⟨0, _⟩ => show win4_5.index t (0 : Fin 2) * 1 + 1 * _ = _; rw [c5a]; simp
    | ⟨1, _⟩ => show win4_5.index t (1 : Fin 2) * 256 + 1 * _ = _; rw [c5b]; simp
  have hw : iblk4 V c 6 t (ix2 k q) = V c main_arg10 (ix2 k ((((cfg4.win 7).blk t).view.emb (ix2 p q)) 1)) := by
    show V c main_arg10 (((cfg4.win 6).blk t).view.emb (ix2 k q)) = _
    refine congrArg (V c main_arg10) (funext fun a => Fin.ext ?_)
    match a with
    | ⟨0, _⟩ => show win4_6.index t (0 : Fin 2) * 256 + 1 * k.val = k.val; omega
    | ⟨1, _⟩ => show win4_6.index t (1 : Fin 2) * 40 + 1 * q.val = win4_7.index t (1 : Fin 2) * 40 + 1 * q.val; omega
  rw [hh, hb, hm, hv, hg, he, hw]

/-- An index of the result is in point `t`'s block iff each coordinate is in the block's range on its axis. -/
theorem mem_blk4 (t : Fin cfg4.N) (i : S50000x40.Idx) :
    i ∈ ((cfg4.win 7).blk t).view.set ↔ ∀ a : Fin 2, win4_7.index t a * S2000x40.size a ≤ (i a).val ∧ (i a).val < win4_7.index t a * S2000x40.size a + S2000x40.size a := by
  show i ∈ ((View.whole main_v86).slice (win4_7.rect t)).set ↔ _
  rw [View.set_slice_whole, Rect.mem_set_unit]
  exact Iff.rfl

/-- Every entry of the result lies in the block of the point its row selects. -/
theorem cover4 (i : S50000x40.Idx) : ∃ t : Fin cfg4.N, (cfg4.win 7).flush t = true ∧ i ∈ ((cfg4.win 7).blk t).view.set := by
  have hi0 : (i 0).val < 50000 := (i 0).isLt
  have hi1 : (i 1).val < 40 := (i 1).isLt
  have hN : cfg4.N = 25 := N_4
  refine ⟨⟨(i 0).val / 2000, by rw [hN]; omega⟩, flush4_7 _, ?_⟩
  rw [mem_blk4]
  obtain ⟨c0a, c0b, c1a, c1b, c2a, c2b, c3a, c3b, c4a, c4b, c5a, c5b, c6a, c6b, c7a, c7b⟩ := idx_facts4 ⟨(i 0).val / 2000, by rw [hN]; omega⟩
  intro a
  match a with
  | ⟨0, _⟩ => show win4_7.index _ (0 : Fin 2) * 2000 ≤ (i 0).val ∧ (i 0).val < win4_7.index _ (0 : Fin 2) * 2000 + 2000; rw [c7a]; dsimp only; omega
  | ⟨1, _⟩ => show win4_7.index _ (1 : Fin 2) * 40 ≤ (i 1).val ∧ (i 1).val < win4_7.index _ (1 : Fin 2) * 40 + 40; rw [c7b]; omega

/-- THE RESULT OF LAUNCH 4. -/
theorem final4 (c : Dev nD) : (dat4 V c).arrAt 7 cfg4.N = (Pay.normProj (C := 40) (V c main_v76 : S50000x256.Idx → EReal) (V c main_v33 : S1x256.Idx → EReal) (V c main_v79 : S1x256.Idx → EReal) (V c main_v85 : S1x256.Idx → EReal) (V c main_v34 : S1x256.Idx → EReal) (V c main_v35 : S1x256.Idx → EReal) (V c main_arg10 : S256x40.Idx → EReal)) :=
  (dat4 V c).arrAt_eq_of_cover 7 _ (fun t _ => flushed4_eq V c t) cover4

end Cert.KernelIdeal.Out

end
-- ==== Proof.KerR5.lean ====
/-
  The last launch: the row-wise log-softmax of `h + b`, 25 row blocks of 2000 rows.

  An entry of a block depends on its own row of `h` and on the bias row only, so block `t` of the result is the
  log-softmax of rows `2000 t …`, and the blocks tile the result.
-/
import proofs.«127233_j26182120636977_2_alg».proof.Proof.Gen.KernelIdeal.Frame
import proofs.«127233_j26182120636977_2_alg».proof.Proof.KerPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the row-wise log-softmax of the arrays as the launch finds them. -/
theorem flushed5_eq (c : Dev nD) (t : Fin cfg5.N) :
    (dat5 V c).flushed 2 t = ((cfg5.win 2).blk t).view.read (Elt Ideal)
      (Pay.lsmRows (V c main_v100 : S50000x40.Idx → EReal) (V c main_v36 : S1x40.Idx → EReal)) := by
  show (cfg5.win 2).cut (grid5.coords t) ((dat5 V c).after 2 t) = _
  rw [after5_2]
  unfold out5_2
  rw [View.canon_unit_zero hz5]
  simp only [View.ld_unit_zero (S := S2000x40) hz5, View.ld_unit_zero (S := S1x40) hz5]
  obtain ⟨c0a, c0b, c1a, c1b, c2a, c2b⟩ := idx_facts5 t
  funext j
  obtain ⟨p, q, rfl⟩ : ∃ (p : Fin 2000) (q : Fin 40), j = ix2 p q := ⟨j 0, j 1, eq_ix2 j⟩
  refine (Pay.pay5_apply _ _ p q).trans ?_
  show _ = Pay.lsmRows _ _ (((cfg5.win 2).blk t).view.emb (ix2 p q))
  unfold Pay.lsmRows
  have hq : ((((cfg5.win 2).blk t).view.emb (ix2 p q)) 1 : Fin 40) = q := Fin.ext (by
    show win5_2.index t (1 : Fin 2) * 40 + 1 * q.val = q.val; omega)
  rw [hq]
  refine congrArg (fun row => Cert.LibLogSoftmax.lsmRow row q) (funext fun k => ?_)
  have hh : iblk5 V c 0 t (ix2 p k) = V c main_v100 (ix2 ((((cfg5.win 2).blk t).view.emb (ix2 p q)) 0) k) := by
    show V c main_v100 (((cfg5.win 0).blk t).view.emb (ix2 p k)) = _
    refine congrArg (V c main_v100) (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 40 + 1 * k.val = k.val; omega
  have hb : iblk5 V c 1 t (ix2 Pay.r0 k) = V c main_v36 (ix2 Pay.r0 k) := by
    show V c main_v36 (((cfg5.win 1).blk t).view.emb (ix2 Pay.r0 k)) = _
    refine congrArg (V c main_v36) (funext fun a => Fin.ext ?_)
    match a with
    | ⟨0, _⟩ => show win5_1.index t (0 : Fin 2) * 1 + 1 * _ = _; rw [c1a]; simp
    | ⟨1, _⟩ => show win5_1.index t (1 : Fin 2) * 40 + 1 * _ = _; rw [c1b]; simp
  rw [hh, hb]

/-- An index of the result is in point `t`'s block iff each coordinate is in the block's range on its axis. -/
theorem mem_blk5 (t : Fin cfg5.N) (i : S50000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v101).slice (win5_2.rect t)).set ↔ _
  rw [View.set_slice_whole, Rect.mem_set_unit]
  exact Iff.rfl

/-- Every entry of the result lies in the block of the point its row selects. -/
theorem cover5 (i : S50000x40.Idx) : ∃ t : Fin cfg5.N, (cfg5.win 2).flush t = true ∧ i ∈ ((cfg5.win 2).blk t).view.set := by
  have hi0 : (i 0).val < 50000 := (i 0).isLt
  have hi1 : (i 1).val < 40 := (i 1).isLt
  have hN : cfg5.N = 25 := N_5
  refine ⟨⟨(i 0).val / 2000, by rw [hN]; omega⟩, flush5_2 _, ?_⟩
  rw [mem_blk5]
  obtain ⟨c0a, c0b, c1a, c1b, c2a, c2b⟩ := idx_facts5 ⟨(i 0).val / 2000, by rw [hN]; omega⟩
  intro a
  match a with
  | ⟨0, _⟩ => show win5_2.index _ (0 : Fin 2) * 2000 ≤ (i 0).val ∧ (i 0).val < win5_2.index _ (0 : Fin 2) * 2000 + 2000; rw [c2a]; dsimp only; omega
  | ⟨1, _⟩ => show win5_2.index _ (1 : Fin 2) * 40 ≤ (i 1).val ∧ (i 1).val < win5_2.index _ (1 : Fin 2) * 40 + 40; rw [c2b]; omega

/-- THE RESULT OF THE LAST LAUNCH: the row-wise log-softmax of `h + b`. -/
theorem final5 (c : Dev nD) : (dat5 V c).arrAt 2 cfg5.N
    = Pay.lsmRows (V c main_v100 : S50000x40.Idx → EReal) (V c main_v36 : S1x40.Idx → EReal) :=
  (dat5 V c).arrAt_eq_of_cover 2 _ (fun t _ => flushed5_eq V c t) cover5

end Cert.KernelIdeal.Out

end
-- ==== Proof.KerChain.lean ====
/-
  The idealized kernel's run folded to one function of its arguments.

  The buffer contents at the thirteen segment boundaries are followed buffer by buffer: a stretch of host operations
  rewrites the buffers it writes by its operations and leaves the others; a launch leaves in each output array what
  its blocks write (the whole-array function of the contents it found), leaves its input arrays as they were, and
  leaves every other buffer alone. Composing the thirteen steps, the result buffer ends as the function `kerOut` of
  the twelve arguments as launched.
-/
import proofs.«127233_j26182120636977_2_alg».proof.Proof.Gen.KernelIdeal.Frame
import proofs.«127233_j26182120636977_2_alg».proof.Proof.KerHost
import proofs.«127233_j26182120636977_2_alg».proof.Proof.KerOut
import proofs.«127233_j26182120636977_2_alg».proof.Proof.KerR0
import proofs.«127233_j26182120636977_2_alg».proof.Proof.KerR1
import proofs.«127233_j26182120636977_2_alg».proof.Proof.KerR2
import proofs.«127233_j26182120636977_2_alg».proof.Proof.KerR3
import proofs.«127233_j26182120636977_2_alg».proof.Proof.KerR4
import proofs.«127233_j26182120636977_2_alg».proof.Proof.KerR5

set_option maxRecDepth 16384

noncomputable section

namespace Cert.KernelIdeal.Out

open Cert.KernelIdeal Cert.KernelIdeal.Gen Cert.KernelIdeal.HostRead Cert.KernelIdeal.Pay
open Idealize.ShloMosaic Idealize.ShloMosaic.TcCoe Idealize.SL.Sem
open Idealize.ShloMosaic.Pipeline (Dat)

/-- Equal arguments, equal values: four and seven arguments at once. -/
theorem congr4 {α₁ α₂ α₃ α₄ β : Sort _} (f : α₁ → α₂ → α₃ → α₄ → β) {a₁ b₁ : α₁} {a₂ b₂ : α₂} {a₃ b₃ : α₃} {a₄ b₄ : α₄}
    (h₁ : a₁ = b₁) (h₂ : a₂ = b₂) (h₃ : a₃ = b₃) (h₄ : a₄ = b₄) : f a₁ a₂ a₃ a₄ = f b₁ b₂ b₃ b₄ := by
  subst h₁ h₂ h₃ h₄; rfl

theorem congr7 {α₁ α₂ α₃ α₄ α₅ α₆ α₇ β : Sort _} (f : α₁ → α₂ → α₃ → α₄ → α₅ → α₆ → α₇ → β)
    {a₁ b₁ : α₁} {a₂ b₂ : α₂} {a₃ b₃ : α₃} {a₄ b₄ : α₄} {a₅ b₅ : α₅} {a₆ b₆ : α₆} {a₇ b₇ : α₇}
    (h₁ : a₁ = b₁) (h₂ : a₂ = b₂) (h₃ : a₃ = b₃) (h₄ : a₄ = b₄) (h₅ : a₅ = b₅) (h₆ : a₆ = b₆) (h₇ : a₇ = b₇) :
    f a₁ a₂ a₃ a₄ a₅ a₆ a₇ = f b₁ b₂ b₃ b₄ b₅ b₆ b₇ := by
  subst h₁ h₂ h₃ h₄ h₅ h₆ h₇; rfl

variable (m : (ℓ : Loc nD τ sig) → Buf (Elt Ideal) ℓ) (ρ : Dev nD → PrngReg) (c : Dev nD)

/-- The twelve arguments as launched on core `c`. -/
abbrev X0 : F32 S50000x128 := m ((c : Thread nD τ).loc main_arg0)
abbrev X1 : I32 S2x320000 := m ((c : Thread nD τ).loc main_arg1)
abbrev X2 : F32 S128x256 := m ((c : Thread nD τ).loc main_arg2)
abbrev X3 : F32 S256 := m ((c : Thread nD τ).loc main_arg3)
abbrev X4 : F32 S256 := m ((c : Thread nD τ).loc main_arg4)
abbrev X5 : F32 S256 := m ((c : Thread nD τ).loc main_arg5)
abbrev X6 : F32 S256x256 := m ((c : Thread nD τ).loc main_arg6)
abbrev X7 : F32 S256 := m ((c : Thread nD τ).loc main_arg7)
abbrev X8 : F32 S256 := m ((c : Thread nD τ).loc main_arg8)
abbrev X9 : F32 S256 := m ((c : Thread nD τ).loc main_arg9)
abbrev X10 : F32 S256x40 := m ((c : Thread nD τ).loc main_arg10)
abbrev X11 : F32 S40 := m ((c : Thread nD τ).loc main_arg11)

/-! ### At the first launch -/

theorem w3_main_v51 : (W3 m ρ c (Proc.devRef .tc main_v51) : F32 S50000x128) = aggT128 (X0 m c) (X1 m c) :=
  val_h0_main_v51 (W0 m ρ c)

theorem w3_main_v3 : (W3 m ρ c (Proc.devRef .tc main_v3) : I32 S370000) = srcT (X1 m c) :=
  val_h0_main_v3 (W0 m ρ c)

theorem w3_main_v6 : (W3 m ρ c (Proc.devRef .tc main_v6) : I32 S370000) = dstT (X1 m c) :=
  val_h0_main_v6 (W0 m ρ c)

theorem w3_main_v29 : (W3 m ρ c (Proc.devRef .tc main_v29) : F32 S370000) = nrmT (X1 m c) :=
  val_h0_main_v29 (W0 m ρ c)

theorem w3_main_v30 : (W3 m ρ c (Proc.devRef .tc main_v30) : F32 S1x256) = row256 (X3 m c) :=
  val_h0_main_v30 (W0 m ρ c)

theorem w3_main_v31 : (W3 m ρ c (Proc.devRef .tc main_v31) : F32 S1x256) = row256 (X4 m c) :=
  val_h0_main_v31 (W0 m ρ c)

theorem w3_main_v32 : (W3 m ρ c (Proc.devRef .tc main_v32) : F32 S1x256) = row256 (X5 m c) :=
  val_h0_main_v32 (W0 m ρ c)

theorem w3_main_v33 : (W3 m ρ c (Proc.devRef .tc main_v33) : F32 S1x256) = row256 (X7 m c) :=
  val_h0_main_v33 (W0 m ρ c)

theorem w3_main_v34 : (W3 m ρ c (Proc.devRef .tc main_v34) : F32 S1x256) = row256 (X8 m c) :=
  val_h0_main_v34 (W0 m ρ c)

theorem w3_main_v35 : (W3 m ρ c (Proc.devRef .tc main_v35) : F32 S1x256) = row256 (X9 m c) :=
  val_h0_main_v35 (W0 m ρ c)

theorem w3_main_v36 : (W3 m ρ c (Proc.devRef .tc main_v36) : F32 S1x40) = row40 (X11 m c) :=
  val_h0_main_v36 (W0 m ρ c)

theorem w3_main_arg2 : (W3 m ρ c (Proc.devRef .tc main_arg2) : F32 S128x256) = X2 m c :=
  keep_h0_main_arg2 (W0 m ρ c)

theorem w3_main_arg6 : (W3 m ρ c (Proc.devRef .tc main_arg6) : F32 S256x256) = X6 m c :=
  keep_h0_main_arg6 (W0 m ρ c)

theorem w3_main_arg10 : (W3 m ρ c (Proc.devRef .tc main_arg10) : F32 S256x40) = X10 m c :=
  keep_h0_main_arg10 (W0 m ρ c)

/-! ### After the first launch: the projected aggregation -/

theorem w4_main_v52 : (W4 m ρ c (Proc.devRef .tc main_v52) : F32 S50000x256) = k52 (X0 m c) (X1 m c) (X2 m c) :=
  (W4_arr m ρ c 2).trans ((final0 (V3 m ρ) c).trans (congrArg₂ Cert.LibDense.prod (w3_main_v51 m ρ c) (w3_main_arg2 m ρ c)))

theorem w4_main_v30 : (W4 m ρ c (Proc.devRef .tc main_v30) : F32 S1x256) = row256 (X3 m c) :=
  (W4_of_ne m ρ c main_v30 (by decide)).trans (w3_main_v30 m ρ c)

theorem w4_main_v31 : (W4 m ρ c (Proc.devRef .tc main_v31) : F32 S1x256) = row256 (X4 m c) :=
  (W4_of_ne m ρ c main_v31 (by decide)).trans (w3_main_v31 m ρ c)

theorem w4_main_v32 : (W4 m ρ c (Proc.devRef .tc main_v32) : F32 S1x256) = row256 (X5 m c) :=
  (W4_of_ne m ρ c main_v32 (by decide)).trans (w3_main_v32 m ρ c)

theorem w4_main_v33 : (W4 m ρ c (Proc.devRef .tc main_v33) : F32 S1x256) = row256 (X7 m c) :=
  (W4_of_ne m ρ c main_v33 (by decide)).trans (w3_main_v33 m ρ c)

theorem w4_main_v34 : (W4 m ρ c (Proc.devRef .tc main_v34) : F32 S1x256) = row256 (X8 m c) :=
  (W4_of_ne m ρ c main_v34 (by decide)).trans (w3_main_v34 m ρ c)

theorem w4_main_v35 : (W4 m ρ c (Proc.devRef .tc main_v35) : F32 S1x256) = row256 (X9 m c) :=
  (W4_of_ne m ρ c main_v35 (by decide)).trans (w3_main_v35 m ρ c)

theorem w4_main_v36 : (W4 m ρ c (Proc.devRef .tc main_v36) : F32 S1x40) = row40 (X11 m c) :=
  (W4_of_ne m ρ c main_v36 (by decide)).trans (w3_main_v36 m ρ c)

theorem w4_main_v3 : (W4 m ρ c (Proc.devRef .tc main_v3) : I32 S370000) = srcT (X1 m c) :=
  (W4_of_ne m ρ c main_v3 (by decide)).trans (w3_main_v3 m ρ c)

theorem w4_main_v6 : (W4 m ρ c (Proc.devRef .tc main_v6) : I32 S370000) = dstT (X1 m c) :=
  (W4_of_ne m ρ c main_v6 (by decide)).trans (w3_main_v6 m ρ c)

theorem w4_main_v29 : (W4 m ρ c (Proc.devRef .tc main_v29) : F32 S370000) = nrmT (X1 m c) :=
  (W4_of_ne m ρ c main_v29 (by decide)).trans (w3_main_v29 m ρ c)

theorem w4_main_arg6 : (W4 m ρ c (Proc.devRef .tc main_arg6) : F32 S256x256) = X6 m c :=
  (W4_of_ne m ρ c main_arg6 (by decide)).trans (w3_main_arg6 m ρ c)

theorem w4_main_arg10 : (W4 m ρ c (Proc.devRef .tc main_arg10) : F32 S256x40) = X10 m c :=
  (W4_of_ne m ρ c main_arg10 (by decide)).trans (w3_main_arg10 m ρ c)

/-! ### After the second launch: the first layer's column sums -/

theorem w5_main_v53_0 : (W5 m ρ c (Proc.devRef .tc main_v53_0) : F32 S1x256) = colSum (k52 (X0 m c) (X1 m c) (X2 m c)) (row256 (X3 m c)) :=
  (W5_arr m ρ c 2).trans ((final1_2 (V4 m ρ) c).trans (congrArg₂ colSum (w4_main_v52 m ρ c) (w4_main_v30 m ρ c)))

theorem w5_main_v53_1 : (W5 m ρ c (Proc.devRef .tc main_v53_1) : F32 S1x256) = colSumSq (k52 (X0 m c) (X1 m c) (X2 m c)) (row256 (X3 m c)) :=
  (W5_arr m ρ c 3).trans ((final1_3 (V4 m ρ) c).trans (congrArg₂ colSumSq (w4_main_v52 m ρ c) (w4_main_v30 m ρ c)))

theorem w5_main_v52 : (W5 m ρ c (Proc.devRef .tc main_v52) : F32 S50000x256) = k52 (X0 m c) (X1 m c) (X2 m c) :=
  (W5_arr m ρ c 0).trans (((dat1 (V4 m ρ) c).arrAt_in 0 rfl _).trans ((A_eq1 (V4 m ρ) c 0).trans (w4_main_v52 m ρ c)))

theorem w5_main_v30 : (W5 m ρ c (Proc.devRef .tc main_v30) : F32 S1x256) = row256 (X3 m c) :=
  (W5_arr m ρ c 1).trans (((dat1 (V4 m ρ) c).arrAt_in 1 rfl _).trans ((A_eq1 (V4 m ρ) c 1).trans (w4_main_v30 m ρ c)))

theorem w5_main_v31 : (W5 m ρ c (Proc.devRef .tc main_v31) : F32 S1x256) = row256 (X4 m c) :=
  (W5_of_ne m ρ c main_v31 (by decide)).trans (w4_main_v31 m ρ c)

theorem w5_main_v32 : (W5 m ρ c (Proc.devRef .tc main_v32) : F32 S1x256) = row256 (X5 m c) :=
  (W5_of_ne m ρ c main_v32 (by decide)).trans (w4_main_v32 m ρ c)

theorem w5_main_v33 : (W5 m ρ c (Proc.devRef .tc main_v33) : F32 S1x256) = row256 (X7 m c) :=
  (W5_of_ne m ρ c main_v33 (by decide)).trans (w4_main_v33 m ρ c)

theorem w5_main_v34 : (W5 m ρ c (Proc.devRef .tc main_v34) : F32 S1x256) = row256 (X8 m c) :=
  (W5_of_ne m ρ c main_v34 (by decide)).trans (w4_main_v34 m ρ c)

theorem w5_main_v35 : (W5 m ρ c (Proc.devRef .tc main_v35) : F32 S1x256) = row256 (X9 m c) :=
  (W5_of_ne m ρ c main_v35 (by decide)).trans (w4_main_v35 m ρ c)

theorem w5_main_v36 : (W5 m ρ c (Proc.devRef .tc main_v36) : F32 S1x40) = row40 (X11 m c) :=
  (W5_of_ne m ρ c main_v36 (by decide)).trans (w4_main_v36 m ρ c)

theorem w5_main_v3 : (W5 m ρ c (Proc.devRef .tc main_v3) : I32 S370000) = srcT (X1 m c) :=
  (W5_of_ne m ρ c main_v3 (by decide)).trans (w4_main_v3 m ρ c)

theorem w5_main_v6 : (W5 m ρ c (Proc.devRef .tc main_v6) : I32 S370000) = dstT (X1 m c) :=
  (W5_of_ne m ρ c main_v6 (by decide)).trans (w4_main_v6 m ρ c)

theorem w5_main_v29 : (W5 m ρ c (Proc.devRef .tc main_v29) : F32 S370000) = nrmT (X1 m c) :=
  (W5_of_ne m ρ c main_v29 (by decide)).trans (w4_main_v29 m ρ c)

theorem w5_main_arg6 : (W5 m ρ c (Proc.devRef .tc main_arg6) : F32 S256x256) = X6 m c :=
  (W5_of_ne m ρ c main_arg6 (by decide)).trans (w4_main_arg6 m ρ c)

theorem w5_main_arg10 : (W5 m ρ c (Proc.devRef .tc main_arg10) : F32 S256x40) = X10 m c :=
  (W5_of_ne m ρ c main_arg10 (by decide)).trans (w4_main_arg10 m ρ c)

/-! ### Before the third launch: the first layer's mean and variance -/

theorem w6_main_v55 : (W6 m ρ c (Proc.devRef .tc main_v55) : F32 S1x256) = kmean1 (X0 m c) (X1 m c) (X2 m c) (X3 m c) :=
  (val_h2_main_v55 (W5 m ρ c)).trans (congrArg meanT (w5_main_v53_0 m ρ c))

theorem w6_main_v61 : (W6 m ρ c (Proc.devRef .tc main_v61) : F32 S1x256) = kvar1 (X0 m c) (X1 m c) (X2 m c) (X3 m c) :=
  (val_h2_main_v61 (W5 m ρ c)).trans (congrArg₂ varT (w5_main_v53_0 m ρ c) (w5_main_v53_1 m ρ c))

theorem w6_main_v52 : (W6 m ρ c (Proc.devRef .tc main_v52) : F32 S50000x256) = k52 (X0 m c) (X1 m c) (X2 m c) :=
  (keep_h2_main_v52 (W5 m ρ c)).trans (w5_main_v52 m ρ c)

theorem w6_main_v30 : (W6 m ρ c (Proc.devRef .tc main_v30) : F32 S1x256) = row256 (X3 m c) :=
  (keep_h2_main_v30 (W5 m ρ c)).trans (w5_main_v30 m ρ c)

theorem w6_main_v31 : (W6 m ρ c (Proc.devRef .tc main_v31) : F32 S1x256) = row256 (X4 m c) :=
  (keep_h2_main_v31 (W5 m ρ c)).trans (w5_main_v31 m ρ c)

theorem w6_main_v32 : (W6 m ρ c (Proc.devRef .tc main_v32) : F32 S1x256) = row256 (X5 m c) :=
  (keep_h2_main_v32 (W5 m ρ c)).trans (w5_main_v32 m ρ c)

theorem w6_main_v33 : (W6 m ρ c (Proc.devRef .tc main_v33) : F32 S1x256) = row256 (X7 m c) :=
  (keep_h2_main_v33 (W5 m ρ c)).trans (w5_main_v33 m ρ c)

theorem w6_main_v34 : (W6 m ρ c (Proc.devRef .tc main_v34) : F32 S1x256) = row256 (X8 m c) :=
  (keep_h2_main_v34 (W5 m ρ c)).trans (w5_main_v34 m ρ c)

theorem w6_main_v35 : (W6 m ρ c (Proc.devRef .tc main_v35) : F32 S1x256) = row256 (X9 m c) :=
  (keep_h2_main_v35 (W5 m ρ c)).trans (w5_main_v35 m ρ c)

theorem w6_main_v36 : (W6 m ρ c (Proc.devRef .tc main_v36) : F32 S1x40) = row40 (X11 m c) :=
  (keep_h2_main_v36 (W5 m ρ c)).trans (w5_main_v36 m ρ c)

theorem w6_main_v3 : (W6 m ρ c (Proc.devRef .tc main_v3) : I32 S370000) = srcT (X1 m c) :=
  (keep_h2_main_v3 (W5 m ρ c)).trans (w5_main_v3 m ρ c)

theorem w6_main_v6 : (W6 m ρ c (Proc.devRef .tc main_v6) : I32 S370000) = dstT (X1 m c) :=
  (keep_h2_main_v6 (W5 m ρ c)).trans (w5_main_v6 m ρ c)

theorem w6_main_v29 : (W6 m ρ c (Proc.devRef .tc main_v29) : F32 S370000) = nrmT (X1 m c) :=
  (keep_h2_main_v29 (W5 m ρ c)).trans (w5_main_v29 m ρ c)

theorem w6_main_arg6 : (W6 m ρ c (Proc.devRef .tc main_arg6) : F32 S256x256) = X6 m c :=
  (keep_h2_main_arg6 (W5 m ρ c)).trans (w5_main_arg6 m ρ c)

theorem w6_main_arg10 : (W6 m ρ c (Proc.devRef .tc main_arg10) : F32 S256x40) = X10 m c :=
  (keep_h2_main_arg10 (W5 m ρ c)).trans (w5_main_arg10 m ρ c)

/-! ### After the third launch: the first layer normalised and projected -/

theorem w7_main_v62 : (W7 m ρ c (Proc.devRef .tc main_v62) : F32 S50000x256) = k62 (X0 m c) (X1 m c) (X2 m c) (X3 m c) (X4 m c) (X5 m c) (X6 m c) :=
  (W7_arr m ρ c 7).trans ((final2 (V6 m ρ) c).trans (congr7 (normProj (C := 256)) (w6_main_v52 m ρ c) (w6_main_v30 m ρ c) (w6_main_v55 m ρ c) (w6_main_v61 m ρ c) (w6_main_v31 m ρ c) (w6_main_v32 m ρ c) (w6_main_arg6 m ρ c)))

theorem w7_main_v33 : (W7 m ρ c (Proc.devRef .tc main_v33) : F32 S1x256) = row256 (X7 m c) :=
  (W7_of_ne m ρ c main_v33 (by decide)).trans (w6_main_v33 m ρ c)

theorem w7_main_v34 : (W7 m ρ c (Proc.devRef .tc main_v34) : F32 S1x256) = row256 (X8 m c) :=
  (W7_of_ne m ρ c main_v34 (by decide)).trans (w6_main_v34 m ρ c)

theorem w7_main_v35 : (W7 m ρ c (Proc.devRef .tc main_v35) : F32 S1x256) = row256 (X9 m c) :=
  (W7_of_ne m ρ c main_v35 (by decide)).trans (w6_main_v35 m ρ c)

theorem w7_main_v36 : (W7 m ρ c (Proc.devRef .tc main_v36) : F32 S1x40) = row40 (X11 m c) :=
  (W7_of_ne m ρ c main_v36 (by decide)).trans (w6_main_v36 m ρ c)

theorem w7_main_v3 : (W7 m ρ c (Proc.devRef .tc main_v3) : I32 S370000) = srcT (X1 m c) :=
  (W7_of_ne m ρ c main_v3 (by decide)).trans (w6_main_v3 m ρ c)

theorem w7_main_v6 : (W7 m ρ c (Proc.devRef .tc main_v6) : I32 S370000) = dstT (X1 m c) :=
  (W7_of_ne m ρ c main_v6 (by decide)).trans (w6_main_v6 m ρ c)

theorem w7_main_v29 : (W7 m ρ c (Proc.devRef .tc main_v29) : F32 S370000) = nrmT (X1 m c) :=
  (W7_of_ne m ρ c main_v29 (by decide)).trans (w6_main_v29 m ρ c)

theorem w7_main_arg10 : (W7 m ρ c (Proc.devRef .tc main_arg10) : F32 S256x40) = X10 m c :=
  (W7_of_ne m ρ c main_arg10 (by decide)).trans (w6_main_arg10 m ρ c)

/-! ### Before the fourth launch: the second layer's aggregation -/

theorem w8_main_v76 : (W8 m ρ c (Proc.devRef .tc main_v76) : F32 S50000x256) = k76 (X0 m c) (X1 m c) (X2 m c) (X3 m c) (X4 m c) (X5 m c) (X6 m c) :=
  (val_h3_main_v76 (W7 m ρ c)).trans (congr4 aggG256 (w7_main_v62 m ρ c) (w7_main_v3 m ρ c) (w7_main_v6 m ρ c) (w7_main_v29 m ρ c))

theorem w8_main_v33 : (W8 m ρ c (Proc.devRef .tc main_v33) : F32 S1x256) = row256 (X7 m c) :=
  (keep_h3_main_v33 (W7 m ρ c)).trans (w7_main_v33 m ρ c)

theorem w8_main_v34 : (W8 m ρ c (Proc.devRef .tc main_v34) : F32 S1x256) = row256 (X8 m c) :=
  (keep_h3_main_v34 (W7 m ρ c)).trans (w7_main_v34 m ρ c)

theorem w8_main_v35 : (W8 m ρ c (Proc.devRef .tc main_v35) : F32 S1x256) = row256 (X9 m c) :=
  (keep_h3_main_v35 (W7 m ρ c)).trans (w7_main_v35 m ρ c)

theorem w8_main_v36 : (W8 m ρ c (Proc.devRef .tc main_v36) : F32 S1x40) = row40 (X11 m c) :=
  (keep_h3_main_v36 (W7 m ρ c)).trans (w7_main_v36 m ρ c)

theorem w8_main_v3 : (W8 m ρ c (Proc.devRef .tc main_v3) : I32 S370000) = srcT (X1 m c) :=
  (keep_h3_main_v3 (W7 m ρ c)).trans (w7_main_v3 m ρ c)

theorem w8_main_v6 : (W8 m ρ c (Proc.devRef .tc main_v6) : I32 S370000) = dstT (X1 m c) :=
  (keep_h3_main_v6 (W7 m ρ c)).trans (w7_main_v6 m ρ c)

theorem w8_main_v29 : (W8 m ρ c (Proc.devRef .tc main_v29) : F32 S370000) = nrmT (X1 m c) :=
  (keep_h3_main_v29 (W7 m ρ c)).trans (w7_main_v29 m ρ c)

theorem w8_main_arg10 : (W8 m ρ c (Proc.devRef .tc main_arg10) : F32 S256x40) = X10 m c :=
  (keep_h3_main_arg10 (W7 m ρ c)).trans (w7_main_arg10 m ρ c)

/-! ### After the fourth launch: the second layer's column sums -/

theorem w9_main_v77_0 : (W9 m ρ c (Proc.devRef .tc main_v77_0) : F32 S1x256) = colSum (k76 (X0 m c) (X1 m c) (X2 m c) (X3 m c) (X4 m c) (X5 m c) (X6 m c)) (row256 (X7 m c)) :=
  (W9_arr m ρ c 2).trans ((final3_2 (V8 m ρ) c).trans (congrArg₂ colSum (w8_main_v76 m ρ c) (w8_main_v33 m ρ c)))

theorem w9_main_v77_1 : (W9 m ρ c (Proc.devRef .tc main_v77_1) : F32 S1x256) = colSumSq (k76 (X0 m c) (X1 m c) (X2 m c) (X3 m c) (X4 m c) (X5 m c) (X6 m c)) (row256 (X7 m c)) :=
  (W9_arr m ρ c 3).trans ((final3_3 (V8 m ρ) c).trans (congrArg₂ colSumSq (w8_main_v76 m ρ c) (w8_main_v33 m ρ c)))

theorem w9_main_v76 : (W9 m ρ c (Proc.devRef .tc main_v76) : F32 S50000x256) = k76 (X0 m c) (X1 m c) (X2 m c) (X3 m c) (X4 m c) (X5 m c) (X6 m c) :=
  (W9_arr m ρ c 0).trans (((dat3 (V8 m ρ) c).arrAt_in 0 rfl _).trans ((A_eq3 (V8 m ρ) c 0).trans (w8_main_v76 m ρ c)))

theorem w9_main_v33 : (W9 m ρ c (Proc.devRef .tc main_v33) : F32 S1x256) = row256 (X7 m c) :=
  (W9_arr m ρ c 1).trans (((dat3 (V8 m ρ) c).arrAt_in 1 rfl _).trans ((A_eq3 (V8 m ρ) c 1).trans (w8_main_v33 m ρ c)))

theorem w9_main_v34 : (W9 m ρ c (Proc.devRef .tc main_v34) : F32 S1x256) = row256 (X8 m c) :=
  (W9_of_ne m ρ c main_v34 (by decide)).trans (w8_main_v34 m ρ c)

theorem w9_main_v35 : (W9 m ρ c (Proc.devRef .tc main_v35) : F32 S1x256) = row256 (X9 m c) :=
  (W9_of_ne m ρ c main_v35 (by decide)).trans (w8_main_v35 m ρ c)

theorem w9_main_v36 : (W9 m ρ c (Proc.devRef .tc main_v36) : F32 S1x40) = row40 (X11 m c) :=
  (W9_of_ne m ρ c main_v36 (by decide)).trans (w8_main_v36 m ρ c)

theorem w9_main_v3 : (W9 m ρ c (Proc.devRef .tc main_v3) : I32 S370000) = srcT (X1 m c) :=
  (W9_of_ne m ρ c main_v3 (by decide)).trans (w8_main_v3 m ρ c)

theorem w9_main_v6 : (W9 m ρ c (Proc.devRef .tc main_v6) : I32 S370000) = dstT (X1 m c) :=
  (W9_of_ne m ρ c main_v6 (by decide)).trans (w8_main_v6 m ρ c)

theorem w9_main_v29 : (W9 m ρ c (Proc.devRef .tc main_v29) : F32 S370000) = nrmT (X1 m c) :=
  (W9_of_ne m ρ c main_v29 (by decide)).trans (w8_main_v29 m ρ c)

theorem w9_main_arg10 : (W9 m ρ c (Proc.devRef .tc main_arg10) : F32 S256x40) = X10 m c :=
  (W9_of_ne m ρ c main_arg10 (by decide)).trans (w8_main_arg10 m ρ c)

/-! ### Before the fifth launch: the second layer's mean and variance -/

theorem w10_main_v79 : (W10 m ρ c (Proc.devRef .tc main_v79) : F32 S1x256) = kmean2 (X0 m c) (X1 m c) (X2 m c) (X3 m c) (X4 m c) (X5 m c) (X6 m c) (X7 m c) :=
  (val_h4_main_v79 (W9 m ρ c)).trans (congrArg meanT (w9_main_v77_0 m ρ c))

theorem w10_main_v85 : (W10 m ρ c (Proc.devRef .tc main_v85) : F32 S1x256) = kvar2 (X0 m c) (X1 m c) (X2 m c) (X3 m c) (X4 m c) (X5 m c) (X6 m c) (X7 m c) :=
  (val_h4_main_v85 (W9 m ρ c)).trans (congrArg₂ varT (w9_main_v77_0 m ρ c) (w9_main_v77_1 m ρ c))

theorem w10_main_v76 : (W10 m ρ c (Proc.devRef .tc main_v76) : F32 S50000x256) = k76 (X0 m c) (X1 m c) (X2 m c) (X3 m c) (X4 m c) (X5 m c) (X6 m c) :=
  (keep_h4_main_v76 (W9 m ρ c)).trans (w9_main_v76 m ρ c)

theorem w10_main_v33 : (W10 m ρ c (Proc.devRef .tc main_v33) : F32 S1x256) = row256 (X7 m c) :=
  (keep_h4_main_v33 (W9 m ρ c)).trans (w9_main_v33 m ρ c)

theorem w10_main_v34 : (W10 m ρ c (Proc.devRef .tc main_v34) : F32 S1x256) = row256 (X8 m c) :=
  (keep_h4_main_v34 (W9 m ρ c)).trans (w9_main_v34 m ρ c)

theorem w10_main_v35 : (W10 m ρ c (Proc.devRef .tc main_v35) : F32 S1x256) = row256 (X9 m c) :=
  (keep_h4_main_v35 (W9 m ρ c)).trans (w9_main_v35 m ρ c)

theorem w10_main_v36 : (W10 m ρ c (Proc.devRef .tc main_v36) : F32 S1x40) = row40 (X11 m c) :=
  (keep_h4_main_v36 (W9 m ρ c)).trans (w9_main_v36 m ρ c)

theorem w10_main_v3 : (W10 m ρ c (Proc.devRef .tc main_v3) : I32 S370000) = srcT (X1 m c) :=
  (keep_h4_main_v3 (W9 m ρ c)).trans (w9_main_v3 m ρ c)

theorem w10_main_v6 : (W10 m ρ c (Proc.devRef .tc main_v6) : I32 S370000) = dstT (X1 m c) :=
  (keep_h4_main_v6 (W9 m ρ c)).trans (w9_main_v6 m ρ c)

theorem w10_main_v29 : (W10 m ρ c (Proc.devRef .tc main_v29) : F32 S370000) = nrmT (X1 m c) :=
  (keep_h4_main_v29 (W9 m ρ c)).trans (w9_main_v29 m ρ c)

theorem w10_main_arg10 : (W10 m ρ c (Proc.devRef .tc main_arg10) : F32 S256x40) = X10 m c :=
  (keep_h4_main_arg10 (W9 m ρ c)).trans (w9_main_arg10 m ρ c)

/-! ### After the fifth launch: the second layer normalised and projected -/

theorem w11_main_v86 : (W11 m ρ c (Proc.devRef .tc main_v86) : F32 S50000x40) = k86 (X0 m c) (X1 m c) (X2 m c) (X3 m c) (X4 m c) (X5 m c) (X6 m c) (X7 m c) (X8 m c) (X9 m c) (X10 m c) :=
  (W11_arr m ρ c 7).trans ((final4 (V10 m ρ) c).trans (congr7 (normProj (C := 40)) (w10_main_v76 m ρ c) (w10_main_v33 m ρ c) (w10_main_v79 m ρ c) (w10_main_v85 m ρ c) (w10_main_v34 m ρ c) (w10_main_v35 m ρ c) (w10_main_arg10 m ρ c)))

theorem w11_main_v36 : (W11 m ρ c (Proc.devRef .tc main_v36) : F32 S1x40) = row40 (X11 m c) :=
  (W11_of_ne m ρ c main_v36 (by decide)).trans (w10_main_v36 m ρ c)

theorem w11_main_v3 : (W11 m ρ c (Proc.devRef .tc main_v3) : I32 S370000) = srcT (X1 m c) :=
  (W11_of_ne m ρ c main_v3 (by decide)).trans (w10_main_v3 m ρ c)

theorem w11_main_v6 : (W11 m ρ c (Proc.devRef .tc main_v6) : I32 S370000) = dstT (X1 m c) :=
  (W11_of_ne m ρ c main_v6 (by decide)).trans (w10_main_v6 m ρ c)

theorem w11_main_v29 : (W11 m ρ c (Proc.devRef .tc main_v29) : F32 S370000) = nrmT (X1 m c) :=
  (W11_of_ne m ρ c main_v29 (by decide)).trans (w10_main_v29 m ρ c)

/-! ### Before the sixth launch: the last layer's aggregation -/

theorem w12_main_v100 : (W12 m ρ c (Proc.devRef .tc main_v100) : F32 S50000x40) = k100 (X0 m c) (X1 m c) (X2 m c) (X3 m c) (X4 m c) (X5 m c) (X6 m c) (X7 m c) (X8 m c) (X9 m c) (X10 m c) :=
  (val_h5_main_v100 (W11 m ρ c)).trans (congr4 aggG40 (w11_main_v86 m ρ c) (w11_main_v3 m ρ c) (w11_main_v6 m ρ c) (w11_main_v29 m ρ c))

theorem w12_main_v36 : (W12 m ρ c (Proc.devRef .tc main_v36) : F32 S1x40) = row40 (X11 m c) :=
  (keep_h5_main_v36 (W11 m ρ c)).trans (w11_main_v36 m ρ c)

/-! ### After the sixth launch: the result -/

theorem w13_main_v101 : (W13 m ρ c (Proc.devRef .tc main_v101) : F32 S50000x40) = kerOut (X0 m c) (X1 m c) (X2 m c) (X3 m c) (X4 m c) (X5 m c) (X6 m c) (X7 m c) (X8 m c) (X9 m c) (X10 m c) (X11 m c) :=
  (W13_arr m ρ c 2).trans ((final5 (V12 m ρ) c).trans (congrArg₂ lsmRows (w12_main_v100 m ρ c) (w12_main_v36 m ρ c)))

/-- THE KERNEL'S RUN AS A VALUE: at the return the result buffer holds `kerOut` of the twelve arguments as launched. -/
theorem ker_run_value : W13 m ρ c (Proc.devRef .tc main_v101)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  w13_main_v101 m ρ c

end Cert.KernelIdeal.Out

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.GcnNet.lean ====
/-
  A three-layer graph convolution on 50000 nodes over 370000 weighted edges, as a function on the extended reals:
  the common specification of the two programs.

  An edge `e` carries a weight `nrm e`, reads the table row its source word names (read signed, truncated at 0,
  clamped to the last row) and adds into the row its target word names (read signed; a word that names no row adds
  nowhere). For a node table `f` the aggregation is `agg f r o = ∑ e into r, nrm e · f (src e) o`. A layer is an
  aggregation of a projection `a · W`, a bias row, and — for the first two layers — a normalisation of every column
  over the 50000 rows (mean, variance, `1/√(var + ε)`, scale, shift) followed by a rectifier; the last layer ends in
  the row-wise log-softmax.

  Two arrangements are stated. `netRef` projects before it aggregates in every layer and takes the variance of a
  column as the mean of the squared deviations. `netKer` aggregates the input features before projecting them in the
  first layer, and takes the variance as the mean of the squares minus the square of the mean, clamped at zero (twice).
-/
import Idealize.ShloMosaic.PureOps.Ideal
import proofs.«127233_j26182120636977_2_alg».proof.Proof.LibLogSoftmax

noncomputable section

open scoped BigOperators

namespace Cert.Gcn

open Idealize.ShloMosaic

/-- An extended real that is a real number. -/
def IsReal (v : EReal) : Prop := ∃ y : ℝ, v = (y : EReal)

/-- The table row an index word names: read signed, truncated at 0, clamped to the last of the 50000 rows. -/
def rowOf (v : BitVec 32) : Fin 50000 := ⟨min v.toInt.toNat 49999, by omega⟩

/-- The weighted edges: a weight, a source word and a target word per edge. -/
structure Graph where
  nrm : Fin 370000 → EReal
  src : Fin 370000 → BitVec 32
  dst : Fin 370000 → BitVec 32

/-- The aggregation of a node table: into row `r`, over the edges whose target word is `r`, the weighted source row. -/
def agg (G : Graph) {C : ℕ} (f : Fin 50000 → Fin C → EReal) (r : Fin 50000) (o : Fin C) : EReal :=
  ∑ e : Fin 370000, if (G.dst e).toInt = (r.val : Int) then G.nrm e * f (rowOf (G.src e)) o else 0

/-- A projection: the rows of `a` against the columns of `W`. -/
def lin {K D : ℕ} (a : Fin 50000 → Fin K → EReal) (W : Fin K → Fin D → EReal) (r : Fin 50000) (o : Fin D) : EReal :=
  ∑ k : Fin K, a r k * W k o

/-- A bias row added to every row. -/
def addRow {D : ℕ} (h : Fin 50000 → Fin D → EReal) (b : Fin D → EReal) (r : Fin 50000) (o : Fin D) : EReal :=
  h r o + b o

/-- The number of rows, as the programs write it: the word of 50000.0. -/
abbrev cnt : EReal := Ideal.ofBits .f32 0x47435000#32
/-- The variance offset, as the programs write it. -/
abbrev eps : EReal := Ideal.ofBits .f32 0x3727C5AC#32

/-- The mean of a column over the rows. -/
def mean (h : Fin 50000 → Fin 256 → EReal) (j : Fin 256) : EReal := Ideal.div (∑ r : Fin 50000, h r j) cnt

/-- The variance of a column as the mean of the squared deviations from the mean. -/
def varTwo (h : Fin 50000 → Fin 256 → EReal) (j : Fin 256) : EReal :=
  Ideal.div (∑ r : Fin 50000, (h r j - mean h j) * (h r j - mean h j)) cnt

/-- The variance of a column as the mean of the squares minus the square of the mean, clamped at zero. -/
def varOne (h : Fin 50000 → Fin 256 → EReal) (j : Fin 256) : EReal :=
  max (Ideal.div (∑ r : Fin 50000, h r j * h r j) cnt - mean h j * mean h j) 0

/-- Centre by `mu`, scale by `1/√(va + ε)` and `g`, shift by `be`, rectify. -/
def scaleShift (h : Fin 50000 → Fin 256 → EReal) (mu va g be : Fin 256 → EReal) (r : Fin 50000) (j : Fin 256) : EReal :=
  max ((h r j - mu j) * Ideal.rsqrt (va j + eps) * g j + be j) 0

section
variable (G : Graph) (x : Fin 50000 → Fin 128 → EReal) (W1 : Fin 128 → Fin 256 → EReal) (b1 g1 be1 : Fin 256 → EReal)
  (W2 : Fin 256 → Fin 256 → EReal) (b2 g2 be2 : Fin 256 → EReal) (W3 : Fin 256 → Fin 40 → EReal) (b3 : Fin 40 → EReal)

/-- Project, aggregate, add the bias: the first layer before its normalisation, projecting first. -/
def pre1Ref : Fin 50000 → Fin 256 → EReal := addRow (agg G (lin x W1)) b1
/-- The first layer before its normalisation, aggregating first. -/
def pre1Ker : Fin 50000 → Fin 256 → EReal := addRow (lin (agg G x) W1) b1

/-- The network with every layer projected before it is aggregated and the two-pass variance. -/
def netRef : Fin 50000 → Fin 40 → EReal :=
  let h1 := pre1Ref G x W1 b1
  let y1 := scaleShift h1 (mean h1) (varTwo h1) g1 be1
  let h2 := addRow (agg G (lin y1 W2)) b2
  let y2 := scaleShift h2 (mean h2) (varTwo h2) g2 be2
  let h3 := addRow (agg G (lin y2 W3)) b3
  fun r o => Cert.LibLogSoftmax.lsmRow (h3 r) o

/-- The network with the first layer aggregated before it is projected and the one-pass variance clamped twice. -/
def netKer : Fin 50000 → Fin 40 → EReal :=
  let h1 := pre1Ker G x W1 b1
  let y1 := scaleShift h1 (mean h1) (fun j => max (varOne h1 j) 0) g1 be1
  let h2 := addRow (agg G (lin y1 W2)) b2
  let y2 := scaleShift h2 (mean h2) (fun j => max (varOne h2 j) 0) g2 be2
  let h3 := addRow (agg G (lin y2 W3)) b3
  fun r o => Cert.LibLogSoftmax.lsmRow (h3 r) o

end

end Cert.Gcn

end
-- ==== Proof.RefNetAgg.lean ====
/-
  The aggregation stage of a graph-convolution layer, read at a row and a column, and the small reading lemmas the
  layers share.

  The program gathers the rows of a node table at the edges' source words, scales each gathered row by the edge's
  weight, and adds the scaled rows into a table of zeros at the edges' target words. Read at row `r` and column `o`
  this is the sum, over the edges whose target word is `r`, of the weight times the table at the source row: the
  aggregation of the specification. The statements are generic in the table's width.
-/
import proofs.«127233_j26182120636977_2_alg».proof.Proof.LibRowScatter
import proofs.«127233_j26182120636977_2_alg».proof.Proof.GcnNet
import Idealize.ShloMosaic.Lib.ValueIdx

noncomputable section

open scoped BigOperators

namespace Cert.GcnRef

open Idealize.ShloMosaic Idealize.ShloMosaic.ValueIdx Cert.Gcn

/-- A two-dimensional array read as a table of rows and columns. -/
def tbl {R C : ℕ} (a : (⟨2, ![R, C]⟩ : Shape).Idx → EReal) : Fin R → Fin C → EReal := fun r k => a (ix2 r k)

/-- A one-dimensional array read as a row of entries. -/
def vec {C : ℕ} (a : (⟨1, ![C]⟩ : Shape).Idx → EReal) : Fin C → EReal := fun k => a (ix1 k)

theorem tbl_apply {R C : ℕ} (a : (⟨2, ![R, C]⟩ : Shape).Idx → EReal) (r : Fin R) (k : Fin C) : tbl a r k = a (ix2 r k) := rfl

theorem vec_apply {C : ℕ} (a : (⟨1, ![C]⟩ : Shape).Idx → EReal) (k : Fin C) : vec a k = a (ix1 k) := rfl

theorem addRow_apply {D : ℕ} (h : Fin 50000 → Fin D → EReal) (b : Fin D → EReal) (r : Fin 50000) (o : Fin D) :
    addRow h b r o = h r o + b o := rfl

theorem lin_apply {K D : ℕ} (a : Fin 50000 → Fin K → EReal) (W : Fin K → Fin D → EReal) (r : Fin 50000) (o : Fin D) :
    lin a W r o = ∑ k : Fin K, a r k * W k o := rfl

theorem scaleShift_apply (h : Fin 50000 → Fin 256 → EReal) (mu va g be : Fin 256 → EReal) (r : Fin 50000) (j : Fin 256) :
    scaleShift h mu va g be r j = max ((h r j - mu j) * Ideal.rsqrt (va j + eps) * g j + be j) 0 := rfl

theorem mean_apply (h : Fin 50000 → Fin 256 → EReal) (j : Fin 256) :
    mean h j = Ideal.div (∑ r : Fin 50000, h r j) (Ideal.ofBits .f32 0x47435000#32) := rfl

theorem varTwo_apply (h : Fin 50000 → Fin 256 → EReal) (j : Fin 256) :
    varTwo h j = Ideal.div (∑ r : Fin 50000, (h r j - mean h j) * (h r j - mean h j)) (Ideal.ofBits .f32 0x47435000#32) := rfl

/-- At the extended reals the host's accumulating scatter is the exact sum. -/
theorem scat_eq {s si su : Shape} (d : ScatterDims s si su) {w : Nat} (x : FVec Ideal s .f32) (idx : IVec si w)
    (upd : FVec Ideal su .f32) : Host.scatterAdd d x idx upd = Ideal.hostScatterAdd d x idx upd := rfl

/-- The word of `+0.0` denotes `0`. -/
theorem ofBits_zero : Ideal.ofBits .f32 0x00000000#32 = 0 := by
  simp [Ideal.ofBits, Ideal.ieee]

/-- A gathered row at edge `e` and column `k`: the table at the row the edge's source word names. -/
theorem gather_row {C : ℕ}
    (wfg : GatherDims.WF ⟨2, ![50000, C]⟩ ⟨2, ![370000, 1]⟩ ⟨2, ![370000, C]⟩ [1] [0] [] [0] [] 1 ![1, C])
    (tab : (⟨2, ![50000, C]⟩ : Shape).Idx → EReal) (srcI : IVec ⟨2, ![370000, 1]⟩ 32) (e : Fin 370000) (k : Fin C)
    (w : BitVec 32) (hs : srcI (ix2 e 0) = w) :
    Host.gather (Cert.RowOps.rowGather 50000 C 370000 wfg) tab srcI (ix2 e k) = tab (ix2 (rowOf w) k) := by
  rw [Cert.RowOps.gather_rows_apply (by decide : 0 < 50000)]
  refine congrArg (fun q : Fin 50000 => tab (ix2 q k)) (Fin.ext ?_)
  show min (srcI (ix2 e 0)).toInt.toNat (50000 - 1) = min w.toInt.toNat 49999
  rw [hs]

/-- THE AGGREGATION STAGE. The scaled gathered rows `upd` (edge `e`, column `k`: the edge's weight times the table at
    its source row) summed over the edges whose target word is `r`: the aggregation of the table at `(r, o)`. -/
theorem agg_sum {C : ℕ} (G : Graph) (tab : (⟨2, ![50000, C]⟩ : Shape).Idx → EReal) (dstI : IVec ⟨2, ![370000, 1]⟩ 32)
    (upd : (⟨2, ![370000, C]⟩ : Shape).Idx → EReal) (hd : ∀ e : Fin 370000, dstI (ix2 e 0) = G.dst e)
    (hu : ∀ (e : Fin 370000) (k : Fin C), upd (ix2 e k) = G.nrm e * tab (ix2 (rowOf (G.src e)) k))
    (r : Fin 50000) (o : Fin C) :
    (∑ e : Fin 370000, if (dstI (ix2 e 0)).toInt = (r.val : Int) then upd (ix2 e o) else 0) = agg G (tbl tab) r o := by
  unfold agg
  refine Finset.sum_congr rfl fun e _ => ?_
  rw [hd e, hu e o, tbl_apply]

end Cert.GcnRef

end
-- ==== Proof.KerSpecA.lean ====
/-
  The kernel's result is the specification's aggregate-first network of the kernel's graph.

  Each segment of the composed result is one stage of the specification, entry by entry: a gather of rows scaled by the
  edge weights and added at the target words is the aggregation; a matrix product is a projection; the column sums
  divided by the row count are the mean, and the mean of the squares minus the square of the mean, clamped at zero, is
  the one-pass variance; a one-row table laid out from a vector reads the vector. A change of float format is the
  identity. Nothing here needs finiteness.
-/
import proofs.«127233_j26182120636977_2_alg».proof.Proof.KerOut
import proofs.«127233_j26182120636977_2_alg».proof.Proof.RefNetAgg

noncomputable section

open scoped BigOperators

namespace Cert.KernelIdeal.Out

open Cert.KernelIdeal Cert.KernelIdeal.Gen Cert.KernelIdeal.HostRead Cert.KernelIdeal.Pay Cert.Gcn Cert.GcnRef
open Idealize.ShloMosaic Idealize.ShloMosaic.ValueIdx

/-- The kernel's graph: an edge's weight, its wrapped source word and its target word, as its host operations compute
    them from the edge table. -/
def kerGraph (x1 : I32 S2x320000) : Graph :=
  ⟨fun e => nrmT x1 (ix1 e), fun e => colT (wrapT (srcT x1)) (ix2 e 0), fun e => colT (dstT x1) (ix2 e 0)⟩

theorem hGk128 : gather_S50000x128_S370000x1_S370000x128_1_0_n_n_0_1_1128 = Cert.RowOps.rowGather 50000 128 370000 gather_S50000x128_S370000x1_S370000x128_1_0_n_n_0_1_1128_wf := rfl
theorem hSk128 : scatter_S50000x128_S370000x1_S370000x128_1_0_0_1 = Cert.RowOps.rowScatter 50000 128 370000 scatter_S50000x128_S370000x1_S370000x128_1_0_0_1_wf := rfl

/-- The edge weights spread along 128 columns read the edge's weight. -/
theorem nb128_apply (x1 : I32 S2x320000) (e : Fin 370000) (k : Fin 128) :
    broadcastInDim S370000x128 ![0, 1] bcast_S370000x1_S370000x128_0_1 (colT (nrmT x1)) (ix2 e k) = nrmT x1 (ix1 e) := by
  refine (broadcastInDim_apply _ bcast_S370000x1_S370000x128_0_1 (colT (nrmT x1)) (ix2 e k) (ix2 e (0 : Fin 1)) (fun a => ?_)).trans ?_
  · match a with
    | ⟨0, _⟩ => show e.val = if (370000 : Nat) = 1 then 0 else e.val; rw [if_neg (by decide)]
    | ⟨1, _⟩ => show 0 = if (1 : Nat) = 1 then 0 else k.val; rw [if_pos rfl]
  · unfold colT
    refine (broadcastInDim_apply _ bcast_S370000_S370000x1_0 (nrmT x1) (ix2 e (0 : Fin 1)) (ix1 e) (fun a => ?_)).trans rfl
    match a with
    | ⟨0, _⟩ => show e.val = if (370000 : Nat) = 1 then 0 else e.val; rw [if_neg (by decide)]

/-- The aggregation of a 128-column table, read at an entry, is the specification's. -/
theorem aggG128_read (xb : BF16 S50000x128) (x1 : I32 S2x320000) (r : Fin 50000) (o : Fin 128) :
    aggG128 xb (srcT x1) (dstT x1) (nrmT x1) (ix2 r o) = agg (kerGraph x1) (tbl xb) r o := by
  unfold aggG128
  rw [scat_eq, hSk128, Cert.RowOps.scatterAdd_rows_apply]
  rw [show broadcastInDim S50000x128 ![] bcast_S_S50000x128 (constant (F := Ideal) S_ .f32 0x00000000#32) (ix2 r o) = 0 from Pay.ofBits_zero, zero_add]
  refine agg_sum (kerGraph x1) xb (colT (dstT x1)) _ (fun e => rfl) (fun e k => ?_) r o
  show broadcastInDim S370000x128 ![0, 1] bcast_S370000x1_S370000x128_0_1 (colT (nrmT x1)) (ix2 e k)
      * Host.gather gather_S50000x128_S370000x1_S370000x128_1_0_n_n_0_1_1128 xb (colT (wrapT (srcT x1))) (ix2 e k) = _
  rw [hGk128, gather_row _ xb _ e k _ rfl, nb128_apply]
  rfl

theorem hGk256 : gather_S50000x256_S370000x1_S370000x256_1_0_n_n_0_1_1256 = Cert.RowOps.rowGather 50000 256 370000 gather_S50000x256_S370000x1_S370000x256_1_0_n_n_0_1_1256_wf := rfl
theorem hSk256 : scatter_S50000x256_S370000x1_S370000x256_1_0_0_1 = Cert.RowOps.rowScatter 50000 256 370000 scatter_S50000x256_S370000x1_S370000x256_1_0_0_1_wf := rfl

/-- The edge weights spread along 256 columns read the edge's weight. -/
theorem nb256_apply (x1 : I32 S2x320000) (e : Fin 370000) (k : Fin 256) :
    broadcastInDim S370000x256 ![0, 1] bcast_S370000x1_S370000x256_0_1 (colT (nrmT x1)) (ix2 e k) = nrmT x1 (ix1 e) := by
  refine (broadcastInDim_apply _ bcast_S370000x1_S370000x256_0_1 (colT (nrmT x1)) (ix2 e k) (ix2 e (0 : Fin 1)) (fun a => ?_)).trans ?_
  · match a with
    | ⟨0, _⟩ => show e.val = if (370000 : Nat) = 1 then 0 else e.val; rw [if_neg (by decide)]
    | ⟨1, _⟩ => show 0 = if (1 : Nat) = 1 then 0 else k.val; rw [if_pos rfl]
  · unfold colT
    refine (broadcastInDim_apply _ bcast_S370000_S370000x1_0 (nrmT x1) (ix2 e (0 : Fin 1)) (ix1 e) (fun a => ?_)).trans rfl
    match a with
    | ⟨0, _⟩ => show e.val = if (370000 : Nat) = 1 then 0 else e.val; rw [if_neg (by decide)]

/-- The aggregation of a 256-column table, read at an entry, is the specification's. -/
theorem aggG256_read (xb : BF16 S50000x256) (x1 : I32 S2x320000) (r : Fin 50000) (o : Fin 256) :
    aggG256 xb (srcT x1) (dstT x1) (nrmT x1) (ix2 r o) = agg (kerGraph x1) (tbl xb) r o := by
  unfold aggG256
  rw [scat_eq, hSk256, Cert.RowOps.scatterAdd_rows_apply]
  rw [show broadcastInDim S50000x256 ![] bcast_S_S50000x256 (constant (F := Ideal) S_ .f32 0x00000000#32) (ix2 r o) = 0 from Pay.ofBits_zero, zero_add]
  refine agg_sum (kerGraph x1) xb (colT (dstT x1)) _ (fun e => rfl) (fun e k => ?_) r o
  show broadcastInDim S370000x256 ![0, 1] bcast_S370000x1_S370000x256_0_1 (colT (nrmT x1)) (ix2 e k)
      * Host.gather gather_S50000x256_S370000x1_S370000x256_1_0_n_n_0_1_1256 xb (colT (wrapT (srcT x1))) (ix2 e k) = _
  rw [hGk256, gather_row _ xb _ e k _ rfl, nb256_apply]
  rfl

theorem hGk40 : gather_S50000x40_S370000x1_S370000x40_1_0_n_n_0_1_140 = Cert.RowOps.rowGather 50000 40 370000 gather_S50000x40_S370000x1_S370000x40_1_0_n_n_0_1_140_wf := rfl
theorem hSk40 : scatter_S50000x40_S370000x1_S370000x40_1_0_0_1 = Cert.RowOps.rowScatter 50000 40 370000 scatter_S50000x40_S370000x1_S370000x40_1_0_0_1_wf := rfl

/-- The edge weights spread along 40 columns read the edge's weight. -/
theorem nb40_apply (x1 : I32 S2x320000) (e : Fin 370000) (k : Fin 40) :
    broadcastInDim S370000x40 ![0, 1] bcast_S370000x1_S370000x40_0_1 (colT (nrmT x1)) (ix2 e k) = nrmT x1 (ix1 e) := by
  refine (broadcastInDim_apply _ bcast_S370000x1_S370000x40_0_1 (colT (nrmT x1)) (ix2 e k) (ix2 e (0 : Fin 1)) (fun a => ?_)).trans ?_
  · match a with
    | ⟨0, _⟩ => show e.val = if (370000 : Nat) = 1 then 0 else e.val; rw [if_neg (by decide)]
    | ⟨1, _⟩ => show 0 = if (1 : Nat) = 1 then 0 else k.val; rw [if_pos rfl]
  · unfold colT
    refine (broadcastInDim_apply _ bcast_S370000_S370000x1_0 (nrmT x1) (ix2 e (0 : Fin 1)) (ix1 e) (fun a => ?_)).trans rfl
    match a with
    | ⟨0, _⟩ => show e.val = if (370000 : Nat) = 1 then 0 else e.val; rw [if_neg (by decide)]

/-- The aggregation of a 40-column table, read at an entry, is the specification's. -/
theorem aggG40_read (xb : BF16 S50000x40) (x1 : I32 S2x320000) (r : Fin 50000) (o : Fin 40) :
    aggG40 xb (srcT x1) (dstT x1) (nrmT x1) (ix2 r o) = agg (kerGraph x1) (tbl xb) r o := by
  unfold aggG40
  rw [scat_eq, hSk40, Cert.RowOps.scatterAdd_rows_apply]
  rw [show broadcastInDim S50000x40 ![] bcast_S_S50000x40 (constant (F := Ideal) S_ .f32 0x00000000#32) (ix2 r o) = 0 from Pay.ofBits_zero, zero_add]
  refine agg_sum (kerGraph x1) xb (colT (dstT x1)) _ (fun e => rfl) (fun e k => ?_) r o
  show broadcastInDim S370000x40 ![0, 1] bcast_S370000x1_S370000x40_0_1 (colT (nrmT x1)) (ix2 e k)
      * Host.gather gather_S50000x40_S370000x1_S370000x40_1_0_n_n_0_1_140 xb (colT (wrapT (srcT x1))) (ix2 e k) = _
  rw [hGk40, gather_row _ xb _ e k _ rfl, nb40_apply]
  rfl

/-- A vector laid out as a one-row table reads the vector. -/
theorem row256_apply (v : F32 S256) (k : Fin 256) : row256 v (ix2 r0 k) = vec v k :=
  Cert.LibBiasRows.row_of_vector v _ k
theorem row40_apply (v : F32 S40) (k : Fin 40) : row40 v (ix2 r0 k) = vec v k :=
  Cert.LibBiasRows.row_of_vector v _ k

section
variable (h : F32 S50000x256) (b : F32 S256)

/-- The column sums of `h + b` are the sums of the specification's biased layer. -/
theorem colSum_spec (j : Fin 256) : colSum h (row256 b) (ix2 r0 j) = ∑ r : Fin 50000, addRow (tbl h) (vec b) r j := by
  unfold colSum addRow tbl
  exact Finset.sum_congr rfl fun r _ => by rw [row256_apply]
theorem colSumSq_spec (j : Fin 256) :
    colSumSq h (row256 b) (ix2 r0 j) = ∑ r : Fin 50000, addRow (tbl h) (vec b) r j * addRow (tbl h) (vec b) r j := by
  unfold colSumSq addRow tbl
  exact Finset.sum_congr rfl fun r _ => by rw [row256_apply]

/-- The row of means is the specification's mean. -/
theorem meanT_spec (j : Fin 256) : meanT (colSum h (row256 b)) (ix2 r0 j) = mean (addRow (tbl h) (vec b)) j := by
  unfold meanT mean
  show Ideal.div (colSum h (row256 b) (ix2 r0 j)) (Ideal.ofBits .f32 0x47435000#32) = _
  rw [colSum_spec]

/-- The row of clamped one-pass variances is the specification's. -/
theorem varT_spec (j : Fin 256) :
    varT (colSum h (row256 b)) (colSumSq h (row256 b)) (ix2 r0 j) = varOne (addRow (tbl h) (vec b)) j := by
  unfold varT varOne
  show max (Ideal.div (colSumSq h (row256 b) (ix2 r0 j)) (Ideal.ofBits .f32 0x47435000#32)
      - meanT (colSum h (row256 b)) (ix2 r0 j) * meanT (colSum h (row256 b)) (ix2 r0 j)) (Ideal.ofBits .f32 0x00000000#32) = _
  rw [colSumSq_spec, meanT_spec, Pay.ofBits_zero]

/-- A normalised, rectified, projected layer is the specification's. -/
theorem normProj_spec {C : ℕ} (g be : F32 S256) (w : F32 ⟨2, ![256, C]⟩) (r : Fin 50000) (o : Fin C) :
    normProj (C := C) h (row256 b) (meanT (colSum h (row256 b))) (varT (colSum h (row256 b)) (colSumSq h (row256 b)))
        (row256 g) (row256 be) w (ix2 r o)
      = lin (scaleShift (addRow (tbl h) (vec b)) (mean (addRow (tbl h) (vec b))) (fun j => max (varOne (addRow (tbl h) (vec b)) j) 0)
          (vec g) (vec be)) (tbl w) r o := by
  unfold normProj lin scaleShift
  refine Finset.sum_congr rfl fun k _ => ?_
  rw [meanT_spec, varT_spec, row256_apply, row256_apply, row256_apply]
  rfl

end

end Cert.KernelIdeal.Out

end
-- ==== Proof.KerSpecB.lean ====
/-
  The kernel's result is the specification's aggregate-first network of the kernel's graph: the stages of
  KerSpecA.lean composed, layer by layer.
-/
import proofs.«127233_j26182120636977_2_alg».proof.Proof.KerSpecA

noncomputable section

open scoped BigOperators

namespace Cert.KernelIdeal.Out

open Cert.KernelIdeal Cert.KernelIdeal.Gen Cert.KernelIdeal.HostRead Cert.KernelIdeal.Pay Cert.Gcn Cert.GcnRef
open Idealize.ShloMosaic Idealize.ShloMosaic.ValueIdx

section
variable (x0 : F32 S50000x128) (x1 : I32 S2x320000) (x2 : F32 S128x256) (x3 x4 x5 : F32 S256) (x6 : F32 S256x256)
  (x7 x8 x9 : F32 S256) (x10 : F32 S256x40) (x11 : F32 S40)

/-- The first layer before its bias: the aggregated features projected. -/
theorem k52_spec : tbl (k52 x0 x1 x2) = lin (agg (kerGraph x1) (tbl x0)) (tbl x2) := by
  funext r j
  unfold k52 tbl lin Cert.LibDense.prod aggT128
  refine Finset.sum_congr rfl fun k _ => ?_
  rw [aggG128_read]
  rfl

/-- THE KERNEL'S RESULT IS THE AGGREGATE-FIRST NETWORK OF ITS GRAPH. -/
theorem kerOut_spec (r : Fin 50000) (o : Fin 40) :
    kerOut x0 x1 x2 x3 x4 x5 x6 x7 x8 x9 x10 x11 (ix2 r o)
      = netKer (kerGraph x1) (tbl x0) (tbl x2) (vec x3) (vec x4) (vec x5) (tbl x6) (vec x7) (vec x8) (vec x9) (tbl x10) (vec x11) r o := by
  have e62 : tbl (k62 x0 x1 x2 x3 x4 x5 x6) = lin (scaleShift (pre1Ker (kerGraph x1) (tbl x0) (tbl x2) (vec x3))
      (mean (pre1Ker (kerGraph x1) (tbl x0) (tbl x2) (vec x3))) (fun j => max (varOne (pre1Ker (kerGraph x1) (tbl x0) (tbl x2) (vec x3)) j) 0)
      (vec x4) (vec x5)) (tbl x6) := by
    funext r j
    unfold k62 kmean1 kvar1 pre1Ker
    rw [← k52_spec]
    exact normProj_spec (k52 x0 x1 x2) x3 x4 x5 x6 r j
  have e76 : tbl (k76 x0 x1 x2 x3 x4 x5 x6) = agg (kerGraph x1) (tbl (k62 x0 x1 x2 x3 x4 x5 x6)) := by
    funext r j
    unfold k76
    exact aggG256_read _ x1 r j
  have e86 : tbl (k86 x0 x1 x2 x3 x4 x5 x6 x7 x8 x9 x10) = lin (scaleShift (addRow (tbl (k76 x0 x1 x2 x3 x4 x5 x6)) (vec x7))
      (mean (addRow (tbl (k76 x0 x1 x2 x3 x4 x5 x6)) (vec x7))) (fun j => max (varOne (addRow (tbl (k76 x0 x1 x2 x3 x4 x5 x6)) (vec x7)) j) 0)
      (vec x8) (vec x9)) (tbl x10) := by
    funext r j
    unfold k86 kmean2 kvar2
    exact normProj_spec (k76 x0 x1 x2 x3 x4 x5 x6) x7 x8 x9 x10 r j
  have e100 : tbl (k100 x0 x1 x2 x3 x4 x5 x6 x7 x8 x9 x10) = agg (kerGraph x1) (tbl (k86 x0 x1 x2 x3 x4 x5 x6 x7 x8 x9 x10)) := by
    funext r j
    unfold k100
    exact aggG40_read _ x1 r j
  have step1 : kerOut x0 x1 x2 x3 x4 x5 x6 x7 x8 x9 x10 x11 (ix2 r o)
      = Cert.LibLogSoftmax.lsmRow (addRow (agg (kerGraph x1) (tbl (k86 x0 x1 x2 x3 x4 x5 x6 x7 x8 x9 x10))) (vec x11) r) o := by
    unfold kerOut lsmRows
    show Cert.LibLogSoftmax.lsmRow (fun k : Fin 40 => k100 x0 x1 x2 x3 x4 x5 x6 x7 x8 x9 x10 (ix2 r k) + row40 x11 (ix2 r0 k)) o = _
    refine congrArg (fun row => Cert.LibLogSoftmax.lsmRow row o) (funext fun k => ?_)
    rw [row40_apply]
    show tbl (k100 x0 x1 x2 x3 x4 x5 x6 x7 x8 x9 x10) r k + vec x11 k = _
    rw [e100]
    rfl
  rw [step1, e86, e76, e62]
  rfl

end

end Cert.KernelIdeal.Out

end
-- ==== Proof.RefNetGraph.lean ====
/-
  The weighted edges of the reference program: the weight array, the wrapped source column and the target column it
  computes from the edge list, as the graph of the specification; and the readings every layer shares — the three
  layers gather at one and the same source column, add at one and the same target column, and spread one and the
  same weight array along the columns.
-/
import proofs.«127233_j26182120636977_2_alg».proof.Proof.RefReadP
import proofs.«127233_j26182120636977_2_alg».proof.Proof.RefNetAgg

noncomputable section

open scoped BigOperators

namespace Cert.GcnRef

open Idealize.ShloMosaic Idealize.ShloMosaic.ValueIdx Cert.Gcn Cert.ReferenceIdeal Cert.ReferenceIdeal.Gen Cert.ReferenceIdeal.ReadP

/-- The graph of the reference program: an edge's weight, its source word (after the wrap of negative numbers) and its
    target word. -/
def refGraph (x1 : (⟨S2x320000, .i32⟩ : BufTy).Contents (Elt Ideal)) : Graph :=
  ⟨fun e => val_main_v29 (F := Ideal) x1 (ix1 e), fun e => val_main_v37 (F := Ideal) x1 (ix2 e 0),
    fun e => val_main_v42 (F := Ideal) x1 (ix2 e 0)⟩

/-- The graph's three components, as the program's arrays. -/
theorem refGraph_nrm (x1 : (⟨S2x320000, .i32⟩ : BufTy).Contents (Elt Ideal)) (e : Fin 370000) : (refGraph x1).nrm e = val_main_v29 (F := Ideal) x1 (ix1 e) := rfl
theorem refGraph_src (x1 : (⟨S2x320000, .i32⟩ : BufTy).Contents (Elt Ideal)) (e : Fin 370000) : (refGraph x1).src e = val_main_v37 (F := Ideal) x1 (ix2 e 0) := rfl
theorem refGraph_dst (x1 : (⟨S2x320000, .i32⟩ : BufTy).Contents (Elt Ideal)) (e : Fin 370000) : (refGraph x1).dst e = val_main_v42 (F := Ideal) x1 (ix2 e 0) := rfl

/-- The program's dimension-number records are the row gather and the row scatter-add, at both widths. -/
theorem hG256 : gather_S50000x256_S370000x1_S370000x256_1_0_n_n_0_1_1256
    = Cert.RowOps.rowGather 50000 256 370000 gather_S50000x256_S370000x1_S370000x256_1_0_n_n_0_1_1256_wf := rfl
theorem hS256 : scatter_S50000x256_S370000x1_S370000x256_1_0_0_1
    = Cert.RowOps.rowScatter 50000 256 370000 scatter_S50000x256_S370000x1_S370000x256_1_0_0_1_wf := rfl
theorem hG40 : gather_S50000x40_S370000x1_S370000x40_1_0_n_n_0_1_140
    = Cert.RowOps.rowGather 50000 40 370000 gather_S50000x40_S370000x1_S370000x40_1_0_n_n_0_1_140_wf := rfl
theorem hS40 : scatter_S50000x40_S370000x1_S370000x40_1_0_0_1
    = Cert.RowOps.rowScatter 50000 40 370000 scatter_S50000x40_S370000x1_S370000x40_1_0_0_1_wf := rfl

section
variable (x1 : (⟨S2x320000, .i32⟩ : BufTy).Contents (Elt Ideal))

/-- The second and third layers' source columns are the first layer's: the same operations on the same edge list. -/
theorem src2_eq : val_main_v80 (F := Ideal) x1 = val_main_v37 (F := Ideal) x1 := rfl
theorem src3_eq : val_main_v123 (F := Ideal) x1 = val_main_v37 (F := Ideal) x1 := rfl
/-- … and so are their target columns … -/
theorem dst2_eq : val_main_v85 (F := Ideal) x1 = val_main_v42 (F := Ideal) x1 := rfl
theorem dst3_eq : val_main_v128 (F := Ideal) x1 = val_main_v42 (F := Ideal) x1 := rfl
/-- … and their weight columns. -/
theorem nrmcol2_eq : val_main_v74 (F := Ideal) x1 = val_main_v31 (F := Ideal) x1 := rfl
theorem nrmcol3_eq : val_main_v117 (F := Ideal) x1 = val_main_v31 (F := Ideal) x1 := rfl

/-- The weight column spread along 256 columns reads the edge's weight (first layer). -/
theorem nrm1 (e : Fin 370000) (k : Fin 256) : val_main_v39 (F := Ideal) x1 (ix2 e k) = (refGraph x1).nrm e := by
  have hi : idx_main_v31 (idx_main_v39 (ix2 e k)) = ix1 e := (funext fun a => Fin.ext (by match a with | ⟨0, _⟩ => rfl))
  rw [val_main_v39_apply, val_main_v31_apply, hi, refGraph_nrm]

/-- The weight column spread along 256 columns reads the edge's weight (second layer). -/
theorem nrm2 (e : Fin 370000) (k : Fin 256) : val_main_v82 (F := Ideal) x1 (ix2 e k) = (refGraph x1).nrm e := by
  have hi : idx_main_v74 (idx_main_v82 (ix2 e k)) = ix1 e := (funext fun a => Fin.ext (by match a with | ⟨0, _⟩ => rfl))
  rw [val_main_v82_apply, val_main_v74_apply, hi, refGraph_nrm]

/-- The weight column spread along 40 columns reads the edge's weight (third layer). -/
theorem nrm3 (e : Fin 370000) (k : Fin 40) : val_main_v125 (F := Ideal) x1 (ix2 e k) = (refGraph x1).nrm e := by
  have hi : idx_main_v117 (idx_main_v125 (ix2 e k)) = ix1 e := (funext fun a => Fin.ext (by match a with | ⟨0, _⟩ => rfl))
  rw [val_main_v125_apply, val_main_v117_apply, hi, refGraph_nrm]

end

/-- A table of the zero word is zero everywhere (width 256; the three layers' tables of zeros). -/
theorem zero1 (i : S50000x256.Idx) : val_main_v41 (F := Ideal) i = 0 := by
  rw [val_main_v41_apply]; exact ofBits_zero
theorem zero2 (i : S50000x256.Idx) : val_main_v84 (F := Ideal) i = 0 := by
  rw [val_main_v84_apply]; exact ofBits_zero
theorem zero3 (i : S50000x40.Idx) : val_main_v127 (F := Ideal) i = 0 := by
  rw [val_main_v127_apply]; exact ofBits_zero

end Cert.GcnRef

end
-- ==== Proof.GraphEq.lean ====
/-
  The two programs compute one and the same weighted graph from the edge table.

  Both run the same host operations on the edge table: the two rows of the table, each followed by one self-loop per
  node, are the source and the target words; ones added at the target words give the in-degree; its reciprocal square
  root where it is positive (zero elsewhere) is every node's factor; a negative word is wrapped by the row count; and
  an edge's weight is the product of the factors its two wrapped words read. The two programs name their shapes,
  their shape relations and their gather and scatter dimension records by different constants of equal value, so the
  comparison goes one operation at a time: the records are shown equal first, and each stage only rewrites with the
  stages before it.
-/
import proofs.«127233_j26182120636977_2_alg».proof.Proof.KerSpecA
import proofs.«127233_j26182120636977_2_alg».proof.Proof.RefNetGraph

noncomputable section

namespace Cert.GcnEq

open Idealize.ShloMosaic Idealize.ShloMosaic.ValueIdx
open Cert.KernelIdeal.HostRead
open Cert.ReferenceIdeal.ReadP

/-- The edge table, at the kernel's name of its shape (the reference's name has the same value). -/
abbrev Edges : Type := (⟨Cert.KernelIdeal.S2x320000, .i32⟩ : BufTy).Contents (Elt Ideal)

/-! ### The two programs' dimension records are equal -/

set_option maxHeartbeats 400000 in
theorem scatter_eq : Cert.KernelIdeal.scatter_S50000_S370000x1_S370000_n_0_0_1
    = Cert.ReferenceIdeal.scatter_S50000_S370000x1_S370000_n_0_0_1 := rfl

set_option maxHeartbeats 400000 in
theorem gather_eq : Cert.KernelIdeal.gather_S50000_S370000x1_S370000_n_0_n_n_0_1_1
    = Cert.ReferenceIdeal.gather_S50000_S370000x1_S370000_n_0_n_n_0_1_1 := rfl

variable (x1 : Edges)

/-! ### The edge words -/

set_option maxHeartbeats 400000 in
/-- The source words. -/
theorem src_eq : srcT x1 = val_main_v3 (F := Ideal) x1 := by
  unfold srcT val_main_v3 val_main_v2 val_main_v1 val_main_v0
  with_reducible rfl

set_option maxHeartbeats 400000 in
/-- The target words. -/
theorem dst_eq : dstT x1 = val_main_v6 (F := Ideal) x1 := by
  unfold dstT val_main_v6 val_main_v5 val_main_v4 val_main_v0
  with_reducible rfl

set_option maxHeartbeats 400000 in
/-- The wrapped source words, as the weights read them. -/
theorem wrap_src_eq : wrapT (srcT x1) = val_main_v19 (F := Ideal) x1 := by
  unfold wrapT val_main_v19 val_main_v16 val_main_v18 val_main_v15 val_main_v17 val_main_c val_main_c_3
  rw [src_eq]

set_option maxHeartbeats 400000 in
/-- The wrapped source words, as the layers read them. -/
theorem wrap_src_eq' : wrapT (srcT x1) = val_main_v36 (F := Ideal) x1 := by
  unfold wrapT val_main_v36 val_main_v33 val_main_v35 val_main_v32 val_main_v34 val_main_c_6 val_main_c_7
  rw [src_eq]

set_option maxHeartbeats 400000 in
/-- The wrapped target words. -/
theorem wrap_dst_eq : wrapT (dstT x1) = val_main_v26 (F := Ideal) x1 := by
  unfold wrapT val_main_v26 val_main_v23 val_main_v25 val_main_v22 val_main_v24 val_main_c_4 val_main_c_5
  rw [dst_eq]

/-! ### The in-degree, the factors and the weights -/

set_option maxHeartbeats 400000 in
theorem deg_eq : degT x1 = val_main_v10 (F := Ideal) x1 := by
  unfold degT val_main_v10 val_main_v8 val_main_v9 val_main_v7 val_main_cst_0 val_main_cst colT
  rw [dst_eq, scatter_eq]

set_option maxHeartbeats 400000 in
theorem dinv_eq : dinvT x1 = val_main_v14 (F := Ideal) x1 := by
  unfold dinvT val_main_v14 val_main_v12 val_main_v13 val_main_v11 val_main_cst_1 val_main_call0_v1 val_main_call0_v0
    val_main_cst_2
  rw [deg_eq, id_eq]

set_option maxHeartbeats 400000 in
theorem nrm_eq : nrmT x1 = val_main_v29 (F := Ideal) x1 := by
  unfold nrmT nrmOf val_main_v29 val_main_v21 val_main_v28 val_main_v20 val_main_v27 colT
  rw [dinv_eq, wrap_src_eq, wrap_dst_eq, gather_eq]

/-! ### The two columns the layers read -/

set_option maxHeartbeats 400000 in
theorem srccol_eq : colT (wrapT (srcT x1)) = val_main_v37 (F := Ideal) x1 := by
  unfold val_main_v37 colT
  rw [wrap_src_eq']

set_option maxHeartbeats 400000 in
theorem dstcol_eq : colT (dstT x1) = val_main_v42 (F := Ideal) x1 := by
  unfold val_main_v42 colT
  rw [dst_eq]

/-! ### The graphs -/

set_option maxHeartbeats 400000 in
/-- THE TWO PROGRAMS' GRAPHS ARE EQUAL: the same weights, source words and target words, edge by edge. -/
theorem kerGraph_eq_refGraph (x1 : (⟨Cert.KernelIdeal.S2x320000, .i32⟩ : BufTy).Contents (Elt Ideal)) :
    Cert.KernelIdeal.Out.kerGraph x1 = Cert.GcnRef.refGraph x1 := by
  unfold Cert.KernelIdeal.Out.kerGraph Cert.GcnRef.refGraph
  rw [nrm_eq, srccol_eq, dstcol_eq]

end Cert.GcnEq

end
-- ==== Proof.GcnLaw.lean ====
/-
  The algebra behind the comparison of the two arrangements of the graph convolution, on the extended reals.

  On the extended reals a product with an infinity does not distribute over a sum, so every regrouping below is
  proved for REAL entries: each side is then the coercion of one real number and the identity is real algebra.

  1. The two constants: the row count is the real 50000 and the variance offset is a positive real.
  2. The aggregation is linear: aggregating and then projecting is projecting and then aggregating,
       ∑ k, (∑ e into r, n e · x (s e) k) · W k o = ∑ e into r, n e · ∑ k, x (s e) k · W k o.
  3. For a real column the mean of the squares minus the square of the mean, clamped at zero, is the mean of the
     squared deviations from the mean (both are the same nonnegative real), and clamping it again changes nothing.
  4. Aggregation, projection, bias, mean, variance and the normalisation of real tables are real.
  5. Hence the two arrangements of the network agree on real data.

  For a real column c over n rows with mean m = (∑ c) / n,
      (∑ (c − m)²) / n = (∑ c²) / n − m²        (because ∑ c = n · m),
  and the left side is a mean of squares, so it is nonnegative. Every operand is the coercion of a real and every
  divisor is the nonzero real 50000, so each extended-real operation is the coercion of the real one.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import proofs.«127233_j26182120636977_2_alg».proof.Proof.GcnNet

noncomputable section

open scoped BigOperators

namespace Cert.Gcn

open Idealize.ShloMosaic

/-! ### Real values are closed under the operations -/

theorem IsReal.coe (y : ℝ) : IsReal (y : EReal) := ⟨y, rfl⟩

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases max_choice a b with h | h <;> rw [h] <;> assumption

theorem IsReal.ite {P : Prop} [Decidable P] {a b : EReal} (ha : IsReal a) (hb : IsReal b) :
    IsReal (if P then a else b) := by
  split_ifs <;> assumption

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (x : ℝ) :
    ((if P then x else 0 : ℝ) : EReal) = if P then (x : EReal) else 0 := by
  split_ifs <;> simp

/-- Clamping at zero commutes with the coercion. -/
theorem coe_max_zero (a : ℝ) : ((max a 0 : ℝ) : EReal) = max (a : EReal) 0 := by
  rcases le_total a 0 with h | h
  · rw [max_eq_right h, max_eq_right (by exact_mod_cast h), EReal.coe_zero]
  · rw [max_eq_left h, max_eq_left (by exact_mod_cast h)]

/-- The quotient of two reals by a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-! ### 1. The two constants

  0x47435000: exponent field 142, significand field 4411392, so (2²³ + 4411392) · 2^(142 − 150) = 12800000 / 256 = 50000.
  0x3727C5AC: exponent field 110, significand field 2606508, so (2²³ + 2606508) · 2^(110 − 150) = 10995116 / 2⁴⁰ > 0. -/

/-- The row count is the real 50000. -/
theorem cnt_eq : cnt = ((50000 : ℝ) : EReal) := by
  simp [cnt, Ideal.ofBits, Ideal.ieee, -EReal.coe_mul]; norm_num

/-- The variance offset is a positive real. -/
theorem eps_pos : ∃ y : ℝ, 0 < y ∧ eps = (y : EReal) := by
  refine ⟨10995116 / 2 ^ 40, by positivity, ?_⟩
  simp [eps, Ideal.ofBits, Ideal.ieee, -EReal.coe_mul]; norm_num

/-! ### 2. The aggregation is linear -/

/-- Over the reals: the projection of a weighted filtered sum of rows is the weighted filtered sum of the projections. -/
theorem real_lin_agg {ι κ : Type*} [Fintype ι] [Fintype κ] (P : ι → Prop) [DecidablePred P]
    (n : ι → ℝ) (a : ι → κ → ℝ) (w : κ → ℝ) :
    (∑ k, (∑ e, if P e then n e * a e k else 0) * w k) = ∑ e, if P e then n e * ∑ k, a e k * w k else 0 := by
  simp only [Finset.sum_mul, ite_mul, zero_mul]
  rw [Finset.sum_comm]
  refine Finset.sum_congr rfl fun e _ => ?_
  by_cases h : P e
  · simp only [h, if_true]
    rw [Finset.mul_sum]
    exact Finset.sum_congr rfl fun k _ => mul_assoc _ _ _
  · simp [h]

/-- The same on the extended reals, for real entries. -/
theorem lin_agg_sum {ι κ : Type*} [Fintype ι] [Fintype κ] (P : ι → Prop) [DecidablePred P]
    (n : ι → EReal) (a : ι → κ → EReal) (w : κ → EReal)
    (hn : ∀ e, IsReal (n e)) (ha : ∀ e k, IsReal (a e k)) (hw : ∀ k, IsReal (w k)) :
    (∑ k, (∑ e, if P e then n e * a e k else 0) * w k) = ∑ e, if P e then n e * ∑ k, a e k * w k else 0 := by
  choose n' hn' using hn
  choose a' ha' using ha
  choose w' hw' using hw
  have hl : (∑ k, (∑ e, if P e then n e * a e k else 0) * w k)
      = ((∑ k, (∑ e, if P e then n' e * a' e k else 0) * w' k : ℝ) : EReal) := by
    rw [coe_sum]
    refine Finset.sum_congr rfl fun k _ => ?_
    rw [EReal.coe_mul, coe_sum]
    simp only [coe_ite, EReal.coe_mul, hn', ha', hw']
  have hr : (∑ e, if P e then n e * ∑ k, a e k * w k else 0)
      = ((∑ e, if P e then n' e * ∑ k, a' e k * w' k else 0 : ℝ) : EReal) := by
    rw [coe_sum]
    refine Finset.sum_congr rfl fun e _ => ?_
    rw [coe_ite, EReal.coe_mul, coe_sum]
    simp only [EReal.coe_mul, hn', ha', hw']
  rw [hl, hr, real_lin_agg]

/-- AGGREGATING AND THEN PROJECTING IS PROJECTING AND THEN AGGREGATING, for real weights, features and matrix. -/
theorem lin_agg (G : Graph) {K D : ℕ} (x : Fin 50000 → Fin K → EReal) (W : Fin K → Fin D → EReal)
    (hn : ∀ e, IsReal (G.nrm e)) (hx : ∀ r k, IsReal (x r k)) (hW : ∀ k j, IsReal (W k j)) :
    lin (agg G x) W = agg G (lin x W) := by
  funext r o
  unfold lin agg
  exact lin_agg_sum (fun e => (G.dst e).toInt = (r.val : Int)) G.nrm (fun e k => x (rowOf (G.src e)) k)
    (fun k => W k o) hn (fun e k => hx _ _) (fun k => hW k o)

/-! ### 3. One pass and two passes give the same variance -/

/-- Over the reals: the mean of the squared deviations is the mean of the squares minus the square of the mean. -/
theorem real_var_identity {ι : Type*} [Fintype ι] (c : ι → ℝ) (N : ℝ) (hN : N = (Fintype.card ι : ℝ)) (hN0 : N ≠ 0) :
    (∑ i, (c i - (∑ j, c j) / N) * (c i - (∑ j, c j) / N)) / N
      = (∑ i, c i * c i) / N - ((∑ j, c j) / N) * ((∑ j, c j) / N) := by
  have h1 : ∀ i, (c i - (∑ j, c j) / N) * (c i - (∑ j, c j) / N)
      = c i * c i - 2 * ((∑ j, c j) / N) * c i + ((∑ j, c j) / N) * ((∑ j, c j) / N) := fun i => by ring
  rw [Finset.sum_congr rfl (fun i _ => h1 i), Finset.sum_add_distrib, Finset.sum_sub_distrib,
    ← Finset.mul_sum, Finset.sum_const, Finset.card_univ, nsmul_eq_mul, ← hN]
  field_simp
  ring

/-- A mean of squares is nonnegative. -/
theorem real_var_nonneg {ι : Type*} [Fintype ι] (c : ι → ℝ) (m N : ℝ) (hN : 0 < N) :
    0 ≤ (∑ i, (c i - m) * (c i - m)) / N :=
  div_nonneg (Finset.sum_nonneg fun i _ => mul_self_nonneg _) hN.le

section Column
variable (h : Fin 50000 → Fin 256 → EReal) (j : Fin 256) (c : Fin 50000 → ℝ) (hc : ∀ r, h r j = (c r : EReal))
include hc

/-- The mean of a real column is the real mean. -/
theorem mean_coe : mean h j = (((∑ r, c r) / 50000 : ℝ) : EReal) := by
  unfold mean
  rw [cnt_eq]
  simp only [hc]
  rw [← coe_sum, div_coe_coe _ _ (by norm_num)]

/-- The two-pass variance of a real column is the real mean of the squared deviations. -/
theorem varTwo_coe : varTwo h j
    = (((∑ r, (c r - (∑ r, c r) / 50000) * (c r - (∑ r, c r) / 50000)) / 50000 : ℝ) : EReal) := by
  unfold varTwo
  rw [mean_coe h j c hc, cnt_eq]
  simp only [hc, ← EReal.coe_sub, ← EReal.coe_mul]
  rw [← coe_sum, div_coe_coe _ _ (by norm_num)]

/-- The one-pass variance of a real column is the real mean of the squares minus the square of the mean, clamped. -/
theorem varOne_coe : varOne h j
    = ((max ((∑ r, c r * c r) / 50000 - ((∑ r, c r) / 50000) * ((∑ r, c r) / 50000)) 0 : ℝ) : EReal) := by
  unfold varOne
  rw [mean_coe h j c hc, cnt_eq]
  simp only [hc, ← EReal.coe_mul]
  rw [← coe_sum, div_coe_coe _ _ (by norm_num), ← EReal.coe_sub, coe_max_zero]

end Column

/-- THE VARIANCE LAW: on a real column the clamped one-pass variance is the two-pass variance. -/
theorem varOne_eq_varTwo (h : Fin 50000 → Fin 256 → EReal) (j : Fin 256) (hh : ∀ r, IsReal (h r j)) :
    varOne h j = varTwo h j := by
  choose c hc using hh
  rw [varOne_coe h j c hc, varTwo_coe h j c hc,
    real_var_identity c 50000 (by simp) (by norm_num)]
  congr 1
  refine max_eq_left ?_
  rw [← real_var_identity c 50000 (by simp) (by norm_num)]
  exact real_var_nonneg c _ 50000 (by norm_num)

/-- Clamping the one-pass variance again changes nothing (it is a maximum with zero already). -/
theorem max_varOne (h : Fin 50000 → Fin 256 → EReal) (j : Fin 256) : max (varOne h j) 0 = varOne h j :=
  max_eq_left (le_max_right _ _)

/-- The doubly clamped one-pass variance of a real table is its two-pass variance. -/
theorem clamp_varOne_eq (h : Fin 50000 → Fin 256 → EReal) (hh : ∀ r j, IsReal (h r j)) :
    (fun j => max (varOne h j) 0) = varTwo h := by
  funext j
  rw [max_varOne, varOne_eq_varTwo h j fun r => hh r j]

/-! ### 4. Real tables stay real -/

theorem agg_real (G : Graph) {C : ℕ} (f : Fin 50000 → Fin C → EReal) (hn : ∀ e, IsReal (G.nrm e))
    (hf : ∀ r k, IsReal (f r k)) (r : Fin 50000) (o : Fin C) : IsReal (agg G f r o) :=
  IsReal.sum _ _ fun e _ => IsReal.ite ((hn e).mul (hf _ _)) IsReal.zero

theorem lin_real {K D : ℕ} (a : Fin 50000 → Fin K → EReal) (W : Fin K → Fin D → EReal)
    (ha : ∀ r k, IsReal (a r k)) (hW : ∀ k j, IsReal (W k j)) (r : Fin 50000) (o : Fin D) : IsReal (lin a W r o) :=
  IsReal.sum _ _ fun k _ => (ha r k).mul (hW k o)

theorem addRow_real {D : ℕ} (h : Fin 50000 → Fin D → EReal) (b : Fin D → EReal)
    (hh : ∀ r j, IsReal (h r j)) (hb : ∀ j, IsReal (b j)) (r : Fin 50000) (o : Fin D) : IsReal (addRow h b r o) :=
  (hh r o).add (hb o)

theorem mean_real (h : Fin 50000 → Fin 256 → EReal) (hh : ∀ r j, IsReal (h r j)) (j : Fin 256) :
    IsReal (mean h j) := by
  choose c hc using fun r => hh r j
  exact ⟨_, mean_coe h j c hc⟩

/-- The two-pass variance of a real table is a nonnegative real. -/
theorem varTwo_real_nonneg (h : Fin 50000 → Fin 256 → EReal) (hh : ∀ r j, IsReal (h r j)) (j : Fin 256) :
    ∃ v : ℝ, 0 ≤ v ∧ varTwo h j = (v : EReal) := by
  choose c hc using fun r => hh r j
  exact ⟨_, real_var_nonneg c _ 50000 (by norm_num), varTwo_coe h j c hc⟩

/-- The reciprocal square root of a nonnegative real plus the offset is real. -/
theorem rsqrt_add_eps_real (v : ℝ) (hv : 0 ≤ v) : IsReal (Ideal.rsqrt ((v : EReal) + eps)) := by
  obtain ⟨y, hy, he⟩ := eps_pos
  rw [he, ← EReal.coe_add, Ideal.rsqrt_coe, if_neg (not_lt.mpr (by linarith)), if_neg (by linarith : ¬ v + y = 0)]
  exact IsReal.coe _

/-- The normalisation of a real table by its own mean and two-pass variance, with real scale and shift, is real. -/
theorem scaleShift_real (h : Fin 50000 → Fin 256 → EReal) (g be : Fin 256 → EReal)
    (hh : ∀ r j, IsReal (h r j)) (hg : ∀ j, IsReal (g j)) (hbe : ∀ j, IsReal (be j)) (r : Fin 50000) (j : Fin 256) :
    IsReal (scaleShift h (mean h) (varTwo h) g be r j) := by
  obtain ⟨v, hv, hv'⟩ := varTwo_real_nonneg h hh j
  unfold scaleShift
  rw [hv']
  exact IsReal.max ((((hh r j).sub (mean_real h hh j)).mul (rsqrt_add_eps_real v hv)).mul (hg j) |>.add (hbe j))
    IsReal.zero

/-! ### The two arrangements agree -/

/-- THE TWO ARRANGEMENTS OF THE NETWORK AGREE for real edge weights, input features, first two weight matrices and
    bias rows, and first scale and shift: the first layers agree because the aggregation is linear, the real table
    they produce has equal one-pass and two-pass variances, the normalised table is real again, and so is the second
    layer's table, whose two variances then agree as well; everything after is the same expression. -/
theorem netKer_eq_netRef (G : Graph) (x : Fin 50000 → Fin 128 → EReal) (W1 : Fin 128 → Fin 256 → EReal)
    (b1 g1 be1 : Fin 256 → EReal) (W2 : Fin 256 → Fin 256 → EReal) (b2 g2 be2 : Fin 256 → EReal)
    (W3 : Fin 256 → Fin 40 → EReal) (b3 : Fin 40 → EReal)
    (hn : ∀ e, IsReal (G.nrm e)) (hx : ∀ r k, IsReal (x r k)) (hW1 : ∀ k j, IsReal (W1 k j))
    (hb1 : ∀ j, IsReal (b1 j)) (hg1 : ∀ j, IsReal (g1 j)) (hbe1 : ∀ j, IsReal (be1 j))
    (hW2 : ∀ k j, IsReal (W2 k j)) (hb2 : ∀ j, IsReal (b2 j)) :
    netKer G x W1 b1 g1 be1 W2 b2 g2 be2 W3 b3 = netRef G x W1 b1 g1 be1 W2 b2 g2 be2 W3 b3 := by
  have e1 : pre1Ker G x W1 b1 = pre1Ref G x W1 b1 := by
    unfold pre1Ker pre1Ref
    rw [lin_agg G x W1 hn hx hW1]
  have r1 : ∀ r j, IsReal (pre1Ref G x W1 b1 r j) := fun r j =>
    addRow_real _ _ (agg_real G _ hn (lin_real x W1 hx hW1)) hb1 r j
  have ry1 : ∀ r j, IsReal (scaleShift (pre1Ref G x W1 b1) (mean (pre1Ref G x W1 b1)) (varTwo (pre1Ref G x W1 b1))
      g1 be1 r j) := scaleShift_real _ g1 be1 r1 hg1 hbe1
  have r2 : ∀ r j, IsReal (addRow (agg G (lin (scaleShift (pre1Ref G x W1 b1) (mean (pre1Ref G x W1 b1))
      (varTwo (pre1Ref G x W1 b1)) g1 be1) W2)) b2 r j) := fun r j =>
    addRow_real _ _ (agg_real G _ hn (lin_real _ W2 ry1 hW2)) hb2 r j
  dsimp only [netKer, netRef]
  rw [e1, clamp_varOne_eq _ r1, clamp_varOne_eq _ r2]

end Cert.Gcn

end
-- ==== Proof.GcnPre.lean ====
/-
  From the precondition to real inputs.

  The precondition is a conjunction, one conjunct per float argument, of "every entry has absolute value below +∞":
  an entry-wise comparison of |x| against the word of +∞, reduced by "and" over all axes. If the conjunction is 1
  then every conjunct is 1, a reduction by "and" that is 1 met only 1s, and an extended real x with max x (−x) < ⊤
  is neither ⊤ nor ⊥, so it is a real number.
-/
import Mathlib.Data.EReal.Basic
import Idealize.ShloMosaic.PureOps.Ideal
import Idealize.ShloMosaic.Lib.ReduceAll
import Idealize.ShloMosaic.Lib.ValueIdx
import proofs.«127233_j26182120636977_2_alg».proof.Pre_finite_inputs
import proofs.«127233_j26182120636977_2_alg».proof.Proof.GcnNet

noncomputable section

namespace Cert.GcnPre

open Idealize.ShloMosaic
open Cert.Pre_finite_inputs
open Cert.Gcn (IsReal)

/-- The rank-0 shape has one index. -/
instance : Subsingleton S_.Idx := ⟨fun a b => funext fun d => d.elim0⟩

/-- The word 0x7F800000 (all-ones exponent, zero significand, clear sign) denotes +∞. -/
theorem ofBits_top : Ideal.ofBits .f32 0x7F800000#32 = ⊤ := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : IsReal x := by
  rw [ofBits_top] at h
  induction x using EReal.rec with
  | bot => exact absurd h (by simp [Ideal.cmp])
  | coe r => exact ⟨r, rfl⟩
  | top => exact absurd h (by simp [Ideal.cmp])

/-- One conjunct: if the reduction by "and" of the entry-wise test |x| < +∞ is 1, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf x) (broadcastInDim s ![] hb (constant (F := Ideal) S_ .f32 0x7F800000#32))) init hr hu
      ValueIdx.ix0 = 1#1)
    (i : s.Idx) : IsReal (x i) :=
  real_of_abs_lt (x i) (Host.reduce_andi_all _ init hr hu ValueIdx.ix0 e i)

/-- A conjunction of two scalar truth values that is 1 has both conjuncts 1. -/
theorem and_one {a b : IVec S_ 1} (h : andi a b ValueIdx.ix0 = 1#1) :
    a ValueIdx.ix0 = 1#1 ∧ b ValueIdx.ix0 = 1#1 :=
  IntOp.andi_eq_one.1 h

/-- THE PRECONDITION MAKES EVERY FLOAT ARGUMENT REAL. -/
theorem real_of_pre [Facts] (x0 : FVec Ideal S50000x128 .f32) (x1 : IVec S2x320000 32)
    (x2 : FVec Ideal S128x256 .f32) (x3 x4 x5 : FVec Ideal S256 .f32) (x6 : FVec Ideal S256x256 .f32)
    (x7 x8 x9 : FVec Ideal S256 .f32) (x10 : FVec Ideal S256x40 .f32) (x11 : FVec Ideal S40 .f32)
    (h : fn (F := Ideal) x0 x1 x2 x3 x4 x5 x6 x7 x8 x9 x10 x11 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by
  have h0 := congrFun h ValueIdx.ix0
  dsimp only [fn, fn_part1, fn_part2, fn_part3] at h0
  obtain ⟨h0, h11⟩ := and_one h0
  obtain ⟨h0, h10⟩ := and_one h0
  obtain ⟨h0, h9⟩ := and_one h0
  obtain ⟨h0, h8⟩ := and_one h0
  obtain ⟨h0, h7⟩ := and_one h0
  obtain ⟨h0, h6⟩ := and_one h0
  obtain ⟨h0, h5⟩ := and_one h0
  obtain ⟨h0, h4⟩ := and_one h0
  obtain ⟨h0, h3⟩ := and_one h0
  obtain ⟨h0, h2⟩ := and_one h0
  exact ⟨real_of_all x0 _ _ _ _ h0, real_of_all x2 _ _ _ _ h2, real_of_all x3 _ _ _ _ h3, real_of_all x4 _ _ _ _ h4,
    real_of_all x5 _ _ _ _ h5, real_of_all x6 _ _ _ _ h6, real_of_all x7 _ _ _ _ h7, real_of_all x8 _ _ _ _ h8,
    real_of_all x9 _ _ _ _ h9, real_of_all x10 _ _ _ _ h10, real_of_all x11 _ _ _ _ h11⟩

end Cert.GcnPre

end
-- ==== Proof.RefNetL1.lean ====
/-
  The first layer of the reference program read as the specification: the projection of the input features, its
  aggregation over the graph, the bias row, and the normalisation of every column over the rows (mean, two-pass
  variance, reciprocal square root, scale, shift) followed by the rectifier.
-/
import proofs.«127233_j26182120636977_2_alg».proof.Proof.RefReadP
import proofs.«127233_j26182120636977_2_alg».proof.Proof.RefNetAgg
import proofs.«127233_j26182120636977_2_alg».proof.Proof.RefNetGraph

noncomputable section

open scoped BigOperators

namespace Cert.GcnRef

open Idealize.ShloMosaic Idealize.ShloMosaic.ValueIdx Cert.Gcn Cert.ReferenceIdeal Cert.ReferenceIdeal.Gen Cert.ReferenceIdeal.ReadP

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal))

/-- The projection: an entry is a row of the left factor against a column of the weights. -/
theorem L1_dot : tbl (val_main_v30 (F := Ideal) x0 x2) = lin (tbl x0) (tbl x2) := by
  funext r o
  rw [tbl_apply, lin_apply, val_main_v30_apply]
  refine Finset.sum_congr rfl fun k _ => ?_
  have hl : lidx_main_v30 (ix2 r o) k = ix2 r k := (funext fun a => Fin.ext (by match a with | ⟨0, _⟩ => rfl | ⟨1, _⟩ => rfl))
  have hr : ridx_main_v30 (ix2 r o) k = ix2 k o := (funext fun a => Fin.ext (by match a with | ⟨0, _⟩ => rfl | ⟨1, _⟩ => rfl))
  rw [hl, hr, tbl_apply, tbl_apply]

/-- The scaled gathered rows: at edge `e` and column `k`, the edge's weight times the projected table at the row the
    edge's source word names. -/
theorem L1_upd (e : Fin 370000) (k : Fin 256) : (val_main_v40 (F := Ideal) x0 x1 x2) (ix2 e k)
    = (refGraph x1).nrm e * (val_main_v30 (F := Ideal) x0 x2) (ix2 (rowOf ((refGraph x1).src e)) k) := by
  rw [val_main_v40_apply, nrm1]
  unfold val_main_v38
  rw [hG256, gather_row _ _ _ e k ((refGraph x1).src e) (refGraph_src x1 e).symm]
  rfl

/-- The aggregation of the projected rows over the graph. -/
theorem L1_agg : tbl (val_main_v43 (F := Ideal) x0 x1 x2) = agg (refGraph x1) (tbl (val_main_v30 (F := Ideal) x0 x2)) := by
  funext r o
  rw [tbl_apply]
  unfold val_main_v43
  rw [scat_eq, hS256, Cert.RowOps.scatterAdd_rows_apply, zero1, zero_add]
  exact agg_sum (refGraph x1) (val_main_v30 (F := Ideal) x0 x2) (val_main_v42 (F := Ideal) x1) (val_main_v40 (F := Ideal) x0 x1 x2)
    (fun e => (refGraph_dst x1 e).symm) (L1_upd x0 x1 x2) r o

end

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal))

/-- The bias row spread over the rows reads the bias entry of the column. -/
theorem L1_bias (r : Fin 50000) (j : Fin 256) : (val_main_v45 (F := Ideal) x3) (ix2 r j) = x3 (ix1 j) := by
  have hi : idx_main_v44 (idx_main_v45 (ix2 r j)) = ix1 j := (funext fun a => Fin.ext (by match a with | ⟨0, _⟩ => rfl))
  rw [val_main_v45_apply, val_main_v44_apply, hi]

/-- The layer before its normalisation: the aggregation plus the bias row. -/
theorem L1_pre : tbl (val_main_v46 (F := Ideal) x0 x1 x2 x3) = addRow (tbl (val_main_v43 (F := Ideal) x0 x1 x2)) (vec x3) := by
  funext r j
  show (val_main_v46 (F := Ideal) x0 x1 x2 x3) (ix2 r j) = (val_main_v43 (F := Ideal) x0 x1 x2) (ix2 r j) + x3 (ix1 j)
  rw [val_main_v46_apply, L1_bias] <;> rfl

/-- The sum of a column over the rows, from the zero word. -/
theorem L1_sum (j : Fin 256) : (val_main_v47 (F := Ideal) x0 x1 x2 x3) (ix1 j) = ∑ r : Fin 50000, (tbl (val_main_v46 (F := Ideal) x0 x1 x2 x3)) r j := by
  have h0 : (val_main_cst_9 (F := Ideal)) (Shape.Idx.first h_S_) = 0 := ofBits_zero
  rw [val_main_v47_apply, h0, zero_add]
  refine Finset.sum_congr rfl fun k _ => ?_
  have hi : idx_main_v47 (ix1 j) k = ix2 k j := (funext fun a => Fin.ext (by match a with | ⟨0, _⟩ => rfl | ⟨1, _⟩ => rfl))
  rw [hi] <;> rfl

/-- The column's mean. -/
theorem L1_mean (j : Fin 256) : (val_main_v49 (F := Ideal) x0 x1 x2 x3) (ix1 j) = mean (tbl (val_main_v46 (F := Ideal) x0 x1 x2 x3)) j := by
  rw [val_main_v49_apply, L1_sum, val_main_v48_apply] <;> rfl

/-- The mean row spread over the rows (the copy the deviations for the variance use). -/
theorem L1_meanA (r : Fin 50000) (j : Fin 256) : (val_main_v51 (F := Ideal) x0 x1 x2 x3) (ix2 r j) = mean (tbl (val_main_v46 (F := Ideal) x0 x1 x2 x3)) j := by
  have hi : idx_main_v50 (idx_main_v51 (ix2 r j)) = ix1 j := (funext fun a => Fin.ext (by match a with | ⟨0, _⟩ => rfl))
  rw [val_main_v51_apply, val_main_v50_apply, hi, L1_mean]

/-- The mean row spread over the rows (the copy the centred entries use). -/
theorem L1_meanB (r : Fin 50000) (j : Fin 256) : (val_main_v58 (F := Ideal) x0 x1 x2 x3) (ix2 r j) = mean (tbl (val_main_v46 (F := Ideal) x0 x1 x2 x3)) j := by
  have hi : idx_main_v57 (idx_main_v58 (ix2 r j)) = ix1 j := (funext fun a => Fin.ext (by match a with | ⟨0, _⟩ => rfl))
  rw [val_main_v58_apply, val_main_v57_apply, hi, L1_mean]

/-- The sum of the squared deviations of a column, from the zero word. -/
theorem L1_sq (j : Fin 256) :
    (val_main_v54 (F := Ideal) x0 x1 x2 x3) (ix1 j) = ∑ r : Fin 50000, ((tbl (val_main_v46 (F := Ideal) x0 x1 x2 x3)) r j - mean (tbl (val_main_v46 (F := Ideal) x0 x1 x2 x3)) j) * ((tbl (val_main_v46 (F := Ideal) x0 x1 x2 x3)) r j - mean (tbl (val_main_v46 (F := Ideal) x0 x1 x2 x3)) j) := by
  have h0 : (val_main_cst_11 (F := Ideal)) (Shape.Idx.first h_S_) = 0 := ofBits_zero
  rw [val_main_v54_apply, h0, zero_add]
  refine Finset.sum_congr rfl fun k _ => ?_
  have hi : idx_main_v54 (ix1 j) k = ix2 k j := (funext fun a => Fin.ext (by match a with | ⟨0, _⟩ => rfl | ⟨1, _⟩ => rfl))
  rw [hi, val_main_v53_apply, val_main_v52_apply, L1_meanA] <;> rfl

/-- The column's variance: the mean of the squared deviations. -/
theorem L1_var (j : Fin 256) : (val_main_v56 (F := Ideal) x0 x1 x2 x3) (ix1 j) = varTwo (tbl (val_main_v46 (F := Ideal) x0 x1 x2 x3)) j := by
  rw [val_main_v56_apply, L1_sq, val_main_v55_apply] <;> rfl

/-- The reciprocal square root of the variance plus the offset. -/
theorem L1_rs (j : Fin 256) : (val_main_v62 (F := Ideal) x0 x1 x2 x3) (ix1 j) = Ideal.rsqrt (varTwo (tbl (val_main_v46 (F := Ideal) x0 x1 x2 x3)) j + eps) := by
  rw [val_main_v62_apply, val_main_v61_apply, L1_var, val_main_v60_apply] <;> rfl

/-- That row spread over the rows. -/
theorem L1_rsB (r : Fin 50000) (j : Fin 256) : (val_main_v64 (F := Ideal) x0 x1 x2 x3) (ix2 r j) = Ideal.rsqrt (varTwo (tbl (val_main_v46 (F := Ideal) x0 x1 x2 x3)) j + eps) := by
  have hi : idx_main_v63 (idx_main_v64 (ix2 r j)) = ix1 j := (funext fun a => Fin.ext (by match a with | ⟨0, _⟩ => rfl))
  rw [val_main_v64_apply, val_main_v63_apply, hi, L1_rs]

/-- The scale row spread over the rows. -/
theorem L1_g (r : Fin 50000) (j : Fin 256) : (val_main_v67 (F := Ideal) x4) (ix2 r j) = x4 (ix1 j) := by
  have hi : idx_main_v66 (idx_main_v67 (ix2 r j)) = ix1 j := (funext fun a => Fin.ext (by match a with | ⟨0, _⟩ => rfl))
  rw [val_main_v67_apply, val_main_v66_apply, hi]

/-- The shift row spread over the rows. -/
theorem L1_be (r : Fin 50000) (j : Fin 256) : (val_main_v70 (F := Ideal) x5) (ix2 r j) = x5 (ix1 j) := by
  have hi : idx_main_v69 (idx_main_v70 (ix2 r j)) = ix1 j := (funext fun a => Fin.ext (by match a with | ⟨0, _⟩ => rfl))
  rw [val_main_v70_apply, val_main_v69_apply, hi]

/-- THE NORMALISED, RECTIFIED LAYER: centred by the column's mean, scaled by the reciprocal square root of the
    two-pass variance plus the offset and by the scale row, shifted, and joined with zero. -/
theorem L1_out : tbl (val_main_v72 (F := Ideal) x0 x1 x2 x3 x4 x5)
    = scaleShift (tbl (val_main_v46 (F := Ideal) x0 x1 x2 x3)) (mean (tbl (val_main_v46 (F := Ideal) x0 x1 x2 x3))) (varTwo (tbl (val_main_v46 (F := Ideal) x0 x1 x2 x3))) (vec x4) (vec x5) := by
  funext r j
  show (val_main_v72 (F := Ideal) x0 x1 x2 x3 x4 x5) (ix2 r j)
    = max (((tbl (val_main_v46 (F := Ideal) x0 x1 x2 x3)) r j - mean (tbl (val_main_v46 (F := Ideal) x0 x1 x2 x3)) j) * Ideal.rsqrt (varTwo (tbl (val_main_v46 (F := Ideal) x0 x1 x2 x3)) j + eps) * x4 (ix1 j) + x5 (ix1 j)) 0
  have h0 : val_main_call1_v0 (F := Ideal) (ix2 r j) = 0 := by
    rw [val_main_call1_v0_apply]; exact ofBits_zero
  rw [val_main_v72_apply, h0, val_main_v71_apply, val_main_v68_apply, val_main_v65_apply, val_main_v59_apply, L1_meanB, L1_rsB, L1_g, L1_be] <;> rfl

end

end Cert.GcnRef

end
-- ==== Proof.RefNetL2.lean ====
/-
  The second layer of the reference program read as the specification, as a function of the first layer's output
  table: the projection, its aggregation over the graph, the bias row, the normalisation of every column over the rows
  and the rectifier.
-/
import proofs.«127233_j26182120636977_2_alg».proof.Proof.RefReadP
import proofs.«127233_j26182120636977_2_alg».proof.Proof.RefNetAgg
import proofs.«127233_j26182120636977_2_alg».proof.Proof.RefNetGraph

noncomputable section

open scoped BigOperators

namespace Cert.GcnRef

open Idealize.ShloMosaic Idealize.ShloMosaic.ValueIdx Cert.Gcn Cert.ReferenceIdeal Cert.ReferenceIdeal.Gen Cert.ReferenceIdeal.ReadP

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal))

/-- The projection: an entry is a row of the left factor against a column of the weights. -/
theorem L2_dot : tbl (val_main_v73 (F := Ideal) x0 x1 x2 x3 x4 x5 x6) = lin (tbl (val_main_v72 (F := Ideal) x0 x1 x2 x3 x4 x5)) (tbl x6) := by
  funext r o
  rw [tbl_apply, lin_apply, val_main_v73_apply]
  refine Finset.sum_congr rfl fun k _ => ?_
  have hl : lidx_main_v73 (ix2 r o) k = ix2 r k := (funext fun a => Fin.ext (by match a with | ⟨0, _⟩ => rfl | ⟨1, _⟩ => rfl))
  have hr : ridx_main_v73 (ix2 r o) k = ix2 k o := (funext fun a => Fin.ext (by match a with | ⟨0, _⟩ => rfl | ⟨1, _⟩ => rfl))
  rw [hl, hr, tbl_apply, tbl_apply]

/-- The scaled gathered rows: at edge `e` and column `k`, the edge's weight times the projected table at the row the
    edge's source word names. -/
theorem L2_upd (e : Fin 370000) (k : Fin 256) : (val_main_v83 (F := Ideal) x0 x1 x2 x3 x4 x5 x6) (ix2 e k)
    = (refGraph x1).nrm e * (val_main_v73 (F := Ideal) x0 x1 x2 x3 x4 x5 x6) (ix2 (rowOf ((refGraph x1).src e)) k) := by
  rw [val_main_v83_apply, nrm2]
  unfold val_main_v81
  rw [hG256, gather_row _ _ _ e k ((refGraph x1).src e) ((congrFun (src2_eq x1) (ix2 e 0)).trans (refGraph_src x1 e).symm)]
  rfl

/-- The aggregation of the projected rows over the graph. -/
theorem L2_agg : tbl (val_main_v86 (F := Ideal) x0 x1 x2 x3 x4 x5 x6) = agg (refGraph x1) (tbl (val_main_v73 (F := Ideal) x0 x1 x2 x3 x4 x5 x6)) := by
  funext r o
  rw [tbl_apply]
  unfold val_main_v86
  rw [scat_eq, hS256, Cert.RowOps.scatterAdd_rows_apply, zero2, zero_add]
  exact agg_sum (refGraph x1) (val_main_v73 (F := Ideal) x0 x1 x2 x3 x4 x5 x6) (val_main_v85 (F := Ideal) x1) (val_main_v83 (F := Ideal) x0 x1 x2 x3 x4 x5 x6)
    (fun e => (congrFun (dst2_eq x1) (ix2 e 0)).trans (refGraph_dst x1 e).symm) (L2_upd x0 x1 x2 x3 x4 x5 x6) r o

end

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal))

/-- The bias row spread over the rows reads the bias entry of the column. -/
theorem L2_bias (r : Fin 50000) (j : Fin 256) : (val_main_v88 (F := Ideal) x7) (ix2 r j) = x7 (ix1 j) := by
  have hi : idx_main_v87 (idx_main_v88 (ix2 r j)) = ix1 j := (funext fun a => Fin.ext (by match a with | ⟨0, _⟩ => rfl))
  rw [val_main_v88_apply, val_main_v87_apply, hi]

/-- The layer before its normalisation: the aggregation plus the bias row. -/
theorem L2_pre : tbl (val_main_v89 (F := Ideal) x0 x1 x2 x3 x4 x5 x6 x7) = addRow (tbl (val_main_v86 (F := Ideal) x0 x1 x2 x3 x4 x5 x6)) (vec x7) := by
  funext r j
  show (val_main_v89 (F := Ideal) x0 x1 x2 x3 x4 x5 x6 x7) (ix2 r j) = (val_main_v86 (F := Ideal) x0 x1 x2 x3 x4 x5 x6) (ix2 r j) + x7 (ix1 j)
  rw [val_main_v89_apply, L2_bias] <;> rfl

/-- The sum of a column over the rows, from the zero word. -/
theorem L2_sum (j : Fin 256) : (val_main_v90 (F := Ideal) x0 x1 x2 x3 x4 x5 x6 x7) (ix1 j) = ∑ r : Fin 50000, (tbl (val_main_v89 (F := Ideal) x0 x1 x2 x3 x4 x5 x6 x7)) r j := by
  have h0 : (val_main_cst_17 (F := Ideal)) (Shape.Idx.first h_S_) = 0 := ofBits_zero
  rw [val_main_v90_apply, h0, zero_add]
  refine Finset.sum_congr rfl fun k _ => ?_
  have hi : idx_main_v90 (ix1 j) k = ix2 k j := (funext fun a => Fin.ext (by match a with | ⟨0, _⟩ => rfl | ⟨1, _⟩ => rfl))
  rw [hi] <;> rfl

/-- The column's mean. -/
theorem L2_mean (j : Fin 256) : (val_main_v92 (F := Ideal) x0 x1 x2 x3 x4 x5 x6 x7) (ix1 j) = mean (tbl (val_main_v89 (F := Ideal) x0 x1 x2 x3 x4 x5 x6 x7)) j := by
  rw [val_main_v92_apply, L2_sum, val_main_v91_apply] <;> rfl

/-- The mean row spread over the rows (the copy the deviations for the variance use). -/
theorem L2_meanA (r : Fin 50000) (j : Fin 256) : (val_main_v94 (F := Ideal) x0 x1 x2 x3 x4 x5 x6 x7) (ix2 r j) = mean (tbl (val_main_v89 (F := Ideal) x0 x1 x2 x3 x4 x5 x6 x7)) j := by
  have hi : idx_main_v93 (idx_main_v94 (ix2 r j)) = ix1 j := (funext fun a => Fin.ext (by match a with | ⟨0, _⟩ => rfl))
  rw [val_main_v94_apply, val_main_v93_apply, hi, L2_mean]

/-- The mean row spread over the rows (the copy the centred entries use). -/
theorem L2_meanB (r : Fin 50000) (j : Fin 256) : (val_main_v101 (F := Ideal) x0 x1 x2 x3 x4 x5 x6 x7) (ix2 r j) = mean (tbl (val_main_v89 (F := Ideal) x0 x1 x2 x3 x4 x5 x6 x7)) j := by
  have hi : idx_main_v100 (idx_main_v101 (ix2 r j)) = ix1 j := (funext fun a => Fin.ext (by match a with | ⟨0, _⟩ => rfl))
  rw [val_main_v101_apply, val_main_v100_apply, hi, L2_mean]

/-- The sum of the squared deviations of a column, from the zero word. -/
theorem L2_sq (j : Fin 256) :
    (val_main_v97 (F := Ideal) x0 x1 x2 x3 x4 x5 x6 x7) (ix1 j) = ∑ r : Fin 50000, ((tbl (val_main_v89 (F := Ideal) x0 x1 x2 x3 x4 x5 x6 x7)) r j - mean (tbl (val_main_v89 (F := Ideal) x0 x1 x2 x3 x4 x5 x6 x7)) j) * ((tbl (val_main_v89 (F := Ideal) x0 x1 x2 x3 x4 x5 x6 x7)) r j - mean (tbl (val_main_v89 (F := Ideal) x0 x1 x2 x3 x4 x5 x6 x7)) j) := by
  have h0 : (val_main_cst_19 (F := Ideal)) (Shape.Idx.first h_S_) = 0 := ofBits_zero
  rw [val_main_v97_apply, h0, zero_add]
  refine Finset.sum_congr rfl fun k _ => ?_
  have hi : idx_main_v97 (ix1 j) k = ix2 k j := (funext fun a => Fin.ext (by match a with | ⟨0, _⟩ => rfl | ⟨1, _⟩ => rfl))
  rw [hi, val_main_v96_apply, val_main_v95_apply, L2_meanA] <;> rfl

/-- The column's variance: the mean of the squared deviations. -/
theorem L2_var (j : Fin 256) : (val_main_v99 (F := Ideal) x0 x1 x2 x3 x4 x5 x6 x7) (ix1 j) = varTwo (tbl (val_main_v89 (F := Ideal) x0 x1 x2 x3 x4 x5 x6 x7)) j := by
  rw [val_main_v99_apply, L2_sq, val_main_v98_apply] <;> rfl

/-- The reciprocal square root of the variance plus the offset. -/
theorem L2_rs (j : Fin 256) : (val_main_v105 (F := Ideal) x0 x1 x2 x3 x4 x5 x6 x7) (ix1 j) = Ideal.rsqrt (varTwo (tbl (val_main_v89 (F := Ideal) x0 x1 x2 x3 x4 x5 x6 x7)) j + eps) := by
  rw [val_main_v105_apply, val_main_v104_apply, L2_var, val_main_v103_apply] <;> rfl

/-- That row spread over the rows. -/
theorem L2_rsB (r : Fin 50000) (j : Fin 256) : (val_main_v107 (F := Ideal) x0 x1 x2 x3 x4 x5 x6 x7) (ix2 r j) = Ideal.rsqrt (varTwo (tbl (val_main_v89 (F := Ideal) x0 x1 x2 x3 x4 x5 x6 x7)) j + eps) := by
  have hi : idx_main_v106 (idx_main_v107 (ix2 r j)) = ix1 j := (funext fun a => Fin.ext (by match a with | ⟨0, _⟩ => rfl))
  rw [val_main_v107_apply, val_main_v106_apply, hi, L2_rs]

/-- The scale row spread over the rows. -/
theorem L2_g (r : Fin 50000) (j : Fin 256) : (val_main_v110 (F := Ideal) x8) (ix2 r j) = x8 (ix1 j) := by
  have hi : idx_main_v109 (idx_main_v110 (ix2 r j)) = ix1 j := (funext fun a => Fin.ext (by match a with | ⟨0, _⟩ => rfl))
  rw [val_main_v110_apply, val_main_v109_apply, hi]

/-- The shift row spread over the rows. -/
theorem L2_be (r : Fin 50000) (j : Fin 256) : (val_main_v113 (F := Ideal) x9) (ix2 r j) = x9 (ix1 j) := by
  have hi : idx_main_v112 (idx_main_v113 (ix2 r j)) = ix1 j := (funext fun a => Fin.ext (by match a with | ⟨0, _⟩ => rfl))
  rw [val_main_v113_apply, val_main_v112_apply, hi]

/-- THE NORMALISED, RECTIFIED LAYER: centred by the column's mean, scaled by the reciprocal square root of the
    two-pass variance plus the offset and by the scale row, shifted, and joined with zero. -/
theorem L2_out : tbl (val_main_v115 (F := Ideal) x0 x1 x2 x3 x4 x5 x6 x7 x8 x9)
    = scaleShift (tbl (val_main_v89 (F := Ideal) x0 x1 x2 x3 x4 x5 x6 x7)) (mean (tbl (val_main_v89 (F := Ideal) x0 x1 x2 x3 x4 x5 x6 x7))) (varTwo (tbl (val_main_v89 (F := Ideal) x0 x1 x2 x3 x4 x5 x6 x7))) (vec x8) (vec x9) := by
  funext r j
  show (val_main_v115 (F := Ideal) x0 x1 x2 x3 x4 x5 x6 x7 x8 x9) (ix2 r j)
    = max (((tbl (val_main_v89 (F := Ideal) x0 x1 x2 x3 x4 x5 x6 x7)) r j - mean (tbl (val_main_v89 (F := Ideal) x0 x1 x2 x3 x4 x5 x6 x7)) j) * Ideal.rsqrt (varTwo (tbl (val_main_v89 (F := Ideal) x0 x1 x2 x3 x4 x5 x6 x7)) j + eps) * x8 (ix1 j) + x9 (ix1 j)) 0
  have h0 : val_main_call2_v0 (F := Ideal) (ix2 r j) = 0 := by
    rw [val_main_call2_v0_apply]; exact ofBits_zero
  rw [val_main_v115_apply, h0, val_main_v114_apply, val_main_v111_apply, val_main_v108_apply, val_main_v102_apply, L2_meanB, L2_rsB, L2_g, L2_be] <;> rfl

end

end Cert.GcnRef

end
-- ==== Proof.LibRowRead.lean ====
import proofs.«127233_j26182120636977_2_alg».proof.Proof.LibSoftmaxRow
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

/-!
# Host operations on a matrix, read at a row

For an `[a, n]` array and a row `r`, each lemma reads one host operation at an index of row `r`:

* a vector `[a]` broadcast to a column `[a, 1]` (`dims = [0]`) and a column broadcast over the rows' entries
  (`[a, 1] → [a, b]`, `dims = [0, 1]`);
* the reduction over the last axis with a maximum body, as the fold of `max` over the row from the initial value,
  and with an add body, as the initial value plus the sum over the row;
* a column `[a, 1]` put in front of an `[a, n]` array along the last axis: column `0` reads the column,
  column `k + 1` reads entry `k`;
* the slice of column `0` and the cast of a column `[a, 1]` back to a vector `[a]`;
* the f32 word of one half;
* the host's pointwise exponential, logarithms, negation and absolute value at an index, and a float compared
  unequal with itself (never, at the extended reals).
-/

noncomputable section

namespace Cert.LibRowRead

open Idealize.ShloMosaic Idealize.ShloMosaic.ValueIdx

/-- A vector `[a]` broadcast to the column `[a, 1]` reads, at `(r, u)`, the vector at `r`. -/
theorem bcastCol_apply {α : Type} {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A column `[a, 1]` broadcast to `[a, b]` reads, at `(r, c)`, the column's entry of row `r`. -/
theorem bcastRow_apply {α : Type} {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ => exact (if_pos rfl).symm

/-- The host's reduce with a maximum body over the last axis of an `[a, n]` array, at row `r`: the fold of `max`
    over the row from the initial value. -/
theorem hostReduce_max_row2 {a n : ℕ} {u : Shape} (x : (⟨2, ![a, n]⟩ : Shape).Idx → Ideal .f32) (init : u.Idx → Ideal .f32)
    (h' : (⟨2, ![a, n]⟩ : Shape).ReducesTo [1] (⟨1, ![a]⟩ : Shape)) (hu : 0 < u.numel) (r : Fin a) :
    Host.reduce FloatOps.maximumf x init h' hu (ix1 r)
      = (Finset.univ : Finset (Fin n)).fold max (init (Shape.Idx.first hu)) fun k : Fin n => x (ix2 r k) := by
  have h : (⟨2, ![a, n]⟩ : Shape).Reduces [1] (⟨1, ![a]⟩ : Shape) := ⟨h'.1, Nat.one_pos, h'.2⟩
  rw [Host.reduce_eq_fold_single FloatOps.maximumf x init h' h hu]
  have hf : (x ∘ h.lift (ix1 r)) = fun k : Fin n => x (ix2 r k) :=
    funext fun k => congrArg x (Cert.LibSoftmaxRow.lift_row2 h r k)
  exact congrArg (fun f => Finset.fold max (init (Shape.Idx.first hu)) f (Finset.univ : Finset (Fin n))) hf

/-- The host's reduce with an add body over the last axis of an `[a, n]` array, at row `r`: the initial value plus
    the sum over the row. -/
theorem hostReduceAdd_row2 {a n : ℕ} {u : Shape} (x : FVec Ideal ⟨2, ![a, n]⟩ .f32) (init : u.Idx → Ideal .f32)
    (h' : (⟨2, ![a, n]⟩ : Shape).ReducesTo [1] (⟨1, ![a]⟩ : Shape)) (hu : 0 < u.numel) (r : Fin a) :
    Host.reduceAdd x init h' hu (ix1 r) = init (Shape.Idx.first hu) + ∑ k : Fin n, x (ix2 r k) := by
  have h : (⟨2, ![a, n]⟩ : Shape).Reduces [1] (⟨1, ![a]⟩ : Shape) := ⟨h'.1, Nat.one_pos, h'.2⟩
  rw [hostReduceAdd_apply, Ideal.hostReduceAdd_single h' h]
  congr 1
  exact Finset.sum_congr rfl fun k _ => congrArg x (Cert.LibSoftmaxRow.lift_row2 h r k)

/-- A column in front of an `[a, n]` array: column `0` of the concatenation reads the column. -/
theorem concat_col_zero {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (c : Fin m) (hc : c.val = 0) :
    concatenate ⟨2, ![a, m]⟩ 1 [⟨⟨2, ![a, 1]⟩, x₁⟩, ⟨⟨2, ![a, n]⟩, x₂⟩] h (ix2 r c) = x₁ (ix2 r (0 : Fin 1)) := by
  refine concatenate_pair_apply_left 1 x₁ x₂ h (ix2 r c) rfl (ix2 r (0 : Fin 1)) fun b => ?_
  match b with
  | ⟨0, _⟩ => rfl
  | ⟨1, _⟩ => exact hc.symm

/-- A column in front of an `[a, n]` array: column `k + 1` of the concatenation reads the array's column `k`. -/
theorem concat_col_succ {α : Type} {a n m : ℕ} (x₁ : (⟨2, ![a, 1]⟩ : Shape).Idx → α) (x₂ : (⟨2, ![a, n]⟩ : Shape).Idx → α)
    (h : Shape.Concatenates [⟨2, ![a, 1]⟩, ⟨2, ![a, n]⟩] ⟨2, ![a, m]⟩ 1) (r : Fin a) (k : Fin n) (c : Fin m)
    (hc : c.val = k.val + 1) :
    concatenate ⟨2, ![a, m]⟩ 1 [⟨⟨2, ![a, 1]⟩, x₁⟩, ⟨⟨2, ![a, n]⟩, x₂⟩] h (ix2 r c) = x₂ (ix2 r k) := by
  refine concatenate_pair_apply_right 1 x₁ x₂ h (ix2 r c) rfl rfl (ix2 r k) (fun b hb => ?_) hc.symm
  match b, hb with
  | ⟨0, _⟩, _ => rfl
  | ⟨1, _⟩, hb => exact absurd rfl hb

/-- Column `0` of an `[a, m]` array, sliced out as a column `[a, 1]`. -/
theorem slice_col0_apply {α : Type} {a m : ℕ} (x : (⟨2, ![a, m]⟩ : Shape).Idx → α)
    (h : (⟨2, ![a, m]⟩ : Shape).Slices ![0, 0] ⟨2, ![a, 1]⟩) (r : Fin a) (u : Fin 1) (c : Fin m) (hc : c.val = 0) :
    extractStridedSlice ⟨2, ![a, 1]⟩ ![0, 0] x h (ix2 r u) = x (ix2 r c) := by
  refine extractStridedSlice_apply _ x h (ix2 r u) (ix2 r c) fun ax => ?_
  match ax with
  | ⟨0, _⟩ => show r.val = 0 + r.val; omega
  | ⟨1, _⟩ => show c.val = 0 + u.val; omega

/-- A column `[a, 1]` cast to the vector `[a]` reads, at `r`, the column's entry of row `r`. -/
theorem castCol_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) := by
  refine shapeCast_apply x h (ix1 r) (ix2 r (0 : Fin 1)) ?_
  rw [Shape.rowMajor_val_two, Shape.rowMajor_val_one]
  show r.val * 1 + 0 = r.val
  omega

/-- The f32 word `0x3F000000`: exponent field 126, significand field 0, so 2²³ · 2^(126 − 150) = 1/2. -/
theorem ofBits_half : Ideal.ofBits .f32 0x3F000000#32 = (((1 : ℝ) / 2 : ℝ) : EReal) := by
  simp [Ideal.ofBits, Ideal.ieee, -EReal.coe_mul]; norm_num

/-- A sum over `Fin (n + 1)` split into its first term and the sum of the rest, the index type given by an equation. -/
theorem sum_head_tail {M : Type} [AddCommMonoid M] {n m : ℕ} (hm : m = n + 1) (f : Fin m → M) :
    ∑ c : Fin m, f c = f ⟨0, by omega⟩ + ∑ k : Fin n, f ⟨k.val + 1, by omega⟩ := by
  subst hm
  exact Fin.sum_univ_succ f

/-! ### Pointwise host operations at an index -/

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

theorem hostLog1p_apply {s : Shape} {φ : FTy} (x : FVec Ideal s φ) (i : s.Idx) : Host.log1p x i = Ideal.log1p (x i) := rfl

theorem hostNegf_apply {s : Shape} {φ : FTy} (x : FVec Ideal s φ) (i : s.Idx) : Host.negf x i = -(x i) := rfl

theorem hostAbsf_apply {s : Shape} {φ : FTy} (x : FVec Ideal s φ) (i : s.Idx) : Host.absf x i = max (x i) (-(x i)) := rfl

/-- No extended real differs from itself: the comparison `d ≠ d` is the zero bit. -/
theorem cmpf_une_self_apply {s : Shape} {φ : FTy} (d : FVec Ideal s φ) (i : s.Idx) : cmpf .une d d i = 0#1 := by
  show Ideal.cmp .une (d i) (d i) = 0#1
  simp [Ideal.cmp]

end Cert.LibRowRead

end
-- ==== Proof.RefNetL3.lean ====
/-
  The last layer of the reference program read as the specification, as a function of the second layer's output
  table: the projection, its aggregation over the graph, the bias row, and the row-wise log-softmax (the row's maximum
  as a fold from minus infinity joined with minus infinity, the shifted row, its exponentials' sum, the logarithm).
-/
import proofs.«127233_j26182120636977_2_alg».proof.Proof.RefReadP
import proofs.«127233_j26182120636977_2_alg».proof.Proof.RefNetAgg
import proofs.«127233_j26182120636977_2_alg».proof.Proof.RefNetGraph
import proofs.«127233_j26182120636977_2_alg».proof.Proof.LibRowRead
import proofs.«127233_j26182120636977_2_alg».proof.Proof.LibLogSoftmax

noncomputable section

open scoped BigOperators

namespace Cert.GcnRef

open Idealize.ShloMosaic Idealize.ShloMosaic.ValueIdx Cert.Gcn Cert.ReferenceIdeal Cert.ReferenceIdeal.Gen Cert.ReferenceIdeal.ReadP

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256x40, .f32⟩ : BufTy).Contents (Elt Ideal))

/-- The projection: an entry is a row of the left factor against a column of the weights. -/
theorem L3_dot : tbl (val_main_v116 (F := Ideal) x0 x1 x2 x3 x4 x5 x6 x7 x8 x9 x10) = lin (tbl (val_main_v115 (F := Ideal) x0 x1 x2 x3 x4 x5 x6 x7 x8 x9)) (tbl x10) := by
  funext r o
  rw [tbl_apply, lin_apply, val_main_v116_apply]
  refine Finset.sum_congr rfl fun k _ => ?_
  have hl : lidx_main_v116 (ix2 r o) k = ix2 r k := (funext fun a => Fin.ext (by match a with | ⟨0, _⟩ => rfl | ⟨1, _⟩ => rfl))
  have hr : ridx_main_v116 (ix2 r o) k = ix2 k o := (funext fun a => Fin.ext (by match a with | ⟨0, _⟩ => rfl | ⟨1, _⟩ => rfl))
  rw [hl, hr, tbl_apply, tbl_apply]

/-- The scaled gathered rows: at edge `e` and column `k`, the edge's weight times the projected table at the row the
    edge's source word names. -/
theorem L3_upd (e : Fin 370000) (k : Fin 40) : (val_main_v126 (F := Ideal) x0 x1 x2 x3 x4 x5 x6 x7 x8 x9 x10) (ix2 e k)
    = (refGraph x1).nrm e * (val_main_v116 (F := Ideal) x0 x1 x2 x3 x4 x5 x6 x7 x8 x9 x10) (ix2 (rowOf ((refGraph x1).src e)) k) := by
  rw [val_main_v126_apply, nrm3]
  unfold val_main_v124
  rw [hG40, gather_row _ _ _ e k ((refGraph x1).src e) ((congrFun (src3_eq x1) (ix2 e 0)).trans (refGraph_src x1 e).symm)]
  rfl

/-- The aggregation of the projected rows over the graph. -/
theorem L3_agg : tbl (val_main_v129 (F := Ideal) x0 x1 x2 x3 x4 x5 x6 x7 x8 x9 x10) = agg (refGraph x1) (tbl (val_main_v116 (F := Ideal) x0 x1 x2 x3 x4 x5 x6 x7 x8 x9 x10)) := by
  funext r o
  rw [tbl_apply]
  unfold val_main_v129
  rw [scat_eq, hS40, Cert.RowOps.scatterAdd_rows_apply, zero3, zero_add]
  exact agg_sum (refGraph x1) (val_main_v116 (F := Ideal) x0 x1 x2 x3 x4 x5 x6 x7 x8 x9 x10) (val_main_v128 (F := Ideal) x1) (val_main_v126 (F := Ideal) x0 x1 x2 x3 x4 x5 x6 x7 x8 x9 x10)
    (fun e => (congrFun (dst3_eq x1) (ix2 e 0)).trans (refGraph_dst x1 e).symm) (L3_upd x0 x1 x2 x3 x4 x5 x6 x7 x8 x9 x10) r o

end

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal))

/-- The bias row spread over the rows reads the bias entry of the column. -/
theorem L3_bias (r : Fin 50000) (j : Fin 40) : (val_main_v131 (F := Ideal) x11) (ix2 r j) = x11 (ix1 j) := by
  have hi : idx_main_v130 (idx_main_v131 (ix2 r j)) = ix1 j := (funext fun a => Fin.ext (by match a with | ⟨0, _⟩ => rfl))
  rw [val_main_v131_apply, val_main_v130_apply, hi]

/-- The layer before the log-softmax: the aggregation plus the bias row. -/
theorem L3_pre : tbl (val_main_v132 (F := Ideal) x0 x1 x2 x3 x4 x5 x6 x7 x8 x9 x10 x11) = addRow (tbl (val_main_v129 (F := Ideal) x0 x1 x2 x3 x4 x5 x6 x7 x8 x9 x10)) (vec x11) := by
  funext r j
  show (val_main_v132 (F := Ideal) x0 x1 x2 x3 x4 x5 x6 x7 x8 x9 x10 x11) (ix2 r j) = (val_main_v129 (F := Ideal) x0 x1 x2 x3 x4 x5 x6 x7 x8 x9 x10) (ix2 r j) + x11 (ix1 j)
  rw [val_main_v132_apply, L3_bias] <;> rfl

/-- The row's maximum as the program takes it: the fold of `max` over the row from minus infinity, joined with minus
    infinity. -/
theorem L3_max (r : Fin 50000) : (val_main_call3_v2 (F := Ideal) x0 x1 x2 x3 x4 x5 x6 x7 x8 x9 x10 x11) (ix1 r) = Cert.LibLogSoftmax.rowMax (tbl (val_main_v132 (F := Ideal) x0 x1 x2 x3 x4 x5 x6 x7 x8 x9 x10 x11) r) := by
  have h0 : (val_main_call3_v0 (F := Ideal) x0 x1 x2 x3 x4 x5 x6 x7 x8 x9 x10 x11) (ix1 r)
      = (Finset.univ : Finset (Fin 40)).fold max ((val_main_call3_cst (F := Ideal)) (Shape.Idx.first h_S_))
          fun k : Fin 40 => (val_main_v132 (F := Ideal) x0 x1 x2 x3 x4 x5 x6 x7 x8 x9 x10 x11) (ix2 r k) := by
    unfold val_main_call3_v0
    exact Cert.LibRowRead.hostReduce_max_row2 (val_main_v132 (F := Ideal) x0 x1 x2 x3 x4 x5 x6 x7 x8 x9 x10 x11) (val_main_call3_cst (F := Ideal)) reducesTo_S50000x40_S50000_d1 h_S_ r
  rw [val_main_call3_v2_apply, val_main_call3_v1_apply, h0] <;> rfl

/-- The maximum column spread along the row. -/
theorem L3_maxB (r : Fin 50000) (k : Fin 40) :
    (val_main_call3_v4 (F := Ideal) x0 x1 x2 x3 x4 x5 x6 x7 x8 x9 x10 x11) (ix2 r k) = Cert.LibLogSoftmax.rowMax (tbl (val_main_v132 (F := Ideal) x0 x1 x2 x3 x4 x5 x6 x7 x8 x9 x10 x11) r) := by
  have hi : idx_main_call3_v3 (idx_main_call3_v4 (ix2 r k)) = ix1 r := (funext fun a => Fin.ext (by match a with | ⟨0, _⟩ => rfl))
  rw [val_main_call3_v4_apply, val_main_call3_v3_apply, hi, L3_max]

/-- The shifted row. -/
theorem L3_shift (r : Fin 50000) (k : Fin 40) :
    (val_main_call3_v5 (F := Ideal) x0 x1 x2 x3 x4 x5 x6 x7 x8 x9 x10 x11) (ix2 r k) = tbl (val_main_v132 (F := Ideal) x0 x1 x2 x3 x4 x5 x6 x7 x8 x9 x10 x11) r k - Cert.LibLogSoftmax.rowMax (tbl (val_main_v132 (F := Ideal) x0 x1 x2 x3 x4 x5 x6 x7 x8 x9 x10 x11) r) := by
  rw [val_main_call3_v5_apply, L3_maxB] <;> rfl

/-- The sum of the shifted row's exponentials, from the zero word. -/
theorem L3_sum (r : Fin 50000) : (val_main_call3_v7 (F := Ideal) x0 x1 x2 x3 x4 x5 x6 x7 x8 x9 x10 x11) (ix1 r)
    = ∑ k : Fin 40, Ideal.exp (tbl (val_main_v132 (F := Ideal) x0 x1 x2 x3 x4 x5 x6 x7 x8 x9 x10 x11) r k - Cert.LibLogSoftmax.rowMax (tbl (val_main_v132 (F := Ideal) x0 x1 x2 x3 x4 x5 x6 x7 x8 x9 x10 x11) r)) := by
  have h0 : (val_main_call3_cst_1 (F := Ideal)) (Shape.Idx.first h_S_) = 0 := ofBits_zero
  rw [val_main_call3_v7_apply, h0, zero_add]
  refine Finset.sum_congr rfl fun k _ => ?_
  have hi : idx_main_call3_v7 (ix1 r) k = ix2 r k := (funext fun a => Fin.ext (by match a with | ⟨0, _⟩ => rfl | ⟨1, _⟩ => rfl))
  rw [hi, val_main_call3_v6_apply, L3_shift, Ideal.hostUnary_exp_def]

/-- The logarithm of that sum, spread along the row. -/
theorem L3_logB (r : Fin 50000) (k : Fin 40) : (val_main_call3_v10 (F := Ideal) x0 x1 x2 x3 x4 x5 x6 x7 x8 x9 x10 x11) (ix2 r k)
    = Ideal.log (∑ k : Fin 40, Ideal.exp (tbl (val_main_v132 (F := Ideal) x0 x1 x2 x3 x4 x5 x6 x7 x8 x9 x10 x11) r k - Cert.LibLogSoftmax.rowMax (tbl (val_main_v132 (F := Ideal) x0 x1 x2 x3 x4 x5 x6 x7 x8 x9 x10 x11) r))) := by
  have hi : idx_main_call3_v8 (idx_main_call3_v10 (ix2 r k)) = ix1 r := (funext fun a => Fin.ext (by match a with | ⟨0, _⟩ => rfl))
  rw [val_main_call3_v10_apply, val_main_call3_v9_apply, val_main_call3_v8_apply, hi, L3_sum, Ideal.hostUnary_log_def]

/-- THE OUTPUT: the log-softmax of the last layer's row. -/
theorem L3_out (r : Fin 50000) (o : Fin 40) :
    (val_main_v133 (F := Ideal) x0 x1 x2 x3 x4 x5 x6 x7 x8 x9 x10 x11) (ix2 r o) = Cert.LibLogSoftmax.lsmRow (tbl (val_main_v132 (F := Ideal) x0 x1 x2 x3 x4 x5 x6 x7 x8 x9 x10 x11) r) o := by
  rw [val_main_v133_apply, L3_shift, L3_logB] <;> rfl

end

end Cert.GcnRef

end
-- ==== Proof.RefNet.lean ====
/-
  The reference program computes the specification's network: its output at a row and a column is `netRef` of the
  graph the program builds from the edge list, the input features and the twelve parameter arrays.
-/
import proofs.«127233_j26182120636977_2_alg».proof.Proof.RefReadP
import proofs.«127233_j26182120636977_2_alg».proof.Proof.RefNetAgg
import proofs.«127233_j26182120636977_2_alg».proof.Proof.RefNetGraph
import proofs.«127233_j26182120636977_2_alg».proof.Proof.RefNetL1
import proofs.«127233_j26182120636977_2_alg».proof.Proof.RefNetL2
import proofs.«127233_j26182120636977_2_alg».proof.Proof.RefNetL3

noncomputable section

open scoped BigOperators

namespace Cert.GcnRef

open Idealize.ShloMosaic Idealize.ShloMosaic.ValueIdx Cert.Gcn Cert.ReferenceIdeal Cert.ReferenceIdeal.Gen Cert.ReferenceIdeal.ReadP

section
variable (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal))

/-- The first layer before its normalisation is the specification's. -/
theorem pre1_eq : tbl (val_main_v46 (F := Ideal) x0 x1 x2 x3) = pre1Ref (refGraph x1) (tbl x0) (tbl x2) (vec x3) := by
  rw [L1_pre, L1_agg, L1_dot] <;> rfl

/-- THE REFERENCE PROGRAM IS THE SPECIFICATION. -/
theorem ref_out (r : Fin 50000) (o : Fin 40) :
    val_main_v133 (F := Ideal) x0 x1 x2 x3 x4 x5 x6 x7 x8 x9 x10 x11 (ix2 r o)
      = netRef (refGraph x1) (fun r k => x0 (ix2 r k)) (fun k j => x2 (ix2 k j)) (fun j => x3 (ix1 j))
          (fun j => x4 (ix1 j)) (fun j => x5 (ix1 j)) (fun k j => x6 (ix2 k j)) (fun j => x7 (ix1 j))
          (fun j => x8 (ix1 j)) (fun j => x9 (ix1 j)) (fun k j => x10 (ix2 k j)) (fun j => x11 (ix1 j)) r o := by
  show _ = netRef (refGraph x1) (tbl x0) (tbl x2) (vec x3) (vec x4) (vec x5) (tbl x6) (vec x7) (vec x8) (vec x9)
    (tbl x10) (vec x11) r o
  rw [L3_out, L3_pre, L3_agg, L3_dot, L2_out, L2_pre, L2_agg, L2_dot, L1_out, L1_pre, L1_agg, L1_dot]
  all_goals rfl

end

end Cert.GcnRef

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibEdgeSum.lean ====
/-
  Sums of extended reals over a finite set of edges, scaled by a degree factor.

  A graph convolution with symmetric normalisation sums, over the edges `e` that end at a node `d`, a message
  `a e` scaled by `s e * c`, where `c` is the factor of `d` itself. The factor of the end node is the same for
  every edge of the sum, so it may be taken out of the sum — provided multiplication by it distributes over a
  sum of EXTENDED reals, which it does when `0 ≤ c` and `c ≠ ⊤`. The factor is `1 / √(number of edges ending at d)`:
  a positive real when some edge ends at `d`, and `⊤` exactly when none does — and then the sum is empty and both
  sides are zero. So the two forms agree for every family of extended reals, with no finiteness asked of the messages.
-/
import Idealize.ShloMosaic.PureOps.Ideal

noncomputable section

namespace Cert.Lib.EdgeSum

open Idealize.ShloMosaic

/-- The word of `+0.0` denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = 1 := by
  simp [Ideal.ofBits, Ideal.ieee, -EReal.coe_mul]; norm_num

/-- A nonnegative extended real other than `⊤` scales a finite sum of extended reals term by term. -/
theorem sum_mul_of_nonneg_of_ne_top {ι : Type} (S : Finset ι) (t : ι → EReal) {c : EReal} (h0 : 0 ≤ c) (ht : c ≠ ⊤) :
    (∑ e ∈ S, t e) * c = ∑ e ∈ S, t e * c := by
  classical
  induction S using Finset.induction_on with
  | empty => simp
  | insert a S ha ih =>
    rw [Finset.sum_insert ha, Finset.sum_insert ha, EReal.right_distrib_of_nonneg_of_ne_top h0 ht, ih]

/-- A sum of ones over a finite set is its number of elements. -/
theorem sum_ones {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_succ, EReal.coe_add, EReal.coe_one, add_comm]

/-- The degree factor of a node: the reciprocal square root of the number of edges in `S`, counted as a sum of ones
    onto zero. Either `S` is empty, or the factor is a nonnegative extended real other than `⊤`. -/
theorem rsqrt_count {ι : Type} (S : Finset ι) :
    S = ∅ ∨ (0 ≤ Ideal.rsqrt ((0 : EReal) + ∑ _e ∈ S, (1 : EReal)) ∧ Ideal.rsqrt ((0 : EReal) + ∑ _e ∈ S, (1 : EReal)) ≠ ⊤) := by
  rcases S.eq_empty_or_nonempty with h | h
  · exact Or.inl h
  · right
    have hs : (0 : EReal) + ∑ _e ∈ S, (1 : EReal) = ((S.card : ℝ) : EReal) := by
      rw [zero_add]; exact sum_ones S
    have hpos : (0 : ℝ) < S.card := by exact_mod_cast h.card_pos
    rw [hs, Ideal.rsqrt_coe, if_neg (not_lt.mpr hpos.le), if_neg hpos.ne']
    exact ⟨by exact_mod_cast (inv_nonneg.mpr (Real.sqrt_nonneg _)), EReal.coe_ne_top _⟩

/-- A factor that is nonnegative and not `⊤` may be moved from behind a sum of pre-scaled messages into each term. -/
theorem scaled_sum_of {ι : Type} (S : Finset ι) (a s : ι → EReal) {c : EReal} (h0 : 0 ≤ c) (ht : c ≠ ⊤) :
    ((0 : EReal) + ∑ e ∈ S, a e * s e) * c = (0 : EReal) + ∑ e ∈ S, a e * (s e * c) := by
  rw [zero_add, zero_add, sum_mul_of_nonneg_of_ne_top S _ h0 ht]
  exact Finset.sum_congr rfl fun e _ => mul_assoc _ _ _

/-- THE LAW OF THE NORMALISED AGGREGATION. Over the edges `S` that end at one node, whose degree factor is `c` (the
    reciprocal square root of their number): the sum of the pre-scaled messages `a e * s e`, scaled by `c` afterwards, is
    the sum of the messages each scaled by `s e * c`. -/
theorem scaled_sum {ι : Type} (S : Finset ι) (a s : ι → EReal) :
    ((0 : EReal) + ∑ e ∈ S, a e * s e) * Ideal.rsqrt ((0 : EReal) + ∑ _e ∈ S, (1 : EReal))
      = (0 : EReal) + ∑ e ∈ S, a e * (s e * Ideal.rsqrt ((0 : EReal) + ∑ _e ∈ S, (1 : EReal))) := by
  rcases rsqrt_count S with h | ⟨h0, ht⟩
  · subst h; simp
  · exact scaled_sum_of S a s h0 ht

end Cert.Lib.EdgeSum

end
-- ==== Proof.RefNetNorm.lean ====
/-
  The edge weights of the reference program are real numbers.

  A node's degree is a count: ones added, from zero, over the edges whose target word names the node — a natural
  number. The node's factor is the reciprocal square root of the degree where the degree is positive and zero where
  it is not: a real number in both cases. An edge's weight is the product of two nodes' factors (those its wrapped
  source and target words select, clamped into the table), hence real.
-/
import proofs.«127233_j26182120636977_2_alg».proof.Proof.RefReadP
import proofs.«127233_j26182120636977_2_alg».proof.Proof.RefNetAgg
import proofs.«127233_j26182120636977_2_alg».proof.Proof.RefNetGraph
import proofs.«127233_j26182120636977_2_alg».proof.Proof.LibRows
import proofs.«127233_j26182120636977_2_alg».proof.Proof.LibEdgeSum

noncomputable section

open scoped BigOperators

namespace Cert.GcnRef

open Idealize.ShloMosaic Idealize.ShloMosaic.ValueIdx Cert.Gcn Cert.ReferenceIdeal Cert.ReferenceIdeal.Gen Cert.ReferenceIdeal.ReadP

/-- The program's dimension-number records for the flat table are the element gather and the element scatter-add. -/
theorem hS0 : scatter_S50000_S370000x1_S370000_n_0_0_1
    = Cert.Lib.Rows.scatterEltsDims 50000 370000 scatter_S50000_S370000x1_S370000_n_0_0_1_wf := rfl
theorem hG0 : gather_S50000_S370000x1_S370000_n_0_n_n_0_1_1
    = Cert.Lib.Rows.gatherEltsDims 50000 370000 gather_S50000_S370000x1_S370000_n_0_n_n_0_1_1_wf := rfl

section
variable (x1 : (⟨S2x320000, .i32⟩ : BufTy).Contents (Elt Ideal))

/-- A node's degree: the number of edges whose target word names it. -/
theorem deg_eq (d : Fin 50000) : val_main_v10 (F := Ideal) x1 (ix1 d)
    = (((Cert.Lib.Rows.edgesInto (val_main_v9 (F := Ideal) x1) d).card : ℝ) : EReal) := by
  unfold val_main_v10
  rw [scat_eq, hS0, Cert.Lib.Rows.scatterAddElts_apply]
  have h8 : val_main_v8 (F := Ideal) (ix1 d) = 0 := by
    rw [val_main_v8_apply]; exact ofBits_zero
  have h7 : ∀ e : Fin 370000, val_main_v7 (F := Ideal) (ix1 e) = 1 := fun e => by
    rw [val_main_v7_apply]; exact Cert.Lib.EdgeSum.ofBits_one
  rw [h8, zero_add, Finset.sum_congr rfl (fun e _ => h7 e)]
  exact Cert.Lib.EdgeSum.sum_ones _

/-- A node's factor — the reciprocal square root of a positive degree, zero otherwise — is a real number. -/
theorem dinv_real (d : Fin 50000) : IsReal (val_main_v14 (F := Ideal) x1 (ix1 d)) := by
  have h11 : val_main_v11 (F := Ideal) (ix1 d) = 0 := by
    rw [val_main_v11_apply]; exact ofBits_zero
  have hc : val_main_call0_v1 (F := Ideal) (ix1 d) = 0 := by
    rw [val_main_call0_v1_apply]; exact ofBits_zero
  rw [val_main_v14_apply, val_main_v12_apply, val_main_v13_apply, deg_eq, h11, hc]
  generalize (Cert.Lib.Rows.edgesInto (val_main_v9 (F := Ideal) x1) d).card = n
  by_cases hn : 0 < n
  · have hpos : (0 : ℝ) < (n : ℝ) := Nat.cast_pos.mpr hn
    have hcmp : FloatOps.cmpf (F := Ideal) (φ := .f32) .ogt ((n : ℝ) : EReal) (0 : EReal) = 1#1 := by
      show Ideal.cmp .ogt ((n : ℝ) : EReal) 0 = 1#1
      simp [Ideal.cmp, hn]
    rw [hcmp, select_one]
    show IsReal (Ideal.rsqrt ((n : ℝ) : EReal))
    rw [Ideal.rsqrt_coe, if_neg (not_lt.mpr hpos.le), if_neg hpos.ne']
    exact ⟨_, rfl⟩
  · have hcmp : FloatOps.cmpf (F := Ideal) (φ := .f32) .ogt ((n : ℝ) : EReal) (0 : EReal) = 0#1 := by
      show Ideal.cmp .ogt ((n : ℝ) : EReal) 0 = 0#1
      simp [Ideal.cmp, hn]
    rw [hcmp, select_zero]
    exact ⟨0, rfl⟩

/-- THE EDGE WEIGHTS ARE REAL: a weight is the product of two nodes' factors. -/
theorem ref_nrm_real (e : Fin 370000) : IsReal (val_main_v29 (F := Ideal) x1 (ix1 e)) := by
  have h21 : val_main_v21 (F := Ideal) x1 (ix1 e) = val_main_v14 (F := Ideal) x1
      (ix1 (Cert.Lib.Rows.rowOf 50000 (by decide) (val_main_v20 (F := Ideal) x1 (ix2 e (0 : Fin 1))))) := by
    unfold val_main_v21
    rw [hG0, Cert.Lib.Rows.gatherElts_apply (by decide : 0 < 50000)]
  have h28 : val_main_v28 (F := Ideal) x1 (ix1 e) = val_main_v14 (F := Ideal) x1
      (ix1 (Cert.Lib.Rows.rowOf 50000 (by decide) (val_main_v27 (F := Ideal) x1 (ix2 e (0 : Fin 1))))) := by
    unfold val_main_v28
    rw [hG0, Cert.Lib.Rows.gatherElts_apply (by decide : 0 < 50000)]
  rw [val_main_v29_apply, h21, h28]
  obtain ⟨a, ha⟩ := dinv_real x1 (Cert.Lib.Rows.rowOf 50000 (by decide) (val_main_v20 (F := Ideal) x1 (ix2 e (0 : Fin 1))))
  obtain ⟨b, hb⟩ := dinv_real x1 (Cert.Lib.Rows.rowOf 50000 (by decide) (val_main_v27 (F := Ideal) x1 (ix2 e (0 : Fin 1))))
  rw [ha, hb]
  exact ⟨a * b, (EReal.coe_mul a b).symm⟩

/-- The same, for the graph's weights. -/
theorem refGraph_nrm_real (e : Fin 370000) : IsReal ((refGraph x1).nrm e) := by
  rw [refGraph_nrm]; exact ref_nrm_real x1 e

end

end Cert.GcnRef

end
-- ==== Proof.NetEq.lean ====
/-
  The two programs compute one function of finite arguments.

  The reference's result is the project-first network of its graph (two-pass variance); the kernel's is the
  aggregate-first network of its graph (one-pass variance, clamped). The two graphs are the same host operations on the
  edge table. For finite feature, weight, bias, scale and shift arrays and the graph's real edge weights the two
  networks agree: the aggregation is linear over real entries, and the two variances of a real column are one number.
-/
import proofs.«127233_j26182120636977_2_alg».proof.Proof.KerSpecB
import proofs.«127233_j26182120636977_2_alg».proof.Proof.GraphEq
import proofs.«127233_j26182120636977_2_alg».proof.Proof.GcnLaw
import proofs.«127233_j26182120636977_2_alg».proof.Proof.GcnPre
import proofs.«127233_j26182120636977_2_alg».proof.Proof.RefNet
import proofs.«127233_j26182120636977_2_alg».proof.Proof.RefNetNorm

noncomputable section

namespace Cert.GcnEq

open Idealize.ShloMosaic Idealize.ShloMosaic.ValueIdx Cert.Gcn Cert.GcnRef
open Cert.KernelIdeal Cert.KernelIdeal.HostRead Cert.KernelIdeal.Out

/-- THE VALUE EQUATION: on arguments whose float entries are finite, the reference's result array is the kernel's. -/
theorem value_eq [Cert.Pre_finite_inputs.Facts] (x0 : F32 S50000x128) (x1 : I32 S2x320000) (x2 : F32 S128x256) (x3 x4 x5 : F32 S256) (x6 : F32 S256x256)
    (x7 x8 x9 : F32 S256) (x10 : F32 S256x40) (x11 : F32 S40)
    (hpre : Cert.Pre_finite_inputs.fn (F := Ideal) x0 x1 x2 x3 x4 x5 x6 x7 x8 x9 x10 x11 = fun _ => 1#1) :
    Cert.ReferenceIdeal.ReadP.val_main_v133 (F := Ideal) x0 x1 x2 x3 x4 x5 x6 x7 x8 x9 x10 x11
      = kerOut x0 x1 x2 x3 x4 x5 x6 x7 x8 x9 x10 x11 := by
  obtain ⟨h0, h2, h3, h4, h5, h6, h7, -, -, -, -⟩ := Cert.GcnPre.real_of_pre x0 x1 x2 x3 x4 x5 x6 x7 x8 x9 x10 x11 hpre
  funext i
  obtain ⟨r, o, rfl⟩ : ∃ (r : Fin 50000) (o : Fin 40), i = ix2 r o := ⟨i 0, i 1, eq_ix2 i⟩
  refine (ref_out x0 x1 x2 x3 x4 x5 x6 x7 x8 x9 x10 x11 r o).trans ?_
  refine Eq.trans ?_ (kerOut_spec x0 x1 x2 x3 x4 x5 x6 x7 x8 x9 x10 x11 r o).symm
  rw [kerGraph_eq_refGraph x1]
  exact (congrFun (congrFun (netKer_eq_netRef (refGraph x1) (tbl x0) (tbl x2) (vec x3) (vec x4) (vec x5) (tbl x6) (vec x7) (vec x8) (vec x9)
    (tbl x10) (vec x11) (refGraph_nrm_real x1) (fun r k => h0 (ix2 r k)) (fun k j => h2 (ix2 k j)) (fun j => h3 (ix1 j))
    (fun j => h4 (ix1 j)) (fun j => h5 (ix1 j)) (fun k j => h6 (ix2 k j)) (fun j => h7 (ix1 j))) r) o).symm

end Cert.GcnEq

end
-- ==== Proof.RefRunBase.lean ====
/-
  A line of host operations run in two parts: what the buffers hold after the whole line is what they hold after the
  second part, run from what the first part left.
-/
import Idealize.ShloMosaic.Lib.StableHlo.Run

noncomputable section

namespace Cert.ReferenceIdeal.RunH

open Idealize.ShloMosaic Idealize.ShloMosaic.StableHlo

/-- The fold of a concatenation is the fold of the second list from the fold of the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

end Cert.ReferenceIdeal.RunH

end
-- ==== Proof.RefRunS0.lean ====
/-
  One stretch of the reference program's host operations (operations 0 to 2 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S0 : List (HloOp τ sig (Elt F)) :=
  [
    nullary main_v0 (iotaInDim S50000 32 0),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000 ]

/-- The buffers the stretch writes. -/
abbrev wS0 : List (Ref sig .tc) :=
  [main_v0, main_v1, main_v2]

/-- A buffer the stretch does not write keeps its contents. -/
theorem keep_S0 (W : Valuation τ sig (Elt Ideal)) (b : Ref sig .tc) (hb : b ∉ wS0) :
    StableHlo.after (S0 (F := Ideal)) W (Proc.devRef .tc b) = W (Proc.devRef .tc b) :=
  StableHlo.after_of_forall_not_mem (b := Proc.devRef .tc b) _ _ (List.forall_iff_forall_mem.mp (by
    simp only [S0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v0` holds its stage of the reading module, given the stages the stretch reads. -/
theorem S0_main_v0 (V : Valuation τ sig (Elt Ideal)) :
    StableHlo.after (S0 (F := Ideal)) V (Proc.devRef .tc main_v0) = (ReadP.val_main_v0 (F := Ideal)) := by
  after_results_simp
  all_goals rfl

/-- After the stretch, `main_v2` holds its stage of the reading module, given the stages the stretch reads. -/
theorem S0_main_v2 (V : Valuation τ sig (Elt Ideal)) (x1 : (⟨S2x320000, .i32⟩ : BufTy).Contents (Elt Ideal))
    (h_main_arg1 : V (Proc.devRef .tc main_arg1) = x1) :
    StableHlo.after (S0 (F := Ideal)) V (Proc.devRef .tc main_v2) = (ReadP.val_main_v2 (F := Ideal) x1) := by
  after_results_simp
  rw [h_main_arg1] <;> rfl

end Cert.ReferenceIdeal.RunH

end
-- ==== Proof.RefRunS1.lean ====
/-
  One stretch of the reference program's host operations (operations 3 to 3 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S1 : List (HloOp τ sig (Elt F)) :=
  [
    binary main_v2 main_v0 main_v3 ((fun a b => concatenate S370000 0 [⟨S320000, a⟩, ⟨S50000, b⟩] concatenates_S320000_S50000_S370000_d0) : (⟨S320000, .i32⟩ : BufTy).Contents (Elt F) → (⟨S50000, .i32⟩ : BufTy).Contents (Elt F) → (⟨S370000, .i32⟩ : BufTy).Contents (Elt F)) ]

/-- The buffers the stretch writes. -/
abbrev wS1 : List (Ref sig .tc) :=
  [main_v3]

/-- A buffer the stretch does not write keeps its contents. -/
theorem keep_S1 (W : Valuation τ sig (Elt Ideal)) (b : Ref sig .tc) (hb : b ∉ wS1) :
    StableHlo.after (S1 (F := Ideal)) W (Proc.devRef .tc b) = W (Proc.devRef .tc b) :=
  StableHlo.after_of_forall_not_mem (b := Proc.devRef .tc b) _ _ (List.forall_iff_forall_mem.mp (by
    simp only [S1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v3` holds its stage of the reading module, given the stages the stretch reads. -/
theorem S1_main_v3 (V : Valuation τ sig (Elt Ideal)) (x1 : (⟨S2x320000, .i32⟩ : BufTy).Contents (Elt Ideal))
    (h_main_v2 : V (Proc.devRef .tc main_v2) = (ReadP.val_main_v2 (F := Ideal) x1))
    (h_main_v0 : V (Proc.devRef .tc main_v0) = (ReadP.val_main_v0 (F := Ideal))) :
    StableHlo.after (S1 (F := Ideal)) V (Proc.devRef .tc main_v3) = (ReadP.val_main_v3 (F := Ideal) x1) := by
  after_results_simp
  rw [h_main_v2, h_main_v0] <;> rfl

end Cert.ReferenceIdeal.RunH

end
-- ==== Proof.RefRunS2.lean ====
/-
  One stretch of the reference program's host operations (operations 4 to 5 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S2 : List (HloOp τ sig (Elt F)) :=
  [
    unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    reshape main_v4 main_v5 rfl shapeCasts_S1x320000_S320000 ]

/-- The buffers the stretch writes. -/
abbrev wS2 : List (Ref sig .tc) :=
  [main_v4, main_v5]

/-- A buffer the stretch does not write keeps its contents. -/
theorem keep_S2 (W : Valuation τ sig (Elt Ideal)) (b : Ref sig .tc) (hb : b ∉ wS2) :
    StableHlo.after (S2 (F := Ideal)) W (Proc.devRef .tc b) = W (Proc.devRef .tc b) :=
  StableHlo.after_of_forall_not_mem (b := Proc.devRef .tc b) _ _ (List.forall_iff_forall_mem.mp (by
    simp only [S2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v5` holds its stage of the reading module, given the stages the stretch reads. -/
theorem S2_main_v5 (V : Valuation τ sig (Elt Ideal)) (x1 : (⟨S2x320000, .i32⟩ : BufTy).Contents (Elt Ideal))
    (h_main_arg1 : V (Proc.devRef .tc main_arg1) = x1) :
    StableHlo.after (S2 (F := Ideal)) V (Proc.devRef .tc main_v5) = (ReadP.val_main_v5 (F := Ideal) x1) := by
  after_results_simp
  rw [h_main_arg1] <;> rfl

end Cert.ReferenceIdeal.RunH

end
-- ==== Proof.RefRunS3.lean ====
/-
  One stretch of the reference program's host operations (operations 6 to 6 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S3 : List (HloOp τ sig (Elt F)) :=
  [
    binary main_v5 main_v0 main_v6 ((fun a b => concatenate S370000 0 [⟨S320000, a⟩, ⟨S50000, b⟩] concatenates_S320000_S50000_S370000_d0) : (⟨S320000, .i32⟩ : BufTy).Contents (Elt F) → (⟨S50000, .i32⟩ : BufTy).Contents (Elt F) → (⟨S370000, .i32⟩ : BufTy).Contents (Elt F)) ]

/-- The buffers the stretch writes. -/
abbrev wS3 : List (Ref sig .tc) :=
  [main_v6]

/-- A buffer the stretch does not write keeps its contents. -/
theorem keep_S3 (W : Valuation τ sig (Elt Ideal)) (b : Ref sig .tc) (hb : b ∉ wS3) :
    StableHlo.after (S3 (F := Ideal)) W (Proc.devRef .tc b) = W (Proc.devRef .tc b) :=
  StableHlo.after_of_forall_not_mem (b := Proc.devRef .tc b) _ _ (List.forall_iff_forall_mem.mp (by
    simp only [S3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v6` holds its stage of the reading module, given the stages the stretch reads. -/
theorem S3_main_v6 (V : Valuation τ sig (Elt Ideal)) (x1 : (⟨S2x320000, .i32⟩ : BufTy).Contents (Elt Ideal))
    (h_main_v5 : V (Proc.devRef .tc main_v5) = (ReadP.val_main_v5 (F := Ideal) x1))
    (h_main_v0 : V (Proc.devRef .tc main_v0) = (ReadP.val_main_v0 (F := Ideal))) :
    StableHlo.after (S3 (F := Ideal)) V (Proc.devRef .tc main_v6) = (ReadP.val_main_v6 (F := Ideal) x1) := by
  after_results_simp
  rw [h_main_v5, h_main_v0] <;> rfl

end Cert.ReferenceIdeal.RunH

end
-- ==== Proof.RefRunS4a.lean ====
/-
  One stretch of the reference program's host operations (operations 7 to 12 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S4a : List (HloOp τ sig (Elt F)) :=
  [
    nullary main_cst (constant S_ .f32 0x3F800000#32),
    unary main_cst main_v7 (broadcastInDim S370000 ![] bcast_S_S370000 : (⟨S_, .f32⟩ : BufTy).Contents (Elt F) → (⟨S370000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S370000x1 ![0] bcast_S370000_S370000x1_0 : (⟨S370000, .i32⟩ : BufTy).Contents (Elt F) → (⟨S370000x1, .i32⟩ : BufTy).Contents (Elt F)),
    ternary main_v8 main_v9 main_v7 main_v10 ((fun x i u => Host.scatterAdd scatter_S50000_S370000x1_S370000_n_0_0_1 x i u) : (⟨S50000, .f32⟩ : BufTy).Contents (Elt F) → (⟨S370000x1, .i32⟩ : BufTy).Contents (Elt F) → (⟨S370000, .f32⟩ : BufTy).Contents (Elt F) → (⟨S50000, .f32⟩ : BufTy).Contents (Elt F)) ]

/-- The buffers the stretch writes. -/
abbrev wS4a : List (Ref sig .tc) :=
  [main_cst, main_v7, main_cst_0, main_v8, main_v9, main_v10]

/-- A buffer the stretch does not write keeps its contents. -/
theorem keep_S4a (W : Valuation τ sig (Elt Ideal)) (b : Ref sig .tc) (hb : b ∉ wS4a) :
    StableHlo.after (S4a (F := Ideal)) W (Proc.devRef .tc b) = W (Proc.devRef .tc b) :=
  StableHlo.after_of_forall_not_mem (b := Proc.devRef .tc b) _ _ (List.forall_iff_forall_mem.mp (by
    simp only [S4a, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v10` holds its stage of the reading module, given the stages the stretch reads. -/
theorem S4a_main_v10 (V : Valuation τ sig (Elt Ideal)) (x1 : (⟨S2x320000, .i32⟩ : BufTy).Contents (Elt Ideal))
    (h_main_v6 : V (Proc.devRef .tc main_v6) = (ReadP.val_main_v6 (F := Ideal) x1)) :
    StableHlo.after (S4a (F := Ideal)) V (Proc.devRef .tc main_v10) = (ReadP.val_main_v10 (F := Ideal) x1) := by
  after_results_simp
  rw [h_main_v6] <;> rfl

end Cert.ReferenceIdeal.RunH

end
-- ==== Proof.RefRunS4b.lean ====
/-
  One stretch of the reference program's host operations (operations 13 to 20 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S4b : List (HloOp τ sig (Elt F)) :=
  [
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- The buffers the stretch writes. -/
abbrev wS4b : List (Ref sig .tc) :=
  [main_cst_1, main_v11, main_v12, main_v13, main_cst_2, main_call0_v0, main_call0_v1, main_v14]

/-- A buffer the stretch does not write keeps its contents. -/
theorem keep_S4b (W : Valuation τ sig (Elt Ideal)) (b : Ref sig .tc) (hb : b ∉ wS4b) :
    StableHlo.after (S4b (F := Ideal)) W (Proc.devRef .tc b) = W (Proc.devRef .tc b) :=
  StableHlo.after_of_forall_not_mem (b := Proc.devRef .tc b) _ _ (List.forall_iff_forall_mem.mp (by
    simp only [S4b, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- Laying a value out at a typed reference's buffer and reading it back gives the value. -/
theorem S4b_ofBuf_toBuf {Val : EltTy → Type} {T : BufTy} (x : TRef sig T) (v : T.Contents Val) : x.ofBuf (x.toBuf v) = v := by
  obtain ⟨r, h, hd, hs⟩ := x
  subst h
  rfl

/-- At the buffers the typed operations read from the untyped ones, and at the result, the buffer's type is the
    value's, so the layout is the identity. -/
theorem S4b_ofBuf_main_cst_2 (v : (⟨S_, .f32⟩ : BufTy).Contents (Elt Ideal)) :
    (TRef.of (T := ⟨S_, .f32⟩) main_cst_2).ofBuf v = v := rfl
theorem S4b_ofBuf_main_v12 (v : (⟨S50000, .i1⟩ : BufTy).Contents (Elt Ideal)) :
    (TRef.of (T := ⟨S50000, .i1⟩) main_v12).ofBuf v = v := rfl
theorem S4b_ofBuf_main_v13 (v : (⟨S50000, .f32⟩ : BufTy).Contents (Elt Ideal)) :
    (TRef.of (T := ⟨S50000, .f32⟩) main_v13).ofBuf v = v := rfl
theorem S4b_toBuf_main_v14 (v : (⟨S50000, .f32⟩ : BufTy).Contents (Elt Ideal)) :
    (TRef.of (T := ⟨S50000, .f32⟩) main_v14).toBuf v = v := rfl

/-- After the stretch, `main_v14` holds its stage of the reading module, given the stages the stretch reads. -/
theorem S4b_main_v14 (V : Valuation τ sig (Elt Ideal)) (x1 : (⟨S2x320000, .i32⟩ : BufTy).Contents (Elt Ideal))
    (h_main_v10 : V (Proc.devRef .tc main_v10) = (ReadP.val_main_v10 (F := Ideal) x1)) :
    StableHlo.after (S4b (F := Ideal)) V (Proc.devRef .tc main_v14) = (ReadP.val_main_v14 (F := Ideal) x1) := by
  after_results_simp
  rw [h_main_v10]
  simp only [S4b_ofBuf_toBuf]
  rw [S4b_ofBuf_main_cst_2, S4b_ofBuf_main_v12, S4b_ofBuf_main_v13, S4b_toBuf_main_v14]
  unfold ReadP.val_main_v14 ReadP.val_main_call0_v1 ReadP.val_main_call0_v0 ReadP.val_main_cst_2 ReadP.val_main_v13
    ReadP.val_main_v12 ReadP.val_main_v11 ReadP.val_main_cst_1
  with_reducible rfl

end Cert.ReferenceIdeal.RunH

end
-- ==== Proof.RefRunS4c.lean ====
/-
  One stretch of the reference program's host operations (operations 21 to 39 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S4c : List (HloOp τ sig (Elt F)) :=
  [
    nullary main_c (constantI S_ 32 0#32),
    unary main_c main_v15 (broadcastInDim S370000 ![] bcast_S_S370000 : (⟨S_, .i32⟩ : BufTy).Contents (Elt F) → (⟨S370000, .i32⟩ : BufTy).Contents (Elt F)),
    binary main_v3 main_v15 main_v16 (cmpi .slt : (⟨S370000, .i32⟩ : BufTy).Contents (Elt F) → (⟨S370000, .i32⟩ : BufTy).Contents (Elt F) → (⟨S370000, .i1⟩ : BufTy).Contents (Elt F)),
    nullary main_c_3 (constantI S_ 32 50000#32),
    unary main_c_3 main_v17 (broadcastInDim S370000 ![] bcast_S_S370000 : (⟨S_, .i32⟩ : BufTy).Contents (Elt F) → (⟨S370000, .i32⟩ : BufTy).Contents (Elt F)),
    binary main_v3 main_v17 main_v18 (addi : (⟨S370000, .i32⟩ : BufTy).Contents (Elt F) → (⟨S370000, .i32⟩ : BufTy).Contents (Elt F) → (⟨S370000, .i32⟩ : BufTy).Contents (Elt F)),
    ternary main_v16 main_v18 main_v3 main_v19 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v19 main_v20 (broadcastInDim S370000x1 ![0] bcast_S370000_S370000x1_0 : (⟨S370000, .i32⟩ : BufTy).Contents (Elt F) → (⟨S370000x1, .i32⟩ : BufTy).Contents (Elt F)),
    binary main_v14 main_v20 main_v21 ((fun x i => Host.gather gather_S50000_S370000x1_S370000_n_0_n_n_0_1_1 x i) : (⟨S50000, .f32⟩ : BufTy).Contents (Elt F) → (⟨S370000x1, .i32⟩ : BufTy).Contents (Elt F) → (⟨S370000, .f32⟩ : BufTy).Contents (Elt F)),
    nullary main_c_4 (constantI S_ 32 0#32),
    unary main_c_4 main_v22 (broadcastInDim S370000 ![] bcast_S_S370000 : (⟨S_, .i32⟩ : BufTy).Contents (Elt F) → (⟨S370000, .i32⟩ : BufTy).Contents (Elt F)),
    binary main_v6 main_v22 main_v23 (cmpi .slt : (⟨S370000, .i32⟩ : BufTy).Contents (Elt F) → (⟨S370000, .i32⟩ : BufTy).Contents (Elt F) → (⟨S370000, .i1⟩ : BufTy).Contents (Elt F)),
    nullary main_c_5 (constantI S_ 32 50000#32),
    unary main_c_5 main_v24 (broadcastInDim S370000 ![] bcast_S_S370000 : (⟨S_, .i32⟩ : BufTy).Contents (Elt F) → (⟨S370000, .i32⟩ : BufTy).Contents (Elt F)),
    binary main_v6 main_v24 main_v25 (addi : (⟨S370000, .i32⟩ : BufTy).Contents (Elt F) → (⟨S370000, .i32⟩ : BufTy).Contents (Elt F) → (⟨S370000, .i32⟩ : BufTy).Contents (Elt F)),
    ternary main_v23 main_v25 main_v6 main_v26 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v26 main_v27 (broadcastInDim S370000x1 ![0] bcast_S370000_S370000x1_0 : (⟨S370000, .i32⟩ : BufTy).Contents (Elt F) → (⟨S370000x1, .i32⟩ : BufTy).Contents (Elt F)),
    binary main_v14 main_v27 main_v28 ((fun x i => Host.gather gather_S50000_S370000x1_S370000_n_0_n_n_0_1_1 x i) : (⟨S50000, .f32⟩ : BufTy).Contents (Elt F) → (⟨S370000x1, .i32⟩ : BufTy).Contents (Elt F) → (⟨S370000, .f32⟩ : BufTy).Contents (Elt F)),
    binary main_v21 main_v28 main_v29 (mulf : (⟨S370000, .f32⟩ : BufTy).Contents (Elt F) → (⟨S370000, .f32⟩ : BufTy).Contents (Elt F) → (⟨S370000, .f32⟩ : BufTy).Contents (Elt F)) ]

/-- The buffers the stretch writes. -/
abbrev wS4c : List (Ref sig .tc) :=
  [main_c, main_v15, main_v16, main_c_3, main_v17, main_v18, main_v19, main_v20, main_v21, main_c_4, main_v22, main_v23, main_c_5, main_v24, main_v25, main_v26, main_v27, main_v28, main_v29]

/-- A buffer the stretch does not write keeps its contents. -/
theorem keep_S4c (W : Valuation τ sig (Elt Ideal)) (b : Ref sig .tc) (hb : b ∉ wS4c) :
    StableHlo.after (S4c (F := Ideal)) W (Proc.devRef .tc b) = W (Proc.devRef .tc b) :=
  StableHlo.after_of_forall_not_mem (b := Proc.devRef .tc b) _ _ (List.forall_iff_forall_mem.mp (by
    simp only [S4c, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v29` holds its stage of the reading module, given the stages the stretch reads. -/
theorem S4c_main_v29 (V : Valuation τ sig (Elt Ideal)) (x1 : (⟨S2x320000, .i32⟩ : BufTy).Contents (Elt Ideal))
    (h_main_v14 : V (Proc.devRef .tc main_v14) = (ReadP.val_main_v14 (F := Ideal) x1))
    (h_main_v3 : V (Proc.devRef .tc main_v3) = (ReadP.val_main_v3 (F := Ideal) x1))
    (h_main_v6 : V (Proc.devRef .tc main_v6) = (ReadP.val_main_v6 (F := Ideal) x1)) :
    StableHlo.after (S4c (F := Ideal)) V (Proc.devRef .tc main_v29) = (ReadP.val_main_v29 (F := Ideal) x1) := by
  after_results_simp
  rw [h_main_v14, h_main_v3, h_main_v6] <;> rfl

end Cert.ReferenceIdeal.RunH

end
-- ==== Proof.RefRunS5.lean ====
/-
  One stretch of the reference program's host operations (operations 40 to 59 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S5 : List (HloOp τ sig (Elt F)) :=
  [
    binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_v29 main_v31 (broadcastInDim S370000x1 ![0] bcast_S370000_S370000x1_0 : (⟨S370000, .f32⟩ : BufTy).Contents (Elt F) → (⟨S370000x1, .f32⟩ : BufTy).Contents (Elt F)),
    nullary main_c_6 (constantI S_ 32 0#32),
    unary main_c_6 main_v32 (broadcastInDim S370000 ![] bcast_S_S370000 : (⟨S_, .i32⟩ : BufTy).Contents (Elt F) → (⟨S370000, .i32⟩ : BufTy).Contents (Elt F)),
    binary main_v3 main_v32 main_v33 (cmpi .slt : (⟨S370000, .i32⟩ : BufTy).Contents (Elt F) → (⟨S370000, .i32⟩ : BufTy).Contents (Elt F) → (⟨S370000, .i1⟩ : BufTy).Contents (Elt F)),
    nullary main_c_7 (constantI S_ 32 50000#32),
    unary main_c_7 main_v34 (broadcastInDim S370000 ![] bcast_S_S370000 : (⟨S_, .i32⟩ : BufTy).Contents (Elt F) → (⟨S370000, .i32⟩ : BufTy).Contents (Elt F)),
    binary main_v3 main_v34 main_v35 (addi : (⟨S370000, .i32⟩ : BufTy).Contents (Elt F) → (⟨S370000, .i32⟩ : BufTy).Contents (Elt F) → (⟨S370000, .i32⟩ : BufTy).Contents (Elt F)),
    ternary main_v33 main_v35 main_v3 main_v36 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v36 main_v37 (broadcastInDim S370000x1 ![0] bcast_S370000_S370000x1_0 : (⟨S370000, .i32⟩ : BufTy).Contents (Elt F) → (⟨S370000x1, .i32⟩ : BufTy).Contents (Elt F)),
    binary main_v30 main_v37 main_v38 ((fun x i => Host.gather gather_S50000x256_S370000x1_S370000x256_1_0_n_n_0_1_1256 x i) : (⟨S50000x256, .f32⟩ : BufTy).Contents (Elt F) → (⟨S370000x1, .i32⟩ : BufTy).Contents (Elt F) → (⟨S370000x256, .f32⟩ : BufTy).Contents (Elt F)),
    unary main_v31 main_v39 (broadcastInDim S370000x256 ![0, 1] bcast_S370000x1_S370000x256_0_1 : (⟨S370000x1, .f32⟩ : BufTy).Contents (Elt F) → (⟨S370000x256, .f32⟩ : BufTy).Contents (Elt F)),
    binary main_v39 main_v38 main_v40 (mulf : (⟨S370000x256, .f32⟩ : BufTy).Contents (Elt F) → (⟨S370000x256, .f32⟩ : BufTy).Contents (Elt F) → (⟨S370000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v6 main_v42 (broadcastInDim S370000x1 ![0] bcast_S370000_S370000x1_0 : (⟨S370000, .i32⟩ : BufTy).Contents (Elt F) → (⟨S370000x1, .i32⟩ : BufTy).Contents (Elt F)),
    ternary main_v41 main_v42 main_v40 main_v43 ((fun x i u => Host.scatterAdd scatter_S50000x256_S370000x1_S370000x256_1_0_0_1 x i u) : (⟨S50000x256, .f32⟩ : BufTy).Contents (Elt F) → (⟨S370000x1, .i32⟩ : BufTy).Contents (Elt F) → (⟨S370000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)) ]

/-- The buffers the stretch writes. -/
abbrev wS5 : List (Ref sig .tc) :=
  [main_v30, main_v31, main_c_6, main_v32, main_v33, main_c_7, main_v34, main_v35, main_v36, main_v37, main_v38, main_v39, main_v40, main_cst_8, main_v41, main_v42, main_v43, main_v44, main_v45, main_v46]

/-- A buffer the stretch does not write keeps its contents. -/
theorem keep_S5 (W : Valuation τ sig (Elt Ideal)) (b : Ref sig .tc) (hb : b ∉ wS5) :
    StableHlo.after (S5 (F := Ideal)) W (Proc.devRef .tc b) = W (Proc.devRef .tc b) :=
  StableHlo.after_of_forall_not_mem (b := Proc.devRef .tc b) _ _ (List.forall_iff_forall_mem.mp (by
    simp only [S5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v46` holds its stage of the reading module, given the stages the stretch reads. -/
theorem S5_main_v46 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal))
    (h_main_v6 : V (Proc.devRef .tc main_v6) = (ReadP.val_main_v6 (F := Ideal) x1))
    (h_main_v29 : V (Proc.devRef .tc main_v29) = (ReadP.val_main_v29 (F := Ideal) x1))
    (h_main_arg0 : V (Proc.devRef .tc main_arg0) = x0)
    (h_main_arg2 : V (Proc.devRef .tc main_arg2) = x2)
    (h_main_v3 : V (Proc.devRef .tc main_v3) = (ReadP.val_main_v3 (F := Ideal) x1))
    (h_main_arg3 : V (Proc.devRef .tc main_arg3) = x3) :
    StableHlo.after (S5 (F := Ideal)) V (Proc.devRef .tc main_v46) = (ReadP.val_main_v46 (F := Ideal) x0 x1 x2 x3) := by
  after_results_simp
  rw [h_main_v6, h_main_v29, h_main_arg0, h_main_arg2, h_main_v3, h_main_arg3] <;> rfl

end Cert.ReferenceIdeal.RunH

end
-- ==== Proof.RefRunS6.lean ====
/-
  One stretch of the reference program's host operations (operations 60 to 92 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S6 : List (HloOp τ sig (Elt F)) :=
  [
    nullary main_cst_9 (constant S_ .f32 0x00000000#32),
    binary main_v46 main_cst_9 main_v47 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_10 (constant S_ .f32 0x47435000#32),
    unary main_cst_10 main_v48 (broadcastInDim S256 ![] bcast_S_S256 : (⟨S_, .f32⟩ : BufTy).Contents (Elt F) → (⟨S256, .f32⟩ : BufTy).Contents (Elt F)),
    binary main_v47 main_v48 main_v49 (Host.divf : (⟨S256, .f32⟩ : BufTy).Contents (Elt F) → (⟨S256, .f32⟩ : BufTy).Contents (Elt F) → (⟨S256, .f32⟩ : BufTy).Contents (Elt F)),
    unary main_v49 main_v50 (broadcastInDim S1x256 ![1] bcast_S256_S1x256_1 : (⟨S256, .f32⟩ : BufTy).Contents (Elt F) → (⟨S1x256, .f32⟩ : BufTy).Contents (Elt F)),
    unary main_v50 main_v51 (broadcastInDim S50000x256 ![0, 1] bcast_S1x256_S50000x256_0_1 : (⟨S1x256, .f32⟩ : BufTy).Contents (Elt F) → (⟨S50000x256, .f32⟩ : BufTy).Contents (Elt F)),
    binary main_v46 main_v51 main_v52 (subf : (⟨S50000x256, .f32⟩ : BufTy).Contents (Elt F) → (⟨S50000x256, .f32⟩ : BufTy).Contents (Elt F) → (⟨S50000x256, .f32⟩ : BufTy).Contents (Elt F)),
    binary main_v52 main_v52 main_v53 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x00000000#32),
    binary main_v53 main_cst_11 main_v54 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_12 (constant S_ .f32 0x47435000#32),
    unary main_cst_12 main_v55 (broadcastInDim S256 ![] bcast_S_S256 : (⟨S_, .f32⟩ : BufTy).Contents (Elt F) → (⟨S256, .f32⟩ : BufTy).Contents (Elt F)),
    binary main_v54 main_v55 main_v56 (Host.divf : (⟨S256, .f32⟩ : BufTy).Contents (Elt F) → (⟨S256, .f32⟩ : BufTy).Contents (Elt F) → (⟨S256, .f32⟩ : BufTy).Contents (Elt F)),
    unary main_v49 main_v57 (broadcastInDim S1x256 ![1] bcast_S256_S1x256_1 : (⟨S256, .f32⟩ : BufTy).Contents (Elt F) → (⟨S1x256, .f32⟩ : BufTy).Contents (Elt F)),
    unary main_v57 main_v58 (broadcastInDim S50000x256 ![0, 1] bcast_S1x256_S50000x256_0_1 : (⟨S1x256, .f32⟩ : BufTy).Contents (Elt F) → (⟨S50000x256, .f32⟩ : BufTy).Contents (Elt F)),
    binary main_v46 main_v58 main_v59 (subf : (⟨S50000x256, .f32⟩ : BufTy).Contents (Elt F) → (⟨S50000x256, .f32⟩ : BufTy).Contents (Elt F) → (⟨S50000x256, .f32⟩ : BufTy).Contents (Elt F)),
    nullary main_cst_13 (constant S_ .f32 0x3727C5AC#32),
    unary main_cst_13 main_v60 (broadcastInDim S256 ![] bcast_S_S256 : (⟨S_, .f32⟩ : BufTy).Contents (Elt F) → (⟨S256, .f32⟩ : BufTy).Contents (Elt F)),
    binary main_v56 main_v60 main_v61 (addf : (⟨S256, .f32⟩ : BufTy).Contents (Elt F) → (⟨S256, .f32⟩ : BufTy).Contents (Elt F) → (⟨S256, .f32⟩ : BufTy).Contents (Elt F)),
    unary main_v61 main_v62 (Host.rsqrt : (⟨S256, .f32⟩ : BufTy).Contents (Elt F) → (⟨S256, .f32⟩ : BufTy).Contents (Elt F)),
    unary main_v62 main_v63 (broadcastInDim S1x256 ![1] bcast_S256_S1x256_1 : (⟨S256, .f32⟩ : BufTy).Contents (Elt F) → (⟨S1x256, .f32⟩ : BufTy).Contents (Elt F)),
    unary main_v63 main_v64 (broadcastInDim S50000x256 ![0, 1] bcast_S1x256_S50000x256_0_1 : (⟨S1x256, .f32⟩ : BufTy).Contents (Elt F) → (⟨S50000x256, .f32⟩ : BufTy).Contents (Elt F)),
    binary main_v59 main_v64 main_v65 (mulf : (⟨S50000x256, .f32⟩ : BufTy).Contents (Elt F) → (⟨S50000x256, .f32⟩ : BufTy).Contents (Elt F) → (⟨S50000x256, .f32⟩ : BufTy).Contents (Elt F)),
    unary main_arg4 main_v66 (broadcastInDim S1x256 ![1] bcast_S256_S1x256_1 : (⟨S256, .f32⟩ : BufTy).Contents (Elt F) → (⟨S1x256, .f32⟩ : BufTy).Contents (Elt F)),
    unary main_v66 main_v67 (broadcastInDim S50000x256 ![0, 1] bcast_S1x256_S50000x256_0_1 : (⟨S1x256, .f32⟩ : BufTy).Contents (Elt F) → (⟨S50000x256, .f32⟩ : BufTy).Contents (Elt F)),
    binary main_v65 main_v67 main_v68 (mulf : (⟨S50000x256, .f32⟩ : BufTy).Contents (Elt F) → (⟨S50000x256, .f32⟩ : BufTy).Contents (Elt F) → (⟨S50000x256, .f32⟩ : BufTy).Contents (Elt F)),
    unary main_arg5 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v68 main_v70 main_v71 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v71) (TRef.of (T := ⟨S50000x256, .f32⟩) main_call1_v0) (TRef.of (T := ⟨S50000x256, .f32⟩) main_v72) maximumf ]

/-- The buffers the stretch writes. -/
abbrev wS6 : List (Ref sig .tc) :=
  [main_cst_9, main_v47, main_cst_10, main_v48, main_v49, main_v50, main_v51, main_v52, main_v53, main_cst_11, main_v54, main_cst_12, main_v55, main_v56, main_v57, main_v58, main_v59, main_cst_13, main_v60, main_v61, main_v62, main_v63, main_v64, main_v65, main_v66, main_v67, main_v68, main_v69, main_v70, main_v71, main_call1_cst, main_call1_v0, main_v72]

/-- A buffer the stretch does not write keeps its contents. -/
theorem keep_S6 (W : Valuation τ sig (Elt Ideal)) (b : Ref sig .tc) (hb : b ∉ wS6) :
    StableHlo.after (S6 (F := Ideal)) W (Proc.devRef .tc b) = W (Proc.devRef .tc b) :=
  StableHlo.after_of_forall_not_mem (b := Proc.devRef .tc b) _ _ (List.forall_iff_forall_mem.mp (by
    simp only [S6, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v72` holds its stage of the reading module, given the stages the stretch reads. -/
theorem S6_main_v72 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal))
    (h_main_v46 : V (Proc.devRef .tc main_v46) = (ReadP.val_main_v46 (F := Ideal) x0 x1 x2 x3))
    (h_main_arg4 : V (Proc.devRef .tc main_arg4) = x4)
    (h_main_arg5 : V (Proc.devRef .tc main_arg5) = x5) :
    StableHlo.after (S6 (F := Ideal)) V (Proc.devRef .tc main_v72) = (ReadP.val_main_v72 (F := Ideal) x0 x1 x2 x3 x4 x5) := by
  after_results_simp
  rw [h_main_v46, h_main_arg4, h_main_arg5] <;> rfl

end Cert.ReferenceIdeal.RunH

end
-- ==== Proof.RefRunS7.lean ====
/-
  One stretch of the reference program's host operations (operations 93 to 112 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S7 : List (HloOp τ sig (Elt F)) :=
  [
    binary main_v72 main_arg6 main_v73 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v29 main_v74 (broadcastInDim S370000x1 ![0] bcast_S370000_S370000x1_0 : (⟨S370000, .f32⟩ : BufTy).Contents (Elt F) → (⟨S370000x1, .f32⟩ : BufTy).Contents (Elt F)),
    nullary main_c_14 (constantI S_ 32 0#32),
    unary main_c_14 main_v75 (broadcastInDim S370000 ![] bcast_S_S370000 : (⟨S_, .i32⟩ : BufTy).Contents (Elt F) → (⟨S370000, .i32⟩ : BufTy).Contents (Elt F)),
    binary main_v3 main_v75 main_v76 (cmpi .slt : (⟨S370000, .i32⟩ : BufTy).Contents (Elt F) → (⟨S370000, .i32⟩ : BufTy).Contents (Elt F) → (⟨S370000, .i1⟩ : BufTy).Contents (Elt F)),
    nullary main_c_15 (constantI S_ 32 50000#32),
    unary main_c_15 main_v77 (broadcastInDim S370000 ![] bcast_S_S370000 : (⟨S_, .i32⟩ : BufTy).Contents (Elt F) → (⟨S370000, .i32⟩ : BufTy).Contents (Elt F)),
    binary main_v3 main_v77 main_v78 (addi : (⟨S370000, .i32⟩ : BufTy).Contents (Elt F) → (⟨S370000, .i32⟩ : BufTy).Contents (Elt F) → (⟨S370000, .i32⟩ : BufTy).Contents (Elt F)),
    ternary main_v76 main_v78 main_v3 main_v79 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v79 main_v80 (broadcastInDim S370000x1 ![0] bcast_S370000_S370000x1_0 : (⟨S370000, .i32⟩ : BufTy).Contents (Elt F) → (⟨S370000x1, .i32⟩ : BufTy).Contents (Elt F)),
    binary main_v73 main_v80 main_v81 ((fun x i => Host.gather gather_S50000x256_S370000x1_S370000x256_1_0_n_n_0_1_1256 x i) : (⟨S50000x256, .f32⟩ : BufTy).Contents (Elt F) → (⟨S370000x1, .i32⟩ : BufTy).Contents (Elt F) → (⟨S370000x256, .f32⟩ : BufTy).Contents (Elt F)),
    unary main_v74 main_v82 (broadcastInDim S370000x256 ![0, 1] bcast_S370000x1_S370000x256_0_1 : (⟨S370000x1, .f32⟩ : BufTy).Contents (Elt F) → (⟨S370000x256, .f32⟩ : BufTy).Contents (Elt F)),
    binary main_v82 main_v81 main_v83 (mulf : (⟨S370000x256, .f32⟩ : BufTy).Contents (Elt F) → (⟨S370000x256, .f32⟩ : BufTy).Contents (Elt F) → (⟨S370000x256, .f32⟩ : BufTy).Contents (Elt F)),
    nullary main_cst_16 (constant S_ .f32 0x00000000#32),
    unary main_cst_16 main_v84 (broadcastInDim S50000x256 ![] bcast_S_S50000x256 : (⟨S_, .f32⟩ : BufTy).Contents (Elt F) → (⟨S50000x256, .f32⟩ : BufTy).Contents (Elt F)),
    unary main_v6 main_v85 (broadcastInDim S370000x1 ![0] bcast_S370000_S370000x1_0 : (⟨S370000, .i32⟩ : BufTy).Contents (Elt F) → (⟨S370000x1, .i32⟩ : BufTy).Contents (Elt F)),
    ternary main_v84 main_v85 main_v83 main_v86 ((fun x i u => Host.scatterAdd scatter_S50000x256_S370000x1_S370000x256_1_0_0_1 x i u) : (⟨S50000x256, .f32⟩ : BufTy).Contents (Elt F) → (⟨S370000x1, .i32⟩ : BufTy).Contents (Elt F) → (⟨S370000x256, .f32⟩ : BufTy).Contents (Elt F) → (⟨S50000x256, .f32⟩ : BufTy).Contents (Elt F)),
    unary main_arg7 main_v87 (broadcastInDim S1x256 ![1] bcast_S256_S1x256_1 : (⟨S256, .f32⟩ : BufTy).Contents (Elt F) → (⟨S1x256, .f32⟩ : BufTy).Contents (Elt F)),
    unary main_v87 main_v88 (broadcastInDim S50000x256 ![0, 1] bcast_S1x256_S50000x256_0_1 : (⟨S1x256, .f32⟩ : BufTy).Contents (Elt F) → (⟨S50000x256, .f32⟩ : BufTy).Contents (Elt F)),
    binary main_v86 main_v88 main_v89 (addf : (⟨S50000x256, .f32⟩ : BufTy).Contents (Elt F) → (⟨S50000x256, .f32⟩ : BufTy).Contents (Elt F) → (⟨S50000x256, .f32⟩ : BufTy).Contents (Elt F)) ]

/-- The buffers the stretch writes. -/
abbrev wS7 : List (Ref sig .tc) :=
  [main_v73, main_v74, main_c_14, main_v75, main_v76, main_c_15, main_v77, main_v78, main_v79, main_v80, main_v81, main_v82, main_v83, main_cst_16, main_v84, main_v85, main_v86, main_v87, main_v88, main_v89]

/-- A buffer the stretch does not write keeps its contents. -/
theorem keep_S7 (W : Valuation τ sig (Elt Ideal)) (b : Ref sig .tc) (hb : b ∉ wS7) :
    StableHlo.after (S7 (F := Ideal)) W (Proc.devRef .tc b) = W (Proc.devRef .tc b) :=
  StableHlo.after_of_forall_not_mem (b := Proc.devRef .tc b) _ _ (List.forall_iff_forall_mem.mp (by
    simp only [S7, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v89` holds its stage of the reading module, given the stages the stretch reads. -/
theorem S7_main_v89 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
    (h_main_v6 : V (Proc.devRef .tc main_v6) = (ReadP.val_main_v6 (F := Ideal) x1))
    (h_main_v29 : V (Proc.devRef .tc main_v29) = (ReadP.val_main_v29 (F := Ideal) x1))
    (h_main_v72 : V (Proc.devRef .tc main_v72) = (ReadP.val_main_v72 (F := Ideal) x0 x1 x2 x3 x4 x5))
    (h_main_arg6 : V (Proc.devRef .tc main_arg6) = x6)
    (h_main_v3 : V (Proc.devRef .tc main_v3) = (ReadP.val_main_v3 (F := Ideal) x1))
    (h_main_arg7 : V (Proc.devRef .tc main_arg7) = x7) :
    StableHlo.after (S7 (F := Ideal)) V (Proc.devRef .tc main_v89) = (ReadP.val_main_v89 (F := Ideal) x0 x1 x2 x3 x4 x5 x6 x7) := by
  after_results_simp
  rw [h_main_v6, h_main_v29, h_main_v72, h_main_arg6, h_main_v3, h_main_arg7] <;> rfl

end Cert.ReferenceIdeal.RunH

end
-- ==== Proof.RefRunS8.lean ====
/-
  One stretch of the reference program's host operations (operations 113 to 145 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S8 : List (HloOp τ sig (Elt F)) :=
  [
    nullary main_cst_17 (constant S_ .f32 0x00000000#32),
    binary main_v89 main_cst_17 main_v90 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_18 (constant S_ .f32 0x47435000#32),
    unary main_cst_18 main_v91 (broadcastInDim S256 ![] bcast_S_S256 : (⟨S_, .f32⟩ : BufTy).Contents (Elt F) → (⟨S256, .f32⟩ : BufTy).Contents (Elt F)),
    binary main_v90 main_v91 main_v92 (Host.divf : (⟨S256, .f32⟩ : BufTy).Contents (Elt F) → (⟨S256, .f32⟩ : BufTy).Contents (Elt F) → (⟨S256, .f32⟩ : BufTy).Contents (Elt F)),
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v89 main_v94 main_v95 (subf : (⟨S50000x256, .f32⟩ : BufTy).Contents (Elt F) → (⟨S50000x256, .f32⟩ : BufTy).Contents (Elt F) → (⟨S50000x256, .f32⟩ : BufTy).Contents (Elt F)),
    binary main_v95 main_v95 main_v96 (mulf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x00000000#32),
    binary main_v96 main_cst_19 main_v97 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_20 (constant S_ .f32 0x47435000#32),
    unary main_cst_20 main_v98 (broadcastInDim S256 ![] bcast_S_S256 : (⟨S_, .f32⟩ : BufTy).Contents (Elt F) → (⟨S256, .f32⟩ : BufTy).Contents (Elt F)),
    binary main_v97 main_v98 main_v99 (Host.divf : (⟨S256, .f32⟩ : BufTy).Contents (Elt F) → (⟨S256, .f32⟩ : BufTy).Contents (Elt F) → (⟨S256, .f32⟩ : BufTy).Contents (Elt F)),
    unary main_v92 main_v100 (broadcastInDim S1x256 ![1] bcast_S256_S1x256_1 : (⟨S256, .f32⟩ : BufTy).Contents (Elt F) → (⟨S1x256, .f32⟩ : BufTy).Contents (Elt F)),
    unary main_v100 main_v101 (broadcastInDim S50000x256 ![0, 1] bcast_S1x256_S50000x256_0_1 : (⟨S1x256, .f32⟩ : BufTy).Contents (Elt F) → (⟨S50000x256, .f32⟩ : BufTy).Contents (Elt F)),
    binary main_v89 main_v101 main_v102 (subf : (⟨S50000x256, .f32⟩ : BufTy).Contents (Elt F) → (⟨S50000x256, .f32⟩ : BufTy).Contents (Elt F) → (⟨S50000x256, .f32⟩ : BufTy).Contents (Elt F)),
    nullary main_cst_21 (constant S_ .f32 0x3727C5AC#32),
    unary main_cst_21 main_v103 (broadcastInDim S256 ![] bcast_S_S256 : (⟨S_, .f32⟩ : BufTy).Contents (Elt F) → (⟨S256, .f32⟩ : BufTy).Contents (Elt F)),
    binary main_v99 main_v103 main_v104 (addf : (⟨S256, .f32⟩ : BufTy).Contents (Elt F) → (⟨S256, .f32⟩ : BufTy).Contents (Elt F) → (⟨S256, .f32⟩ : BufTy).Contents (Elt F)),
    unary main_v104 main_v105 (Host.rsqrt : (⟨S256, .f32⟩ : BufTy).Contents (Elt F) → (⟨S256, .f32⟩ : BufTy).Contents (Elt F)),
    unary main_v105 main_v106 (broadcastInDim S1x256 ![1] bcast_S256_S1x256_1 : (⟨S256, .f32⟩ : BufTy).Contents (Elt F) → (⟨S1x256, .f32⟩ : BufTy).Contents (Elt F)),
    unary main_v106 main_v107 (broadcastInDim S50000x256 ![0, 1] bcast_S1x256_S50000x256_0_1 : (⟨S1x256, .f32⟩ : BufTy).Contents (Elt F) → (⟨S50000x256, .f32⟩ : BufTy).Contents (Elt F)),
    binary main_v102 main_v107 main_v108 (mulf : (⟨S50000x256, .f32⟩ : BufTy).Contents (Elt F) → (⟨S50000x256, .f32⟩ : BufTy).Contents (Elt F) → (⟨S50000x256, .f32⟩ : BufTy).Contents (Elt F)),
    unary main_arg8 main_v109 (broadcastInDim S1x256 ![1] bcast_S256_S1x256_1 : (⟨S256, .f32⟩ : BufTy).Contents (Elt F) → (⟨S1x256, .f32⟩ : BufTy).Contents (Elt F)),
    unary main_v109 main_v110 (broadcastInDim S50000x256 ![0, 1] bcast_S1x256_S50000x256_0_1 : (⟨S1x256, .f32⟩ : BufTy).Contents (Elt F) → (⟨S50000x256, .f32⟩ : BufTy).Contents (Elt F)),
    binary main_v108 main_v110 main_v111 (mulf : (⟨S50000x256, .f32⟩ : BufTy).Contents (Elt F) → (⟨S50000x256, .f32⟩ : BufTy).Contents (Elt F) → (⟨S50000x256, .f32⟩ : BufTy).Contents (Elt F)),
    unary main_arg9 main_v112 (broadcastInDim S1x256 ![1] bcast_S256_S1x256_1 : (⟨S256, .f32⟩ : BufTy).Contents (Elt F) → (⟨S1x256, .f32⟩ : BufTy).Contents (Elt F)),
    unary main_v112 main_v113 (broadcastInDim S50000x256 ![0, 1] bcast_S1x256_S50000x256_0_1 : (⟨S1x256, .f32⟩ : BufTy).Contents (Elt F) → (⟨S50000x256, .f32⟩ : BufTy).Contents (Elt F)),
    binary main_v111 main_v113 main_v114 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v114) (TRef.of (T := ⟨S50000x256, .f32⟩) main_call2_v0) (TRef.of (T := ⟨S50000x256, .f32⟩) main_v115) maximumf ]

/-- The buffers the stretch writes. -/
abbrev wS8 : List (Ref sig .tc) :=
  [main_cst_17, main_v90, main_cst_18, main_v91, main_v92, main_v93, main_v94, main_v95, main_v96, main_cst_19, main_v97, main_cst_20, main_v98, main_v99, main_v100, main_v101, main_v102, main_cst_21, main_v103, main_v104, main_v105, main_v106, main_v107, main_v108, main_v109, main_v110, main_v111, main_v112, main_v113, main_v114, main_call2_cst, main_call2_v0, main_v115]

/-- A buffer the stretch does not write keeps its contents. -/
theorem keep_S8 (W : Valuation τ sig (Elt Ideal)) (b : Ref sig .tc) (hb : b ∉ wS8) :
    StableHlo.after (S8 (F := Ideal)) W (Proc.devRef .tc b) = W (Proc.devRef .tc b) :=
  StableHlo.after_of_forall_not_mem (b := Proc.devRef .tc b) _ _ (List.forall_iff_forall_mem.mp (by
    simp only [S8, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v115` holds its stage of the reading module, given the stages the stretch reads. -/
theorem S8_main_v115 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal))
    (h_main_v89 : V (Proc.devRef .tc main_v89) = (ReadP.val_main_v89 (F := Ideal) x0 x1 x2 x3 x4 x5 x6 x7))
    (h_main_arg8 : V (Proc.devRef .tc main_arg8) = x8)
    (h_main_arg9 : V (Proc.devRef .tc main_arg9) = x9) :
    StableHlo.after (S8 (F := Ideal)) V (Proc.devRef .tc main_v115) = (ReadP.val_main_v115 (F := Ideal) x0 x1 x2 x3 x4 x5 x6 x7 x8 x9) := by
  after_results_simp
  rw [h_main_v89, h_main_arg8, h_main_arg9] <;> rfl

end Cert.ReferenceIdeal.RunH

end
-- ==== Proof.RefRunS9.lean ====
/-
  One stretch of the reference program's host operations (operations 146 to 165 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S9 : List (HloOp τ sig (Elt F)) :=
  [
    binary main_v115 main_arg10 main_v116 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_v29 main_v117 (broadcastInDim S370000x1 ![0] bcast_S370000_S370000x1_0 : (⟨S370000, .f32⟩ : BufTy).Contents (Elt F) → (⟨S370000x1, .f32⟩ : BufTy).Contents (Elt F)),
    nullary main_c_22 (constantI S_ 32 0#32),
    unary main_c_22 main_v118 (broadcastInDim S370000 ![] bcast_S_S370000 : (⟨S_, .i32⟩ : BufTy).Contents (Elt F) → (⟨S370000, .i32⟩ : BufTy).Contents (Elt F)),
    binary main_v3 main_v118 main_v119 (cmpi .slt : (⟨S370000, .i32⟩ : BufTy).Contents (Elt F) → (⟨S370000, .i32⟩ : BufTy).Contents (Elt F) → (⟨S370000, .i1⟩ : BufTy).Contents (Elt F)),
    nullary main_c_23 (constantI S_ 32 50000#32),
    unary main_c_23 main_v120 (broadcastInDim S370000 ![] bcast_S_S370000 : (⟨S_, .i32⟩ : BufTy).Contents (Elt F) → (⟨S370000, .i32⟩ : BufTy).Contents (Elt F)),
    binary main_v3 main_v120 main_v121 (addi : (⟨S370000, .i32⟩ : BufTy).Contents (Elt F) → (⟨S370000, .i32⟩ : BufTy).Contents (Elt F) → (⟨S370000, .i32⟩ : BufTy).Contents (Elt F)),
    ternary main_v119 main_v121 main_v3 main_v122 (select : (⟨S370000, .i1⟩ : BufTy).Contents (Elt F) → (⟨S370000, .i32⟩ : BufTy).Contents (Elt F) → (⟨S370000, .i32⟩ : BufTy).Contents (Elt F) → (⟨S370000, .i32⟩ : BufTy).Contents (Elt F)),
    unary main_v122 main_v123 (broadcastInDim S370000x1 ![0] bcast_S370000_S370000x1_0 : (⟨S370000, .i32⟩ : BufTy).Contents (Elt F) → (⟨S370000x1, .i32⟩ : BufTy).Contents (Elt F)),
    binary main_v116 main_v123 main_v124 ((fun x i => Host.gather gather_S50000x40_S370000x1_S370000x40_1_0_n_n_0_1_140 x i) : (⟨S50000x40, .f32⟩ : BufTy).Contents (Elt F) → (⟨S370000x1, .i32⟩ : BufTy).Contents (Elt F) → (⟨S370000x40, .f32⟩ : BufTy).Contents (Elt F)),
    unary main_v117 main_v125 (broadcastInDim S370000x40 ![0, 1] bcast_S370000x1_S370000x40_0_1 : (⟨S370000x1, .f32⟩ : BufTy).Contents (Elt F) → (⟨S370000x40, .f32⟩ : BufTy).Contents (Elt F)),
    binary main_v125 main_v124 main_v126 (mulf : (⟨S370000x40, .f32⟩ : BufTy).Contents (Elt F) → (⟨S370000x40, .f32⟩ : BufTy).Contents (Elt F) → (⟨S370000x40, .f32⟩ : BufTy).Contents (Elt F)),
    nullary main_cst_24 (constant S_ .f32 0x00000000#32),
    unary main_cst_24 main_v127 (broadcastInDim S50000x40 ![] bcast_S_S50000x40 : (⟨S_, .f32⟩ : BufTy).Contents (Elt F) → (⟨S50000x40, .f32⟩ : BufTy).Contents (Elt F)),
    unary main_v6 main_v128 (broadcastInDim S370000x1 ![0] bcast_S370000_S370000x1_0 : (⟨S370000, .i32⟩ : BufTy).Contents (Elt F) → (⟨S370000x1, .i32⟩ : BufTy).Contents (Elt F)),
    ternary main_v127 main_v128 main_v126 main_v129 ((fun x i u => Host.scatterAdd scatter_S50000x40_S370000x1_S370000x40_1_0_0_1 x i u) : (⟨S50000x40, .f32⟩ : BufTy).Contents (Elt F) → (⟨S370000x1, .i32⟩ : BufTy).Contents (Elt F) → (⟨S370000x40, .f32⟩ : BufTy).Contents (Elt F) → (⟨S50000x40, .f32⟩ : BufTy).Contents (Elt F)),
    unary main_arg11 main_v130 (broadcastInDim S1x40 ![1] bcast_S40_S1x40_1 : (⟨S40, .f32⟩ : BufTy).Contents (Elt F) → (⟨S1x40, .f32⟩ : BufTy).Contents (Elt F)),
    unary main_v130 main_v131 (broadcastInDim S50000x40 ![0, 1] bcast_S1x40_S50000x40_0_1 : (⟨S1x40, .f32⟩ : BufTy).Contents (Elt F) → (⟨S50000x40, .f32⟩ : BufTy).Contents (Elt F)),
    binary main_v129 main_v131 main_v132 (addf : (⟨S50000x40, .f32⟩ : BufTy).Contents (Elt F) → (⟨S50000x40, .f32⟩ : BufTy).Contents (Elt F) → (⟨S50000x40, .f32⟩ : BufTy).Contents (Elt F)) ]

/-- The buffers the stretch writes. -/
abbrev wS9 : List (Ref sig .tc) :=
  [main_v116, main_v117, main_c_22, main_v118, main_v119, main_c_23, main_v120, main_v121, main_v122, main_v123, main_v124, main_v125, main_v126, main_cst_24, main_v127, main_v128, main_v129, main_v130, main_v131, main_v132]

/-- A buffer the stretch does not write keeps its contents. -/
theorem keep_S9 (W : Valuation τ sig (Elt Ideal)) (b : Ref sig .tc) (hb : b ∉ wS9) :
    StableHlo.after (S9 (F := Ideal)) W (Proc.devRef .tc b) = W (Proc.devRef .tc b) :=
  StableHlo.after_of_forall_not_mem (b := Proc.devRef .tc b) _ _ (List.forall_iff_forall_mem.mp (by
    simp only [S9, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- After the stretch, `main_v132` holds its stage of the reading module, given the stages the stretch reads. -/
theorem S9_main_v132 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal))
    (h_main_v6 : V (Proc.devRef .tc main_v6) = (ReadP.val_main_v6 (F := Ideal) x1))
    (h_main_v29 : V (Proc.devRef .tc main_v29) = (ReadP.val_main_v29 (F := Ideal) x1))
    (h_main_v115 : V (Proc.devRef .tc main_v115) = (ReadP.val_main_v115 (F := Ideal) x0 x1 x2 x3 x4 x5 x6 x7 x8 x9))
    (h_main_arg10 : V (Proc.devRef .tc main_arg10) = x10)
    (h_main_v3 : V (Proc.devRef .tc main_v3) = (ReadP.val_main_v3 (F := Ideal) x1))
    (h_main_arg11 : V (Proc.devRef .tc main_arg11) = x11) :
    StableHlo.after (S9 (F := Ideal)) V (Proc.devRef .tc main_v132) = (ReadP.val_main_v132 (F := Ideal) x0 x1 x2 x3 x4 x5 x6 x7 x8 x9 x10 x11) := by
  after_results_simp
  rw [h_main_v6, h_main_v29, h_main_v115, h_main_arg10, h_main_v3, h_main_arg11] <;> rfl

end Cert.ReferenceIdeal.RunH

end
-- ==== Proof.RefRunS10.lean ====
/-
  One stretch of the reference program's host operations (operations 166 to 180 of @main, in order): what a buffer
  a later stretch reads holds after the stretch, as its stage of the reading module, for an arbitrary valuation of the
  buffers before it; and that a buffer the stretch does not write holds what it held.
-/
import proofs.«127233_j26182120636977_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The stretch's operations. -/
abbrev S10 : List (HloOp τ sig (Elt F)) :=
  [
    TRef.nullary (TRef.of (T := ⟨S_, .f32⟩) main_call3_cst) (constant S_ .f32 0xFF800000#32),
    TRef.binary (TRef.of (T := ⟨S50000x40, .f32⟩) main_v132) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v132) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v133) subf ]

/-- The buffers the stretch writes. -/
abbrev wS10 : List (Ref sig .tc) :=
  [main_call3_cst, main_call3_v0, main_call3_cst_0, main_call3_v1, main_call3_v2, main_call3_v3, main_call3_v4, main_call3_v5, main_call3_v6, main_call3_cst_1, main_call3_v7, main_call3_v8, main_call3_v9, main_call3_v10, main_v133]

/-- A buffer the stretch does not write keeps its contents. -/
theorem keep_S10 (W : Valuation τ sig (Elt Ideal)) (b : Ref sig .tc) (hb : b ∉ wS10) :
    StableHlo.after (S10 (F := Ideal)) W (Proc.devRef .tc b) = W (Proc.devRef .tc b) :=
  StableHlo.after_of_forall_not_mem (b := Proc.devRef .tc b) _ _ (List.forall_iff_forall_mem.mp (by
    simp only [S10, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals
      refine StableHlo.devRef_ne_of_ne (fun e => hb ?_)
      rw [e]
      simp))

/-- Laying a value out at a typed reference's buffer and reading it back gives the value. -/
theorem S10_ofBuf_toBuf {Val : EltTy → Type} {T : BufTy} (x : TRef sig T) (v : T.Contents Val) : x.ofBuf (x.toBuf v) = v := by
  obtain ⟨r, h, hd, hs⟩ := x
  subst h
  rfl

/-- At the stretch's input and at its result the buffer's type is the value's, so the layout is the identity. -/
theorem S10_ofBuf_main_v132 (v : (⟨S50000x40, .f32⟩ : BufTy).Contents (Elt Ideal)) :
    (TRef.of (T := ⟨S50000x40, .f32⟩) main_v132).ofBuf v = v := rfl
theorem S10_toBuf_main_v133 (v : (⟨S50000x40, .f32⟩ : BufTy).Contents (Elt Ideal)) :
    (TRef.of (T := ⟨S50000x40, .f32⟩) main_v133).toBuf v = v := rfl

set_option maxHeartbeats 400000 in
/-- After the stretch, `main_v133` holds its stage of the reading module, given the stages the stretch reads. -/
theorem S10_main_v133 (V : Valuation τ sig (Elt Ideal)) (x0 : (⟨S50000x128, .f32⟩ : BufTy).Contents (Elt Ideal)) (x1 : (⟨S2x320000, .i32⟩ : BufTy).Contents (Elt Ideal)) (x2 : (⟨S128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256x40, .f32⟩ : BufTy).Contents (Elt Ideal)) (x11 : (⟨S40, .f32⟩ : BufTy).Contents (Elt Ideal))
    (h_main_v132 : V (Proc.devRef .tc main_v132) = (ReadP.val_main_v132 (F := Ideal) x0 x1 x2 x3 x4 x5 x6 x7 x8 x9 x10 x11)) :
    StableHlo.after (S10 (F := Ideal)) V (Proc.devRef .tc main_v133) = (ReadP.val_main_v133 (F := Ideal) x0 x1 x2 x3 x4 x5 x6 x7 x8 x9 x10 x11) := by
  after_results_simp
  rw [h_main_v132]
  simp only [S10_ofBuf_toBuf]
  rw [S10_ofBuf_main_v132, S10_toBuf_main_v133]
  unfold ReadP.val_main_v133 ReadP.val_main_call3_v10 ReadP.val_main_call3_v9 ReadP.val_main_call3_v8 ReadP.val_main_call3_v7
    ReadP.val_main_call3_cst_1 ReadP.val_main_call3_v6 ReadP.val_main_call3_v5 ReadP.val_main_call3_v4 ReadP.val_main_call3_v3
    ReadP.val_main_call3_v2 ReadP.val_main_call3_v1 ReadP.val_main_call3_cst_0 ReadP.val_main_call3_v0 ReadP.val_main_call3_cst
  with_reducible rfl

end Cert.ReferenceIdeal.RunH

end
-- ==== Proof.RefRun.lean ====
/-
  The run of the reference program: from any memory with zero counters, every weakly fair execution of @main
  terminates with the result buffer at the reading module's last stage of the twelve arguments, and the arguments
  unchanged.

  The 181 host operations are run stretch by stretch: the list is the concatenation of eleven consecutive stretches,
  the fold over a concatenation is the fold of the later part from the fold of the earlier, and after each stretch
  every buffer a later stretch reads holds its stage of the reading module (the stretch's own lemma) or what it held
  (the stretch does not write it).
-/
import proofs.«127233_j26182120636977_2_alg».proof.Proof.RefOpsP
import proofs.«127233_j26182120636977_2_alg».proof.Proof.RefReadP
import proofs.«127233_j26182120636977_2_alg».proof.Proof.RefRunBase
import proofs.«127233_j26182120636977_2_alg».proof.Proof.RefRunS0
import proofs.«127233_j26182120636977_2_alg».proof.Proof.RefRunS1
import proofs.«127233_j26182120636977_2_alg».proof.Proof.RefRunS2
import proofs.«127233_j26182120636977_2_alg».proof.Proof.RefRunS3
import proofs.«127233_j26182120636977_2_alg».proof.Proof.RefRunS4a
import proofs.«127233_j26182120636977_2_alg».proof.Proof.RefRunS4b
import proofs.«127233_j26182120636977_2_alg».proof.Proof.RefRunS4c
import proofs.«127233_j26182120636977_2_alg».proof.Proof.RefRunS5
import proofs.«127233_j26182120636977_2_alg».proof.Proof.RefRunS6
import proofs.«127233_j26182120636977_2_alg».proof.Proof.RefRunS7
import proofs.«127233_j26182120636977_2_alg».proof.Proof.RefRunS8
import proofs.«127233_j26182120636977_2_alg».proof.Proof.RefRunS9
import proofs.«127233_j26182120636977_2_alg».proof.Proof.RefRunS10

noncomputable section

namespace Cert.ReferenceIdeal.RunH

open Cert.ReferenceIdeal Cert.ReferenceIdeal.Gen Idealize.ShloMosaic Idealize.ShloMosaic.TcCoe Idealize.SL.Sem Idealize.ShloMosaic.StableHlo

/-- @main's operations are the eleven stretches, in order. -/
theorem ops_split : (ValueP.ops : List (HloOp τ sig (Elt Ideal))) = S0 ++ S1 ++ S2 ++ S3 ++ S4a ++ S4b ++ S4c ++ S5 ++ S6 ++ S7 ++ S8 ++ S9 ++ S10 := rfl

/-- A buffer no stretch writes holds after the whole program what it held before. -/
theorem ops_keep (W : Valuation τ sig (Elt Ideal)) (b : Ref sig .tc) (h0 : b ∉ wS0) (h1 : b ∉ wS1) (h2 : b ∉ wS2) (h3 : b ∉ wS3) (h4 : b ∉ wS4a) (h5 : b ∉ wS4b) (h6 : b ∉ wS4c) (h7 : b ∉ wS5) (h8 : b ∉ wS6) (h9 : b ∉ wS7) (h10 : b ∉ wS8) (h11 : b ∉ wS9) (h12 : b ∉ wS10) :
    StableHlo.after (ValueP.ops (F := Ideal)) W (Proc.devRef .tc b) = W (Proc.devRef .tc b) := by
  rw [ops_split]
  simp only [after_append]
  rw [keep_S10 _ b h12, keep_S9 _ b h11, keep_S8 _ b h10, keep_S7 _ b h9, keep_S6 _ b h8, keep_S5 _ b h7, keep_S4c _ b h6, keep_S4b _ b h5, keep_S4a _ b h4, keep_S3 _ b h3, keep_S2 _ b h2, keep_S1 _ b h1, keep_S0 _ b h0]

/-- THE RESULT BUFFER after the whole program, from an arbitrary valuation: the reading module's last stage of what
    the valuation holds at the twelve argument buffers. -/
theorem ref_after (W : Valuation τ sig (Elt Ideal)) :
    StableHlo.after (ValueP.ops (F := Ideal)) W (Proc.devRef .tc main_v133)
      = ReadP.val_main_v133 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split]
  simp only [after_append]
  have k0_main_arg1 := keep_S0 W main_arg1 (by decide)
  have k0_main_arg0 := keep_S0 W main_arg0 (by decide)
  have k0_main_arg2 := keep_S0 W main_arg2 (by decide)
  have k0_main_arg3 := keep_S0 W main_arg3 (by decide)
  have k0_main_arg4 := keep_S0 W main_arg4 (by decide)
  have k0_main_arg5 := keep_S0 W main_arg5 (by decide)
  have k0_main_arg6 := keep_S0 W main_arg6 (by decide)
  have k0_main_arg7 := keep_S0 W main_arg7 (by decide)
  have k0_main_arg8 := keep_S0 W main_arg8 (by decide)
  have k0_main_arg9 := keep_S0 W main_arg9 (by decide)
  have k0_main_arg10 := keep_S0 W main_arg10 (by decide)
  have k0_main_arg11 := keep_S0 W main_arg11 (by decide)
  have f0_main_v0 := S0_main_v0 W
  have f0_main_v2 := S0_main_v2 W (W (Proc.devRef .tc main_arg1)) rfl
  have k1_main_arg1 := (keep_S1 (StableHlo.after (S0 (F := Ideal)) W) main_arg1 (by decide)).trans k0_main_arg1
  have k1_main_v0 := (keep_S1 (StableHlo.after (S0 (F := Ideal)) W) main_v0 (by decide)).trans f0_main_v0
  have k1_main_arg0 := (keep_S1 (StableHlo.after (S0 (F := Ideal)) W) main_arg0 (by decide)).trans k0_main_arg0
  have k1_main_arg2 := (keep_S1 (StableHlo.after (S0 (F := Ideal)) W) main_arg2 (by decide)).trans k0_main_arg2
  have k1_main_arg3 := (keep_S1 (StableHlo.after (S0 (F := Ideal)) W) main_arg3 (by decide)).trans k0_main_arg3
  have k1_main_arg4 := (keep_S1 (StableHlo.after (S0 (F := Ideal)) W) main_arg4 (by decide)).trans k0_main_arg4
  have k1_main_arg5 := (keep_S1 (StableHlo.after (S0 (F := Ideal)) W) main_arg5 (by decide)).trans k0_main_arg5
  have k1_main_arg6 := (keep_S1 (StableHlo.after (S0 (F := Ideal)) W) main_arg6 (by decide)).trans k0_main_arg6
  have k1_main_arg7 := (keep_S1 (StableHlo.after (S0 (F := Ideal)) W) main_arg7 (by decide)).trans k0_main_arg7
  have k1_main_arg8 := (keep_S1 (StableHlo.after (S0 (F := Ideal)) W) main_arg8 (by decide)).trans k0_main_arg8
  have k1_main_arg9 := (keep_S1 (StableHlo.after (S0 (F := Ideal)) W) main_arg9 (by decide)).trans k0_main_arg9
  have k1_main_arg10 := (keep_S1 (StableHlo.after (S0 (F := Ideal)) W) main_arg10 (by decide)).trans k0_main_arg10
  have k1_main_arg11 := (keep_S1 (StableHlo.after (S0 (F := Ideal)) W) main_arg11 (by decide)).trans k0_main_arg11
  have f1_main_v3 := S1_main_v3 (StableHlo.after (S0 (F := Ideal)) W) (W (Proc.devRef .tc main_arg1)) f0_main_v2 f0_main_v0
  have k2_main_v0 := (keep_S2 (StableHlo.after (S1 (F := Ideal)) (StableHlo.after (S0 (F := Ideal)) W)) main_v0 (by decide)).trans k1_main_v0
  have k2_main_v3 := (keep_S2 (StableHlo.after (S1 (F := Ideal)) (StableHlo.after (S0 (F := Ideal)) W)) main_v3 (by decide)).trans f1_main_v3
  have k2_main_arg0 := (keep_S2 (StableHlo.after (S1 (F := Ideal)) (StableHlo.after (S0 (F := Ideal)) W)) main_arg0 (by decide)).trans k1_main_arg0
  have k2_main_arg2 := (keep_S2 (StableHlo.after (S1 (F := Ideal)) (StableHlo.after (S0 (F := Ideal)) W)) main_arg2 (by decide)).trans k1_main_arg2
  have k2_main_arg3 := (keep_S2 (StableHlo.after (S1 (F := Ideal)) (StableHlo.after (S0 (F := Ideal)) W)) main_arg3 (by decide)).trans k1_main_arg3
  have k2_main_arg4 := (keep_S2 (StableHlo.after (S1 (F := Ideal)) (StableHlo.after (S0 (F := Ideal)) W)) main_arg4 (by decide)).trans k1_main_arg4
  have k2_main_arg5 := (keep_S2 (StableHlo.after (S1 (F := Ideal)) (StableHlo.after (S0 (F := Ideal)) W)) main_arg5 (by decide)).trans k1_main_arg5
  have k2_main_arg6 := (keep_S2 (StableHlo.after (S1 (F := Ideal)) (StableHlo.after (S0 (F := Ideal)) W)) main_arg6 (by decide)).trans k1_main_arg6
  have k2_main_arg7 := (keep_S2 (StableHlo.after (S1 (F := Ideal)) (StableHlo.after (S0 (F := Ideal)) W)) main_arg7 (by decide)).trans k1_main_arg7
  have k2_main_arg8 := (keep_S2 (StableHlo.after (S1 (F := Ideal)) (StableHlo.after (S0 (F := Ideal)) W)) main_arg8 (by decide)).trans k1_main_arg8
  have k2_main_arg9 := (keep_S2 (StableHlo.after (S1 (F := Ideal)) (StableHlo.after (S0 (F := Ideal)) W)) main_arg9 (by decide)).trans k1_main_arg9
  have k2_main_arg10 := (keep_S2 (StableHlo.after (S1 (F := Ideal)) (StableHlo.after (S0 (F := Ideal)) W)) main_arg10 (by decide)).trans k1_main_arg10
  have k2_main_arg11 := (keep_S2 (StableHlo.after (S1 (F := Ideal)) (StableHlo.after (S0 (F := Ideal)) W)) main_arg11 (by decide)).trans k1_main_arg11
  have f2_main_v5 := S2_main_v5 (StableHlo.after (S1 (F := Ideal)) (StableHlo.after (S0 (F := Ideal)) W)) (W (Proc.devRef .tc main_arg1)) k1_main_arg1
  have k3_main_v3 := (keep_S3 (StableHlo.after (S2 (F := Ideal)) (StableHlo.after (S1 (F := Ideal)) (StableHlo.after (S0 (F := Ideal)) W))) main_v3 (by decide)).trans k2_main_v3
  have k3_main_arg0 := (keep_S3 (StableHlo.after (S2 (F := Ideal)) (StableHlo.after (S1 (F := Ideal)) (StableHlo.after (S0 (F := Ideal)) W))) main_arg0 (by decide)).trans k2_main_arg0
  have k3_main_arg2 := (keep_S3 (StableHlo.after (S2 (F := Ideal)) (StableHlo.after (S1 (F := Ideal)) (StableHlo.after (S0 (F := Ideal)) W))) main_arg2 (by decide)).trans k2_main_arg2
  have k3_main_arg3 := (keep_S3 (StableHlo.after (S2 (F := Ideal)) (StableHlo.after (S1 (F := Ideal)) (StableHlo.after (S0 (F := Ideal)) W))) main_arg3 (by decide)).trans k2_main_arg3
  have k3_main_arg4 := (keep_S3 (StableHlo.after (S2 (F := Ideal)) (StableHlo.after (S1 (F := Ideal)) (StableHlo.after (S0 (F := Ideal)) W))) main_arg4 (by decide)).trans k2_main_arg4
  have k3_main_arg5 := (keep_S3 (StableHlo.after (S2 (F := Ideal)) (StableHlo.after (S1 (F := Ideal)) (StableHlo.after (S0 (F := Ideal)) W))) main_arg5 (by decide)).trans k2_main_arg5
  have k3_main_arg6 := (keep_S3 (StableHlo.after (S2 (F := Ideal)) (StableHlo.after (S1 (F := Ideal)) (StableHlo.after (S0 (F := Ideal)) W))) main_arg6 (by decide)).trans k2_main_arg6
  have k3_main_arg7 := (keep_S3 (StableHlo.after (S2 (F := Ideal)) (StableHlo.after (S1 (F := Ideal)) (StableHlo.after (S0 (F := Ideal)) W))) main_arg7 (by decide)).trans k2_main_arg7
  have k3_main_arg8 := (keep_S3 (StableHlo.after (S2 (F := Ideal)) (StableHlo.after (S1 (F := Ideal)) (StableHlo.after (S0 (F := Ideal)) W))) main_arg8 (by decide)).trans k2_main_arg8
  have k3_main_arg9 := (keep_S3 (StableHlo.after (S2 (F := Ideal)) (StableHlo.after (S1 (F := Ideal)) (StableHlo.after (S0 (F := Ideal)) W))) main_arg9 (by decide)).trans k2_main_arg9
  have k3_main_arg10 := (keep_S3 (StableHlo.after (S2 (F := Ideal)) (StableHlo.after (S1 (F := Ideal)) (StableHlo.after (S0 (F := Ideal)) W))) main_arg10 (by decide)).trans k2_main_arg10
  have k3_main_arg11 := (keep_S3 (StableHlo.after (S2 (F := Ideal)) (StableHlo.after (S1 (F := Ideal)) (StableHlo.after (S0 (F := Ideal)) W))) main_arg11 (by decide)).trans k2_main_arg11
  have f3_main_v6 := S3_main_v6 (StableHlo.after (S2 (F := Ideal)) (StableHlo.after (S1 (F := Ideal)) (StableHlo.after (S0 (F := Ideal)) W))) (W (Proc.devRef .tc main_arg1)) f2_main_v5 k2_main_v0
  have k4_main_v3 := (keep_S4a (StableHlo.after (S3 (F := Ideal)) (StableHlo.after (S2 (F := Ideal)) (StableHlo.after (S1 (F := Ideal)) (StableHlo.after (S0 (F := Ideal)) W)))) main_v3 (by decide)).trans k3_main_v3
  have k4_main_v6 := (keep_S4a (StableHlo.after (S3 (F := Ideal)) (StableHlo.after (S2 (F := Ideal)) (StableHlo.after (S1 (F := Ideal)) (StableHlo.after (S0 (F := Ideal)) W)))) main_v6 (by decide)).trans f3_main_v6
  have k4_main_arg0 := (keep_S4a (StableHlo.after (S3 (F := Ideal)) (StableHlo.after (S2 (F := Ideal)) (StableHlo.after (S1 (F := Ideal)) (StableHlo.after (S0 (F := Ideal)) W)))) main_arg0 (by decide)).trans k3_main_arg0
  have k4_main_arg2 := (keep_S4a (StableHlo.after (S3 (F := Ideal)) (StableHlo.after (S2 (F := Ideal)) (StableHlo.after (S1 (F := Ideal)) (StableHlo.after (S0 (F := Ideal)) W)))) main_arg2 (by decide)).trans k3_main_arg2
  have k4_main_arg3 := (keep_S4a (StableHlo.after (S3 (F := Ideal)) (StableHlo.after (S2 (F := Ideal)) (StableHlo.after (S1 (F := Ideal)) (StableHlo.after (S0 (F := Ideal)) W)))) main_arg3 (by decide)).trans k3_main_arg3
  have k4_main_arg4 := (keep_S4a (StableHlo.after (S3 (F := Ideal)) (StableHlo.after (S2 (F := Ideal)) (StableHlo.after (S1 (F := Ideal)) (StableHlo.after (S0 (F := Ideal)) W)))) main_arg4 (by decide)).trans k3_main_arg4
  have k4_main_arg5 := (keep_S4a (StableHlo.after (S3 (F := Ideal)) (StableHlo.after (S2 (F := Ideal)) (StableHlo.after (S1 (F := Ideal)) (StableHlo.after (S0 (F := Ideal)) W)))) main_arg5 (by decide)).trans k3_main_arg5
  have k4_main_arg6 := (keep_S4a (StableHlo.after (S3 (F := Ideal)) (StableHlo.after (S2 (F := Ideal)) (StableHlo.after (S1 (F := Ideal)) (StableHlo.after (S0 (F := Ideal)) W)))) main_arg6 (by decide)).trans k3_main_arg6
  have k4_main_arg7 := (keep_S4a (StableHlo.after (S3 (F := Ideal)) (StableHlo.after (S2 (F := Ideal)) (StableHlo.after (S1 (F := Ideal)) (StableHlo.after (S0 (F := Ideal)) W)))) main_arg7 (by decide)).trans k3_main_arg7
  have k4_main_arg8 := (keep_S4a (StableHlo.after (S3 (F := Ideal)) (StableHlo.after (S2 (F := Ideal)) (StableHlo.after (S1 (F := Ideal)) (StableHlo.after (S0 (F := Ideal)) W)))) main_arg8 (by decide)).trans k3_main_arg8
  have k4_main_arg9 := (keep_S4a (StableHlo.after (S3 (F := Ideal)) (StableHlo.after (S2 (F := Ideal)) (StableHlo.after (S1 (F := Ideal)) (StableHlo.after (S0 (F := Ideal)) W)))) main_arg9 (by decide)).trans k3_main_arg9
  have k4_main_arg10 := (keep_S4a (StableHlo.after (S3 (F := Ideal)) (StableHlo.after (S2 (F := Ideal)) (StableHlo.after (S1 (F := Ideal)) (StableHlo.after (S0 (F := Ideal)) W)))) main_arg10 (by decide)).trans k3_main_arg10
  have k4_main_arg11 := (keep_S4a (StableHlo.after (S3 (F := Ideal)) (StableHlo.after (S2 (F := Ideal)) (StableHlo.after (S1 (F := Ideal)) (StableHlo.after (S0 (F := Ideal)) W)))) main_arg11 (by decide)).trans k3_main_arg11
  have f4_main_v10 := S4a_main_v10 (StableHlo.after (S3 (F := Ideal)) (StableHlo.after (S2 (F := Ideal)) (StableHlo.after (S1 (F := Ideal)) (StableHlo.after (S0 (F := Ideal)) W)))) (W (Proc.devRef .tc main_arg1)) f3_main_v6
  have k5_main_v3 := (keep_S4b (StableHlo.after (S4a (F := Ideal)) (StableHlo.after (S3 (F := Ideal)) (StableHlo.after (S2 (F := Ideal)) (StableHlo.after (S1 (F := Ideal)) (StableHlo.after (S0 (F := Ideal)) W))))) main_v3 (by decide)).trans k4_main_v3
  have k5_main_v6 := (keep_S4b (StableHlo.after (S4a (F := Ideal)) (StableHlo.after (S3 (F := Ideal)) (StableHlo.after (S2 (F := Ideal)) (StableHlo.after (S1 (F := Ideal)) (StableHlo.after (S0 (F := Ideal)) W))))) main_v6 (by decide)).trans k4_main_v6
  have k5_main_arg0 := (keep_S4b (StableHlo.after (S4a (F := Ideal)) (StableHlo.after (S3 (F := Ideal)) (StableHlo.after (S2 (F := Ideal)) (StableHlo.after (S1 (F := Ideal)) (StableHlo.after (S0 (F := Ideal)) W))))) main_arg0 (by decide)).trans k4_main_arg0
  have k5_main_arg2 := (keep_S4b (StableHlo.after (S4a (F := Ideal)) (StableHlo.after (S3 (F := Ideal)) (StableHlo.after (S2 (F := Ideal)) (StableHlo.after (S1 (F := Ideal)) (StableHlo.after (S0 (F := Ideal)) W))))) main_arg2 (by decide)).trans k4_main_arg2
  have k5_main_arg3 := (keep_S4b (StableHlo.after (S4a (F := Ideal)) (StableHlo.after (S3 (F := Ideal)) (StableHlo.after (S2 (F := Ideal)) (StableHlo.after (S1 (F := Ideal)) (StableHlo.after (S0 (F := Ideal)) W))))) main_arg3 (by decide)).trans k4_main_arg3
  have k5_main_arg4 := (keep_S4b (StableHlo.after (S4a (F := Ideal)) (StableHlo.after (S3 (F := Ideal)) (StableHlo.after (S2 (F := Ideal)) (StableHlo.after (S1 (F := Ideal)) (StableHlo.after (S0 (F := Ideal)) W))))) main_arg4 (by decide)).trans k4_main_arg4
  have k5_main_arg5 := (keep_S4b (StableHlo.after (S4a (F := Ideal)) (StableHlo.after (S3 (F := Ideal)) (StableHlo.after (S2 (F := Ideal)) (StableHlo.after (S1 (F := Ideal)) (StableHlo.after (S0 (F := Ideal)) W))))) main_arg5 (by decide)).trans k4_main_arg5
  have k5_main_arg6 := (keep_S4b (StableHlo.after (S4a (F := Ideal)) (StableHlo.after (S3 (F := Ideal)) (StableHlo.after (S2 (F := Ideal)) (StableHlo.after (S1 (F := Ideal)) (StableHlo.after (S0 (F := Ideal)) W))))) main_arg6 (by decide)).trans k4_main_arg6
  have k5_main_arg7 := (keep_S4b (StableHlo.after (S4a (F := Ideal)) (StableHlo.after (S3 (F := Ideal)) (StableHlo.after (S2 (F := Ideal)) (StableHlo.after (S1 (F := Ideal)) (StableHlo.after (S0 (F := Ideal)) W))))) main_arg7 (by decide)).trans k4_main_arg7
  have k5_main_arg8 := (keep_S4b (StableHlo.after (S4a (F := Ideal)) (StableHlo.after (S3 (F := Ideal)) (StableHlo.after (S2 (F := Ideal)) (StableHlo.after (S1 (F := Ideal)) (StableHlo.after (S0 (F := Ideal)) W))))) main_arg8 (by decide)).trans k4_main_arg8
  have k5_main_arg9 := (keep_S4b (StableHlo.after (S4a (F := Ideal)) (StableHlo.after (S3 (F := Ideal)) (StableHlo.after (S2 (F := Ideal)) (StableHlo.after (S1 (F := Ideal)) (StableHlo.after (S0 (F := Ideal)) W))))) main_arg9 (by decide)).trans k4_main_arg9
  have k5_main_arg10 := (keep_S4b (StableHlo.after (S4a (F := Ideal)) (StableHlo.after (S3 (F := Ideal)) (StableHlo.after (S2 (F := Ideal)) (StableHlo.after (S1 (F := Ideal)) (StableHlo.after (S0 (F := Ideal)) W))))) main_arg10 (by decide)).trans k4_main_arg10
  have k5_main_arg11 := (keep_S4b (StableHlo.after (S4a (F := Ideal)) (StableHlo.after (S3 (F := Ideal)) (StableHlo.after (S2 (F := Ideal)) (StableHlo.after (S1 (F := Ideal)) (StableHlo.after (S0 (F := Ideal)) W))))) main_arg11 (by decide)).trans k4_main_arg11
  have f5_main_v14 := S4b_main_v14 (StableHlo.after (S4a (F := Ideal)) (StableHlo.after (S3 (F := Ideal)) (StableHlo.after (S2 (F := Ideal)) (StableHlo.after (S1 (F := Ideal)) (StableHlo.after (S0 (F := Ideal)) W))))) (W (Proc.devRef .tc main_arg1)) f4_main_v10
  have k6_main_arg0 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg0 (by decide)).trans k5_main_arg0
  have k6_main_arg2 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg2 (by decide)).trans k5_main_arg2
  have k6_main_v3 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_v3 (by decide)).trans k5_main_v3
  have k6_main_v6 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_v6 (by decide)).trans k5_main_v6
  have k6_main_arg3 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg3 (by decide)).trans k5_main_arg3
  have k6_main_arg4 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg4 (by decide)).trans k5_main_arg4
  have k6_main_arg5 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg5 (by decide)).trans k5_main_arg5
  have k6_main_arg6 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg6 (by decide)).trans k5_main_arg6
  have k6_main_arg7 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg7 (by decide)).trans k5_main_arg7
  have k6_main_arg8 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg8 (by decide)).trans k5_main_arg8
  have k6_main_arg9 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg9 (by decide)).trans k5_main_arg9
  have k6_main_arg10 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg10 (by decide)).trans k5_main_arg10
  have k6_main_arg11 := (keep_S4c (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) main_arg11 (by decide)).trans k5_main_arg11
  have f6_main_v29 := S4c_main_v29 (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))) (W (Proc.devRef .tc main_arg1)) f5_main_v14 k5_main_v3 k5_main_v6
  have k7_main_arg4 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg4 (by decide)).trans k6_main_arg4
  have k7_main_arg5 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg5 (by decide)).trans k6_main_arg5
  have k7_main_arg6 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg6 (by decide)).trans k6_main_arg6
  have k7_main_v29 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_v29 (by decide)).trans f6_main_v29
  have k7_main_v3 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_v3 (by decide)).trans k6_main_v3
  have k7_main_v6 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_v6 (by decide)).trans k6_main_v6
  have k7_main_arg7 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg7 (by decide)).trans k6_main_arg7
  have k7_main_arg8 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg8 (by decide)).trans k6_main_arg8
  have k7_main_arg9 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg9 (by decide)).trans k6_main_arg9
  have k7_main_arg10 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg10 (by decide)).trans k6_main_arg10
  have k7_main_arg11 := (keep_S5 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) main_arg11 (by decide)).trans k6_main_arg11
  have f7_main_v46 := S5_main_v46 (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))) (W (Proc.devRef .tc main_arg0)) (W (Proc.devRef .tc main_arg1)) (W (Proc.devRef .tc main_arg2)) (W (Proc.devRef .tc main_arg3)) k6_main_v6 f6_main_v29 k6_main_arg0 k6_main_arg2 k6_main_v3 k6_main_arg3
  have k8_main_arg6 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg6 (by decide)).trans k7_main_arg6
  have k8_main_v29 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_v29 (by decide)).trans k7_main_v29
  have k8_main_v3 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_v3 (by decide)).trans k7_main_v3
  have k8_main_v6 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_v6 (by decide)).trans k7_main_v6
  have k8_main_arg7 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg7 (by decide)).trans k7_main_arg7
  have k8_main_arg8 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg8 (by decide)).trans k7_main_arg8
  have k8_main_arg9 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg9 (by decide)).trans k7_main_arg9
  have k8_main_arg10 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg10 (by decide)).trans k7_main_arg10
  have k8_main_arg11 := (keep_S6 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) main_arg11 (by decide)).trans k7_main_arg11
  have f8_main_v72 := S6_main_v72 (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))) (W (Proc.devRef .tc main_arg0)) (W (Proc.devRef .tc main_arg1)) (W (Proc.devRef .tc main_arg2)) (W (Proc.devRef .tc main_arg3)) (W (Proc.devRef .tc main_arg4)) (W (Proc.devRef .tc main_arg5)) f7_main_v46 k7_main_arg4 k7_main_arg5
  have k9_main_arg8 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_arg8 (by decide)).trans k8_main_arg8
  have k9_main_arg9 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_arg9 (by decide)).trans k8_main_arg9
  have k9_main_arg10 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_arg10 (by decide)).trans k8_main_arg10
  have k9_main_v29 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_v29 (by decide)).trans k8_main_v29
  have k9_main_v3 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_v3 (by decide)).trans k8_main_v3
  have k9_main_v6 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_v6 (by decide)).trans k8_main_v6
  have k9_main_arg11 := (keep_S7 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) main_arg11 (by decide)).trans k8_main_arg11
  have f9_main_v89 := S7_main_v89 (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) k8_main_v6 k8_main_v29 f8_main_v72 k8_main_arg6 k8_main_v3 k8_main_arg7
  have k10_main_arg10 := (keep_S8 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) main_arg10 (by decide)).trans k9_main_arg10
  have k10_main_v29 := (keep_S8 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) main_v29 (by decide)).trans k9_main_v29
  have k10_main_v3 := (keep_S8 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) main_v3 (by decide)).trans k9_main_v3
  have k10_main_v6 := (keep_S8 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) main_v6 (by decide)).trans k9_main_v6
  have k10_main_arg11 := (keep_S8 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) main_arg11 (by decide)).trans k9_main_arg11
  have f10_main_v115 := S8_main_v115 (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) f9_main_v89 k9_main_arg8 k9_main_arg9
  have f11_main_v132 := S9_main_v132 (StableHlo.after (S8 (F := Ideal)) (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W))))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) k10_main_v6 k10_main_v29 f10_main_v115 k10_main_arg10 k10_main_v3 k10_main_arg11
  have f12_main_v133 := S10_main_v133 (StableHlo.after (S9 (F := Ideal)) (StableHlo.after (S8 (F := Ideal)) (StableHlo.after (S7 (F := Ideal)) (StableHlo.after (S6 (F := Ideal)) (StableHlo.after (S5 (F := Ideal)) (StableHlo.after (S4c (F := Ideal)) (StableHlo.after (S4b (F := Ideal)) (StableHlo.after (S4a (F := Ideal)) (StableHlo.after (S3 (F := Ideal)) (StableHlo.after (S2 (F := Ideal)) (StableHlo.after (S1 (F := Ideal)) (StableHlo.after (S0 (F := Ideal)) W)))))))))))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) f11_main_v132
  exact f12_main_v133

/-- On every device, from any memory with zero counters: every weakly fair execution of @main terminates with the
    result at the reading module's last stage of the arguments and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = ReadP.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v133).trans (ref_after (launchContents m c)),
      (h c main_arg0).trans (ops_keep (launchContents m c) main_arg0 (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide) (by decide) (by decide)),
      (h c main_arg11).trans (ops_keep (launchContents m c) main_arg11 (by decide) (by decide) (by decide) (by decide) (by decide) (by decide) (by decide) (by decide) (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.RunH

namespace Cert.GcnRef

open Cert.ReferenceIdeal Cert.ReferenceIdeal.Gen Idealize.ShloMosaic Idealize.ShloMosaic.TcCoe Idealize.SL.Sem Idealize.ShloMosaic.StableHlo

/-- The run of the reference program, under the name the certificate cites. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = ReadP.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.RunH.ref_run m ρ

end Cert.GcnRef

end
-- ==== Proof.lean ====
/-
  The certificate of a three-layer graph convolution: a kernel of six launches among host gathers and scatter-adds,
  against its plain reference.

  Both programs build, from the edge table, the same weighted graph: one self-loop per node is appended, the in-degrees
  are counted, and an edge's weight is the product of `1/√degree` at its two ends. A layer aggregates a node table over
  that graph — the weighted source rows added at the target rows — around a projection; the first two layers add a
  bias row, normalise every column over the 50000 rows, scale, shift and rectify; the last ends in the row-wise
  log-softmax. The kernel differs from the reference in three ways, none of which changes the result on finite inputs:
  * it aggregates the input features before projecting them in the first layer — the aggregation is linear, and on
    real entries a finite sum over edges exchanges with the finite sum of a projection;
  * it takes a column's variance as the mean of the squares minus the square of the mean, clamped at zero (twice) —
    for a real column that is the mean of the squared deviations, which is nonnegative;
  * it rounds to a 16-bit format on the way into every product and out of two of them — the identity on the extended reals.
  The statistics are accumulated over 25 row blocks; a sum of extended reals may be regrouped block by block.

  The modules: the specification (GcnNet), the law joining its two arrangements (GcnLaw), the precondition read as
  "every float entry is a real" (GcnPre); the kernel's bodies at an entry (KerPay), each launch's arrays (KerR0–KerR5),
  the host stretches between them (KerHost), the run folded to one function (KernelRun, KerOut, KerChain) and that
  function as the specification (KerSpecA, KerSpecB); the reference read stage by stage as the specification
  (RefNet…), its run (RefRun), the two graphs compared (GraphEq), the value equation (NetEq); the claims below.
-/
import proofs.«127233_j26182120636977_2_alg».proof.Defs
import proofs.«127233_j26182120636977_2_alg».proof.Proof.Gen.Kernel
import proofs.«127233_j26182120636977_2_alg».proof.Proof.Gen.Kernel.Frame
import proofs.«127233_j26182120636977_2_alg».proof.Proof.Gen.KernelIdeal
import proofs.«127233_j26182120636977_2_alg».proof.Proof.Gen.KernelIdeal.Frame
import proofs.«127233_j26182120636977_2_alg».proof.Proof.Gen.ReferenceIdeal
import proofs.«127233_j26182120636977_2_alg».proof.Proof.Gen.Pre_finite_inputs
import proofs.«127233_j26182120636977_2_alg».proof.Proof.KernelRun
import proofs.«127233_j26182120636977_2_alg».proof.Proof.KerChain
import proofs.«127233_j26182120636977_2_alg».proof.Proof.NetEq
import proofs.«127233_j26182120636977_2_alg».proof.Proof.RefRun
import Idealize.ShloMosaic.Adequacy
import Idealize.ShloMosaic.Init

noncomputable section

namespace Cert.Proof

open Idealize.ShloMosaic Idealize.SL.Sem

/-- The word-level kernel runs and leaves its arguments as launched: the generated frame. -/
theorem frame_k : Cert.frame_Kernel := fun m ρ _ => Cert.Kernel.Gen.frame m ρ

/-- The idealized kernel runs and leaves its arguments as launched: the generated frame. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.GcnRef.ref_run m ρ)

/-- The idealization rewrote nothing. -/
theorem preserves : Cert.preserves_Kernel_KernelIdeal := trivial

/-- From memories that agree on the arguments both programs end with the same result array: the kernel's run folded
    to one function of its arguments, the reference's run read as the specification, and the value equation. -/
theorem algebraic : Cert.algebraic_KernelIdeal_ReferenceIdeal := by
  intro m ρ m' ρ' hpre hagree
  refine ⟨fun c => Cert.KernelIdeal.Out.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨((h c).1).trans (Cert.KernelIdeal.Out.ker_run_value m ρ c), (h c).2⟩) (Cert.KernelIdeal.Out.run_out m ρ)
  · refine (θ_run Cert.ReferenceIdeal.defs _ _).mono (fun r h c => ⟨((h c).1).trans ?_, (h c).2⟩) (Cert.GcnRef.ref_run m' ρ')
    obtain ⟨a0, a1, a2, a3, a4, a5, a6, a7, a8, a9, a10, a11⟩ := hagree c
    rw [a0, a1, a2, a3, a4, a5, a6, a7, a8, a9, a10, a11]
    exact Cert.GcnEq.value_eq _ _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
